-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.sign_bit.Statement Cert.KernelIdeal.S1024x1024 .f32
  ∧ IdealRules.sign_bit.Statement Cert.KernelIdeal.S2048x1024 .f32
  ∧ IdealRules.sign_bit.Statement Cert.KernelIdeal.S2048x1024 .f32
  ∧ IdealRules.sign_bit.Statement Cert.KernelIdeal.S2048x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096x4096 .f32) (main_arg8 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S4096 .f32) (main_arg5 : FVec F S4096x4096 .f32) (main_arg6 : FVec F S4096 .f32) (main_arg7 : FVec F S4096x4096 .f32) (main_arg8 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) (main_arg5 : FVec F S4096x4096 .f32) (main_arg6 : FVec F S4096 .f32) (main_arg7 : FVec F S4096x4096 .f32) (main_arg8 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x1024 : Shape := ⟨2, ![1024, 1024]⟩
abbrev S1x1024 : Shape := ⟨2, ![1, 1024]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 48
  | .vmem => 36
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S8192x4096, .bf16⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S1x4096, .f32⟩
  | .hbm, ⟨27, _⟩ => ⟨S8192x4096, .bf16⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .bf16⟩
  | .hbm, ⟨36, _⟩ => ⟨S1x4096, .f32⟩
  | .hbm, ⟨37, _⟩ => ⟨S8192x4096, .bf16⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .i1⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .bf16⟩
  | .hbm, ⟨46, _⟩ => ⟨S1x4096, .f32⟩
  | .hbm, ⟨47, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S2048x512, .bf16⟩
  | .local _ .vmem, ⟨10, _⟩ => ⟨S2048x512, .bf16⟩
  | .local _ .vmem, ⟨11, _⟩ => ⟨S1024x512, .bf16⟩
  | .local _ .vmem, ⟨12, _⟩ => ⟨S1024x512, .bf16⟩
  | .local _ .vmem, ⟨13, _⟩ => ⟨S1x1024, .f32⟩
  | .local _ .vmem, ⟨14, _⟩ => ⟨S1x1024, .f32⟩
  | .local _ .vmem, ⟨15, _⟩ => ⟨S2048x1024, .bf16⟩
  | .local _ .vmem, ⟨16, _⟩ => ⟨S2048x1024, .bf16⟩
  | .local _ .vmem, ⟨17, _⟩ => ⟨S2048x1024, .f32⟩
  | .local _ .vmem, ⟨18, _⟩ => ⟨S2048x512, .bf16⟩
  | .local _ .vmem, ⟨19, _⟩ => ⟨S2048x512, .bf16⟩
  | .local _ .vmem, ⟨20, _⟩ => ⟨S1024x512, .bf16⟩
  | .local _ .vmem, ⟨21, _⟩ => ⟨S1024x512, .bf16⟩
  | .local _ .vmem, ⟨22, _⟩ => ⟨S1x1024, .f32⟩
  | .local _ .vmem, ⟨23, _⟩ => ⟨S1x1024, .f32⟩
  | .local _ .vmem, ⟨24, _⟩ => ⟨S2048x1024, .bf16⟩
  | .local _ .vmem, ⟨25, _⟩ => ⟨S2048x1024, .bf16⟩
  | .local _ .vmem, ⟨26, _⟩ => ⟨S2048x1024, .f32⟩
  | .local _ .vmem, ⟨27, _⟩ => ⟨S2048x512, .bf16⟩
  | .local _ .vmem, ⟨28, _⟩ => ⟨S2048x512, .bf16⟩
  | .local _ .vmem, ⟨29, _⟩ => ⟨S1024x512, .bf16⟩
  | .local _ .vmem, ⟨30, _⟩ => ⟨S1024x512, .bf16⟩
  | .local _ .vmem, ⟨31, _⟩ => ⟨S1x1024, .f32⟩
  | .local _ .vmem, ⟨32, _⟩ => ⟨S1x1024, .f32⟩
  | .local _ .vmem, ⟨33, _⟩ => ⟨S2048x1024, .f32⟩
  | .local _ .vmem, ⟨34, _⟩ => ⟨S2048x1024, .f32⟩
  | .local _ .vmem, ⟨35, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [BitOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 4, 8], ![false, false, false]⟩

def k3_cond2 (i : grid3.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S2048x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  bcast_S_S4096x4096 : S_.BroadcastsInDim S4096x4096 (![] : Fin 0 → Fin S4096x4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  dot_S1024x1024_S1024x1024_S1024x1024_1_1_0_0_n_n_wf : DotDims.WF S1024x1024 S1024x1024 S1024x1024 [1] [1] [0] [0] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .bf16 = 32 ∨ (Rect.block (s := S8192x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .bf16 = 32 ∨ (Rect.block (s := S8192x4096) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .bf16 = 32 ∨ (Rect.block (s := S8192x4096) S2048x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x4096.size a
  hwx2_0 : ∀ i : grid2.Coords, EltTy.bits .bf16 = 32 ∨ (Rect.block (s := S8192x4096) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x4096.size a
  hwx2_1 : ∀ i : grid2.Coords, EltTy.bits .bf16 = 32 ∨ (Rect.block (s := S4096x4096) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S8192x4096.size a
  hwx2_3 : ∀ i : grid2.Coords, EltTy.bits .bf16 = 32 ∨ (Rect.block (s := S8192x4096) S2048x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S8192x4096.size a
  hwx3_0 : ∀ i : grid3.Coords, EltTy.bits .bf16 = 32 ∨ (Rect.block (s := S8192x4096) S2048x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S4096x4096.size a
  hwx3_1 : ∀ i : grid3.Coords, EltTy.bits .bf16 = 32 ∨ (Rect.block (s := S4096x4096) S1024x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x1024.size a ≤ S8192x4096.size a
  hwx3_3 : ∀ i : grid3.Coords, EltTy.bits .f32 = 32 ∨ (Rect.block (s := S8192x4096) S2048x1024.size (cc3_transform_3 i) (hinb3_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v6) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v14) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v22) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S2048x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 85
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .i1⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .i1⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .i1⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S8192x4096, .f32⟩
  | .hbm, ⟨56, _⟩ => ⟨S1x4096, .f32⟩
  | .hbm, ⟨57, _⟩ => ⟨S8192x4096, .f32⟩
  | .hbm, ⟨58, _⟩ => ⟨S8192x4096, .f32⟩
  | .hbm, ⟨59, _⟩ => ⟨S8192x4096, .f32⟩
  | .hbm, ⟨60, _⟩ => ⟨S_, .f32⟩
  | .hbm, ⟨61, _⟩ => ⟨S8192x4096, .f32⟩
  | .hbm, ⟨62, _⟩ => ⟨S8192x4096, .i1⟩
  | .hbm, ⟨63, _⟩ => ⟨S_, .f32⟩
  | .hbm, ⟨64, _⟩ => ⟨S8192x4096, .f32⟩
  | .hbm, ⟨65, _⟩ => ⟨S8192x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .i1⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S8192x4096, .f32⟩
  | .hbm, ⟨75, _⟩ => ⟨S1x4096, .f32⟩
  | .hbm, ⟨76, _⟩ => ⟨S8192x4096, .f32⟩
  | .hbm, ⟨77, _⟩ => ⟨S8192x4096, .f32⟩
  | .hbm, ⟨78, _⟩ => ⟨S8192x4096, .f32⟩
  | .hbm, ⟨79, _⟩ => ⟨S_, .f32⟩
  | .hbm, ⟨80, _⟩ => ⟨S8192x4096, .f32⟩
  | .hbm, ⟨81, _⟩ => ⟨S8192x4096, .i1⟩
  | .hbm, ⟨82, _⟩ => ⟨S_, .f32⟩
  | .hbm, ⟨83, _⟩ => ⟨S8192x4096, .f32⟩
  | .hbm, ⟨84, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_cst_14 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.SignNet.lean ====
/-
  The function both programs compute, over the extended reals.

  A layer takes activations `x : [m, k]`, weights `W : [n, k]` and a bias `b : [n]`.  The weights are first replaced by
  their signs, zero counted as positive (`pm`); the pre-activation at `(r, j)` is the inner product of row `r` of
  `x` with row `j` of the binarized weights, plus `b j`; the layer's output is `pm` of the pre-activation.  The
  network is four such layers, the first on the input, each next one on the output of the one before.

  Nothing here depends on how a program tiles the product or in which order it adds: the inner product is ONE sum
  over the contracted axis.
-/
import Idealize.ShloMosaic.PureOps.Ideal
import Idealize.ShloMosaic.Lib.ValueIdx

noncomputable section

open scoped BigOperators

namespace Cert.SignNet

open Idealize.ShloMosaic Idealize.ShloMosaic.ValueIdx

/-- A matrix of extended reals with `a` rows and `b` columns, as a function of its rank-2 index. -/
abbrev Mat (a b : Nat) : Type := (⟨2, ![a, b]⟩ : Shape).Idx → EReal
/-- A vector of extended reals of length `a`, as a function of its rank-1 index. -/
abbrev Row (a : Nat) : Type := (⟨1, ![a]⟩ : Shape).Idx → EReal

/-- The sign with zero counted as positive: `-1` below zero, `+1` from zero up (`-∞ ↦ -1`, `+∞ ↦ +1`). -/
def pm (y : EReal) : EReal := if y < 0 then -1 else 1

/-- Row `r` of `x` against row `j` of `w`: the sum over the shared axis of the products. -/
def inner {m n k : Nat} (x : Mat m k) (w : Mat n k) (r : Fin m) (j : Fin n) : EReal :=
  ∑ q : Fin k, x (ix2 r q) * w (ix2 j q)

/-- One layer: binarize the weights, take every row of `x` against every row of the binarized weights, add the
    bias of the column, and binarize the result. -/
def layer {m n k : Nat} (x : Mat m k) (W : Mat n k) (b : Row n) : Mat m n :=
  fun i => pm (inner x (fun p => pm (W p)) (i 0) (i 1) + b (ix1 (i 1)))

/-- The four layers in sequence. -/
def net (x : Mat 8192 4096) (W0 : Mat 4096 4096) (b0 : Row 4096) (W1 : Mat 4096 4096) (b1 : Row 4096)
    (W2 : Mat 4096 4096) (b2 : Row 4096) (W3 : Mat 4096 4096) (b3 : Row 4096) : Mat 8192 4096 :=
  layer (layer (layer (layer x W0 b0) W1 b1) W2 b2) W3 b3

end Cert.SignNet

end
-- ==== Proof.PmLaws.lean ====
/-
  The sign with zero counted as positive, against the float sign followed by the replacement of zero by one.

  Both programs binarize a number in two steps: take its sign, which is `-1`, `0` or `1` by the order (the
  infinities go to `-1` and `1`), and then replace a result that is exactly zero by one.  On every extended real
  the two steps together are `pm`: below zero the sign is `-1` and is kept; above zero it is `1` and is kept; at
  zero it is `0` and is replaced by `1`.  The values of `pm` are `-1` and `1`, so it is never zero.
-/
import proofs.«143296_j88201448391445_2_alg».proof.Proof.SignNet
import Idealize.ShloMosaic.PureOps.Ideal.Laws

noncomputable section

namespace Cert.SignNet

open Idealize.ShloMosaic

/-- Below zero `pm` is `-1`. -/
theorem pm_of_neg {y : EReal} (h : y < 0) : pm y = -1 := if_pos h

/-- From zero up `pm` is `1`. -/
theorem pm_of_nonneg {y : EReal} (h : 0 ≤ y) : pm y = 1 := if_neg (not_lt.mpr h)

/-- `pm` takes the two values `-1` and `1` only. -/
theorem pm_eq_neg_one_or_one (y : EReal) : pm y = -1 ∨ pm y = 1 := by
  by_cases h : y < 0
  · exact Or.inl (pm_of_neg h)
  · exact Or.inr (pm_of_nonneg (not_lt.mp h))

/-- `pm` is never zero. -/
theorem pm_ne_zero (y : EReal) : pm y ≠ 0 := by
  rcases pm_eq_neg_one_or_one y with h | h <;> rw [h] <;> simp

/-- The float sign of `y` with a zero result replaced by one is `pm y`, on every extended real: the sign is `-1`
    below zero, `1` above it and `0` at zero, and only the last is replaced. -/
theorem sign_zero_to_one_eq_pm (y : EReal) : (if Ideal.sign y = 0 then 1 else Ideal.sign y) = pm y := by
  by_cases hlt : y < 0
  · rw [Ideal.sign_of_neg hlt, pm_of_neg hlt, if_neg (by simp)]
  · by_cases hgt : 0 < y
    · rw [Ideal.sign_of_pos hgt, pm_of_nonneg hgt.le, if_neg one_ne_zero]
    · have h0 : y = 0 := le_antisymm (not_lt.mp hgt) (not_lt.mp hlt)
      rw [h0, Ideal.sign_zero, pm_of_nonneg le_rfl, if_pos rfl]

/-- The same law as the programs spell it at one element: the comparison of the sign with the zero word decides the
    select between the one word and the sign.  The zero word denotes `0` and the one word `1`. -/
theorem select_sign_eq_pm (y : Ideal .f32) :
    Scalar.select (FloatOps.cmpf .oeq (FloatOps.hostUnary .sign y) (FloatOps.ofBits (F := Ideal) .f32 0x00000000#32))
        (FloatOps.ofBits (F := Ideal) .f32 0x3F800000#32) (FloatOps.hostUnary .sign y)
      = pm y := by
  rw [Ideal.cmpf_def, Ideal.hostUnary_sign_def, Ideal.ofBits_def, Ideal.ofBits_def, Ideal.ofBits_zero_f32,
    show Ideal.ofBits .f32 0x3F800000#32 = 1 from IdealRules.sign_bit.ideal_onePat .f32]
  rw [← sign_zero_to_one_eq_pm y]
  unfold Scalar.select Ideal.cmp
  by_cases h : Ideal.sign y = 0
  · simp [h]
  · simp [h]

end Cert.SignNet

end
-- ==== Proof.RefIsNet.lean ====
/-
  The reference program computes the four-layer sign network.

  The reference binarizes a layer's weights (the sign, then zero replaced by one), transposes them, contracts the
  activations' second axis with the transposed weights' first, adds the bias broadcast along the rows, and binarizes
  the sum the same way.  Read at an output index `(r, j)`: the transposed binarized weights at `(q, j)` are `pm` of
  the weights at `(j, q)`, so the contraction is the inner product of row `r` of the activations with row `j` of the
  binarized weights; the bias term is `b j`; and the closing sign-and-replace is `pm` (the scalar law of the
  module on `pm`).  That is `layer`.  The program's four layers are the same operations applied to the previous
  layer's result, so the whole program is `net`.
-/
import proofs.«143296_j88201448391445_2_alg».proof.Proof.PmLaws
import proofs.«143296_j88201448391445_2_alg».proof.Proof.Gen.ReferenceIdeal.Read

noncomputable section

open scoped BigOperators

namespace Cert.RefIsNet

open Cert.ReferenceIdeal Cert.ReferenceIdeal.Gen Cert.ReferenceIdeal.Read Cert.SignNet
open Idealize.ShloMosaic Idealize.ShloMosaic.TcCoe Idealize.SL.Sem Idealize.ShloMosaic.StableHlo Idealize.ShloMosaic.ValueIdx

/-! ## One layer -/

/-- The binarized weights at an index: the sign of the weight there with zero replaced by one, which is `pm`. -/
theorem weights_apply (W : Mat 4096 4096) (p : S4096x4096.Idx) : val_main_v4 (F := Ideal) W p = pm (W p) := by
  rw [val_main_v4_apply, val_main_v2_apply, val_main_v0_apply, val_main_v1_apply, val_main_v3_apply,
    val_main_cst_apply, val_main_cst_0_apply]
  exact select_sign_eq_pm (W p)

/-- The first layer's operations, on any activations, weights and bias, are `layer`. -/
theorem layer_eq (X : Mat 8192 4096) (W : Mat 4096 4096) (b : Row 4096) :
    val_main_v14 (F := Ideal) X W b = layer X W b := by
  funext i
  rw [val_main_v14_apply, val_main_v12_apply, val_main_v10_apply, val_main_v11_apply, val_main_v13_apply,
    val_main_cst_1_apply, val_main_cst_2_apply, select_sign_eq_pm]
  unfold layer
  refine congrArg pm ?_
  rw [val_main_v9_apply, val_main_v6_apply, val_main_v8_apply, val_main_v7_apply, Ideal.addf_def]
  have hb : idx_main_v7 (idx_main_v8 i) = ix1 (i 1) := funext fun a => Fin.ext (by match a with | ⟨0, _⟩ => rfl)
  rw [hb]
  unfold Cert.SignNet.inner
  refine congrArg (· + b (ix1 (i 1))) (Finset.sum_congr rfl fun k _ => ?_)
  have hl : lidx_main_v6 i k = ix2 (i 0) k :=
    funext fun a => Fin.ext (by match a with | ⟨0, _⟩ => rfl | ⟨1, _⟩ => rfl)
  have hr : idx_main_v5 (ridx_main_v6 i k) = ix2 (i 1) k :=
    funext fun a => Fin.ext (by match a with | ⟨0, _⟩ => rfl | ⟨1, _⟩ => rfl)
  rw [val_main_v5_apply, weights_apply, hl, hr]
  rfl

/-! ## The four layers

Each later layer applies the first layer's operations to the result of the layer before it. -/

/-- The second layer's result is the first layer's operations on the first layer's result. -/
theorem second_eq (x : Mat 8192 4096) (W0 : Mat 4096 4096) (b0 : Row 4096) (W1 : Mat 4096 4096) (b1 : Row 4096) :
    val_main_v29 (F := Ideal) x W0 b0 W1 b1 = val_main_v14 (F := Ideal) (val_main_v14 (F := Ideal) x W0 b0) W1 b1 := rfl

/-- The third layer's result likewise, on the second's. -/
theorem third_eq (x : Mat 8192 4096) (W0 : Mat 4096 4096) (b0 : Row 4096) (W1 : Mat 4096 4096) (b1 : Row 4096)
    (W2 : Mat 4096 4096) (b2 : Row 4096) :
    val_main_v44 (F := Ideal) x W0 b0 W1 b1 W2 b2
      = val_main_v14 (F := Ideal) (val_main_v29 (F := Ideal) x W0 b0 W1 b1) W2 b2 := rfl

/-- The fourth layer's result likewise, on the third's. -/
theorem fourth_eq (x : Mat 8192 4096) (W0 : Mat 4096 4096) (b0 : Row 4096) (W1 : Mat 4096 4096) (b1 : Row 4096)
    (W2 : Mat 4096 4096) (b2 : Row 4096) (W3 : Mat 4096 4096) (b3 : Row 4096) :
    val_main_v59 (F := Ideal) x W0 b0 W1 b1 W2 b2 W3 b3
      = val_main_v14 (F := Ideal) (val_main_v44 (F := Ideal) x W0 b0 W1 b1 W2 b2) W3 b3 := rfl

/-- The reference's result, as a function of its nine argument arrays, is the four-layer network. -/
theorem ref_is_net (x : Mat 8192 4096) (W0 : Mat 4096 4096) (b0 : Row 4096) (W1 : Mat 4096 4096) (b1 : Row 4096)
    (W2 : Mat 4096 4096) (b2 : Row 4096) (W3 : Mat 4096 4096) (b3 : Row 4096) :
    val_main_v59 (F := Ideal) x W0 b0 W1 b1 W2 b2 W3 b3 = net x W0 b0 W1 b1 W2 b2 W3 b3 := by
  rw [fourth_eq, third_eq, second_eq, layer_eq, layer_eq, layer_eq, layer_eq]
  rfl

/-! ## The reference's run -/

/-- On every device, from any memory with zero counters, every weakly fair execution of the reference terminates
    with its result array holding the four-layer network of the nine argument arrays as they were at the start,
    and with the nine argument arrays unchanged. -/
theorem ref_run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v59)
        = net (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run Cert.ReferenceIdeal.defs _ _).mono
    (fun _ h c => ⟨(h c).1.trans ((val_main_v59_eq m c).trans (ref_is_net _ _ _ _ _ _ _ _ _)), (h c).2⟩)
    (Cert.ReferenceIdeal.Value.run (F := Ideal) m ρ)

end Cert.RefIsNet

end
-- ==== Proof.WAcc0Cases.lean ====
/-
  Layer 1's kernel walks a grid of (row block, column block, k block) with k innermost, 4 k blocks per
  output block.  Its body resets the accumulator when k = 0, adds the block product at every k, and when
  k = 3 adds the bias, binarizes and stores the output block.  Here: the two branch conditions as facts about the
  point's number (k is the number modulo 4), where the output window is written and where it is left alone, the
  staging buffers the body is handed at a point, and the accumulator's place in the region's invariant.
-/
import proofs.«143296_j88201448391445_2_alg».proof.Proof.Gen.Kernel.Launch
import proofs.«143296_j88201448391445_2_alg».proof.Proof.Gen.Kernel.Skeleton
import proofs.«143296_j88201448391445_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The branch conditions -/

/-- "k = 0" as the body computes it from the grid coordinates. -/
abbrev isFirst0 (i : grid0.Coords) : Prop :=
  (Scalar.cmpi .ne (Scalar.extui (Scalar.cmpi .eq (BitVec.ofNat 32 (i 2).val) 0#32)) 0#32) = 1#1
/-- It holds exactly at the points whose number is 0 modulo 4. -/
theorem isFirst0_iff : ∀ t : Fin cfg0.N, isFirst0 (grid0.coords t) ↔ t.val % 4 = 0 :=
  (by decide +kernel : ∀ t : Fin grid0.N, isFirst0 (grid0.coords t) ↔ t.val % 4 = 0)

/-- "k is the last k block" as the body computes it. -/
abbrev isLast0 (i : grid0.Coords) : Prop := k0_cond2 i = 1#1
/-- It holds exactly at the points whose number is 3 modulo 4. -/
theorem isLast0_iff : ∀ t : Fin cfg0.N, isLast0 (grid0.coords t) ↔ t.val % 4 = 3 :=
  (by decide +kernel : ∀ t : Fin grid0.N, isLast0 (grid0.coords t) ↔ t.val % 4 = 3)

/-! ## Where the windows are written -/

/-- The three input windows are read at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Before the last k block nothing is stored into the output block, -/
theorem idle0_out : ∀ t : Fin cfg0.N, ¬isLast0 (grid0.coords t) → cfg0.idle 3 (grid0.coords t) = true := by decide +kernel
/-- and it is not written back there; -/
theorem noFlush0_out : ∀ t : Fin cfg0.N, ¬isLast0 (grid0.coords t) → (cfg0.win 3).flush t = false := by decide +kernel
/-- at the last k block it is stored. -/
theorem live0_out : ∀ t : Fin cfg0.N, isLast0 (grid0.coords t) → cfg0.idle 3 (grid0.coords t) = false := by decide +kernel

/-! ## The buffers the body is handed -/

abbrev stgX0 (t : Fin cfg0.N) : Memref sig .tc .vmem S1024x1024 .f32 := win0_0.stage (cfg0.slots t 0)
abbrev hstgX0 (t : Fin cfg0.N) : (stgX0 t).IsWhole := hstage0_0 ((cfg0.slots t 0).cast nbuf0_0)
abbrev stgW0 (t : Fin cfg0.N) : Memref sig .tc .vmem S1024x1024 .f32 := win0_1.stage (cfg0.slots t 1)
abbrev hstgW0 (t : Fin cfg0.N) : (stgW0 t).IsWhole := hstage0_1 ((cfg0.slots t 1).cast nbuf0_1)
abbrev stgB0 (t : Fin cfg0.N) : Memref sig .tc .vmem S1x1024 .f32 := win0_2.stage (cfg0.slots t 2)
abbrev hstgB0 (t : Fin cfg0.N) : (stgB0 t).IsWhole := hstage0_2 ((cfg0.slots t 2).cast nbuf0_2)
abbrev stgO0 (t : Fin cfg0.N) : Memref sig .tc .vmem S1024x1024 .bf16 := win0_3.stage (cfg0.slots t 3)
abbrev hstgO0 (t : Fin cfg0.N) : (stgO0 t).IsWhole := hstage0_3 ((cfg0.slots t 3).cast nbuf0_3)
/-- The accumulator: a whole buffer of the kernel's own, carried from point to point. -/
abbrev accM0 : Memref sig .tc .vmem S1024x1024 .f32 := Memref.whole cc0_scratch0
/-- The views through which the accumulator's and the output block's contents are stated. -/
abbrev accV0 : View sig .tc .vmem S1024x1024 .f32 := accM0.view
abbrev outV0 : View sig .tc .vmem S1024x1024 .bf16 := (Memref.whole cc0_stg3_0 : Memref sig .tc .vmem S1024x1024 .bf16).view

/-- The region's invariant with the accumulator named: the accumulator whole at some contents, every other buffer
    of the region's own untouched, and the generator register at some state. -/
theorem PhiA0_split (c : Dev nD) :
    (Pipeline.ΦA spec0 c : sProp 𝕄)
      = iprop(iprop(iprop((∃ d, owns (c : Thread nD τ) accM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [accM0, owns_whole]; rfl

end Cert.Kernel.Acc

end
-- ==== Proof.WAcc0RunFirst.lean ====
/-
  Layer 1's kernel body run whole at one kind of grid point (k = 0).
-/
import proofs.«143296_j88201448391445_2_alg».proof.Proof.WAcc0Cases

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large)
set_option maxHeartbeats 1000000 in
/-- The body at a point with k = 0 (and k not last): on whole buffers — the three input blocks at their contents, the
    output block's buffer at contents it hands back untouched, the accumulator at anything — it runs to the
    continuation with the inputs and the output buffer as they were and the accumulator holding what its two stores
    (the zeros, then zeros plus the block product) wrote: the list `LS` of stored pieces, last first, which the run
    finds. -/
noncomputable def runFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : isFirst0 i) (hc1 : ¬isLast0 i)
    (x : Vec F S1024x1024 .f32) (w : Vec F S1024x1024 .f32) (bb : Vec F S1x1024 .f32) :
    { LS : List (View.Piece (Elt F) S1024x1024 .f32) //
      ∀ (xo : Vec F S1024x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ (∃ d, owns (c : Thread nD τ) arg7 fullShare d)
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc0__layer_kernel_f32_highest i arg3 harg3 arg4 harg4 arg5 harg5 arg6 harg6 arg7 harg7) Kont } := by
  refine ⟨?_, fun xo E Kont => ?run⟩
  case run =>
    simp only [cc0__layer_kernel_f32_highest_eq_skeleton]; unfold cc0__layer_kernel_f32_highest_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Acc

end
-- ==== Proof.WAcc0RunMid.lean ====
/-
  Layer 1's kernel body run whole at one kind of grid point (0 < k < last).
-/
import proofs.«143296_j88201448391445_2_alg».proof.Proof.WAcc0RunFirst

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The body at a point with k neither 0 nor last: the accumulator enters at what the point before left (`xs`) and
    leaves holding its one store (`xs` plus the block product); everything else is handed back as it was. -/
noncomputable def runMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : ¬isLast0 i)
    (x : Vec F S1024x1024 .f32) (w : Vec F S1024x1024 .f32) (bb : Vec F S1x1024 .f32) (xs : Vec F S1024x1024 .f32) :
    { LS : List (View.Piece (Elt F) S1024x1024 .f32) //
      ∀ (xo : Vec F S1024x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ owns (c : Thread nD τ) arg7 fullShare xs
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc0__layer_kernel_f32_highest i arg3 harg3 arg4 harg4 arg5 harg5 arg6 harg6 arg7 harg7) Kont } := by
  refine ⟨?_, fun xo E Kont => ?run⟩
  case run =>
    simp only [cc0__layer_kernel_f32_highest_eq_skeleton]; unfold cc0__layer_kernel_f32_highest_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Acc

end
-- ==== Proof.WAcc0RunLast.lean ====
/-
  Layer 1's kernel body run whole at one kind of grid point (k last).
-/
import proofs.«143296_j88201448391445_2_alg».proof.Proof.WAcc0RunMid

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The body at a point with k last: the accumulator enters at what the point before left (`xs`), takes the last block
    product, and the output block's buffer (entered at anything) leaves holding the one store of the binarized sum
    plus bias: the two lists of stored pieces `LO` (output) and `LS` (accumulator) are what the run finds. -/
noncomputable def runLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i)
    (x : Vec F S1024x1024 .f32) (w : Vec F S1024x1024 .f32) (bb : Vec F S1x1024 .f32) (xs : Vec F S1024x1024 .f32) :
    Σ' (LO : List (View.Piece (Elt F) S1024x1024 .bf16)), { LS : List (View.Piece (Elt F) S1024x1024 .f32) //
      ∀ (E : Set ℕ) (Kont : PUnit → sProp 𝕄),
        iprop(owns (c : Thread nD τ) arg3 fullShare x ∗ owns (c : Thread nD τ) arg4 fullShare w ∗ owns (c : Thread nD τ) arg5 fullShare bb ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare bb ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ Kont ⟨⟩))
          ⊢ wp frame (wpE (defs₀ (F := F)) Variants.none c none) E (cc0__layer_kernel_f32_highest i arg3 harg3 arg4 harg4 arg5 harg5 arg6 harg6 arg7 harg7) Kont } := by
  refine ⟨?_, ?_, fun E Kont => ?run⟩
  case run =>
    simp only [cc0__layer_kernel_f32_highest_eq_skeleton]; unfold cc0__layer_kernel_f32_highest_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Acc

end
-- ==== Proof.WAcc0.lean ====
/-
  Layer 1's kernel region, at any contents `V` of the core's buffers when the region is entered.

  What the accumulator holds after each grid point is defined by recursion on the point's number: at a point with
  k = 0 it is what the body leaves there starting from anything, at every other point what the body leaves starting
  from what the point before left.  The output block's buffer matters only at the points with k last, where the body
  stores it whole.  From these the region's proof data: every input window's buffer holds its block at every point,
  the output window's buffer holds the stored block at the last k, and the region's invariant carries the accumulator
  at the recursion's value.
-/
import proofs.«143296_j88201448391445_2_alg».proof.Proof.WAcc0RunLast

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (a point that does not
    fetch it has the block index of the point before), for any proof data over `V` whose body leaves the block in
    place: the three input windows in turn. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the stores leave -/

/-- At k = 0 the two stores into the accumulator cover it. -/
theorem accCoverFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : isFirst0 i) (hc1 : ¬isLast0 i) (x : Vec F S1024x1024 .f32) (w : Vec F S1024x1024 .f32) (bb : Vec F S1x1024 .f32) (y : S1024x1024.Idx) :
    ∃ pc ∈ (runFirst0 c i arg3 harg3 arg4 harg4 arg5 harg5 arg6 harg6 arg7 harg7 hc0 hc1 x w bb).1, y ∈ pc.1.set :=
  View.cover_of_tiledL (runFirst0 c i arg3 harg3 arg4 harg4 arg5 harg5 arg6 harg6 arg7 harg7 hc0 hc1 x w bb).1 S1024x1024.size (by sl_kernel_rfl) y
/-- What the accumulator holds after a point with k = 0: the stored pieces read back. -/
def accFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : isFirst0 i) (hc1 : ¬isLast0 i) (x : Vec F S1024x1024 .f32) (w : Vec F S1024x1024 .f32) (bb : Vec F S1x1024 .f32) : Vec F S1024x1024 .f32 :=
  accV0.read (Elt F) (accV0.writes (Elt F) accV0.junk (runFirst0 c i arg3 harg3 arg4 harg4 arg5 harg5 arg6 harg6 arg7 harg7 hc0 hc1 x w bb).1)

/-- At 0 < k < last the one store into the accumulator covers it. -/
theorem accCoverMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : ¬isLast0 i) (x : Vec F S1024x1024 .f32) (w : Vec F S1024x1024 .f32) (bb : Vec F S1x1024 .f32) (xs : Vec F S1024x1024 .f32) (y : S1024x1024.Idx) :
    ∃ pc ∈ (runMid0 c i arg3 harg3 arg4 harg4 arg5 harg5 arg6 harg6 arg7 harg7 hc0 hc1 x w bb xs).1, y ∈ pc.1.set :=
  View.cover_of_tiledL (runMid0 c i arg3 harg3 arg4 harg4 arg5 harg5 arg6 harg6 arg7 harg7 hc0 hc1 x w bb xs).1 S1024x1024.size (by sl_kernel_rfl) y
/-- What the accumulator holds after such a point, from what it held before (`xs`). -/
def accMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : ¬isLast0 i) (x : Vec F S1024x1024 .f32) (w : Vec F S1024x1024 .f32) (bb : Vec F S1x1024 .f32) (xs : Vec F S1024x1024 .f32) : Vec F S1024x1024 .f32 :=
  accV0.read (Elt F) (accV0.writes (Elt F) accV0.junk (runMid0 c i arg3 harg3 arg4 harg4 arg5 harg5 arg6 harg6 arg7 harg7 hc0 hc1 x w bb xs).1)

/-- At k last the store into the accumulator covers it, -/
theorem accCoverLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i) (x : Vec F S1024x1024 .f32) (w : Vec F S1024x1024 .f32) (bb : Vec F S1x1024 .f32) (xs : Vec F S1024x1024 .f32) (y : S1024x1024.Idx) :
    ∃ pc ∈ (runLast0 c i arg3 harg3 arg4 harg4 arg5 harg5 arg6 harg6 arg7 harg7 hc0 hc1 x w bb xs).2.1, y ∈ pc.1.set :=
  View.cover_of_tiledL (runLast0 c i arg3 harg3 arg4 harg4 arg5 harg5 arg6 harg6 arg7 harg7 hc0 hc1 x w bb xs).2.1 S1024x1024.size (by sl_kernel_rfl) y
/-- and the store into the output block covers the block. -/
theorem outCoverLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i) (x : Vec F S1024x1024 .f32) (w : Vec F S1024x1024 .f32) (bb : Vec F S1x1024 .f32) (xs : Vec F S1024x1024 .f32) (y : S1024x1024.Idx) :
    ∃ pc ∈ (runLast0 c i arg3 harg3 arg4 harg4 arg5 harg5 arg6 harg6 arg7 harg7 hc0 hc1 x w bb xs).1, y ∈ pc.1.set :=
  View.cover_of_tiledL (runLast0 c i arg3 harg3 arg4 harg4 arg5 harg5 arg6 harg6 arg7 harg7 hc0 hc1 x w bb xs).1 S1024x1024.size (by sl_kernel_rfl) y
def accLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i) (x : Vec F S1024x1024 .f32) (w : Vec F S1024x1024 .f32) (bb : Vec F S1x1024 .f32) (xs : Vec F S1024x1024 .f32) : Vec F S1024x1024 .f32 :=
  accV0.read (Elt F) (accV0.writes (Elt F) accV0.junk (runLast0 c i arg3 harg3 arg4 harg4 arg5 harg5 arg6 harg6 arg7 harg7 hc0 hc1 x w bb xs).2.1)
/-- The output block as stored at k last. -/
def outLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i) (x : Vec F S1024x1024 .f32) (w : Vec F S1024x1024 .f32) (bb : Vec F S1x1024 .f32) (xs : Vec F S1024x1024 .f32) : Vec F S1024x1024 .bf16 :=
  outV0.read (Elt F) (outV0.writes (Elt F) outV0.junk (runLast0 c i arg3 harg3 arg4 harg4 arg5 harg5 arg6 harg6 arg7 harg7 hc0 hc1 x w bb xs).1)

/-! ## The accumulator, point by point -/

set_option maxHeartbeats 4000000 in
/-- The accumulator after the body at point number `n`. -/
def accAt0 (c : Dev nD) : (n : ℕ) → n < cfg0.N → Vec F S1024x1024 .f32
  | 0, hn =>
      accFirst0 c (grid0.coords ⟨0, hn⟩) (stgX0 ⟨0, hn⟩) (hstgX0 ⟨0, hn⟩) (stgW0 ⟨0, hn⟩) (hstgW0 ⟨0, hn⟩) (stgB0 ⟨0, hn⟩) (hstgB0 ⟨0, hn⟩) (stgO0 ⟨0, hn⟩) (hstgO0 ⟨0, hn⟩) accM0 (Memref.isWhole_whole _) ((isFirst0_iff ⟨0, hn⟩).mpr (Nat.zero_mod _)) (fun h => (fun h => by (try dsimp only at h); omega) ((isLast0_iff ⟨0, hn⟩).mp h)) (iblk0 V c 0 ⟨0, hn⟩) (iblk0 V c 1 ⟨0, hn⟩) (iblk0 V c 2 ⟨0, hn⟩)
  | n + 1, hn =>
    if h0 : (n + 1) % 4 = 0 then
      accFirst0 c (grid0.coords ⟨n + 1, hn⟩) (stgX0 ⟨n + 1, hn⟩) (hstgX0 ⟨n + 1, hn⟩) (stgW0 ⟨n + 1, hn⟩) (hstgW0 ⟨n + 1, hn⟩) (stgB0 ⟨n + 1, hn⟩) (hstgB0 ⟨n + 1, hn⟩) (stgO0 ⟨n + 1, hn⟩) (hstgO0 ⟨n + 1, hn⟩) accM0 (Memref.isWhole_whole _) ((isFirst0_iff ⟨n + 1, hn⟩).mpr h0) (fun h => (fun h => by (try dsimp only at h); omega) ((isLast0_iff ⟨n + 1, hn⟩).mp h)) (iblk0 V c 0 ⟨n + 1, hn⟩) (iblk0 V c 1 ⟨n + 1, hn⟩) (iblk0 V c 2 ⟨n + 1, hn⟩)
    else
      if h1 : (n + 1) % 4 = 3 then
        accLast0 c (grid0.coords ⟨n + 1, hn⟩) (stgX0 ⟨n + 1, hn⟩) (hstgX0 ⟨n + 1, hn⟩) (stgW0 ⟨n + 1, hn⟩) (hstgW0 ⟨n + 1, hn⟩) (stgB0 ⟨n + 1, hn⟩) (hstgB0 ⟨n + 1, hn⟩) (stgO0 ⟨n + 1, hn⟩) (hstgO0 ⟨n + 1, hn⟩) accM0 (Memref.isWhole_whole _) (fun h => h0 ((isFirst0_iff ⟨n + 1, hn⟩).mp h)) ((isLast0_iff ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
      else
        accMid0 c (grid0.coords ⟨n + 1, hn⟩) (stgX0 ⟨n + 1, hn⟩) (hstgX0 ⟨n + 1, hn⟩) (stgW0 ⟨n + 1, hn⟩) (hstgW0 ⟨n + 1, hn⟩) (stgB0 ⟨n + 1, hn⟩) (hstgB0 ⟨n + 1, hn⟩) (stgO0 ⟨n + 1, hn⟩) (hstgO0 ⟨n + 1, hn⟩) accM0 (Memref.isWhole_whole _) (fun h => h0 ((isFirst0_iff ⟨n + 1, hn⟩).mp h)) (fun h => h1 ((isLast0_iff ⟨n + 1, hn⟩).mp h)) (iblk0 V c 0 ⟨n + 1, hn⟩) (iblk0 V c 1 ⟨n + 1, hn⟩) (iblk0 V c 2 ⟨n + 1, hn⟩) (accAt0 c n (Nat.lt_of_succ_lt hn))

set_option maxHeartbeats 4000000 in
/-- The accumulator after a point with k = 0. -/
theorem accAt0_first (c : Dev nD) (t : Fin cfg0.N) (h0 : t.val % 4 = 0) (h1 : ¬t.val % 4 = 3) :
    accAt0 V c t.val t.isLt = accFirst0 c (grid0.coords t) (stgX0 t) (hstgX0 t) (stgW0 t) (hstgW0 t) (stgB0 t) (hstgB0 t) (stgO0 t) (hstgO0 t) accM0 (Memref.isWhole_whole _) ((isFirst0_iff t).mpr h0) (fun h => h1 ((isLast0_iff t).mp h)) (iblk0 V c 0 t) (iblk0 V c 1 t) (iblk0 V c 2 t) := by
  obtain ⟨n, hn⟩ := t
  cases n with
  | zero => exact rfl
  | succ n => exact (dif_pos h0).trans rfl

set_option maxHeartbeats 4000000 in
/-- The accumulator after a point with 0 < k < last, over what the point before left. -/
theorem accAt0_mid (c : Dev nD) (t : Fin cfg0.N) (h0 : ¬t.val % 4 = 0) (h1 : ¬t.val % 4 = 3) :
    accAt0 V c t.val t.isLt = accMid0 c (grid0.coords t) (stgX0 t) (hstgX0 t) (stgW0 t) (hstgW0 t) (stgB0 t) (hstgB0 t) (stgO0 t) (hstgO0 t) accM0 (Memref.isWhole_whole _) (fun h => h0 ((isFirst0_iff t).mp h)) (fun h => h1 ((isLast0_iff t).mp h)) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

set_option maxHeartbeats 4000000 in
/-- The accumulator after a point with k last, over what the point before left. -/
theorem accAt0_last (c : Dev nD) (t : Fin cfg0.N) (h0 : ¬t.val % 4 = 0) (h1 : t.val % 4 = 3) :
    accAt0 V c t.val t.isLt = accLast0 c (grid0.coords t) (stgX0 t) (hstgX0 t) (stgW0 t) (hstgW0 t) (stgB0 t) (hstgB0 t) (stgO0 t) (hstgO0 t) accM0 (Memref.isWhole_whole _) (fun h => h0 ((isFirst0_iff t).mp h)) ((isLast0_iff t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The output block's buffer, point by point -/

set_option maxHeartbeats 4000000 in
/-- After the body at point `t`: where k is last, the block the body stored, computed from what the point before
    left in the accumulator; elsewhere nothing was stored and nothing consults the value (junk read back). -/
def outAt0 (c : Dev nD) (t : Fin cfg0.N) : Vec F S1024x1024 .bf16 :=
  if h1 : t.val % 4 = 3 then
    outLast0 c (grid0.coords t) (stgX0 t) (hstgX0 t) (stgW0 t) (hstgW0 t) (stgB0 t) (hstgB0 t) (stgO0 t) (hstgO0 t) accM0 (Memref.isWhole_whole _) (fun h => (by omega : ¬t.val % 4 = 0) ((isFirst0_iff t).mp h)) ((isLast0_iff t).mpr h1) (iblk0 V c 0 t) (iblk0 V c 1 t) (iblk0 V c 2 t) (accAt0 V c (t.val - 1) (Nat.lt_of_le_of_lt (Nat.sub_le _ _) t.isLt))
  else outV0.read (Elt F) outV0.junk

theorem outAt0_last (c : Dev nD) (t : Fin cfg0.N) (h0 : ¬t.val % 4 = 0) (h1 : t.val % 4 = 3) :
    outAt0 V c t = outLast0 c (grid0.coords t) (stgX0 t) (hstgX0 t) (stgW0 t) (hstgW0 t) (stgB0 t) (hstgB0 t) (stgO0 t) (hstgO0 t) accM0 (Memref.isWhole_whole _) (fun h => h0 ((isFirst0_iff t).mp h)) ((isLast0_iff t).mpr h1) (iblk0 V c 0 t) (iblk0 V c 1 t) (iblk0 V c 2 t) (accAt0 V c (t.val - 1) (Nat.lt_of_le_of_lt (Nat.sub_le _ _) t.isLt)) := by
  unfold outAt0; exact dif_pos h1

/-! ## The region's invariant -/

/-- Before point number `n`: at the region's entry the accumulator at anything; afterwards at what the point before
    left; always beside the region's other buffers untouched and the generator register at some state. -/
def PhiAcc0 (c : Dev nD) : (n : ℕ) → n ≤ cfg0.N → sProp 𝕄
  | 0, _ => Pipeline.ΦA spec0 c
  | n + 1, hn => iprop(iprop(owns (c : Thread nD τ) accM0 fullShare (accAt0 V c n hn)
      ∗ Pipeline.scopedRestBut (Ix := Unit) (Name := ℕ) (U := UR sig nD τ) (Lvl := ℕ) (Val := Elt F) spec0 c [cc0_scratch0]) ∗ (∃ r, prngReg c r))

theorem PhiAcc0_zero (c : Dev nD) (n : ℕ) (h : n ≤ cfg0.N) (hz : n = 0) : PhiAcc0 V c n h = Pipeline.ΦA spec0 c := by
  subst hz; rfl
theorem PhiAcc0_succ (c : Dev nD) (n : ℕ) (hn : n < cfg0.N) :
    PhiAcc0 V c (n + 1) hn = iprop(iprop(owns (c : Thread nD τ) accM0 fullShare (accAt0 V c n hn)
      ∗ Pipeline.scopedRestBut (Ix := Unit) (Name := ℕ) (U := UR sig nD τ) (Lvl := ℕ) (Val := Elt F) spec0 c [cc0_scratch0]) ∗ (∃ r, prngReg c r)) := rfl
theorem PhiAcc0_pos (c : Dev nD) (n : ℕ) (h : n ≤ cfg0.N) (hz : n ≠ 0) :
    PhiAcc0 V c n h = iprop(iprop(owns (c : Thread nD τ) accM0 fullShare (accAt0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The region's proof data on core `c`: the arrays as found; after the body each input's buffer at its block and the
    output's at `outAt`; the invariant `PhiAcc`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiAcc0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiAcc0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end

end Cert.Kernel.Acc

end
-- ==== Proof.WAcc0Body.lean ====
/-
  Layer 1's kernel region: the body obligation at every grid point, and the invariant's two ends.
-/
import proofs.«143296_j88201448391445_2_alg».proof.Proof.WAcc0

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section

variable (V : (c : Dev nD) → (b : Ref sig .tc) → Buf (Elt F) ((c : Thread nD τ).loc b))

/-- What the body is called with at point `t`: the invariant, nothing owed, the four windows' current buffers. -/
def bodyPre0 (c : Dev nD) (t : Fin cfg0.N) : sProp 𝕄 :=
  iprop((dat0 V c).Φ t.castSucc ∗ (dat0 V c).owesAt () t.castSucc
    ∗ (∃ d, owns (c : Thread nD τ) (stgX0 t) fullShare ((dat0 V c).before 0 t d))
    ∗ (∃ d, owns (c : Thread nD τ) (stgW0 t) fullShare ((dat0 V c).before 1 t d))
    ∗ (∃ d, owns (c : Thread nD τ) (stgB0 t) fullShare ((dat0 V c).before 2 t d))
    ∗ (∃ d, owns (c : Thread nD τ) (stgO0 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point.  The inputs' buffers hold their blocks; the point's number modulo 4 says which of the
    three runs applies; the invariant hands the run the accumulator (at anything when k = 0, at what the point before
    left otherwise) and takes it back at this point's value, because the run's stores cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiAcc0 V c (t.val + 1) t.isLt from rfl, PhiAcc0_succ]
  have hN : t.val < 128 := lt_of_lt_of_eq t.isLt (show cfg0.N = 128 from N_0)
  by_cases h0 : t.val % 4 = 0
  · have h1 : ¬t.val % 4 = 3 := by omega
    rw [show (dat0 V c).leavesExact 0 t = owns (c : Thread nD τ) (stgX0 t) fullShare ((dat0 V c).after 0 t) from by
      unfold Dat.leavesExact; rw [live0_0 t], after0_0]
    rw [show (dat0 V c).leavesExact 1 t = owns (c : Thread nD τ) (stgW0 t) fullShare ((dat0 V c).after 1 t) from by
      unfold Dat.leavesExact; rw [live0_1 t], after0_1]
    rw [show (dat0 V c).leavesExact 2 t = owns (c : Thread nD τ) (stgB0 t) fullShare ((dat0 V c).after 2 t) from by
      unfold Dat.leavesExact; rw [live0_2 t], after0_2]
    rw [Dat.leavesExact_idle (dat0 V c) 3 t (idle0_out t (fun h => h1 ((isLast0_iff t).mp h))) (noFlush0_out t (fun h => h1 ((isLast0_iff t).mp h)))]
    rw [accAt0_first V c t h0 h1]
    unfold accFirst0; (try dsimp only)
    by_cases hz : t.val = 0
    · rw [Phi0_castSucc V c t, PhiAcc0_zero V c _ _ hz, PhiA0_split]
      iintro ⟨⟨⟨HS, Hrest⟩, Hg⟩, Ho, ⟨%d0, H0⟩, ⟨%d1, H1⟩, ⟨%d2, H2⟩, ⟨%d3, H3⟩⟩
      iapply ((runFirst0 c (grid0.coords t) _ _ _ _ _ _ _ _ _ _ ((isFirst0_iff t).mpr h0) (fun h => h1 ((isLast0_iff t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [Phi0_castSucc V c t, PhiAcc0_pos V c _ _ hz]
      iintro ⟨⟨⟨HS, Hrest⟩, Hg⟩, Ho, ⟨%d0, H0⟩, ⟨%d1, H1⟩, ⟨%d2, H2⟩, ⟨%d3, H3⟩⟩
      iapply ((runFirst0 c (grid0.coords t) _ _ _ _ _ _ _ _ _ _ ((isFirst0_iff t).mpr h0) (fun h => h1 ((isLast0_iff t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- k last
      rw [show (dat0 V c).leavesExact 0 t = owns (c : Thread nD τ) (stgX0 t) fullShare ((dat0 V c).after 0 t) from by
        unfold Dat.leavesExact; rw [live0_0 t], after0_0]
      rw [show (dat0 V c).leavesExact 1 t = owns (c : Thread nD τ) (stgW0 t) fullShare ((dat0 V c).after 1 t) from by
        unfold Dat.leavesExact; rw [live0_1 t], after0_1]
      rw [show (dat0 V c).leavesExact 2 t = owns (c : Thread nD τ) (stgB0 t) fullShare ((dat0 V c).after 2 t) from by
        unfold Dat.leavesExact; rw [live0_2 t], after0_2]
      rw [show (dat0 V c).leavesExact 3 t = owns (c : Thread nD τ) (stgO0 t) fullShare ((dat0 V c).after 3 t) from by
        unfold Dat.leavesExact; rw [live0_out t ((isLast0_iff t).mpr h1)], after0_3]
      rw [outAt0_last V c t h0 h1, accAt0_last V c t h0 h1]
      unfold outLast0 accLast0; (try dsimp only)
      rw [Phi0_castSucc V c t, PhiAcc0_pos V c _ _ hz]
      iintro ⟨⟨⟨HS, Hrest⟩, Hg⟩, Ho, ⟨%d0, H0⟩, ⟨%d1, H1⟩, ⟨%d2, H2⟩, ⟨%d3, H3⟩⟩
      iapply ((runLast0 c (grid0.coords t) _ _ _ _ _ _ _ _ _ _ (fun h => h0 ((isFirst0_iff t).mp h)) ((isLast0_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverLast0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast0 c _ _ _ _ _ _ _ _ _ _ _ _ _ _ _ _ _)
    · -- 0 < k < last
      rw [show (dat0 V c).leavesExact 0 t = owns (c : Thread nD τ) (stgX0 t) fullShare ((dat0 V c).after 0 t) from by
        unfold Dat.leavesExact; rw [live0_0 t], after0_0]
      rw [show (dat0 V c).leavesExact 1 t = owns (c : Thread nD τ) (stgW0 t) fullShare ((dat0 V c).after 1 t) from by
        unfold Dat.leavesExact; rw [live0_1 t], after0_1]
      rw [show (dat0 V c).leavesExact 2 t = owns (c : Thread nD τ) (stgB0 t) fullShare ((dat0 V c).after 2 t) from by
        unfold Dat.leavesExact; rw [live0_2 t], after0_2]
      rw [Dat.leavesExact_idle (dat0 V c) 3 t (idle0_out t (fun h => h1 ((isLast0_iff t).mp h))) (noFlush0_out t (fun h => h1 ((isLast0_iff t).mp h)))]
      rw [accAt0_mid V c t h0 h1]
      unfold accMid0; (try dsimp only)
      rw [Phi0_castSucc V c t, PhiAcc0_pos V c _ _ hz]
      iintro ⟨⟨⟨HS, Hrest⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((isFirst0_iff t).mp h)) (fun h => h1 ((isLast0_iff t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverMid0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiAcc0 V c 0 (Nat.zero_le _) from rfl, PhiAcc0_zero V c 0 _ rfl]

/-- After the last point the invariant gives the same back: the accumulator's contents are forgotten. -/
theorem hout0 (c : Dev nD) : (dat0 V c).Φ (Fin.last cfg0.N) ⊢ Pipeline.ΦA spec0 c := by
  have hN : cfg0.N = 128 := N_0
  rw [show (dat0 V c).Φ (Fin.last cfg0.N) = PhiAcc0 V c (Fin.last cfg0.N).val (Nat.le_of_lt_succ (Fin.last cfg0.N).isLt) from rfl,
    PhiAcc0_pos V c _ _ (by rw [Fin.val_last]; omega), PhiA0_split]
  iintro ⟨⟨HS, Hrest⟩, Hg⟩
  isplitl [HS Hrest]
  · isplitl [HS]
    · iexists _; iexact HS
    iexact Hrest
  iexact Hg

end

end Cert.Kernel.Acc

end
-- ==== Proof.WAcc1Cases.lean ====
/-
  Layer 2's kernel walks a grid of (row block, column block, k block) with k innermost, 8 k blocks per
  output block.  Its body resets the accumulator when k = 0, adds the block product at every k, and when
  k = 7 adds the bias, binarizes and stores the output block.  Here: the two branch conditions as facts about the
  point's number (k is the number modulo 8), where the output window is written and where it is left alone, the
  staging buffers the body is handed at a point, and the accumulator's place in the region's invariant.
-/
import proofs.«143296_j88201448391445_2_alg».proof.Proof.Gen.Kernel.Launch
import proofs.«143296_j88201448391445_2_alg».proof.Proof.Gen.Kernel.Skeleton
import proofs.«143296_j88201448391445_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The branch conditions -/

/-- "k = 0" as the body computes it from the grid coordinates. -/
abbrev isFirst1 (i : grid1.Coords) : Prop :=
  (Scalar.cmpi .ne (Scalar.extui (Scalar.cmpi .eq (BitVec.ofNat 32 (i 2).val) 0#32)) 0#32) = 1#1
/-- It holds exactly at the points whose number is 0 modulo 8. -/
theorem isFirst1_iff : ∀ t : Fin cfg1.N, isFirst1 (grid1.coords t) ↔ t.val % 8 = 0 :=
  (by decide +kernel : ∀ t : Fin grid1.N, isFirst1 (grid1.coords t) ↔ t.val % 8 = 0)

/-- "k is the last k block" as the body computes it. -/
abbrev isLast1 (i : grid1.Coords) : Prop := k1_cond2 i = 1#1
/-- It holds exactly at the points whose number is 7 modulo 8. -/
theorem isLast1_iff : ∀ t : Fin cfg1.N, isLast1 (grid1.coords t) ↔ t.val % 8 = 7 :=
  (by decide +kernel : ∀ t : Fin grid1.N, isLast1 (grid1.coords t) ↔ t.val % 8 = 7)

/-! ## Where the windows are written -/

/-- The three input windows are read at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Before the last k block nothing is stored into the output block, -/
theorem idle1_out : ∀ t : Fin cfg1.N, ¬isLast1 (grid1.coords t) → cfg1.idle 3 (grid1.coords t) = true := by decide +kernel
/-- and it is not written back there; -/
theorem noFlush1_out : ∀ t : Fin cfg1.N, ¬isLast1 (grid1.coords t) → (cfg1.win 3).flush t = false := by decide +kernel
/-- at the last k block it is stored. -/
theorem live1_out : ∀ t : Fin cfg1.N, isLast1 (grid1.coords t) → cfg1.idle 3 (grid1.coords t) = false := by decide +kernel

/-! ## The buffers the body is handed -/

abbrev stgX1 (t : Fin cfg1.N) : Memref sig .tc .vmem S2048x512 .bf16 := win1_0.stage (cfg1.slots t 0)
abbrev hstgX1 (t : Fin cfg1.N) : (stgX1 t).IsWhole := hstage1_0 ((cfg1.slots t 0).cast nbuf1_0)
abbrev stgW1 (t : Fin cfg1.N) : Memref sig .tc .vmem S1024x512 .bf16 := win1_1.stage (cfg1.slots t 1)
abbrev hstgW1 (t : Fin cfg1.N) : (stgW1 t).IsWhole := hstage1_1 ((cfg1.slots t 1).cast nbuf1_1)
abbrev stgB1 (t : Fin cfg1.N) : Memref sig .tc .vmem S1x1024 .f32 := win1_2.stage (cfg1.slots t 2)
abbrev hstgB1 (t : Fin cfg1.N) : (stgB1 t).IsWhole := hstage1_2 ((cfg1.slots t 2).cast nbuf1_2)
abbrev stgO1 (t : Fin cfg1.N) : Memref sig .tc .vmem S2048x1024 .bf16 := win1_3.stage (cfg1.slots t 3)
abbrev hstgO1 (t : Fin cfg1.N) : (stgO1 t).IsWhole := hstage1_3 ((cfg1.slots t 3).cast nbuf1_3)
/-- The accumulator: a whole buffer of the kernel's own, carried from point to point. -/
abbrev accM1 : Memref sig .tc .vmem S2048x1024 .f32 := Memref.whole cc1_scratch0
/-- The views through which the accumulator's and the output block's contents are stated. -/
abbrev accV1 : View sig .tc .vmem S2048x1024 .f32 := accM1.view
abbrev outV1 : View sig .tc .vmem S2048x1024 .bf16 := (Memref.whole cc1_stg3_0 : Memref sig .tc .vmem S2048x1024 .bf16).view

/-- The region's invariant with the accumulator named: the accumulator whole at some contents, every other buffer
    of the region's own untouched, and the generator register at some state. -/
theorem PhiA1_split (c : Dev nD) :
    (Pipeline.ΦA spec1 c : sProp 𝕄)
      = iprop(iprop(iprop((∃ d, owns (c : Thread nD τ) accM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [accM1, owns_whole]; rfl

end Cert.Kernel.Acc

end
-- ==== Proof.WAcc1RunFirst.lean ====
/-
  Layer 2's kernel body run whole at one kind of grid point (k = 0).
-/
import proofs.«143296_j88201448391445_2_alg».proof.Proof.WAcc1Cases

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large)
set_option maxHeartbeats 1000000 in
/-- The body at a point with k = 0 (and k not last): on whole buffers — the three input blocks at their contents, the
    output block's buffer at contents it hands back untouched, the accumulator at anything — it runs to the
    continuation with the inputs and the output buffer as they were and the accumulator holding what its two stores
    (the zeros, then zeros plus the block product) wrote: the list `LS` of stored pieces, last first, which the run
    finds. -/
noncomputable def runFirst1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst1 i) (hc1 : ¬isLast1 i)
    (x : Vec F S2048x512 .bf16) (w : Vec F S1024x512 .bf16) (bb : Vec F S1x1024 .f32) :
    { LS : List (View.Piece (Elt F) S2048x1024 .f32) //
      ∀ (xo : Vec F S2048x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ (∃ d, owns (c : Thread nD τ) arg7 fullShare d)
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc1__layer_kernel_bf16 i arg3 harg3 arg4 harg4 arg5 harg5 arg6 harg6 arg7 harg7) Kont } := by
  refine ⟨?_, fun xo E Kont => ?run⟩
  case run =>
    simp only [cc1__layer_kernel_bf16_eq_skeleton]; unfold cc1__layer_kernel_bf16_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Acc

end
-- ==== Proof.WAcc1RunMid.lean ====
/-
  Layer 2's kernel body run whole at one kind of grid point (0 < k < last).
-/
import proofs.«143296_j88201448391445_2_alg».proof.Proof.WAcc1RunFirst

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The body at a point with k neither 0 nor last: the accumulator enters at what the point before left (`xs`) and
    leaves holding its one store (`xs` plus the block product); everything else is handed back as it was. -/
noncomputable def runMid1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : ¬isLast1 i)
    (x : Vec F S2048x512 .bf16) (w : Vec F S1024x512 .bf16) (bb : Vec F S1x1024 .f32) (xs : Vec F S2048x1024 .f32) :
    { LS : List (View.Piece (Elt F) S2048x1024 .f32) //
      ∀ (xo : Vec F S2048x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ owns (c : Thread nD τ) arg7 fullShare xs
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc1__layer_kernel_bf16 i arg3 harg3 arg4 harg4 arg5 harg5 arg6 harg6 arg7 harg7) Kont } := by
  refine ⟨?_, fun xo E Kont => ?run⟩
  case run =>
    simp only [cc1__layer_kernel_bf16_eq_skeleton]; unfold cc1__layer_kernel_bf16_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Acc

end
-- ==== Proof.WAcc1RunLast.lean ====
/-
  Layer 2's kernel body run whole at one kind of grid point (k last).
-/
import proofs.«143296_j88201448391445_2_alg».proof.Proof.WAcc1RunMid

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The body at a point with k last: the accumulator enters at what the point before left (`xs`), takes the last block
    product, and the output block's buffer (entered at anything) leaves holding the one store of the binarized sum
    plus bias: the two lists of stored pieces `LO` (output) and `LS` (accumulator) are what the run finds. -/
noncomputable def runLast1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i)
    (x : Vec F S2048x512 .bf16) (w : Vec F S1024x512 .bf16) (bb : Vec F S1x1024 .f32) (xs : Vec F S2048x1024 .f32) :
    Σ' (LO : List (View.Piece (Elt F) S2048x1024 .bf16)), { LS : List (View.Piece (Elt F) S2048x1024 .f32) //
      ∀ (E : Set ℕ) (Kont : PUnit → sProp 𝕄),
        iprop(owns (c : Thread nD τ) arg3 fullShare x ∗ owns (c : Thread nD τ) arg4 fullShare w ∗ owns (c : Thread nD τ) arg5 fullShare bb ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare bb ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ Kont ⟨⟩))
          ⊢ wp frame (wpE (defs₀ (F := F)) Variants.none c none) E (cc1__layer_kernel_bf16 i arg3 harg3 arg4 harg4 arg5 harg5 arg6 harg6 arg7 harg7) Kont } := by
  refine ⟨?_, ?_, fun E Kont => ?run⟩
  case run =>
    simp only [cc1__layer_kernel_bf16_eq_skeleton]; unfold cc1__layer_kernel_bf16_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Acc

end
-- ==== Proof.WAcc1.lean ====
/-
  Layer 2's kernel region, at any contents `V` of the core's buffers when the region is entered.

  What the accumulator holds after each grid point is defined by recursion on the point's number: at a point with
  k = 0 it is what the body leaves there starting from anything, at every other point what the body leaves starting
  from what the point before left.  The output block's buffer matters only at the points with k last, where the body
  stores it whole.  From these the region's proof data: every input window's buffer holds its block at every point,
  the output window's buffer holds the stored block at the last k, and the region's invariant carries the accumulator
  at the recursion's value.
-/
import proofs.«143296_j88201448391445_2_alg».proof.Proof.WAcc1RunLast

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (a point that does not
    fetch it has the block index of the point before), for any proof data over `V` whose body leaves the block in
    place: the three input windows in turn. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the stores leave -/

/-- At k = 0 the two stores into the accumulator cover it. -/
theorem accCoverFirst1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst1 i) (hc1 : ¬isLast1 i) (x : Vec F S2048x512 .bf16) (w : Vec F S1024x512 .bf16) (bb : Vec F S1x1024 .f32) (y : S2048x1024.Idx) :
    ∃ pc ∈ (runFirst1 c i arg3 harg3 arg4 harg4 arg5 harg5 arg6 harg6 arg7 harg7 hc0 hc1 x w bb).1, y ∈ pc.1.set :=
  View.cover_of_tiledL (runFirst1 c i arg3 harg3 arg4 harg4 arg5 harg5 arg6 harg6 arg7 harg7 hc0 hc1 x w bb).1 S2048x1024.size (by sl_kernel_rfl) y
/-- What the accumulator holds after a point with k = 0: the stored pieces read back. -/
def accFirst1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst1 i) (hc1 : ¬isLast1 i) (x : Vec F S2048x512 .bf16) (w : Vec F S1024x512 .bf16) (bb : Vec F S1x1024 .f32) : Vec F S2048x1024 .f32 :=
  accV1.read (Elt F) (accV1.writes (Elt F) accV1.junk (runFirst1 c i arg3 harg3 arg4 harg4 arg5 harg5 arg6 harg6 arg7 harg7 hc0 hc1 x w bb).1)

/-- At 0 < k < last the one store into the accumulator covers it. -/
theorem accCoverMid1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : ¬isLast1 i) (x : Vec F S2048x512 .bf16) (w : Vec F S1024x512 .bf16) (bb : Vec F S1x1024 .f32) (xs : Vec F S2048x1024 .f32) (y : S2048x1024.Idx) :
    ∃ pc ∈ (runMid1 c i arg3 harg3 arg4 harg4 arg5 harg5 arg6 harg6 arg7 harg7 hc0 hc1 x w bb xs).1, y ∈ pc.1.set :=
  View.cover_of_tiledL (runMid1 c i arg3 harg3 arg4 harg4 arg5 harg5 arg6 harg6 arg7 harg7 hc0 hc1 x w bb xs).1 S2048x1024.size (by sl_kernel_rfl) y
/-- What the accumulator holds after such a point, from what it held before (`xs`). -/
def accMid1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : ¬isLast1 i) (x : Vec F S2048x512 .bf16) (w : Vec F S1024x512 .bf16) (bb : Vec F S1x1024 .f32) (xs : Vec F S2048x1024 .f32) : Vec F S2048x1024 .f32 :=
  accV1.read (Elt F) (accV1.writes (Elt F) accV1.junk (runMid1 c i arg3 harg3 arg4 harg4 arg5 harg5 arg6 harg6 arg7 harg7 hc0 hc1 x w bb xs).1)

/-- At k last the store into the accumulator covers it, -/
theorem accCoverLast1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i) (x : Vec F S2048x512 .bf16) (w : Vec F S1024x512 .bf16) (bb : Vec F S1x1024 .f32) (xs : Vec F S2048x1024 .f32) (y : S2048x1024.Idx) :
    ∃ pc ∈ (runLast1 c i arg3 harg3 arg4 harg4 arg5 harg5 arg6 harg6 arg7 harg7 hc0 hc1 x w bb xs).2.1, y ∈ pc.1.set :=
  View.cover_of_tiledL (runLast1 c i arg3 harg3 arg4 harg4 arg5 harg5 arg6 harg6 arg7 harg7 hc0 hc1 x w bb xs).2.1 S2048x1024.size (by sl_kernel_rfl) y
/-- and the store into the output block covers the block. -/
theorem outCoverLast1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i) (x : Vec F S2048x512 .bf16) (w : Vec F S1024x512 .bf16) (bb : Vec F S1x1024 .f32) (xs : Vec F S2048x1024 .f32) (y : S2048x1024.Idx) :
    ∃ pc ∈ (runLast1 c i arg3 harg3 arg4 harg4 arg5 harg5 arg6 harg6 arg7 harg7 hc0 hc1 x w bb xs).1, y ∈ pc.1.set :=
  View.cover_of_tiledL (runLast1 c i arg3 harg3 arg4 harg4 arg5 harg5 arg6 harg6 arg7 harg7 hc0 hc1 x w bb xs).1 S2048x1024.size (by sl_kernel_rfl) y
def accLast1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i) (x : Vec F S2048x512 .bf16) (w : Vec F S1024x512 .bf16) (bb : Vec F S1x1024 .f32) (xs : Vec F S2048x1024 .f32) : Vec F S2048x1024 .f32 :=
  accV1.read (Elt F) (accV1.writes (Elt F) accV1.junk (runLast1 c i arg3 harg3 arg4 harg4 arg5 harg5 arg6 harg6 arg7 harg7 hc0 hc1 x w bb xs).2.1)
/-- The output block as stored at k last. -/
def outLast1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i) (x : Vec F S2048x512 .bf16) (w : Vec F S1024x512 .bf16) (bb : Vec F S1x1024 .f32) (xs : Vec F S2048x1024 .f32) : Vec F S2048x1024 .bf16 :=
  outV1.read (Elt F) (outV1.writes (Elt F) outV1.junk (runLast1 c i arg3 harg3 arg4 harg4 arg5 harg5 arg6 harg6 arg7 harg7 hc0 hc1 x w bb xs).1)

/-! ## The accumulator, point by point -/

set_option maxHeartbeats 4000000 in
/-- The accumulator after the body at point number `n`. -/
def accAt1 (c : Dev nD) : (n : ℕ) → n < cfg1.N → Vec F S2048x1024 .f32
  | 0, hn =>
      accFirst1 c (grid1.coords ⟨0, hn⟩) (stgX1 ⟨0, hn⟩) (hstgX1 ⟨0, hn⟩) (stgW1 ⟨0, hn⟩) (hstgW1 ⟨0, hn⟩) (stgB1 ⟨0, hn⟩) (hstgB1 ⟨0, hn⟩) (stgO1 ⟨0, hn⟩) (hstgO1 ⟨0, hn⟩) accM1 (Memref.isWhole_whole _) ((isFirst1_iff ⟨0, hn⟩).mpr (Nat.zero_mod _)) (fun h => (fun h => by (try dsimp only at h); omega) ((isLast1_iff ⟨0, hn⟩).mp h)) (iblk1 V c 0 ⟨0, hn⟩) (iblk1 V c 1 ⟨0, hn⟩) (iblk1 V c 2 ⟨0, hn⟩)
  | n + 1, hn =>
    if h0 : (n + 1) % 8 = 0 then
      accFirst1 c (grid1.coords ⟨n + 1, hn⟩) (stgX1 ⟨n + 1, hn⟩) (hstgX1 ⟨n + 1, hn⟩) (stgW1 ⟨n + 1, hn⟩) (hstgW1 ⟨n + 1, hn⟩) (stgB1 ⟨n + 1, hn⟩) (hstgB1 ⟨n + 1, hn⟩) (stgO1 ⟨n + 1, hn⟩) (hstgO1 ⟨n + 1, hn⟩) accM1 (Memref.isWhole_whole _) ((isFirst1_iff ⟨n + 1, hn⟩).mpr h0) (fun h => (fun h => by (try dsimp only at h); omega) ((isLast1_iff ⟨n + 1, hn⟩).mp h)) (iblk1 V c 0 ⟨n + 1, hn⟩) (iblk1 V c 1 ⟨n + 1, hn⟩) (iblk1 V c 2 ⟨n + 1, hn⟩)
    else
      if h1 : (n + 1) % 8 = 7 then
        accLast1 c (grid1.coords ⟨n + 1, hn⟩) (stgX1 ⟨n + 1, hn⟩) (hstgX1 ⟨n + 1, hn⟩) (stgW1 ⟨n + 1, hn⟩) (hstgW1 ⟨n + 1, hn⟩) (stgB1 ⟨n + 1, hn⟩) (hstgB1 ⟨n + 1, hn⟩) (stgO1 ⟨n + 1, hn⟩) (hstgO1 ⟨n + 1, hn⟩) accM1 (Memref.isWhole_whole _) (fun h => h0 ((isFirst1_iff ⟨n + 1, hn⟩).mp h)) ((isLast1_iff ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
      else
        accMid1 c (grid1.coords ⟨n + 1, hn⟩) (stgX1 ⟨n + 1, hn⟩) (hstgX1 ⟨n + 1, hn⟩) (stgW1 ⟨n + 1, hn⟩) (hstgW1 ⟨n + 1, hn⟩) (stgB1 ⟨n + 1, hn⟩) (hstgB1 ⟨n + 1, hn⟩) (stgO1 ⟨n + 1, hn⟩) (hstgO1 ⟨n + 1, hn⟩) accM1 (Memref.isWhole_whole _) (fun h => h0 ((isFirst1_iff ⟨n + 1, hn⟩).mp h)) (fun h => h1 ((isLast1_iff ⟨n + 1, hn⟩).mp h)) (iblk1 V c 0 ⟨n + 1, hn⟩) (iblk1 V c 1 ⟨n + 1, hn⟩) (iblk1 V c 2 ⟨n + 1, hn⟩) (accAt1 c n (Nat.lt_of_succ_lt hn))

set_option maxHeartbeats 4000000 in
/-- The accumulator after a point with k = 0. -/
theorem accAt1_first (c : Dev nD) (t : Fin cfg1.N) (h0 : t.val % 8 = 0) (h1 : ¬t.val % 8 = 7) :
    accAt1 V c t.val t.isLt = accFirst1 c (grid1.coords t) (stgX1 t) (hstgX1 t) (stgW1 t) (hstgW1 t) (stgB1 t) (hstgB1 t) (stgO1 t) (hstgO1 t) accM1 (Memref.isWhole_whole _) ((isFirst1_iff t).mpr h0) (fun h => h1 ((isLast1_iff t).mp h)) (iblk1 V c 0 t) (iblk1 V c 1 t) (iblk1 V c 2 t) := by
  obtain ⟨n, hn⟩ := t
  cases n with
  | zero => exact rfl
  | succ n => exact (dif_pos h0).trans rfl

set_option maxHeartbeats 4000000 in
/-- The accumulator after a point with 0 < k < last, over what the point before left. -/
theorem accAt1_mid (c : Dev nD) (t : Fin cfg1.N) (h0 : ¬t.val % 8 = 0) (h1 : ¬t.val % 8 = 7) :
    accAt1 V c t.val t.isLt = accMid1 c (grid1.coords t) (stgX1 t) (hstgX1 t) (stgW1 t) (hstgW1 t) (stgB1 t) (hstgB1 t) (stgO1 t) (hstgO1 t) accM1 (Memref.isWhole_whole _) (fun h => h0 ((isFirst1_iff t).mp h)) (fun h => h1 ((isLast1_iff t).mp h)) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

set_option maxHeartbeats 4000000 in
/-- The accumulator after a point with k last, over what the point before left. -/
theorem accAt1_last (c : Dev nD) (t : Fin cfg1.N) (h0 : ¬t.val % 8 = 0) (h1 : t.val % 8 = 7) :
    accAt1 V c t.val t.isLt = accLast1 c (grid1.coords t) (stgX1 t) (hstgX1 t) (stgW1 t) (hstgW1 t) (stgB1 t) (hstgB1 t) (stgO1 t) (hstgO1 t) accM1 (Memref.isWhole_whole _) (fun h => h0 ((isFirst1_iff t).mp h)) ((isLast1_iff t).mpr h1) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The output block's buffer, point by point -/

set_option maxHeartbeats 4000000 in
/-- After the body at point `t`: where k is last, the block the body stored, computed from what the point before
    left in the accumulator; elsewhere nothing was stored and nothing consults the value (junk read back). -/
def outAt1 (c : Dev nD) (t : Fin cfg1.N) : Vec F S2048x1024 .bf16 :=
  if h1 : t.val % 8 = 7 then
    outLast1 c (grid1.coords t) (stgX1 t) (hstgX1 t) (stgW1 t) (hstgW1 t) (stgB1 t) (hstgB1 t) (stgO1 t) (hstgO1 t) accM1 (Memref.isWhole_whole _) (fun h => (by omega : ¬t.val % 8 = 0) ((isFirst1_iff t).mp h)) ((isLast1_iff t).mpr h1) (iblk1 V c 0 t) (iblk1 V c 1 t) (iblk1 V c 2 t) (accAt1 V c (t.val - 1) (Nat.lt_of_le_of_lt (Nat.sub_le _ _) t.isLt))
  else outV1.read (Elt F) outV1.junk

theorem outAt1_last (c : Dev nD) (t : Fin cfg1.N) (h0 : ¬t.val % 8 = 0) (h1 : t.val % 8 = 7) :
    outAt1 V c t = outLast1 c (grid1.coords t) (stgX1 t) (hstgX1 t) (stgW1 t) (hstgW1 t) (stgB1 t) (hstgB1 t) (stgO1 t) (hstgO1 t) accM1 (Memref.isWhole_whole _) (fun h => h0 ((isFirst1_iff t).mp h)) ((isLast1_iff t).mpr h1) (iblk1 V c 0 t) (iblk1 V c 1 t) (iblk1 V c 2 t) (accAt1 V c (t.val - 1) (Nat.lt_of_le_of_lt (Nat.sub_le _ _) t.isLt)) := by
  unfold outAt1; exact dif_pos h1

/-! ## The region's invariant -/

/-- Before point number `n`: at the region's entry the accumulator at anything; afterwards at what the point before
    left; always beside the region's other buffers untouched and the generator register at some state. -/
def PhiAcc1 (c : Dev nD) : (n : ℕ) → n ≤ cfg1.N → sProp 𝕄
  | 0, _ => Pipeline.ΦA spec1 c
  | n + 1, hn => iprop(iprop(owns (c : Thread nD τ) accM1 fullShare (accAt1 V c n hn)
      ∗ Pipeline.scopedRestBut (Ix := Unit) (Name := ℕ) (U := UR sig nD τ) (Lvl := ℕ) (Val := Elt F) spec1 c [cc1_scratch0]) ∗ (∃ r, prngReg c r))

theorem PhiAcc1_zero (c : Dev nD) (n : ℕ) (h : n ≤ cfg1.N) (hz : n = 0) : PhiAcc1 V c n h = Pipeline.ΦA spec1 c := by
  subst hz; rfl
theorem PhiAcc1_succ (c : Dev nD) (n : ℕ) (hn : n < cfg1.N) :
    PhiAcc1 V c (n + 1) hn = iprop(iprop(owns (c : Thread nD τ) accM1 fullShare (accAt1 V c n hn)
      ∗ Pipeline.scopedRestBut (Ix := Unit) (Name := ℕ) (U := UR sig nD τ) (Lvl := ℕ) (Val := Elt F) spec1 c [cc1_scratch0]) ∗ (∃ r, prngReg c r)) := rfl
theorem PhiAcc1_pos (c : Dev nD) (n : ℕ) (h : n ≤ cfg1.N) (hz : n ≠ 0) :
    PhiAcc1 V c n h = iprop(iprop(owns (c : Thread nD τ) accM1 fullShare (accAt1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as found; after the body each input's buffer at its block and the
    output's at `outAt`; the invariant `PhiAcc`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiAcc1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiAcc1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.Kernel.Acc

end
-- ==== Proof.WAcc1Body.lean ====
/-
  Layer 2's kernel region: the body obligation at every grid point, and the invariant's two ends.
-/
import proofs.«143296_j88201448391445_2_alg».proof.Proof.WAcc1

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section

variable (V : (c : Dev nD) → (b : Ref sig .tc) → Buf (Elt F) ((c : Thread nD τ).loc b))

/-- What the body is called with at point `t`: the invariant, nothing owed, the four windows' current buffers. -/
def bodyPre1 (c : Dev nD) (t : Fin cfg1.N) : sProp 𝕄 :=
  iprop((dat1 V c).Φ t.castSucc ∗ (dat1 V c).owesAt () t.castSucc
    ∗ (∃ d, owns (c : Thread nD τ) (stgX1 t) fullShare ((dat1 V c).before 0 t d))
    ∗ (∃ d, owns (c : Thread nD τ) (stgW1 t) fullShare ((dat1 V c).before 1 t d))
    ∗ (∃ d, owns (c : Thread nD τ) (stgB1 t) fullShare ((dat1 V c).before 2 t d))
    ∗ (∃ d, owns (c : Thread nD τ) (stgO1 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point.  The inputs' buffers hold their blocks; the point's number modulo 8 says which of the
    three runs applies; the invariant hands the run the accumulator (at anything when k = 0, at what the point before
    left otherwise) and takes it back at this point's value, because the run's stores cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiAcc1 V c (t.val + 1) t.isLt from rfl, PhiAcc1_succ]
  have hN : t.val < 128 := lt_of_lt_of_eq t.isLt (show cfg1.N = 128 from N_1)
  by_cases h0 : t.val % 8 = 0
  · have h1 : ¬t.val % 8 = 7 := by omega
    rw [show (dat1 V c).leavesExact 0 t = owns (c : Thread nD τ) (stgX1 t) fullShare ((dat1 V c).after 0 t) from by
      unfold Dat.leavesExact; rw [live1_0 t], after1_0]
    rw [show (dat1 V c).leavesExact 1 t = owns (c : Thread nD τ) (stgW1 t) fullShare ((dat1 V c).after 1 t) from by
      unfold Dat.leavesExact; rw [live1_1 t], after1_1]
    rw [show (dat1 V c).leavesExact 2 t = owns (c : Thread nD τ) (stgB1 t) fullShare ((dat1 V c).after 2 t) from by
      unfold Dat.leavesExact; rw [live1_2 t], after1_2]
    rw [Dat.leavesExact_idle (dat1 V c) 3 t (idle1_out t (fun h => h1 ((isLast1_iff t).mp h))) (noFlush1_out t (fun h => h1 ((isLast1_iff t).mp h)))]
    rw [accAt1_first V c t h0 h1]
    unfold accFirst1; (try dsimp only)
    by_cases hz : t.val = 0
    · rw [Phi1_castSucc V c t, PhiAcc1_zero V c _ _ hz, PhiA1_split]
      iintro ⟨⟨⟨HS, Hrest⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst1 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [Phi1_castSucc V c t, PhiAcc1_pos V c _ _ hz]
      iintro ⟨⟨⟨HS, Hrest⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst1 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · -- k last
      rw [show (dat1 V c).leavesExact 0 t = owns (c : Thread nD τ) (stgX1 t) fullShare ((dat1 V c).after 0 t) from by
        unfold Dat.leavesExact; rw [live1_0 t], after1_0]
      rw [show (dat1 V c).leavesExact 1 t = owns (c : Thread nD τ) (stgW1 t) fullShare ((dat1 V c).after 1 t) from by
        unfold Dat.leavesExact; rw [live1_1 t], after1_1]
      rw [show (dat1 V c).leavesExact 2 t = owns (c : Thread nD τ) (stgB1 t) fullShare ((dat1 V c).after 2 t) from by
        unfold Dat.leavesExact; rw [live1_2 t], after1_2]
      rw [show (dat1 V c).leavesExact 3 t = owns (c : Thread nD τ) (stgO1 t) fullShare ((dat1 V c).after 3 t) from by
        unfold Dat.leavesExact; rw [live1_out t ((isLast1_iff t).mpr h1)], after1_3]
      rw [outAt1_last V c t h0 h1, accAt1_last V c t h0 h1]
      unfold outLast1 accLast1; (try dsimp only)
      rw [Phi1_castSucc V c t, PhiAcc1_pos V c _ _ hz]
      iintro ⟨⟨⟨HS, Hrest⟩, Hg⟩, Ho, ⟨%d0, H0⟩, ⟨%d1, H1⟩, ⟨%d2, H2⟩, ⟨%d3, H3⟩⟩
      iapply ((runLast1 c (grid1.coords t) _ _ _ _ _ _ _ _ _ _ (fun h => h0 ((isFirst1_iff t).mp h)) ((isLast1_iff t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverLast1 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast1 c _ _ _ _ _ _ _ _ _ _ _ _ _ _ _ _ _)
    · -- 0 < k < last
      rw [show (dat1 V c).leavesExact 0 t = owns (c : Thread nD τ) (stgX1 t) fullShare ((dat1 V c).after 0 t) from by
        unfold Dat.leavesExact; rw [live1_0 t], after1_0]
      rw [show (dat1 V c).leavesExact 1 t = owns (c : Thread nD τ) (stgW1 t) fullShare ((dat1 V c).after 1 t) from by
        unfold Dat.leavesExact; rw [live1_1 t], after1_1]
      rw [show (dat1 V c).leavesExact 2 t = owns (c : Thread nD τ) (stgB1 t) fullShare ((dat1 V c).after 2 t) from by
        unfold Dat.leavesExact; rw [live1_2 t], after1_2]
      rw [Dat.leavesExact_idle (dat1 V c) 3 t (idle1_out t (fun h => h1 ((isLast1_iff t).mp h))) (noFlush1_out t (fun h => h1 ((isLast1_iff t).mp h)))]
      rw [accAt1_mid V c t h0 h1]
      unfold accMid1; (try dsimp only)
      rw [Phi1_castSucc V c t, PhiAcc1_pos V c _ _ hz]
      iintro ⟨⟨⟨HS, Hrest⟩, Hg⟩, Ho, ⟨%d0, H0⟩, ⟨%d1, H1⟩, ⟨%d2, H2⟩, ⟨%d3, H3⟩⟩
      iapply ((runMid1 c (grid1.coords t) _ _ _ _ _ _ _ _ _ _ (fun h => h0 ((isFirst1_iff t).mp h)) (fun h => h1 ((isLast1_iff t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverMid1 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiAcc1 V c 0 (Nat.zero_le _) from rfl, PhiAcc1_zero V c 0 _ rfl]

/-- After the last point the invariant gives the same back: the accumulator's contents are forgotten. -/
theorem hout1 (c : Dev nD) : (dat1 V c).Φ (Fin.last cfg1.N) ⊢ Pipeline.ΦA spec1 c := by
  have hN : cfg1.N = 128 := N_1
  rw [show (dat1 V c).Φ (Fin.last cfg1.N) = PhiAcc1 V c (Fin.last cfg1.N).val (Nat.le_of_lt_succ (Fin.last cfg1.N).isLt) from rfl,
    PhiAcc1_pos V c _ _ (by rw [Fin.val_last]; omega), PhiA1_split]
  iintro ⟨⟨HS, Hrest⟩, Hg⟩
  isplitl [HS Hrest]
  · isplitl [HS]
    · iexists _; iexact HS
    iexact Hrest
  iexact Hg

end

end Cert.Kernel.Acc

end
-- ==== Proof.WAcc2Cases.lean ====
/-
  Layer 3's kernel walks a grid of (row block, column block, k block) with k innermost, 8 k blocks per
  output block.  Its body resets the accumulator when k = 0, adds the block product at every k, and when
  k = 7 adds the bias, binarizes and stores the output block.  Here: the two branch conditions as facts about the
  point's number (k is the number modulo 8), where the output window is written and where it is left alone, the
  staging buffers the body is handed at a point, and the accumulator's place in the region's invariant.
-/
import proofs.«143296_j88201448391445_2_alg».proof.Proof.Gen.Kernel.Launch
import proofs.«143296_j88201448391445_2_alg».proof.Proof.Gen.Kernel.Skeleton
import proofs.«143296_j88201448391445_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The branch conditions -/

/-- "k = 0" as the body computes it from the grid coordinates. -/
abbrev isFirst2 (i : grid2.Coords) : Prop :=
  (Scalar.cmpi .ne (Scalar.extui (Scalar.cmpi .eq (BitVec.ofNat 32 (i 2).val) 0#32)) 0#32) = 1#1
/-- It holds exactly at the points whose number is 0 modulo 8. -/
theorem isFirst2_iff : ∀ t : Fin cfg2.N, isFirst2 (grid2.coords t) ↔ t.val % 8 = 0 :=
  (by decide +kernel : ∀ t : Fin grid2.N, isFirst2 (grid2.coords t) ↔ t.val % 8 = 0)

/-- "k is the last k block" as the body computes it. -/
abbrev isLast2 (i : grid2.Coords) : Prop := k2_cond2 i = 1#1
/-- It holds exactly at the points whose number is 7 modulo 8. -/
theorem isLast2_iff : ∀ t : Fin cfg2.N, isLast2 (grid2.coords t) ↔ t.val % 8 = 7 :=
  (by decide +kernel : ∀ t : Fin grid2.N, isLast2 (grid2.coords t) ↔ t.val % 8 = 7)

/-! ## Where the windows are written -/

/-- The three input windows are read at every point. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Before the last k block nothing is stored into the output block, -/
theorem idle2_out : ∀ t : Fin cfg2.N, ¬isLast2 (grid2.coords t) → cfg2.idle 3 (grid2.coords t) = true := by decide +kernel
/-- and it is not written back there; -/
theorem noFlush2_out : ∀ t : Fin cfg2.N, ¬isLast2 (grid2.coords t) → (cfg2.win 3).flush t = false := by decide +kernel
/-- at the last k block it is stored. -/
theorem live2_out : ∀ t : Fin cfg2.N, isLast2 (grid2.coords t) → cfg2.idle 3 (grid2.coords t) = false := by decide +kernel

/-! ## The buffers the body is handed -/

abbrev stgX2 (t : Fin cfg2.N) : Memref sig .tc .vmem S2048x512 .bf16 := win2_0.stage (cfg2.slots t 0)
abbrev hstgX2 (t : Fin cfg2.N) : (stgX2 t).IsWhole := hstage2_0 ((cfg2.slots t 0).cast nbuf2_0)
abbrev stgW2 (t : Fin cfg2.N) : Memref sig .tc .vmem S1024x512 .bf16 := win2_1.stage (cfg2.slots t 1)
abbrev hstgW2 (t : Fin cfg2.N) : (stgW2 t).IsWhole := hstage2_1 ((cfg2.slots t 1).cast nbuf2_1)
abbrev stgB2 (t : Fin cfg2.N) : Memref sig .tc .vmem S1x1024 .f32 := win2_2.stage (cfg2.slots t 2)
abbrev hstgB2 (t : Fin cfg2.N) : (stgB2 t).IsWhole := hstage2_2 ((cfg2.slots t 2).cast nbuf2_2)
abbrev stgO2 (t : Fin cfg2.N) : Memref sig .tc .vmem S2048x1024 .bf16 := win2_3.stage (cfg2.slots t 3)
abbrev hstgO2 (t : Fin cfg2.N) : (stgO2 t).IsWhole := hstage2_3 ((cfg2.slots t 3).cast nbuf2_3)
/-- The accumulator: a whole buffer of the kernel's own, carried from point to point. -/
abbrev accM2 : Memref sig .tc .vmem S2048x1024 .f32 := Memref.whole cc2_scratch0
/-- The views through which the accumulator's and the output block's contents are stated. -/
abbrev accV2 : View sig .tc .vmem S2048x1024 .f32 := accM2.view
abbrev outV2 : View sig .tc .vmem S2048x1024 .bf16 := (Memref.whole cc2_stg3_0 : Memref sig .tc .vmem S2048x1024 .bf16).view

/-- The region's invariant with the accumulator named: the accumulator whole at some contents, every other buffer
    of the region's own untouched, and the generator register at some state. -/
theorem PhiA2_split (c : Dev nD) :
    (Pipeline.ΦA spec2 c : sProp 𝕄)
      = iprop(iprop(iprop((∃ d, owns (c : Thread nD τ) accM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [accM2, owns_whole]; rfl

end Cert.Kernel.Acc

end
-- ==== Proof.WAcc2RunFirst.lean ====
/-
  Layer 3's kernel body run whole at one kind of grid point (k = 0).
-/
import proofs.«143296_j88201448391445_2_alg».proof.Proof.WAcc2Cases

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large)
set_option maxHeartbeats 1000000 in
/-- The body at a point with k = 0 (and k not last): on whole buffers — the three input blocks at their contents, the
    output block's buffer at contents it hands back untouched, the accumulator at anything — it runs to the
    continuation with the inputs and the output buffer as they were and the accumulator holding what its two stores
    (the zeros, then zeros plus the block product) wrote: the list `LS` of stored pieces, last first, which the run
    finds. -/
noncomputable def runFirst2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst2 i) (hc1 : ¬isLast2 i)
    (x : Vec F S2048x512 .bf16) (w : Vec F S1024x512 .bf16) (bb : Vec F S1x1024 .f32) :
    { LS : List (View.Piece (Elt F) S2048x1024 .f32) //
      ∀ (xo : Vec F S2048x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ (∃ d, owns (c : Thread nD τ) arg7 fullShare d)
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc2__layer_kernel_bf16 i arg3 harg3 arg4 harg4 arg5 harg5 arg6 harg6 arg7 harg7) Kont } := by
  refine ⟨?_, fun xo E Kont => ?run⟩
  case run =>
    simp only [cc2__layer_kernel_bf16_eq_skeleton]; unfold cc2__layer_kernel_bf16_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Acc

end
-- ==== Proof.WAcc2RunMid.lean ====
/-
  Layer 3's kernel body run whole at one kind of grid point (0 < k < last).
-/
import proofs.«143296_j88201448391445_2_alg».proof.Proof.WAcc2RunFirst

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The body at a point with k neither 0 nor last: the accumulator enters at what the point before left (`xs`) and
    leaves holding its one store (`xs` plus the block product); everything else is handed back as it was. -/
noncomputable def runMid2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : ¬isLast2 i)
    (x : Vec F S2048x512 .bf16) (w : Vec F S1024x512 .bf16) (bb : Vec F S1x1024 .f32) (xs : Vec F S2048x1024 .f32) :
    { LS : List (View.Piece (Elt F) S2048x1024 .f32) //
      ∀ (xo : Vec F S2048x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ owns (c : Thread nD τ) arg7 fullShare xs
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc2__layer_kernel_bf16 i arg3 harg3 arg4 harg4 arg5 harg5 arg6 harg6 arg7 harg7) Kont } := by
  refine ⟨?_, fun xo E Kont => ?run⟩
  case run =>
    simp only [cc2__layer_kernel_bf16_eq_skeleton]; unfold cc2__layer_kernel_bf16_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Acc

end
-- ==== Proof.WAcc2RunLast.lean ====
/-
  Layer 3's kernel body run whole at one kind of grid point (k last).
-/
import proofs.«143296_j88201448391445_2_alg».proof.Proof.WAcc2RunMid

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The body at a point with k last: the accumulator enters at what the point before left (`xs`), takes the last block
    product, and the output block's buffer (entered at anything) leaves holding the one store of the binarized sum
    plus bias: the two lists of stored pieces `LO` (output) and `LS` (accumulator) are what the run finds. -/
noncomputable def runLast2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i)
    (x : Vec F S2048x512 .bf16) (w : Vec F S1024x512 .bf16) (bb : Vec F S1x1024 .f32) (xs : Vec F S2048x1024 .f32) :
    Σ' (LO : List (View.Piece (Elt F) S2048x1024 .bf16)), { LS : List (View.Piece (Elt F) S2048x1024 .f32) //
      ∀ (E : Set ℕ) (Kont : PUnit → sProp 𝕄),
        iprop(owns (c : Thread nD τ) arg3 fullShare x ∗ owns (c : Thread nD τ) arg4 fullShare w ∗ owns (c : Thread nD τ) arg5 fullShare bb ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare bb ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ Kont ⟨⟩))
          ⊢ wp frame (wpE (defs₀ (F := F)) Variants.none c none) E (cc2__layer_kernel_bf16 i arg3 harg3 arg4 harg4 arg5 harg5 arg6 harg6 arg7 harg7) Kont } := by
  refine ⟨?_, ?_, fun E Kont => ?run⟩
  case run =>
    simp only [cc2__layer_kernel_bf16_eq_skeleton]; unfold cc2__layer_kernel_bf16_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Acc

end
-- ==== Proof.WAcc2.lean ====
/-
  Layer 3's kernel region, at any contents `V` of the core's buffers when the region is entered.

  What the accumulator holds after each grid point is defined by recursion on the point's number: at a point with
  k = 0 it is what the body leaves there starting from anything, at every other point what the body leaves starting
  from what the point before left.  The output block's buffer matters only at the points with k last, where the body
  stores it whole.  From these the region's proof data: every input window's buffer holds its block at every point,
  the output window's buffer holds the stored block at the last k, and the region's invariant carries the accumulator
  at the recursion's value.
-/
import proofs.«143296_j88201448391445_2_alg».proof.Proof.WAcc2RunLast

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (a point that does not
    fetch it has the block index of the point before), for any proof data over `V` whose body leaves the block in
    place: the three input windows in turn. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the stores leave -/

/-- At k = 0 the two stores into the accumulator cover it. -/
theorem accCoverFirst2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst2 i) (hc1 : ¬isLast2 i) (x : Vec F S2048x512 .bf16) (w : Vec F S1024x512 .bf16) (bb : Vec F S1x1024 .f32) (y : S2048x1024.Idx) :
    ∃ pc ∈ (runFirst2 c i arg3 harg3 arg4 harg4 arg5 harg5 arg6 harg6 arg7 harg7 hc0 hc1 x w bb).1, y ∈ pc.1.set :=
  View.cover_of_tiledL (runFirst2 c i arg3 harg3 arg4 harg4 arg5 harg5 arg6 harg6 arg7 harg7 hc0 hc1 x w bb).1 S2048x1024.size (by sl_kernel_rfl) y
/-- What the accumulator holds after a point with k = 0: the stored pieces read back. -/
def accFirst2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst2 i) (hc1 : ¬isLast2 i) (x : Vec F S2048x512 .bf16) (w : Vec F S1024x512 .bf16) (bb : Vec F S1x1024 .f32) : Vec F S2048x1024 .f32 :=
  accV2.read (Elt F) (accV2.writes (Elt F) accV2.junk (runFirst2 c i arg3 harg3 arg4 harg4 arg5 harg5 arg6 harg6 arg7 harg7 hc0 hc1 x w bb).1)

/-- At 0 < k < last the one store into the accumulator covers it. -/
theorem accCoverMid2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : ¬isLast2 i) (x : Vec F S2048x512 .bf16) (w : Vec F S1024x512 .bf16) (bb : Vec F S1x1024 .f32) (xs : Vec F S2048x1024 .f32) (y : S2048x1024.Idx) :
    ∃ pc ∈ (runMid2 c i arg3 harg3 arg4 harg4 arg5 harg5 arg6 harg6 arg7 harg7 hc0 hc1 x w bb xs).1, y ∈ pc.1.set :=
  View.cover_of_tiledL (runMid2 c i arg3 harg3 arg4 harg4 arg5 harg5 arg6 harg6 arg7 harg7 hc0 hc1 x w bb xs).1 S2048x1024.size (by sl_kernel_rfl) y
/-- What the accumulator holds after such a point, from what it held before (`xs`). -/
def accMid2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : ¬isLast2 i) (x : Vec F S2048x512 .bf16) (w : Vec F S1024x512 .bf16) (bb : Vec F S1x1024 .f32) (xs : Vec F S2048x1024 .f32) : Vec F S2048x1024 .f32 :=
  accV2.read (Elt F) (accV2.writes (Elt F) accV2.junk (runMid2 c i arg3 harg3 arg4 harg4 arg5 harg5 arg6 harg6 arg7 harg7 hc0 hc1 x w bb xs).1)

/-- At k last the store into the accumulator covers it, -/
theorem accCoverLast2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i) (x : Vec F S2048x512 .bf16) (w : Vec F S1024x512 .bf16) (bb : Vec F S1x1024 .f32) (xs : Vec F S2048x1024 .f32) (y : S2048x1024.Idx) :
    ∃ pc ∈ (runLast2 c i arg3 harg3 arg4 harg4 arg5 harg5 arg6 harg6 arg7 harg7 hc0 hc1 x w bb xs).2.1, y ∈ pc.1.set :=
  View.cover_of_tiledL (runLast2 c i arg3 harg3 arg4 harg4 arg5 harg5 arg6 harg6 arg7 harg7 hc0 hc1 x w bb xs).2.1 S2048x1024.size (by sl_kernel_rfl) y
/-- and the store into the output block covers the block. -/
theorem outCoverLast2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i) (x : Vec F S2048x512 .bf16) (w : Vec F S1024x512 .bf16) (bb : Vec F S1x1024 .f32) (xs : Vec F S2048x1024 .f32) (y : S2048x1024.Idx) :
    ∃ pc ∈ (runLast2 c i arg3 harg3 arg4 harg4 arg5 harg5 arg6 harg6 arg7 harg7 hc0 hc1 x w bb xs).1, y ∈ pc.1.set :=
  View.cover_of_tiledL (runLast2 c i arg3 harg3 arg4 harg4 arg5 harg5 arg6 harg6 arg7 harg7 hc0 hc1 x w bb xs).1 S2048x1024.size (by sl_kernel_rfl) y
def accLast2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i) (x : Vec F S2048x512 .bf16) (w : Vec F S1024x512 .bf16) (bb : Vec F S1x1024 .f32) (xs : Vec F S2048x1024 .f32) : Vec F S2048x1024 .f32 :=
  accV2.read (Elt F) (accV2.writes (Elt F) accV2.junk (runLast2 c i arg3 harg3 arg4 harg4 arg5 harg5 arg6 harg6 arg7 harg7 hc0 hc1 x w bb xs).2.1)
/-- The output block as stored at k last. -/
def outLast2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i) (x : Vec F S2048x512 .bf16) (w : Vec F S1024x512 .bf16) (bb : Vec F S1x1024 .f32) (xs : Vec F S2048x1024 .f32) : Vec F S2048x1024 .bf16 :=
  outV2.read (Elt F) (outV2.writes (Elt F) outV2.junk (runLast2 c i arg3 harg3 arg4 harg4 arg5 harg5 arg6 harg6 arg7 harg7 hc0 hc1 x w bb xs).1)

/-! ## The accumulator, point by point -/

set_option maxHeartbeats 4000000 in
/-- The accumulator after the body at point number `n`. -/
def accAt2 (c : Dev nD) : (n : ℕ) → n < cfg2.N → Vec F S2048x1024 .f32
  | 0, hn =>
      accFirst2 c (grid2.coords ⟨0, hn⟩) (stgX2 ⟨0, hn⟩) (hstgX2 ⟨0, hn⟩) (stgW2 ⟨0, hn⟩) (hstgW2 ⟨0, hn⟩) (stgB2 ⟨0, hn⟩) (hstgB2 ⟨0, hn⟩) (stgO2 ⟨0, hn⟩) (hstgO2 ⟨0, hn⟩) accM2 (Memref.isWhole_whole _) ((isFirst2_iff ⟨0, hn⟩).mpr (Nat.zero_mod _)) (fun h => (fun h => by (try dsimp only at h); omega) ((isLast2_iff ⟨0, hn⟩).mp h)) (iblk2 V c 0 ⟨0, hn⟩) (iblk2 V c 1 ⟨0, hn⟩) (iblk2 V c 2 ⟨0, hn⟩)
  | n + 1, hn =>
    if h0 : (n + 1) % 8 = 0 then
      accFirst2 c (grid2.coords ⟨n + 1, hn⟩) (stgX2 ⟨n + 1, hn⟩) (hstgX2 ⟨n + 1, hn⟩) (stgW2 ⟨n + 1, hn⟩) (hstgW2 ⟨n + 1, hn⟩) (stgB2 ⟨n + 1, hn⟩) (hstgB2 ⟨n + 1, hn⟩) (stgO2 ⟨n + 1, hn⟩) (hstgO2 ⟨n + 1, hn⟩) accM2 (Memref.isWhole_whole _) ((isFirst2_iff ⟨n + 1, hn⟩).mpr h0) (fun h => (fun h => by (try dsimp only at h); omega) ((isLast2_iff ⟨n + 1, hn⟩).mp h)) (iblk2 V c 0 ⟨n + 1, hn⟩) (iblk2 V c 1 ⟨n + 1, hn⟩) (iblk2 V c 2 ⟨n + 1, hn⟩)
    else
      if h1 : (n + 1) % 8 = 7 then
        accLast2 c (grid2.coords ⟨n + 1, hn⟩) (stgX2 ⟨n + 1, hn⟩) (hstgX2 ⟨n + 1, hn⟩) (stgW2 ⟨n + 1, hn⟩) (hstgW2 ⟨n + 1, hn⟩) (stgB2 ⟨n + 1, hn⟩) (hstgB2 ⟨n + 1, hn⟩) (stgO2 ⟨n + 1, hn⟩) (hstgO2 ⟨n + 1, hn⟩) accM2 (Memref.isWhole_whole _) (fun h => h0 ((isFirst2_iff ⟨n + 1, hn⟩).mp h)) ((isLast2_iff ⟨n + 1, hn⟩).mpr h1) (iblk2 V c 0 ⟨n + 1, hn⟩) (iblk2 V c 1 ⟨n + 1, hn⟩) (iblk2 V c 2 ⟨n + 1, hn⟩) (accAt2 c n (Nat.lt_of_succ_lt hn))
      else
        accMid2 c (grid2.coords ⟨n + 1, hn⟩) (stgX2 ⟨n + 1, hn⟩) (hstgX2 ⟨n + 1, hn⟩) (stgW2 ⟨n + 1, hn⟩) (hstgW2 ⟨n + 1, hn⟩) (stgB2 ⟨n + 1, hn⟩) (hstgB2 ⟨n + 1, hn⟩) (stgO2 ⟨n + 1, hn⟩) (hstgO2 ⟨n + 1, hn⟩) accM2 (Memref.isWhole_whole _) (fun h => h0 ((isFirst2_iff ⟨n + 1, hn⟩).mp h)) (fun h => h1 ((isLast2_iff ⟨n + 1, hn⟩).mp h)) (iblk2 V c 0 ⟨n + 1, hn⟩) (iblk2 V c 1 ⟨n + 1, hn⟩) (iblk2 V c 2 ⟨n + 1, hn⟩) (accAt2 c n (Nat.lt_of_succ_lt hn))

set_option maxHeartbeats 4000000 in
/-- The accumulator after a point with k = 0. -/
theorem accAt2_first (c : Dev nD) (t : Fin cfg2.N) (h0 : t.val % 8 = 0) (h1 : ¬t.val % 8 = 7) :
    accAt2 V c t.val t.isLt = accFirst2 c (grid2.coords t) (stgX2 t) (hstgX2 t) (stgW2 t) (hstgW2 t) (stgB2 t) (hstgB2 t) (stgO2 t) (hstgO2 t) accM2 (Memref.isWhole_whole _) ((isFirst2_iff t).mpr h0) (fun h => h1 ((isLast2_iff t).mp h)) (iblk2 V c 0 t) (iblk2 V c 1 t) (iblk2 V c 2 t) := by
  obtain ⟨n, hn⟩ := t
  cases n with
  | zero => exact rfl
  | succ n => exact (dif_pos h0).trans rfl

set_option maxHeartbeats 4000000 in
/-- The accumulator after a point with 0 < k < last, over what the point before left. -/
theorem accAt2_mid (c : Dev nD) (t : Fin cfg2.N) (h0 : ¬t.val % 8 = 0) (h1 : ¬t.val % 8 = 7) :
    accAt2 V c t.val t.isLt = accMid2 c (grid2.coords t) (stgX2 t) (hstgX2 t) (stgW2 t) (hstgW2 t) (stgB2 t) (hstgB2 t) (stgO2 t) (hstgO2 t) accM2 (Memref.isWhole_whole _) (fun h => h0 ((isFirst2_iff t).mp h)) (fun h => h1 ((isLast2_iff t).mp h)) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

set_option maxHeartbeats 4000000 in
/-- The accumulator after a point with k last, over what the point before left. -/
theorem accAt2_last (c : Dev nD) (t : Fin cfg2.N) (h0 : ¬t.val % 8 = 0) (h1 : t.val % 8 = 7) :
    accAt2 V c t.val t.isLt = accLast2 c (grid2.coords t) (stgX2 t) (hstgX2 t) (stgW2 t) (hstgW2 t) (stgB2 t) (hstgB2 t) (stgO2 t) (hstgO2 t) accM2 (Memref.isWhole_whole _) (fun h => h0 ((isFirst2_iff t).mp h)) ((isLast2_iff t).mpr h1) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The output block's buffer, point by point -/

set_option maxHeartbeats 4000000 in
/-- After the body at point `t`: where k is last, the block the body stored, computed from what the point before
    left in the accumulator; elsewhere nothing was stored and nothing consults the value (junk read back). -/
def outAt2 (c : Dev nD) (t : Fin cfg2.N) : Vec F S2048x1024 .bf16 :=
  if h1 : t.val % 8 = 7 then
    outLast2 c (grid2.coords t) (stgX2 t) (hstgX2 t) (stgW2 t) (hstgW2 t) (stgB2 t) (hstgB2 t) (stgO2 t) (hstgO2 t) accM2 (Memref.isWhole_whole _) (fun h => (by omega : ¬t.val % 8 = 0) ((isFirst2_iff t).mp h)) ((isLast2_iff t).mpr h1) (iblk2 V c 0 t) (iblk2 V c 1 t) (iblk2 V c 2 t) (accAt2 V c (t.val - 1) (Nat.lt_of_le_of_lt (Nat.sub_le _ _) t.isLt))
  else outV2.read (Elt F) outV2.junk

theorem outAt2_last (c : Dev nD) (t : Fin cfg2.N) (h0 : ¬t.val % 8 = 0) (h1 : t.val % 8 = 7) :
    outAt2 V c t = outLast2 c (grid2.coords t) (stgX2 t) (hstgX2 t) (stgW2 t) (hstgW2 t) (stgB2 t) (hstgB2 t) (stgO2 t) (hstgO2 t) accM2 (Memref.isWhole_whole _) (fun h => h0 ((isFirst2_iff t).mp h)) ((isLast2_iff t).mpr h1) (iblk2 V c 0 t) (iblk2 V c 1 t) (iblk2 V c 2 t) (accAt2 V c (t.val - 1) (Nat.lt_of_le_of_lt (Nat.sub_le _ _) t.isLt)) := by
  unfold outAt2; exact dif_pos h1

/-! ## The region's invariant -/

/-- Before point number `n`: at the region's entry the accumulator at anything; afterwards at what the point before
    left; always beside the region's other buffers untouched and the generator register at some state. -/
def PhiAcc2 (c : Dev nD) : (n : ℕ) → n ≤ cfg2.N → sProp 𝕄
  | 0, _ => Pipeline.ΦA spec2 c
  | n + 1, hn => iprop(iprop(owns (c : Thread nD τ) accM2 fullShare (accAt2 V c n hn)
      ∗ Pipeline.scopedRestBut (Ix := Unit) (Name := ℕ) (U := UR sig nD τ) (Lvl := ℕ) (Val := Elt F) spec2 c [cc2_scratch0]) ∗ (∃ r, prngReg c r))

theorem PhiAcc2_zero (c : Dev nD) (n : ℕ) (h : n ≤ cfg2.N) (hz : n = 0) : PhiAcc2 V c n h = Pipeline.ΦA spec2 c := by
  subst hz; rfl
theorem PhiAcc2_succ (c : Dev nD) (n : ℕ) (hn : n < cfg2.N) :
    PhiAcc2 V c (n + 1) hn = iprop(iprop(owns (c : Thread nD τ) accM2 fullShare (accAt2 V c n hn)
      ∗ Pipeline.scopedRestBut (Ix := Unit) (Name := ℕ) (U := UR sig nD τ) (Lvl := ℕ) (Val := Elt F) spec2 c [cc2_scratch0]) ∗ (∃ r, prngReg c r)) := rfl
theorem PhiAcc2_pos (c : Dev nD) (n : ℕ) (h : n ≤ cfg2.N) (hz : n ≠ 0) :
    PhiAcc2 V c n h = iprop(iprop(owns (c : Thread nD τ) accM2 fullShare (accAt2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The region's proof data on core `c`: the arrays as found; after the body each input's buffer at its block and the
    output's at `outAt`; the invariant `PhiAcc`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiAcc2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = PhiAcc2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end

end Cert.Kernel.Acc

end
-- ==== Proof.WAcc2Body.lean ====
/-
  Layer 3's kernel region: the body obligation at every grid point, and the invariant's two ends.
-/
import proofs.«143296_j88201448391445_2_alg».proof.Proof.WAcc2

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section

variable (V : (c : Dev nD) → (b : Ref sig .tc) → Buf (Elt F) ((c : Thread nD τ).loc b))

/-- What the body is called with at point `t`: the invariant, nothing owed, the four windows' current buffers. -/
def bodyPre2 (c : Dev nD) (t : Fin cfg2.N) : sProp 𝕄 :=
  iprop((dat2 V c).Φ t.castSucc ∗ (dat2 V c).owesAt () t.castSucc
    ∗ (∃ d, owns (c : Thread nD τ) (stgX2 t) fullShare ((dat2 V c).before 0 t d))
    ∗ (∃ d, owns (c : Thread nD τ) (stgW2 t) fullShare ((dat2 V c).before 1 t d))
    ∗ (∃ d, owns (c : Thread nD τ) (stgB2 t) fullShare ((dat2 V c).before 2 t d))
    ∗ (∃ d, owns (c : Thread nD τ) (stgO2 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point.  The inputs' buffers hold their blocks; the point's number modulo 8 says which of the
    three runs applies; the invariant hands the run the accumulator (at anything when k = 0, at what the point before
    left otherwise) and takes it back at this point's value, because the run's stores cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiAcc2 V c (t.val + 1) t.isLt from rfl, PhiAcc2_succ]
  have hN : t.val < 128 := lt_of_lt_of_eq t.isLt (show cfg2.N = 128 from N_2)
  by_cases h0 : t.val % 8 = 0
  · have h1 : ¬t.val % 8 = 7 := by omega
    rw [show (dat2 V c).leavesExact 0 t = owns (c : Thread nD τ) (stgX2 t) fullShare ((dat2 V c).after 0 t) from by
      unfold Dat.leavesExact; rw [live2_0 t], after2_0]
    rw [show (dat2 V c).leavesExact 1 t = owns (c : Thread nD τ) (stgW2 t) fullShare ((dat2 V c).after 1 t) from by
      unfold Dat.leavesExact; rw [live2_1 t], after2_1]
    rw [show (dat2 V c).leavesExact 2 t = owns (c : Thread nD τ) (stgB2 t) fullShare ((dat2 V c).after 2 t) from by
      unfold Dat.leavesExact; rw [live2_2 t], after2_2]
    rw [Dat.leavesExact_idle (dat2 V c) 3 t (idle2_out t (fun h => h1 ((isLast2_iff t).mp h))) (noFlush2_out t (fun h => h1 ((isLast2_iff t).mp h)))]
    rw [accAt2_first V c t h0 h1]
    unfold accFirst2; (try dsimp only)
    by_cases hz : t.val = 0
    · rw [Phi2_castSucc V c t, PhiAcc2_zero V c _ _ hz, PhiA2_split]
      iintro ⟨⟨⟨HS, Hrest⟩, Hg⟩, Ho, ⟨%d0, H0⟩, ⟨%d1, H1⟩, ⟨%d2, H2⟩, ⟨%d3, H3⟩⟩
      iapply ((runFirst2 c (grid2.coords t) _ _ _ _ _ _ _ _ _ _ ((isFirst2_iff t).mpr h0) (fun h => h1 ((isLast2_iff t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst2 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [Phi2_castSucc V c t, PhiAcc2_pos V c _ _ hz]
      iintro ⟨⟨⟨HS, Hrest⟩, Hg⟩, Ho, ⟨%d0, H0⟩, ⟨%d1, H1⟩, ⟨%d2, H2⟩, ⟨%d3, H3⟩⟩
      iapply ((runFirst2 c (grid2.coords t) _ _ _ _ _ _ _ _ _ _ ((isFirst2_iff t).mpr h0) (fun h => h1 ((isLast2_iff t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst2 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · -- k last
      rw [show (dat2 V c).leavesExact 0 t = owns (c : Thread nD τ) (stgX2 t) fullShare ((dat2 V c).after 0 t) from by
        unfold Dat.leavesExact; rw [live2_0 t], after2_0]
      rw [show (dat2 V c).leavesExact 1 t = owns (c : Thread nD τ) (stgW2 t) fullShare ((dat2 V c).after 1 t) from by
        unfold Dat.leavesExact; rw [live2_1 t], after2_1]
      rw [show (dat2 V c).leavesExact 2 t = owns (c : Thread nD τ) (stgB2 t) fullShare ((dat2 V c).after 2 t) from by
        unfold Dat.leavesExact; rw [live2_2 t], after2_2]
      rw [show (dat2 V c).leavesExact 3 t = owns (c : Thread nD τ) (stgO2 t) fullShare ((dat2 V c).after 3 t) from by
        unfold Dat.leavesExact; rw [live2_out t ((isLast2_iff t).mpr h1)], after2_3]
      rw [outAt2_last V c t h0 h1, accAt2_last V c t h0 h1]
      unfold outLast2 accLast2; (try dsimp only)
      rw [Phi2_castSucc V c t, PhiAcc2_pos V c _ _ hz]
      iintro ⟨⟨⟨HS, Hrest⟩, Hg⟩, Ho, ⟨%d0, H0⟩, ⟨%d1, H1⟩, ⟨%d2, H2⟩, ⟨%d3, H3⟩⟩
      iapply ((runLast2 c (grid2.coords t) _ _ _ _ _ _ _ _ _ _ (fun h => h0 ((isFirst2_iff t).mp h)) ((isLast2_iff t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverLast2 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast2 c _ _ _ _ _ _ _ _ _ _ _ _ _ _ _ _ _)
    · -- 0 < k < last
      rw [show (dat2 V c).leavesExact 0 t = owns (c : Thread nD τ) (stgX2 t) fullShare ((dat2 V c).after 0 t) from by
        unfold Dat.leavesExact; rw [live2_0 t], after2_0]
      rw [show (dat2 V c).leavesExact 1 t = owns (c : Thread nD τ) (stgW2 t) fullShare ((dat2 V c).after 1 t) from by
        unfold Dat.leavesExact; rw [live2_1 t], after2_1]
      rw [show (dat2 V c).leavesExact 2 t = owns (c : Thread nD τ) (stgB2 t) fullShare ((dat2 V c).after 2 t) from by
        unfold Dat.leavesExact; rw [live2_2 t], after2_2]
      rw [Dat.leavesExact_idle (dat2 V c) 3 t (idle2_out t (fun h => h1 ((isLast2_iff t).mp h))) (noFlush2_out t (fun h => h1 ((isLast2_iff t).mp h)))]
      rw [accAt2_mid V c t h0 h1]
      unfold accMid2; (try dsimp only)
      rw [Phi2_castSucc V c t, PhiAcc2_pos V c _ _ hz]
      iintro ⟨⟨⟨HS, Hrest⟩, Hg⟩, Ho, ⟨%d0, H0⟩, ⟨%d1, H1⟩, ⟨%d2, H2⟩, ⟨%d3, H3⟩⟩
      iapply ((runMid2 c (grid2.coords t) _ _ _ _ _ _ _ _ _ _ (fun h => h0 ((isFirst2_iff t).mp h)) (fun h => h1 ((isLast2_iff t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverMid2 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = PhiAcc2 V c 0 (Nat.zero_le _) from rfl, PhiAcc2_zero V c 0 _ rfl]

/-- After the last point the invariant gives the same back: the accumulator's contents are forgotten. -/
theorem hout2 (c : Dev nD) : (dat2 V c).Φ (Fin.last cfg2.N) ⊢ Pipeline.ΦA spec2 c := by
  have hN : cfg2.N = 128 := N_2
  rw [show (dat2 V c).Φ (Fin.last cfg2.N) = PhiAcc2 V c (Fin.last cfg2.N).val (Nat.le_of_lt_succ (Fin.last cfg2.N).isLt) from rfl,
    PhiAcc2_pos V c _ _ (by rw [Fin.val_last]; omega), PhiA2_split]
  iintro ⟨⟨HS, Hrest⟩, Hg⟩
  isplitl [HS Hrest]
  · isplitl [HS]
    · iexists _; iexact HS
    iexact Hrest
  iexact Hg

end

end Cert.Kernel.Acc

end
-- ==== Proof.WAcc3Cases.lean ====
/-
  Layer 4's kernel walks a grid of (row block, column block, k block) with k innermost, 8 k blocks per
  output block.  Its body resets the accumulator when k = 0, adds the block product at every k, and when
  k = 7 adds the bias, binarizes and stores the output block.  Here: the two branch conditions as facts about the
  point's number (k is the number modulo 8), where the output window is written and where it is left alone, the
  staging buffers the body is handed at a point, and the accumulator's place in the region's invariant.
-/
import proofs.«143296_j88201448391445_2_alg».proof.Proof.Gen.Kernel.Launch
import proofs.«143296_j88201448391445_2_alg».proof.Proof.Gen.Kernel.Skeleton
import proofs.«143296_j88201448391445_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The branch conditions -/

/-- "k = 0" as the body computes it from the grid coordinates. -/
abbrev isFirst3 (i : grid3.Coords) : Prop :=
  (Scalar.cmpi .ne (Scalar.extui (Scalar.cmpi .eq (BitVec.ofNat 32 (i 2).val) 0#32)) 0#32) = 1#1
/-- It holds exactly at the points whose number is 0 modulo 8. -/
theorem isFirst3_iff : ∀ t : Fin cfg3.N, isFirst3 (grid3.coords t) ↔ t.val % 8 = 0 :=
  (by decide +kernel : ∀ t : Fin grid3.N, isFirst3 (grid3.coords t) ↔ t.val % 8 = 0)

/-- "k is the last k block" as the body computes it. -/
abbrev isLast3 (i : grid3.Coords) : Prop := k3_cond2 i = 1#1
/-- It holds exactly at the points whose number is 7 modulo 8. -/
theorem isLast3_iff : ∀ t : Fin cfg3.N, isLast3 (grid3.coords t) ↔ t.val % 8 = 7 :=
  (by decide +kernel : ∀ t : Fin grid3.N, isLast3 (grid3.coords t) ↔ t.val % 8 = 7)

/-! ## Where the windows are written -/

/-- The three input windows are read at every point. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Before the last k block nothing is stored into the output block, -/
theorem idle3_out : ∀ t : Fin cfg3.N, ¬isLast3 (grid3.coords t) → cfg3.idle 3 (grid3.coords t) = true := by decide +kernel
/-- and it is not written back there; -/
theorem noFlush3_out : ∀ t : Fin cfg3.N, ¬isLast3 (grid3.coords t) → (cfg3.win 3).flush t = false := by decide +kernel
/-- at the last k block it is stored. -/
theorem live3_out : ∀ t : Fin cfg3.N, isLast3 (grid3.coords t) → cfg3.idle 3 (grid3.coords t) = false := by decide +kernel

/-! ## The buffers the body is handed -/

abbrev stgX3 (t : Fin cfg3.N) : Memref sig .tc .vmem S2048x512 .bf16 := win3_0.stage (cfg3.slots t 0)
abbrev hstgX3 (t : Fin cfg3.N) : (stgX3 t).IsWhole := hstage3_0 ((cfg3.slots t 0).cast nbuf3_0)
abbrev stgW3 (t : Fin cfg3.N) : Memref sig .tc .vmem S1024x512 .bf16 := win3_1.stage (cfg3.slots t 1)
abbrev hstgW3 (t : Fin cfg3.N) : (stgW3 t).IsWhole := hstage3_1 ((cfg3.slots t 1).cast nbuf3_1)
abbrev stgB3 (t : Fin cfg3.N) : Memref sig .tc .vmem S1x1024 .f32 := win3_2.stage (cfg3.slots t 2)
abbrev hstgB3 (t : Fin cfg3.N) : (stgB3 t).IsWhole := hstage3_2 ((cfg3.slots t 2).cast nbuf3_2)
abbrev stgO3 (t : Fin cfg3.N) : Memref sig .tc .vmem S2048x1024 .f32 := win3_3.stage (cfg3.slots t 3)
abbrev hstgO3 (t : Fin cfg3.N) : (stgO3 t).IsWhole := hstage3_3 ((cfg3.slots t 3).cast nbuf3_3)
/-- The accumulator: a whole buffer of the kernel's own, carried from point to point. -/
abbrev accM3 : Memref sig .tc .vmem S2048x1024 .f32 := Memref.whole cc3_scratch0
/-- The views through which the accumulator's and the output block's contents are stated. -/
abbrev accV3 : View sig .tc .vmem S2048x1024 .f32 := accM3.view
abbrev outV3 : View sig .tc .vmem S2048x1024 .f32 := (Memref.whole cc3_stg3_0 : Memref sig .tc .vmem S2048x1024 .f32).view

/-- The region's invariant with the accumulator named: the accumulator whole at some contents, every other buffer
    of the region's own untouched, and the generator register at some state. -/
theorem PhiA3_split (c : Dev nD) :
    (Pipeline.ΦA spec3 c : sProp 𝕄)
      = iprop(iprop(iprop((∃ d, owns (c : Thread nD τ) accM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [accM3, owns_whole]; rfl

end Cert.Kernel.Acc

end
-- ==== Proof.WAcc3RunFirst.lean ====
/-
  Layer 4's kernel body run whole at one kind of grid point (k = 0).
-/
import proofs.«143296_j88201448391445_2_alg».proof.Proof.WAcc3Cases

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large)
set_option maxHeartbeats 1000000 in
/-- The body at a point with k = 0 (and k not last): on whole buffers — the three input blocks at their contents, the
    output block's buffer at contents it hands back untouched, the accumulator at anything — it runs to the
    continuation with the inputs and the output buffer as they were and the accumulator holding what its two stores
    (the zeros, then zeros plus the block product) wrote: the list `LS` of stored pieces, last first, which the run
    finds. -/
noncomputable def runFirst3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : isFirst3 i) (hc1 : ¬isLast3 i)
    (x : Vec F S2048x512 .bf16) (w : Vec F S1024x512 .bf16) (bb : Vec F S1x1024 .f32) :
    { LS : List (View.Piece (Elt F) S2048x1024 .f32) //
      ∀ (xo : Vec F S2048x1024 .f32) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ (∃ d, owns (c : Thread nD τ) arg7 fullShare d)
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc3__layer_kernel_bf16 i arg3 harg3 arg4 harg4 arg5 harg5 arg6 harg6 arg7 harg7) Kont } := by
  refine ⟨?_, fun xo E Kont => ?run⟩
  case run =>
    simp only [cc3__layer_kernel_bf16_eq_skeleton]; unfold cc3__layer_kernel_bf16_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Acc

end
-- ==== Proof.WAcc3RunMid.lean ====
/-
  Layer 4's kernel body run whole at one kind of grid point (0 < k < last).
-/
import proofs.«143296_j88201448391445_2_alg».proof.Proof.WAcc3RunFirst

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The body at a point with k neither 0 nor last: the accumulator enters at what the point before left (`xs`) and
    leaves holding its one store (`xs` plus the block product); everything else is handed back as it was. -/
noncomputable def runMid3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : ¬isLast3 i)
    (x : Vec F S2048x512 .bf16) (w : Vec F S1024x512 .bf16) (bb : Vec F S1x1024 .f32) (xs : Vec F S2048x1024 .f32) :
    { LS : List (View.Piece (Elt F) S2048x1024 .f32) //
      ∀ (xo : Vec F S2048x1024 .f32) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ owns (c : Thread nD τ) arg7 fullShare xs
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc3__layer_kernel_bf16 i arg3 harg3 arg4 harg4 arg5 harg5 arg6 harg6 arg7 harg7) Kont } := by
  refine ⟨?_, fun xo E Kont => ?run⟩
  case run =>
    simp only [cc3__layer_kernel_bf16_eq_skeleton]; unfold cc3__layer_kernel_bf16_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Acc

end
-- ==== Proof.WAcc3RunLast.lean ====
/-
  Layer 4's kernel body run whole at one kind of grid point (k last).
-/
import proofs.«143296_j88201448391445_2_alg».proof.Proof.WAcc3RunMid

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The body at a point with k last: the accumulator enters at what the point before left (`xs`), takes the last block
    product, and the output block's buffer (entered at anything) leaves holding the one store of the binarized sum
    plus bias: the two lists of stored pieces `LO` (output) and `LS` (accumulator) are what the run finds. -/
noncomputable def runLast3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i)
    (x : Vec F S2048x512 .bf16) (w : Vec F S1024x512 .bf16) (bb : Vec F S1x1024 .f32) (xs : Vec F S2048x1024 .f32) :
    Σ' (LO : List (View.Piece (Elt F) S2048x1024 .f32)), { LS : List (View.Piece (Elt F) S2048x1024 .f32) //
      ∀ (E : Set ℕ) (Kont : PUnit → sProp 𝕄),
        iprop(owns (c : Thread nD τ) arg3 fullShare x ∗ owns (c : Thread nD τ) arg4 fullShare w ∗ owns (c : Thread nD τ) arg5 fullShare bb ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare bb ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ Kont ⟨⟩))
          ⊢ wp frame (wpE (defs₀ (F := F)) Variants.none c none) E (cc3__layer_kernel_bf16 i arg3 harg3 arg4 harg4 arg5 harg5 arg6 harg6 arg7 harg7) Kont } := by
  refine ⟨?_, ?_, fun E Kont => ?run⟩
  case run =>
    simp only [cc3__layer_kernel_bf16_eq_skeleton]; unfold cc3__layer_kernel_bf16_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Acc

end
-- ==== Proof.WAcc3.lean ====
/-
  Layer 4's kernel region, at any contents `V` of the core's buffers when the region is entered.

  What the accumulator holds after each grid point is defined by recursion on the point's number: at a point with
  k = 0 it is what the body leaves there starting from anything, at every other point what the body leaves starting
  from what the point before left.  The output block's buffer matters only at the points with k last, where the body
  stores it whole.  From these the region's proof data: every input window's buffer holds its block at every point,
  the output window's buffer holds the stored block at the last k, and the region's invariant carries the accumulator
  at the recursion's value.
-/
import proofs.«143296_j88201448391445_2_alg».proof.Proof.WAcc3RunLast

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (a point that does not
    fetch it has the block index of the point before), for any proof data over `V` whose body leaves the block in
    place: the three input windows in turn. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the stores leave -/

/-- At k = 0 the two stores into the accumulator cover it. -/
theorem accCoverFirst3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : isFirst3 i) (hc1 : ¬isLast3 i) (x : Vec F S2048x512 .bf16) (w : Vec F S1024x512 .bf16) (bb : Vec F S1x1024 .f32) (y : S2048x1024.Idx) :
    ∃ pc ∈ (runFirst3 c i arg3 harg3 arg4 harg4 arg5 harg5 arg6 harg6 arg7 harg7 hc0 hc1 x w bb).1, y ∈ pc.1.set :=
  View.cover_of_tiledL (runFirst3 c i arg3 harg3 arg4 harg4 arg5 harg5 arg6 harg6 arg7 harg7 hc0 hc1 x w bb).1 S2048x1024.size (by sl_kernel_rfl) y
/-- What the accumulator holds after a point with k = 0: the stored pieces read back. -/
def accFirst3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : isFirst3 i) (hc1 : ¬isLast3 i) (x : Vec F S2048x512 .bf16) (w : Vec F S1024x512 .bf16) (bb : Vec F S1x1024 .f32) : Vec F S2048x1024 .f32 :=
  accV3.read (Elt F) (accV3.writes (Elt F) accV3.junk (runFirst3 c i arg3 harg3 arg4 harg4 arg5 harg5 arg6 harg6 arg7 harg7 hc0 hc1 x w bb).1)

/-- At 0 < k < last the one store into the accumulator covers it. -/
theorem accCoverMid3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : ¬isLast3 i) (x : Vec F S2048x512 .bf16) (w : Vec F S1024x512 .bf16) (bb : Vec F S1x1024 .f32) (xs : Vec F S2048x1024 .f32) (y : S2048x1024.Idx) :
    ∃ pc ∈ (runMid3 c i arg3 harg3 arg4 harg4 arg5 harg5 arg6 harg6 arg7 harg7 hc0 hc1 x w bb xs).1, y ∈ pc.1.set :=
  View.cover_of_tiledL (runMid3 c i arg3 harg3 arg4 harg4 arg5 harg5 arg6 harg6 arg7 harg7 hc0 hc1 x w bb xs).1 S2048x1024.size (by sl_kernel_rfl) y
/-- What the accumulator holds after such a point, from what it held before (`xs`). -/
def accMid3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : ¬isLast3 i) (x : Vec F S2048x512 .bf16) (w : Vec F S1024x512 .bf16) (bb : Vec F S1x1024 .f32) (xs : Vec F S2048x1024 .f32) : Vec F S2048x1024 .f32 :=
  accV3.read (Elt F) (accV3.writes (Elt F) accV3.junk (runMid3 c i arg3 harg3 arg4 harg4 arg5 harg5 arg6 harg6 arg7 harg7 hc0 hc1 x w bb xs).1)

/-- At k last the store into the accumulator covers it, -/
theorem accCoverLast3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i) (x : Vec F S2048x512 .bf16) (w : Vec F S1024x512 .bf16) (bb : Vec F S1x1024 .f32) (xs : Vec F S2048x1024 .f32) (y : S2048x1024.Idx) :
    ∃ pc ∈ (runLast3 c i arg3 harg3 arg4 harg4 arg5 harg5 arg6 harg6 arg7 harg7 hc0 hc1 x w bb xs).2.1, y ∈ pc.1.set :=
  View.cover_of_tiledL (runLast3 c i arg3 harg3 arg4 harg4 arg5 harg5 arg6 harg6 arg7 harg7 hc0 hc1 x w bb xs).2.1 S2048x1024.size (by sl_kernel_rfl) y
/-- and the store into the output block covers the block. -/
theorem outCoverLast3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i) (x : Vec F S2048x512 .bf16) (w : Vec F S1024x512 .bf16) (bb : Vec F S1x1024 .f32) (xs : Vec F S2048x1024 .f32) (y : S2048x1024.Idx) :
    ∃ pc ∈ (runLast3 c i arg3 harg3 arg4 harg4 arg5 harg5 arg6 harg6 arg7 harg7 hc0 hc1 x w bb xs).1, y ∈ pc.1.set :=
  View.cover_of_tiledL (runLast3 c i arg3 harg3 arg4 harg4 arg5 harg5 arg6 harg6 arg7 harg7 hc0 hc1 x w bb xs).1 S2048x1024.size (by sl_kernel_rfl) y
def accLast3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i) (x : Vec F S2048x512 .bf16) (w : Vec F S1024x512 .bf16) (bb : Vec F S1x1024 .f32) (xs : Vec F S2048x1024 .f32) : Vec F S2048x1024 .f32 :=
  accV3.read (Elt F) (accV3.writes (Elt F) accV3.junk (runLast3 c i arg3 harg3 arg4 harg4 arg5 harg5 arg6 harg6 arg7 harg7 hc0 hc1 x w bb xs).2.1)
/-- The output block as stored at k last. -/
def outLast3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i) (x : Vec F S2048x512 .bf16) (w : Vec F S1024x512 .bf16) (bb : Vec F S1x1024 .f32) (xs : Vec F S2048x1024 .f32) : Vec F S2048x1024 .f32 :=
  outV3.read (Elt F) (outV3.writes (Elt F) outV3.junk (runLast3 c i arg3 harg3 arg4 harg4 arg5 harg5 arg6 harg6 arg7 harg7 hc0 hc1 x w bb xs).1)

/-! ## The accumulator, point by point -/

set_option maxHeartbeats 4000000 in
/-- The accumulator after the body at point number `n`. -/
def accAt3 (c : Dev nD) : (n : ℕ) → n < cfg3.N → Vec F S2048x1024 .f32
  | 0, hn =>
      accFirst3 c (grid3.coords ⟨0, hn⟩) (stgX3 ⟨0, hn⟩) (hstgX3 ⟨0, hn⟩) (stgW3 ⟨0, hn⟩) (hstgW3 ⟨0, hn⟩) (stgB3 ⟨0, hn⟩) (hstgB3 ⟨0, hn⟩) (stgO3 ⟨0, hn⟩) (hstgO3 ⟨0, hn⟩) accM3 (Memref.isWhole_whole _) ((isFirst3_iff ⟨0, hn⟩).mpr (Nat.zero_mod _)) (fun h => (fun h => by (try dsimp only at h); omega) ((isLast3_iff ⟨0, hn⟩).mp h)) (iblk3 V c 0 ⟨0, hn⟩) (iblk3 V c 1 ⟨0, hn⟩) (iblk3 V c 2 ⟨0, hn⟩)
  | n + 1, hn =>
    if h0 : (n + 1) % 8 = 0 then
      accFirst3 c (grid3.coords ⟨n + 1, hn⟩) (stgX3 ⟨n + 1, hn⟩) (hstgX3 ⟨n + 1, hn⟩) (stgW3 ⟨n + 1, hn⟩) (hstgW3 ⟨n + 1, hn⟩) (stgB3 ⟨n + 1, hn⟩) (hstgB3 ⟨n + 1, hn⟩) (stgO3 ⟨n + 1, hn⟩) (hstgO3 ⟨n + 1, hn⟩) accM3 (Memref.isWhole_whole _) ((isFirst3_iff ⟨n + 1, hn⟩).mpr h0) (fun h => (fun h => by (try dsimp only at h); omega) ((isLast3_iff ⟨n + 1, hn⟩).mp h)) (iblk3 V c 0 ⟨n + 1, hn⟩) (iblk3 V c 1 ⟨n + 1, hn⟩) (iblk3 V c 2 ⟨n + 1, hn⟩)
    else
      if h1 : (n + 1) % 8 = 7 then
        accLast3 c (grid3.coords ⟨n + 1, hn⟩) (stgX3 ⟨n + 1, hn⟩) (hstgX3 ⟨n + 1, hn⟩) (stgW3 ⟨n + 1, hn⟩) (hstgW3 ⟨n + 1, hn⟩) (stgB3 ⟨n + 1, hn⟩) (hstgB3 ⟨n + 1, hn⟩) (stgO3 ⟨n + 1, hn⟩) (hstgO3 ⟨n + 1, hn⟩) accM3 (Memref.isWhole_whole _) (fun h => h0 ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (accAt3 c n (Nat.lt_of_succ_lt hn))
      else
        accMid3 c (grid3.coords ⟨n + 1, hn⟩) (stgX3 ⟨n + 1, hn⟩) (hstgX3 ⟨n + 1, hn⟩) (stgW3 ⟨n + 1, hn⟩) (hstgW3 ⟨n + 1, hn⟩) (stgB3 ⟨n + 1, hn⟩) (hstgB3 ⟨n + 1, hn⟩) (stgO3 ⟨n + 1, hn⟩) (hstgO3 ⟨n + 1, hn⟩) accM3 (Memref.isWhole_whole _) (fun h => h0 ((isFirst3_iff ⟨n + 1, hn⟩).mp h)) (fun h => h1 ((isLast3_iff ⟨n + 1, hn⟩).mp h)) (iblk3 V c 0 ⟨n + 1, hn⟩) (iblk3 V c 1 ⟨n + 1, hn⟩) (iblk3 V c 2 ⟨n + 1, hn⟩) (accAt3 c n (Nat.lt_of_succ_lt hn))

set_option maxHeartbeats 4000000 in
/-- The accumulator after a point with k = 0. -/
theorem accAt3_first (c : Dev nD) (t : Fin cfg3.N) (h0 : t.val % 8 = 0) (h1 : ¬t.val % 8 = 7) :
    accAt3 V c t.val t.isLt = accFirst3 c (grid3.coords t) (stgX3 t) (hstgX3 t) (stgW3 t) (hstgW3 t) (stgB3 t) (hstgB3 t) (stgO3 t) (hstgO3 t) accM3 (Memref.isWhole_whole _) ((isFirst3_iff t).mpr h0) (fun h => h1 ((isLast3_iff t).mp h)) (iblk3 V c 0 t) (iblk3 V c 1 t) (iblk3 V c 2 t) := by
  obtain ⟨n, hn⟩ := t
  cases n with
  | zero => exact rfl
  | succ n => exact (dif_pos h0).trans rfl

set_option maxHeartbeats 4000000 in
/-- The accumulator after a point with 0 < k < last, over what the point before left. -/
theorem accAt3_mid (c : Dev nD) (t : Fin cfg3.N) (h0 : ¬t.val % 8 = 0) (h1 : ¬t.val % 8 = 7) :
    accAt3 V c t.val t.isLt = accMid3 c (grid3.coords t) (stgX3 t) (hstgX3 t) (stgW3 t) (hstgW3 t) (stgB3 t) (hstgB3 t) (stgO3 t) (hstgO3 t) accM3 (Memref.isWhole_whole _) (fun h => h0 ((isFirst3_iff t).mp h)) (fun h => h1 ((isLast3_iff t).mp h)) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

set_option maxHeartbeats 4000000 in
/-- The accumulator after a point with k last, over what the point before left. -/
theorem accAt3_last (c : Dev nD) (t : Fin cfg3.N) (h0 : ¬t.val % 8 = 0) (h1 : t.val % 8 = 7) :
    accAt3 V c t.val t.isLt = accLast3 c (grid3.coords t) (stgX3 t) (hstgX3 t) (stgW3 t) (hstgW3 t) (stgB3 t) (hstgB3 t) (stgO3 t) (hstgO3 t) accM3 (Memref.isWhole_whole _) (fun h => h0 ((isFirst3_iff t).mp h)) ((isLast3_iff t).mpr h1) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The output block's buffer, point by point -/

set_option maxHeartbeats 4000000 in
/-- After the body at point `t`: where k is last, the block the body stored, computed from what the point before
    left in the accumulator; elsewhere nothing was stored and nothing consults the value (junk read back). -/
def outAt3 (c : Dev nD) (t : Fin cfg3.N) : Vec F S2048x1024 .f32 :=
  if h1 : t.val % 8 = 7 then
    outLast3 c (grid3.coords t) (stgX3 t) (hstgX3 t) (stgW3 t) (hstgW3 t) (stgB3 t) (hstgB3 t) (stgO3 t) (hstgO3 t) accM3 (Memref.isWhole_whole _) (fun h => (by omega : ¬t.val % 8 = 0) ((isFirst3_iff t).mp h)) ((isLast3_iff t).mpr h1) (iblk3 V c 0 t) (iblk3 V c 1 t) (iblk3 V c 2 t) (accAt3 V c (t.val - 1) (Nat.lt_of_le_of_lt (Nat.sub_le _ _) t.isLt))
  else outV3.read (Elt F) outV3.junk

theorem outAt3_last (c : Dev nD) (t : Fin cfg3.N) (h0 : ¬t.val % 8 = 0) (h1 : t.val % 8 = 7) :
    outAt3 V c t = outLast3 c (grid3.coords t) (stgX3 t) (hstgX3 t) (stgW3 t) (hstgW3 t) (stgB3 t) (hstgB3 t) (stgO3 t) (hstgO3 t) accM3 (Memref.isWhole_whole _) (fun h => h0 ((isFirst3_iff t).mp h)) ((isLast3_iff t).mpr h1) (iblk3 V c 0 t) (iblk3 V c 1 t) (iblk3 V c 2 t) (accAt3 V c (t.val - 1) (Nat.lt_of_le_of_lt (Nat.sub_le _ _) t.isLt)) := by
  unfold outAt3; exact dif_pos h1

/-! ## The region's invariant -/

/-- Before point number `n`: at the region's entry the accumulator at anything; afterwards at what the point before
    left; always beside the region's other buffers untouched and the generator register at some state. -/
def PhiAcc3 (c : Dev nD) : (n : ℕ) → n ≤ cfg3.N → sProp 𝕄
  | 0, _ => Pipeline.ΦA spec3 c
  | n + 1, hn => iprop(iprop(owns (c : Thread nD τ) accM3 fullShare (accAt3 V c n hn)
      ∗ Pipeline.scopedRestBut (Ix := Unit) (Name := ℕ) (U := UR sig nD τ) (Lvl := ℕ) (Val := Elt F) spec3 c [cc3_scratch0]) ∗ (∃ r, prngReg c r))

theorem PhiAcc3_zero (c : Dev nD) (n : ℕ) (h : n ≤ cfg3.N) (hz : n = 0) : PhiAcc3 V c n h = Pipeline.ΦA spec3 c := by
  subst hz; rfl
theorem PhiAcc3_succ (c : Dev nD) (n : ℕ) (hn : n < cfg3.N) :
    PhiAcc3 V c (n + 1) hn = iprop(iprop(owns (c : Thread nD τ) accM3 fullShare (accAt3 V c n hn)
      ∗ Pipeline.scopedRestBut (Ix := Unit) (Name := ℕ) (U := UR sig nD τ) (Lvl := ℕ) (Val := Elt F) spec3 c [cc3_scratch0]) ∗ (∃ r, prngReg c r)) := rfl
theorem PhiAcc3_pos (c : Dev nD) (n : ℕ) (h : n ≤ cfg3.N) (hz : n ≠ 0) :
    PhiAcc3 V c n h = iprop(iprop(owns (c : Thread nD τ) accM3 fullShare (accAt3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The region's proof data on core `c`: the arrays as found; after the body each input's buffer at its block and the
    output's at `outAt`; the invariant `PhiAcc`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := PhiAcc3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem Phi3_castSucc (c : Dev nD) (t : Fin cfg3.N) :
    (dat3 V c).Φ t.castSucc = PhiAcc3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end

end Cert.Kernel.Acc

end
-- ==== Proof.WAcc3Body.lean ====
/-
  Layer 4's kernel region: the body obligation at every grid point, and the invariant's two ends.
-/
import proofs.«143296_j88201448391445_2_alg».proof.Proof.WAcc3

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section

variable (V : (c : Dev nD) → (b : Ref sig .tc) → Buf (Elt F) ((c : Thread nD τ).loc b))

/-- What the body is called with at point `t`: the invariant, nothing owed, the four windows' current buffers. -/
def bodyPre3 (c : Dev nD) (t : Fin cfg3.N) : sProp 𝕄 :=
  iprop((dat3 V c).Φ t.castSucc ∗ (dat3 V c).owesAt () t.castSucc
    ∗ (∃ d, owns (c : Thread nD τ) (stgX3 t) fullShare ((dat3 V c).before 0 t d))
    ∗ (∃ d, owns (c : Thread nD τ) (stgW3 t) fullShare ((dat3 V c).before 1 t d))
    ∗ (∃ d, owns (c : Thread nD τ) (stgB3 t) fullShare ((dat3 V c).before 2 t d))
    ∗ (∃ d, owns (c : Thread nD τ) (stgO3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point.  The inputs' buffers hold their blocks; the point's number modulo 8 says which of the
    three runs applies; the invariant hands the run the accumulator (at anything when k = 0, at what the point before
    left otherwise) and takes it back at this point's value, because the run's stores cover it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiAcc3 V c (t.val + 1) t.isLt from rfl, PhiAcc3_succ]
  have hN : t.val < 128 := lt_of_lt_of_eq t.isLt (show cfg3.N = 128 from N_3)
  by_cases h0 : t.val % 8 = 0
  · have h1 : ¬t.val % 8 = 7 := by omega
    rw [show (dat3 V c).leavesExact 0 t = owns (c : Thread nD τ) (stgX3 t) fullShare ((dat3 V c).after 0 t) from by
      unfold Dat.leavesExact; rw [live3_0 t], after3_0]
    rw [show (dat3 V c).leavesExact 1 t = owns (c : Thread nD τ) (stgW3 t) fullShare ((dat3 V c).after 1 t) from by
      unfold Dat.leavesExact; rw [live3_1 t], after3_1]
    rw [show (dat3 V c).leavesExact 2 t = owns (c : Thread nD τ) (stgB3 t) fullShare ((dat3 V c).after 2 t) from by
      unfold Dat.leavesExact; rw [live3_2 t], after3_2]
    rw [Dat.leavesExact_idle (dat3 V c) 3 t (idle3_out t (fun h => h1 ((isLast3_iff t).mp h))) (noFlush3_out t (fun h => h1 ((isLast3_iff t).mp h)))]
    rw [accAt3_first V c t h0 h1]
    unfold accFirst3; (try dsimp only)
    by_cases hz : t.val = 0
    · rw [Phi3_castSucc V c t, PhiAcc3_zero V c _ _ hz, PhiA3_split]
      iintro ⟨⟨⟨HS, Hrest⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst3 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [Phi3_castSucc V c t, PhiAcc3_pos V c _ _ hz]
      iintro ⟨⟨⟨HS, Hrest⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst3 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · -- k last
      rw [show (dat3 V c).leavesExact 0 t = owns (c : Thread nD τ) (stgX3 t) fullShare ((dat3 V c).after 0 t) from by
        unfold Dat.leavesExact; rw [live3_0 t], after3_0]
      rw [show (dat3 V c).leavesExact 1 t = owns (c : Thread nD τ) (stgW3 t) fullShare ((dat3 V c).after 1 t) from by
        unfold Dat.leavesExact; rw [live3_1 t], after3_1]
      rw [show (dat3 V c).leavesExact 2 t = owns (c : Thread nD τ) (stgB3 t) fullShare ((dat3 V c).after 2 t) from by
        unfold Dat.leavesExact; rw [live3_2 t], after3_2]
      rw [show (dat3 V c).leavesExact 3 t = owns (c : Thread nD τ) (stgO3 t) fullShare ((dat3 V c).after 3 t) from by
        unfold Dat.leavesExact; rw [live3_out t ((isLast3_iff t).mpr h1)], after3_3]
      rw [outAt3_last V c t h0 h1, accAt3_last V c t h0 h1]
      unfold outLast3 accLast3; (try dsimp only)
      rw [Phi3_castSucc V c t, PhiAcc3_pos V c _ _ hz]
      iintro ⟨⟨⟨HS, Hrest⟩, Hg⟩, Ho, ⟨%d0, H0⟩, ⟨%d1, H1⟩, ⟨%d2, H2⟩, ⟨%d3, H3⟩⟩
      iapply ((runLast3 c (grid3.coords t) _ _ _ _ _ _ _ _ _ _ (fun h => h0 ((isFirst3_iff t).mp h)) ((isLast3_iff t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverLast3 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast3 c _ _ _ _ _ _ _ _ _ _ _ _ _ _ _ _ _)
    · -- 0 < k < last
      rw [show (dat3 V c).leavesExact 0 t = owns (c : Thread nD τ) (stgX3 t) fullShare ((dat3 V c).after 0 t) from by
        unfold Dat.leavesExact; rw [live3_0 t], after3_0]
      rw [show (dat3 V c).leavesExact 1 t = owns (c : Thread nD τ) (stgW3 t) fullShare ((dat3 V c).after 1 t) from by
        unfold Dat.leavesExact; rw [live3_1 t], after3_1]
      rw [show (dat3 V c).leavesExact 2 t = owns (c : Thread nD τ) (stgB3 t) fullShare ((dat3 V c).after 2 t) from by
        unfold Dat.leavesExact; rw [live3_2 t], after3_2]
      rw [Dat.leavesExact_idle (dat3 V c) 3 t (idle3_out t (fun h => h1 ((isLast3_iff t).mp h))) (noFlush3_out t (fun h => h1 ((isLast3_iff t).mp h)))]
      rw [accAt3_mid V c t h0 h1]
      unfold accMid3; (try dsimp only)
      rw [Phi3_castSucc V c t, PhiAcc3_pos V c _ _ hz]
      iintro ⟨⟨⟨HS, Hrest⟩, Hg⟩, Ho, ⟨%d0, H0⟩, ⟨%d1, H1⟩, ⟨%d2, H2⟩, ⟨%d3, H3⟩⟩
      iapply ((runMid3 c (grid3.coords t) _ _ _ _ _ _ _ _ _ _ (fun h => h0 ((isFirst3_iff t).mp h)) (fun h => h1 ((isLast3_iff t).mp h)) (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverMid3 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : Pipeline.ΦA spec3 c ⊢ (dat3 V c).Φ 0 := by
  rw [show (dat3 V c).Φ 0 = PhiAcc3 V c 0 (Nat.zero_le _) from rfl, PhiAcc3_zero V c 0 _ rfl]

/-- After the last point the invariant gives the same back: the accumulator's contents are forgotten. -/
theorem hout3 (c : Dev nD) : (dat3 V c).Φ (Fin.last cfg3.N) ⊢ Pipeline.ΦA spec3 c := by
  have hN : cfg3.N = 128 := N_3
  rw [show (dat3 V c).Φ (Fin.last cfg3.N) = PhiAcc3 V c (Fin.last cfg3.N).val (Nat.le_of_lt_succ (Fin.last cfg3.N).isLt) from rfl,
    PhiAcc3_pos V c _ _ (by rw [Fin.val_last]; omega), PhiA3_split]
  iintro ⟨⟨HS, Hrest⟩, Hg⟩
  isplitl [HS Hrest]
  · isplitl [HS]
    · iexists _; iexact HS
    iexact Hrest
  iexact Hg

end

end Cert.Kernel.Acc

end
-- ==== Proof.WRunVals.lean ====
/-
  The program's four kernel regions, joined: the contents each region is entered at and what it leaves.

  Between two items of the program every unscoped buffer of the core holds a known array: the launch memory, then the
  effect of each stretch of host operations, then, after a region, the same except at the region's result array.  What
  a region leaves in its result array is what its pipeline computes from the contents it was entered at, so the four
  results are fixed one after another: the first from the launch memory, each next one from the one before.  This
  module fixes them, shows that the contents before a region do not depend on the results of later regions, and reads
  each region's exit contents at its four arrays.
-/
import proofs.«143296_j88201448391445_2_alg».proof.Proof.WAcc0Body
import proofs.«143296_j88201448391445_2_alg».proof.Proof.WAcc1Body
import proofs.«143296_j88201448391445_2_alg».proof.Proof.WAcc2Body
import proofs.«143296_j88201448391445_2_alg».proof.Proof.WAcc3Body
import proofs.«143296_j88201448391445_2_alg».proof.Proof.Gen.Kernel.Regions
import Idealize.ShloMosaic.Lib.Pipeline.RegionsLoop

set_option maxRecDepth 16384

noncomputable section

namespace Cert.Kernel.Run
open Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [BitOps F]

local notation "𝕄" => MT nD τ sig Unit (Elt F) ℕ (UR sig nD τ) ℕ

variable (m : (ℓ : Loc nD τ sig) → Buf (Elt F) ℓ)

/-! # The contents each region is entered at, and what it leaves

The buffers' contents at every boundary of @main are the generated valuations `V0 … V16`, written over an unknown
`outs` for what each region leaves in its result array.  Here the unknown is chosen: region K's result array is left
at what its pipeline computes from the contents the region is entered at, and those contents are the valuation just
before the region, at the choice made for the regions before it.  The choice is made region by region, so that each
stage only mentions the stages before it. -/

/-- Region 0 is entered at the launch contents after the first three host stretches. -/
abbrev entry0 : (c : Dev nD) → (b : Ref sig .tc) → Buf (Elt F) ((c : Thread nD τ).loc b) := fun c b => V3 m c b
/-- What region 0 leaves in its result array. -/
def res0 (c : Dev nD) : Buf (Elt F) ((c : Thread nD τ).loc main_v6) := (dat0 (entry0 m) c).arrAt 3 cfg0.N
/-- The result arrays after region 0, over the launch contents. -/
def val1 (c : Dev nD) : Valuation τ sig (Elt F) := Function.update (V0 m c) main_v6 (res0 m c)
def outs1 : Outs (F := F) := fun _ r c => val1 m c r

/-- Region 1 is entered at the contents before it, region 0's result being `res0`. -/
abbrev entry1 : (c : Dev nD) → (b : Ref sig .tc) → Buf (Elt F) ((c : Thread nD τ).loc b) := fun c b => V7 m (outs1 m) c b
def res1 (c : Dev nD) : Buf (Elt F) ((c : Thread nD τ).loc main_v14) := (dat1 (entry1 m) c).arrAt 3 cfg1.N
def val2 (c : Dev nD) : Valuation τ sig (Elt F) := Function.update (val1 m c) main_v14 (res1 m c)
def outs2 : Outs (F := F) := fun _ r c => val2 m c r

/-- Region 2 is entered at the contents before it, the results of regions 0 and 1 being `res0`, `res1`. -/
abbrev entry2 : (c : Dev nD) → (b : Ref sig .tc) → Buf (Elt F) ((c : Thread nD τ).loc b) := fun c b => V11 m (outs2 m) c b
def res2 (c : Dev nD) : Buf (Elt F) ((c : Thread nD τ).loc main_v22) := (dat2 (entry2 m) c).arrAt 3 cfg2.N
def val3 (c : Dev nD) : Valuation τ sig (Elt F) := Function.update (val2 m c) main_v22 (res2 m c)
def outs3 : Outs (F := F) := fun _ r c => val3 m c r

/-- Region 3 is entered at the contents before it, the results of regions 0, 1 and 2 being `res0`, `res1`, `res2`. -/
abbrev entry3 : (c : Dev nD) → (b : Ref sig .tc) → Buf (Elt F) ((c : Thread nD τ).loc b) := fun c b => V15 m (outs3 m) c b
def res3 (c : Dev nD) : Buf (Elt F) ((c : Thread nD τ).loc main_v30) := (dat3 (entry3 m) c).arrAt 3 cfg3.N
def val4 (c : Dev nD) : Valuation τ sig (Elt F) := Function.update (val3 m c) main_v30 (res3 m c)
/-- The choice of every region's result. -/
def outs4 : Outs (F := F) := fun _ r c => val4 m c r

/-! ## The choices read at the result arrays -/

theorem val1_v6 (c : Dev nD) : val1 m c main_v6 = res0 m c := by unfold val1; exact Function.update_self ..
theorem val2_v6 (c : Dev nD) : val2 m c main_v6 = res0 m c := by
  unfold val2; rw [Function.update_of_ne (StableHlo.devRef_ne_of_ne (by decide) : (Proc.devRef .tc main_v6 : DevRef τ sig) ≠ Proc.devRef .tc main_v14)]; exact val1_v6 m c
theorem val2_v14 (c : Dev nD) : val2 m c main_v14 = res1 m c := by unfold val2; exact Function.update_self ..
theorem val3_v6 (c : Dev nD) : val3 m c main_v6 = res0 m c := by
  unfold val3; rw [Function.update_of_ne (StableHlo.devRef_ne_of_ne (by decide) : (Proc.devRef .tc main_v6 : DevRef τ sig) ≠ Proc.devRef .tc main_v22)]; exact val2_v6 m c
theorem val3_v14 (c : Dev nD) : val3 m c main_v14 = res1 m c := by
  unfold val3; rw [Function.update_of_ne (StableHlo.devRef_ne_of_ne (by decide) : (Proc.devRef .tc main_v14 : DevRef τ sig) ≠ Proc.devRef .tc main_v22)]; exact val2_v14 m c
theorem val3_v22 (c : Dev nD) : val3 m c main_v22 = res2 m c := by unfold val3; exact Function.update_self ..
theorem val4_v6 (c : Dev nD) : val4 m c main_v6 = res0 m c := by
  unfold val4; rw [Function.update_of_ne (StableHlo.devRef_ne_of_ne (by decide) : (Proc.devRef .tc main_v6 : DevRef τ sig) ≠ Proc.devRef .tc main_v30)]; exact val3_v6 m c
theorem val4_v14 (c : Dev nD) : val4 m c main_v14 = res1 m c := by
  unfold val4; rw [Function.update_of_ne (StableHlo.devRef_ne_of_ne (by decide) : (Proc.devRef .tc main_v14 : DevRef τ sig) ≠ Proc.devRef .tc main_v30)]; exact val3_v14 m c
theorem val4_v22 (c : Dev nD) : val4 m c main_v22 = res2 m c := by
  unfold val4; rw [Function.update_of_ne (StableHlo.devRef_ne_of_ne (by decide) : (Proc.devRef .tc main_v22 : DevRef τ sig) ≠ Proc.devRef .tc main_v30)]; exact val3_v22 m c
theorem val4_v30 (c : Dev nD) : val4 m c main_v30 = res3 m c := by unfold val4; exact Function.update_self ..

/-! ## A boundary's contents depend on the choice only through the results of the regions before it -/

theorem V4_congr (c : Dev nD) {o o' : Outs (F := F)} (h : o 4 main_v6 c = o' 4 main_v6 c) : V4 m o c = V4 m o' c := by
  show Function.update (V3 m c) _ (o 4 main_v6 c) = Function.update (V3 m c) _ (o' 4 main_v6 c); rw [h]
theorem V7_congr (c : Dev nD) {o o' : Outs (F := F)} (h : o 4 main_v6 c = o' 4 main_v6 c) : V7 m o c = V7 m o' c := by
  show StableHlo.after hostOps1_2 (StableHlo.after hostOps1_1 (StableHlo.after hostOps1 (V4 m o c))) = StableHlo.after hostOps1_2 (StableHlo.after hostOps1_1 (StableHlo.after hostOps1 (V4 m o' c)))
  rw [V4_congr m c h]
theorem V8_congr (c : Dev nD) {o o' : Outs (F := F)} (h : o 4 main_v6 c = o' 4 main_v6 c) (h' : o 8 main_v14 c = o' 8 main_v14 c) : V8 m o c = V8 m o' c := by
  show Function.update (V7 m o c) _ (o 8 main_v14 c) = Function.update (V7 m o' c) _ (o' 8 main_v14 c); rw [V7_congr m c h, h']
theorem V11_congr (c : Dev nD) {o o' : Outs (F := F)} (h : o 4 main_v6 c = o' 4 main_v6 c) (h' : o 8 main_v14 c = o' 8 main_v14 c) : V11 m o c = V11 m o' c := by
  show StableHlo.after hostOps2_2 (StableHlo.after hostOps2_1 (StableHlo.after hostOps2 (V8 m o c))) = StableHlo.after hostOps2_2 (StableHlo.after hostOps2_1 (StableHlo.after hostOps2 (V8 m o' c)))
  rw [V8_congr m c h h']
theorem V12_congr (c : Dev nD) {o o' : Outs (F := F)} (h : o 4 main_v6 c = o' 4 main_v6 c) (h' : o 8 main_v14 c = o' 8 main_v14 c) (h'' : o 12 main_v22 c = o' 12 main_v22 c) : V12 m o c = V12 m o' c := by
  show Function.update (V11 m o c) _ (o 12 main_v22 c) = Function.update (V11 m o' c) _ (o' 12 main_v22 c); rw [V11_congr m c h h', h'']
theorem V15_congr (c : Dev nD) {o o' : Outs (F := F)} (h : o 4 main_v6 c = o' 4 main_v6 c) (h' : o 8 main_v14 c = o' 8 main_v14 c) (h'' : o 12 main_v22 c = o' 12 main_v22 c) : V15 m o c = V15 m o' c := by
  show StableHlo.after hostOps3_2 (StableHlo.after hostOps3_1 (StableHlo.after hostOps3 (V12 m o c))) = StableHlo.after hostOps3_2 (StableHlo.after hostOps3_1 (StableHlo.after hostOps3 (V12 m o' c)))
  rw [V12_congr m c h h' h'']

/-- Before region 1 the final choice and the first stage agree. -/
theorem V7_o4 (c : Dev nD) : V7 m (outs4 m) c = V7 m (outs1 m) c :=
  V7_congr m c ((val4_v6 m c).trans (val1_v6 m c).symm)
theorem V11_o4 (c : Dev nD) : V11 m (outs4 m) c = V11 m (outs2 m) c :=
  V11_congr m c ((val4_v6 m c).trans (val2_v6 m c).symm) ((val4_v14 m c).trans (val2_v14 m c).symm)
theorem V15_o4 (c : Dev nD) : V15 m (outs4 m) c = V15 m (outs3 m) c :=
  V15_congr m c ((val4_v6 m c).trans (val3_v6 m c).symm) ((val4_v14 m c).trans (val3_v14 m c).symm) ((val4_v22 m c).trans (val3_v22 m c).symm)

/-! ## What each region finds in its activations' array: what the region before it left -/

theorem entry0_x (c : Dev nD) : entry0 m c main_arg0 = m ((c : Thread nD τ).loc main_arg0) :=
  (V3_of m c main_arg0 (by decide)).trans <| (V2_of m c main_arg0 (by decide)).trans <| (V1_of m c main_arg0 (by decide)).trans rfl
theorem entry1_x (c : Dev nD) : entry1 m c main_v6 = (dat0 (entry0 m) c).arrAt 3 cfg0.N :=
  (V7_of m (outs1 m) c main_v6 (by decide)).trans <| (V6_of m (outs1 m) c main_v6 (by decide)).trans <| (V5_of m (outs1 m) c main_v6 (by decide)).trans <|
    (show V4 m (outs1 m) c main_v6 = outs1 m 4 main_v6 c from Function.update_self ..).trans (val1_v6 m c)
theorem entry2_x (c : Dev nD) : entry2 m c main_v14 = (dat1 (entry1 m) c).arrAt 3 cfg1.N :=
  (V11_of m (outs2 m) c main_v14 (by decide)).trans <| (V10_of m (outs2 m) c main_v14 (by decide)).trans <| (V9_of m (outs2 m) c main_v14 (by decide)).trans <|
    (show V8 m (outs2 m) c main_v14 = outs2 m 8 main_v14 c from Function.update_self ..).trans (val2_v14 m c)
theorem entry3_x (c : Dev nD) : entry3 m c main_v22 = (dat2 (entry2 m) c).arrAt 3 cfg2.N :=
  (V15_of m (outs3 m) c main_v22 (by decide)).trans <| (V14_of m (outs3 m) c main_v22 (by decide)).trans <| (V13_of m (outs3 m) c main_v22 (by decide)).trans <|
    (show V12 m (outs3 m) c main_v22 = outs3 m 12 main_v22 c from Function.update_self ..).trans (val3_v22 m c)

/-! ## Region 0 -/

/-- The contents region 0 is left at, read at the core's references. -/
abbrev exit0 : (c : Dev nD) → (b : Ref sig .tc) → Buf (Elt F) ((c : Thread nD τ).loc b) := fun c b => V4 m (outs4 m) c b

/-- At region 0's exit each of its arrays holds what its pipeline leaves there: the result array the chosen result,
    an input array what it held at entry (no point writes it). -/
theorem hF0 (c : Dev nD) : ∀ w : Fin 4, (dat0 (entry0 m) c).arrAt w cfg0.N = exit0 m c (Pipeline.arrRef spec0 w)
  | 0 => ((dat0 (entry0 m) c).arrAt_in 0 rfl _).trans ((A_eq0 (entry0 m) c 0).trans (V4_of m (outs4 m) c (Pipeline.arrRef spec0 0) (by decide)).symm)
  | 1 => ((dat0 (entry0 m) c).arrAt_in 1 rfl _).trans ((A_eq0 (entry0 m) c 1).trans (V4_of m (outs4 m) c (Pipeline.arrRef spec0 1) (by decide)).symm)
  | 2 => ((dat0 (entry0 m) c).arrAt_in 2 rfl _).trans ((A_eq0 (entry0 m) c 2).trans (V4_of m (outs4 m) c (Pipeline.arrRef spec0 2) (by decide)).symm)
  | 3 => ((show V4 m (outs4 m) c main_v6 = outs4 m 4 main_v6 c from Function.update_self ..).trans (val4_v6 m c)).symm
  | ⟨_ + 4, h⟩ => absurd h (Nat.not_lt.2 (Nat.le_add_left _ _))
/-- Every buffer that is none of region 0's arrays is left as entered. -/
theorem hrest0 (c : Dev nD) : ∀ b, b ∉ Finset.univ.image (Pipeline.arrRef spec0) → exit0 m c b = entry0 m c b :=
  fun b hb => V4_of m (outs4 m) c b (by rw [List.mem_singleton]; exact fun e => hb (Finset.mem_image.mpr ⟨3, Finset.mem_univ _, e.symm⟩))

/-! ## Region 1 -/

/-- The contents region 1 is left at, read at the core's references. -/
abbrev exit1 : (c : Dev nD) → (b : Ref sig .tc) → Buf (Elt F) ((c : Thread nD τ).loc b) := fun c b => V8 m (outs4 m) c b

/-- At region 1's exit each of its arrays holds what its pipeline leaves there: the result array the chosen result,
    an input array what it held at entry (no point writes it). -/
theorem hF1 (c : Dev nD) : ∀ w : Fin 4, (dat1 (entry1 m) c).arrAt w cfg1.N = exit1 m c (Pipeline.arrRef spec1 w)
  | 0 => ((dat1 (entry1 m) c).arrAt_in 0 rfl _).trans ((A_eq1 (entry1 m) c 0).trans ((V8_of m (outs4 m) c (Pipeline.arrRef spec1 0) (by decide)).trans (congrFun (V7_o4 m c) _)).symm)
  | 1 => ((dat1 (entry1 m) c).arrAt_in 1 rfl _).trans ((A_eq1 (entry1 m) c 1).trans ((V8_of m (outs4 m) c (Pipeline.arrRef spec1 1) (by decide)).trans (congrFun (V7_o4 m c) _)).symm)
  | 2 => ((dat1 (entry1 m) c).arrAt_in 2 rfl _).trans ((A_eq1 (entry1 m) c 2).trans ((V8_of m (outs4 m) c (Pipeline.arrRef spec1 2) (by decide)).trans (congrFun (V7_o4 m c) _)).symm)
  | 3 => ((show V8 m (outs4 m) c main_v14 = outs4 m 8 main_v14 c from Function.update_self ..).trans (val4_v14 m c)).symm
  | ⟨_ + 4, h⟩ => absurd h (Nat.not_lt.2 (Nat.le_add_left _ _))
/-- Every buffer that is none of region 1's arrays is left as entered. -/
theorem hrest1 (c : Dev nD) : ∀ b, b ∉ Finset.univ.image (Pipeline.arrRef spec1) → exit1 m c b = entry1 m c b :=
  fun b hb => (V8_of m (outs4 m) c b (by rw [List.mem_singleton]; exact fun e => hb (Finset.mem_image.mpr ⟨3, Finset.mem_univ _, e.symm⟩))).trans (congrFun (V7_o4 m c) _)

/-! ## Region 2 -/

/-- The contents region 2 is left at, read at the core's references. -/
abbrev exit2 : (c : Dev nD) → (b : Ref sig .tc) → Buf (Elt F) ((c : Thread nD τ).loc b) := fun c b => V12 m (outs4 m) c b

/-- At region 2's exit each of its arrays holds what its pipeline leaves there: the result array the chosen result,
    an input array what it held at entry (no point writes it). -/
theorem hF2 (c : Dev nD) : ∀ w : Fin 4, (dat2 (entry2 m) c).arrAt w cfg2.N = exit2 m c (Pipeline.arrRef spec2 w)
  | 0 => ((dat2 (entry2 m) c).arrAt_in 0 rfl _).trans ((A_eq2 (entry2 m) c 0).trans ((V12_of m (outs4 m) c (Pipeline.arrRef spec2 0) (by decide)).trans (congrFun (V11_o4 m c) _)).symm)
  | 1 => ((dat2 (entry2 m) c).arrAt_in 1 rfl _).trans ((A_eq2 (entry2 m) c 1).trans ((V12_of m (outs4 m) c (Pipeline.arrRef spec2 1) (by decide)).trans (congrFun (V11_o4 m c) _)).symm)
  | 2 => ((dat2 (entry2 m) c).arrAt_in 2 rfl _).trans ((A_eq2 (entry2 m) c 2).trans ((V12_of m (outs4 m) c (Pipeline.arrRef spec2 2) (by decide)).trans (congrFun (V11_o4 m c) _)).symm)
  | 3 => ((show V12 m (outs4 m) c main_v22 = outs4 m 12 main_v22 c from Function.update_self ..).trans (val4_v22 m c)).symm
  | ⟨_ + 4, h⟩ => absurd h (Nat.not_lt.2 (Nat.le_add_left _ _))
/-- Every buffer that is none of region 2's arrays is left as entered. -/
theorem hrest2 (c : Dev nD) : ∀ b, b ∉ Finset.univ.image (Pipeline.arrRef spec2) → exit2 m c b = entry2 m c b :=
  fun b hb => (V12_of m (outs4 m) c b (by rw [List.mem_singleton]; exact fun e => hb (Finset.mem_image.mpr ⟨3, Finset.mem_univ _, e.symm⟩))).trans (congrFun (V11_o4 m c) _)

/-! ## Region 3 -/

/-- The contents region 3 is left at, read at the core's references. -/
abbrev exit3 : (c : Dev nD) → (b : Ref sig .tc) → Buf (Elt F) ((c : Thread nD τ).loc b) := fun c b => V16 m (outs4 m) c b

/-- At region 3's exit each of its arrays holds what its pipeline leaves there: the result array the chosen result,
    an input array what it held at entry (no point writes it). -/
theorem hF3 (c : Dev nD) : ∀ w : Fin 4, (dat3 (entry3 m) c).arrAt w cfg3.N = exit3 m c (Pipeline.arrRef spec3 w)
  | 0 => ((dat3 (entry3 m) c).arrAt_in 0 rfl _).trans ((A_eq3 (entry3 m) c 0).trans ((V16_of m (outs4 m) c (Pipeline.arrRef spec3 0) (by decide)).trans (congrFun (V15_o4 m c) _)).symm)
  | 1 => ((dat3 (entry3 m) c).arrAt_in 1 rfl _).trans ((A_eq3 (entry3 m) c 1).trans ((V16_of m (outs4 m) c (Pipeline.arrRef spec3 1) (by decide)).trans (congrFun (V15_o4 m c) _)).symm)
  | 2 => ((dat3 (entry3 m) c).arrAt_in 2 rfl _).trans ((A_eq3 (entry3 m) c 2).trans ((V16_of m (outs4 m) c (Pipeline.arrRef spec3 2) (by decide)).trans (congrFun (V15_o4 m c) _)).symm)
  | 3 => ((show V16 m (outs4 m) c main_v30 = outs4 m 16 main_v30 c from Function.update_self ..).trans (val4_v30 m c)).symm
  | ⟨_ + 4, h⟩ => absurd h (Nat.not_lt.2 (Nat.le_add_left _ _))
/-- Every buffer that is none of region 3's arrays is left as entered. -/
theorem hrest3 (c : Dev nD) : ∀ b, b ∉ Finset.univ.image (Pipeline.arrRef spec3) → exit3 m c b = entry3 m c b :=
  fun b hb => (V16_of m (outs4 m) c b (by rw [List.mem_singleton]; exact fun e => hb (Finset.mem_image.mpr ⟨3, Finset.mem_univ _, e.symm⟩))).trans (congrFun (V15_o4 m c) _)

end Cert.Kernel.Run

end
-- ==== Proof.WRunSegs.lean ====
/-
  The four kernel regions as segments of the program's run.

  A region is entered with every unscoped buffer of the core at the contents before it, beside the core's generator
  register and the fact that the core owes nothing.  Its four arrays are taken out of the unscoped buffers; the
  pipeline runs over them under the region's invariant; at the exit the arrays, now at what the pipeline left, are put
  back among the other buffers, which were not touched.
-/
import proofs.«143296_j88201448391445_2_alg».proof.Proof.WRunVals

set_option maxRecDepth 16384

noncomputable section

namespace Cert.Kernel.Run
open Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [BitOps F]

local notation "𝕄" => MT nD τ sig Unit (Elt F) ℕ (UR sig nD τ) ℕ

variable (m : (ℓ : Loc nD τ sig) → Buf (Elt F) ℓ)

/-! # The proof data of the four pipelines, and what rides beside the buffers -/

/-- Every pipeline's proof data, each at the contents its region is entered at. -/
def pdats : (p : Fin 4) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers every segment carries the core's generator register at some state and the fact that the core
    owes nothing. -/
abbrev R (c : Dev nD) : sProp 𝕄 := iprop((∃ r, prngReg c r) ∗ ∃ W, owes (c : Thread nD τ) (0 : CellTallies nD τ sig Unit) W)

-- unifying a library lemma stated over the pinned configuration with the printed one unfolds plain definitions inside
-- a metavariable's type
set_option backward.isDefEq.respectTransparency.types false in
/-- Region 0 as a segment: entered with every unscoped buffer at the contents before it, left with them at the contents
    after it.  Its four arrays are taken out of the unscoped buffers and put back at what the pipeline leaves; the
    generator register goes into the invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs4 m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m 0 c).Φ 0 := hin0 (entry0 m) c
    refine .trans ?_ h
    unfold Pipeline.ΦA
    iintro ⟨Hp, -, Hr⟩
    isplitl [Hr]; · iexact Hr
    iexact Hp
  hout c := by
    rw [Pipeline.ownSems0_none]
    have h : (pdats m 0 c).Φ (Fin.last _) ⊢ Pipeline.ΦA spec0 c := hout0 (entry0 m) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions inside
-- a metavariable's type
set_option backward.isDefEq.respectTransparency.types false in
/-- Region 1 as a segment: entered with every unscoped buffer at the contents before it, left with them at the contents
    after it.  Its four arrays are taken out of the unscoped buffers and put back at what the pipeline leaves; the
    generator register goes into the invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (V7 m (outs4 m) c) ∗ R c)
  post c := iprop(StableHlo.held (c : Thread nD τ) (Pipeline.ucRefs τ sig) (V8 m (outs4 m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    rw [V7_o4 m c]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (entry1 m) c
    refine .trans ?_ h
    unfold Pipeline.ΦA
    iintro ⟨Hp, -, Hr⟩
    isplitl [Hr]; · iexact Hr
    iexact Hp
  hout c := by
    rw [Pipeline.ownSems0_none]
    have h : (pdats m 1 c).Φ (Fin.last _) ⊢ Pipeline.ΦA spec1 c := hout1 (entry1 m) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions inside
-- a metavariable's type
set_option backward.isDefEq.respectTransparency.types false in
/-- Region 2 as a segment: entered with every unscoped buffer at the contents before it, left with them at the contents
    after it.  Its four arrays are taken out of the unscoped buffers and put back at what the pipeline leaves; the
    generator register goes into the invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (entry2 m) c).loose
  hwaits := Pipeline.hwaits_of_owed_zero _ _ _ _ L lv 2 fun _ _ => rfl
  pre c := iprop(StableHlo.held (c : Thread nD τ) (Pipeline.ucRefs τ sig) (V11 m (outs4 m) c) ∗ R c)
  post c := iprop(StableHlo.held (c : Thread nD τ) (Pipeline.ucRefs τ sig) (V12 m (outs4 m) c) ∗ R c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    rw [V11_o4 m c]
    have hsplit := Pipeline.arrays_of_unscopedBufs (p := 2) (pcfgs (F := F)) adm (pdats m) launch2.win launch2.arr_whole c
      ((pdats m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m 2 c).Φ 0 := hin2 (entry2 m) c
    refine .trans ?_ h
    unfold Pipeline.ΦA
    iintro ⟨Hp, -, Hr⟩
    isplitl [Hr]; · iexact Hr
    iexact Hp
  hout c := by
    rw [Pipeline.ownSems0_none]
    have h : (pdats m 2 c).Φ (Fin.last _) ⊢ Pipeline.ΦA spec2 c := hout2 (entry2 m) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry2 m c) (exit2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions inside
-- a metavariable's type
set_option backward.isDefEq.respectTransparency.types false in
/-- Region 3 as a segment: entered with every unscoped buffer at the contents before it, left with them at the contents
    after it.  Its four arrays are taken out of the unscoped buffers and put back at what the pipeline leaves; the
    generator register goes into the invariant and comes back; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (entry3 m) c).loose
  hwaits := Pipeline.hwaits_of_owed_zero _ _ _ _ L lv 3 fun _ _ => rfl
  pre c := iprop(StableHlo.held (c : Thread nD τ) (Pipeline.ucRefs τ sig) (V15 m (outs4 m) c) ∗ R c)
  post c := iprop(StableHlo.held (c : Thread nD τ) (Pipeline.ucRefs τ sig) (V16 m (outs4 m) c) ∗ R c)
  X c := iprop(∃ r, prngReg c r)
  Y c := iprop(∃ r, prngReg c r)
  Z c := Pipeline.unscopedRest (Ix := Unit) (Name := ℕ) (U := UR sig nD τ) (Lvl := ℕ) spec3 c (entry3 m c)
  hentry c := by
    rw [Pipeline.ownSems0_none]
    rw [V15_o4 m c]
    have hsplit := Pipeline.arrays_of_unscopedBufs (p := 3) (pcfgs (F := F)) adm (pdats m) launch3.win launch3.arr_whole c
      ((pdats m 3 c).share_full fun _ => rfl) (entry3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec3 c ⊢ (pdats m 3 c).Φ 0 := hin3 (entry3 m) c
    refine .trans ?_ h
    unfold Pipeline.ΦA
    iintro ⟨Hp, -, Hr⟩
    isplitl [Hr]; · iexact Hr
    iexact Hp
  hout c := by
    rw [Pipeline.ownSems0_none]
    have h : (pdats m 3 c).Φ (Fin.last _) ⊢ Pipeline.ΦA spec3 c := hout3 (entry3 m) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (entry3 m c) (exit3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.WRun.lean ====
/-
  The run of the whole program: sixteen items, twelve stretches of host operations and four kernel regions.

  Every weakly fair execution from a memory with zero counters terminates; in every final memory the last region's
  result array holds what that region's pipeline leaves, computed from the contents the region is entered at, and the
  nine argument arrays hold what they held at launch.
-/
import proofs.«143296_j88201448391445_2_alg».proof.Proof.WRunSegs

set_option maxRecDepth 16384

noncomputable section

namespace Cert.Kernel.Run
open Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [BitOps F]

local notation "𝕄" => MT nD τ sig Unit (Elt F) ℕ (UR sig nD τ) ℕ

variable (m : (ℓ : Loc nD τ sig) → Buf (Elt F) ℓ)

/-! # The run -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's sixteen items as segments: the generated host segments at the chosen results, the four regions' records. -/
abbrev segs (c : Dev nD) : List (Seg (pcfgs (F := F)) adm (pdats m) () defs₀ 𝒱₀ L lv) :=
  Gen.segs m (outs4 m) 𝒱₀ L lv (fun _ => R) () (pdats m) (reg0 m) (reg1 m) (reg2 m) (reg3 m) c

-- the launch theorem's implicit arguments are found by unifying its conclusion with this one, which unfolds plain
-- definitions inside a metavariable's type
set_option backward.isDefEq.respectTransparency.types false in
/-- From any memory with zero counters every weakly fair execution of @main terminates, and in every final memory the
    last region's result array holds what its pipeline leaves from the contents that region is entered at, and the nine
    arguments hold what they held at launch. -/
theorem run_named (ρ : Dev nD → PrngReg) :
    θ_run defs (onTc (τ := τ) (main (F := F))) ⟨m, fun _ => 0, ρ⟩ (fun r => ∀ c : Dev nD,
      r.2.mem ((c.tc : Thread nD τ).loc main_v30) = (dat3 (entry3 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m) () cellOf_inj emb₁ defs₀ 𝒱₀ L lv m ρ main (segs m)
    (fun c Q => by
      rewrite [main_chain c, Seg.run_eq_chain,
        show (segs m c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (fun c => by simp only [segs, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V16 m (outs4 m) c))
    (hch := fun c => ⟨.rfl, .rfl, .rfl, .rfl, .rfl, .rfl, .rfl, .rfl, .rfl, .rfl, .rfl, .rfl, .rfl, .rfl, .rfl, .rfl,
      (show iprop(StableHlo.held (c : Thread nD τ) (Pipeline.ucRefs τ sig) (V16 m (outs4 m) c) ∗ R c)
          ⊢ iprop(StableHlo.held (c : Thread nD τ) (Pipeline.ucRefs τ sig) (V16 m (outs4 m) c) ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V16 m (outs4 m) c b)
    (hfin := fun c s' => by
      unfold StableHlo.held
      iintro ⟨Hh, HSI⟩
      imodintro
      iapply (pointsTo_read_all (Pipeline.ucRefs τ sig) (fun b => (((c : Thread nD τ)).1, b)) (V16 m (outs4 m) c) s')
      isplitl [Hh] <;> iassumption)
    (hQ := fun s h c => ⟨(h c _ (mem_uc main_v30 (by decide))).trans
        ((show V16 m (outs4 m) c main_v30 = outs4 m 16 main_v30 c from Function.update_self ..).trans (val4_v30 m c)),
      (h c _ (mem_uc main_arg0 (by decide))).trans (V16_main_arg0 m (outs4 m) c),
      (h c _ (mem_uc main_arg1 (by decide))).trans (V16_main_arg1 m (outs4 m) c),
      (h c _ (mem_uc main_arg2 (by decide))).trans (V16_main_arg2 m (outs4 m) c),
      (h c _ (mem_uc main_arg3 (by decide))).trans (V16_main_arg3 m (outs4 m) c),
      (h c _ (mem_uc main_arg4 (by decide))).trans (V16_main_arg4 m (outs4 m) c),
      (h c _ (mem_uc main_arg5 (by decide))).trans (V16_main_arg5 m (outs4 m) c),
      (h c _ (mem_uc main_arg6 (by decide))).trans (V16_main_arg6 m (outs4 m) c),
      (h c _ (mem_uc main_arg7 (by decide))).trans (V16_main_arg7 m (outs4 m) c),
      (h c _ (mem_uc main_arg8 (by decide))).trans (V16_main_arg8 m (outs4 m) c)⟩)

/-- The frame: every weakly fair execution terminates and the nine arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := F)) _ _).mono (fun r h c => (h c).2) (run_named m ρ)

end Cert.Kernel.Run

end
-- ==== Proof.IAcc0Cases.lean ====
/-
  Layer 1's kernel walks a grid of (row block, column block, k block) with k innermost, 4 k blocks per
  output block.  Its body resets the accumulator when k = 0, adds the block product at every k, and when
  k = 3 adds the bias, binarizes and stores the output block.  Here: the two branch conditions as facts about the
  point's number (k is the number modulo 4), where the output window is written and where it is left alone, the
  staging buffers the body is handed at a point, and the accumulator's place in the region's invariant.
-/
import proofs.«143296_j88201448391445_2_alg».proof.Proof.Gen.KernelIdeal.Launch
import proofs.«143296_j88201448391445_2_alg».proof.Proof.Gen.KernelIdeal.Skeleton
import proofs.«143296_j88201448391445_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "k = 0" as the body computes it from the grid coordinates. -/
abbrev isFirst0 (i : grid0.Coords) : Prop :=
  (Scalar.cmpi .ne (Scalar.extui (Scalar.cmpi .eq (BitVec.ofNat 32 (i 2).val) 0#32)) 0#32) = 1#1
/-- It holds exactly at the points whose number is 0 modulo 4. -/
theorem isFirst0_iff : ∀ t : Fin cfg0.N, isFirst0 (grid0.coords t) ↔ t.val % 4 = 0 :=
  (by decide +kernel : ∀ t : Fin grid0.N, isFirst0 (grid0.coords t) ↔ t.val % 4 = 0)

/-- "k is the last k block" as the body computes it. -/
abbrev isLast0 (i : grid0.Coords) : Prop := k0_cond2 i = 1#1
/-- It holds exactly at the points whose number is 3 modulo 4. -/
theorem isLast0_iff : ∀ t : Fin cfg0.N, isLast0 (grid0.coords t) ↔ t.val % 4 = 3 :=
  (by decide +kernel : ∀ t : Fin grid0.N, isLast0 (grid0.coords t) ↔ t.val % 4 = 3)

/-! ## Where the windows are written -/

/-- The three input windows are read at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Before the last k block nothing is stored into the output block, -/
theorem idle0_out : ∀ t : Fin cfg0.N, ¬isLast0 (grid0.coords t) → cfg0.idle 3 (grid0.coords t) = true := by decide +kernel
/-- and it is not written back there; -/
theorem noFlush0_out : ∀ t : Fin cfg0.N, ¬isLast0 (grid0.coords t) → (cfg0.win 3).flush t = false := by decide +kernel
/-- at the last k block it is stored. -/
theorem live0_out : ∀ t : Fin cfg0.N, isLast0 (grid0.coords t) → cfg0.idle 3 (grid0.coords t) = false := by decide +kernel

/-! ## The buffers the body is handed -/

abbrev stgX0 (t : Fin cfg0.N) : Memref sig .tc .vmem S1024x1024 .f32 := win0_0.stage (cfg0.slots t 0)
abbrev hstgX0 (t : Fin cfg0.N) : (stgX0 t).IsWhole := hstage0_0 ((cfg0.slots t 0).cast nbuf0_0)
abbrev stgW0 (t : Fin cfg0.N) : Memref sig .tc .vmem S1024x1024 .f32 := win0_1.stage (cfg0.slots t 1)
abbrev hstgW0 (t : Fin cfg0.N) : (stgW0 t).IsWhole := hstage0_1 ((cfg0.slots t 1).cast nbuf0_1)
abbrev stgB0 (t : Fin cfg0.N) : Memref sig .tc .vmem S1x1024 .f32 := win0_2.stage (cfg0.slots t 2)
abbrev hstgB0 (t : Fin cfg0.N) : (stgB0 t).IsWhole := hstage0_2 ((cfg0.slots t 2).cast nbuf0_2)
abbrev stgO0 (t : Fin cfg0.N) : Memref sig .tc .vmem S1024x1024 .bf16 := win0_3.stage (cfg0.slots t 3)
abbrev hstgO0 (t : Fin cfg0.N) : (stgO0 t).IsWhole := hstage0_3 ((cfg0.slots t 3).cast nbuf0_3)
/-- The accumulator: a whole buffer of the kernel's own, carried from point to point. -/
abbrev accM0 : Memref sig .tc .vmem S1024x1024 .f32 := Memref.whole cc0_scratch0
/-- The views through which the accumulator's and the output block's contents are stated. -/
abbrev accV0 : View sig .tc .vmem S1024x1024 .f32 := accM0.view
abbrev outV0 : View sig .tc .vmem S1024x1024 .bf16 := (Memref.whole cc0_stg3_0 : Memref sig .tc .vmem S1024x1024 .bf16).view

/-- The region's invariant with the accumulator named: the accumulator whole at some contents, every other buffer
    of the region's own untouched, and the generator register at some state. -/
theorem PhiA0_split (c : Dev nD) :
    (Pipeline.ΦA spec0 c : sProp 𝕄)
      = iprop(iprop(iprop((∃ d, owns (c : Thread nD τ) accM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [accM0, owns_whole]; rfl

end Cert.KernelIdeal.Acc

end
-- ==== Proof.IAcc0RunFirst.lean ====
/-
  Layer 1's kernel body run whole at one kind of grid point (k = 0).
-/
import proofs.«143296_j88201448391445_2_alg».proof.Proof.IAcc0Cases

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at a point with k = 0 (and k not last): on whole buffers — the three input blocks at their contents, the
    output block's buffer at contents it hands back untouched, the accumulator at anything — it runs to the
    continuation with the inputs and the output buffer as they were and the accumulator holding what its two stores
    (the zeros, then zeros plus the block product) wrote: the list `LS` of stored pieces, last first, which the run
    finds. -/
noncomputable def runFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : isFirst0 i) (hc1 : ¬isLast0 i)
    (x : Vec F S1024x1024 .f32) (w : Vec F S1024x1024 .f32) (bb : Vec F S1x1024 .f32) :
    { LS : List (View.Piece (Elt F) S1024x1024 .f32) //
      ∀ (xo : Vec F S1024x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ (∃ d, owns (c : Thread nD τ) arg7 fullShare d)
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc0__layer_kernel_f32_highest i arg3 harg3 arg4 harg4 arg5 harg5 arg6 harg6 arg7 harg7) Kont } := by
  refine ⟨?_, fun xo E Kont => ?run⟩
  case run =>
    simp only [cc0__layer_kernel_f32_highest_eq_skeleton]; unfold cc0__layer_kernel_f32_highest_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Acc

end
-- ==== Proof.IAcc0RunMid.lean ====
/-
  Layer 1's kernel body run whole at one kind of grid point (0 < k < last).
-/
import proofs.«143296_j88201448391445_2_alg».proof.Proof.IAcc0RunFirst

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k neither 0 nor last: the accumulator enters at what the point before left (`xs`) and
    leaves holding its one store (`xs` plus the block product); everything else is handed back as it was. -/
noncomputable def runMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : ¬isLast0 i)
    (x : Vec F S1024x1024 .f32) (w : Vec F S1024x1024 .f32) (bb : Vec F S1x1024 .f32) (xs : Vec F S1024x1024 .f32) :
    { LS : List (View.Piece (Elt F) S1024x1024 .f32) //
      ∀ (xo : Vec F S1024x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ owns (c : Thread nD τ) arg7 fullShare xs
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc0__layer_kernel_f32_highest i arg3 harg3 arg4 harg4 arg5 harg5 arg6 harg6 arg7 harg7) Kont } := by
  refine ⟨?_, fun xo E Kont => ?run⟩
  case run =>
    simp only [cc0__layer_kernel_f32_highest_eq_skeleton]; unfold cc0__layer_kernel_f32_highest_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Acc

end
-- ==== Proof.IAcc0RunLast.lean ====
/-
  Layer 1's kernel body run whole at one kind of grid point (k last).
-/
import proofs.«143296_j88201448391445_2_alg».proof.Proof.IAcc0RunMid

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k last: the accumulator enters at what the point before left (`xs`), takes the last block
    product, and the output block's buffer (entered at anything) leaves holding the one store of the binarized sum
    plus bias: the two lists of stored pieces `LO` (output) and `LS` (accumulator) are what the run finds. -/
noncomputable def runLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i)
    (x : Vec F S1024x1024 .f32) (w : Vec F S1024x1024 .f32) (bb : Vec F S1x1024 .f32) (xs : Vec F S1024x1024 .f32) :
    Σ' (LO : List (View.Piece (Elt F) S1024x1024 .bf16)), { LS : List (View.Piece (Elt F) S1024x1024 .f32) //
      ∀ (E : Set ℕ) (Kont : PUnit → sProp 𝕄),
        iprop(owns (c : Thread nD τ) arg3 fullShare x ∗ owns (c : Thread nD τ) arg4 fullShare w ∗ owns (c : Thread nD τ) arg5 fullShare bb ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare bb ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ Kont ⟨⟩))
          ⊢ wp frame (wpE (defs₀ (F := F)) Variants.none c none) E (cc0__layer_kernel_f32_highest i arg3 harg3 arg4 harg4 arg5 harg5 arg6 harg6 arg7 harg7) Kont } := by
  refine ⟨?_, ?_, fun E Kont => ?run⟩
  case run =>
    simp only [cc0__layer_kernel_f32_highest_eq_skeleton]; unfold cc0__layer_kernel_f32_highest_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Acc

end
-- ==== Proof.IAcc0.lean ====
/-
  Layer 1's kernel region, at any contents `V` of the core's buffers when the region is entered.

  What the accumulator holds after each grid point is defined by recursion on the point's number: at a point with
  k = 0 it is what the body leaves there starting from anything, at every other point what the body leaves starting
  from what the point before left.  The output block's buffer matters only at the points with k last, where the body
  stores it whole.  From these the region's proof data: every input window's buffer holds its block at every point,
  the output window's buffer holds the stored block at the last k, and the region's invariant carries the accumulator
  at the recursion's value.
-/
import proofs.«143296_j88201448391445_2_alg».proof.Proof.IAcc0RunLast

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (a point that does not
    fetch it has the block index of the point before), for any proof data over `V` whose body leaves the block in
    place: the three input windows in turn. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the stores leave -/

/-- At k = 0 the two stores into the accumulator cover it. -/
theorem accCoverFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : isFirst0 i) (hc1 : ¬isLast0 i) (x : Vec F S1024x1024 .f32) (w : Vec F S1024x1024 .f32) (bb : Vec F S1x1024 .f32) (y : S1024x1024.Idx) :
    ∃ pc ∈ (runFirst0 c i arg3 harg3 arg4 harg4 arg5 harg5 arg6 harg6 arg7 harg7 hc0 hc1 x w bb).1, y ∈ pc.1.set :=
  View.cover_of_tiledL (runFirst0 c i arg3 harg3 arg4 harg4 arg5 harg5 arg6 harg6 arg7 harg7 hc0 hc1 x w bb).1 S1024x1024.size (by sl_kernel_rfl) y
/-- What the accumulator holds after a point with k = 0: the stored pieces read back. -/
def accFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : isFirst0 i) (hc1 : ¬isLast0 i) (x : Vec F S1024x1024 .f32) (w : Vec F S1024x1024 .f32) (bb : Vec F S1x1024 .f32) : Vec F S1024x1024 .f32 :=
  accV0.read (Elt F) (accV0.writes (Elt F) accV0.junk (runFirst0 c i arg3 harg3 arg4 harg4 arg5 harg5 arg6 harg6 arg7 harg7 hc0 hc1 x w bb).1)

/-- At 0 < k < last the one store into the accumulator covers it. -/
theorem accCoverMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : ¬isLast0 i) (x : Vec F S1024x1024 .f32) (w : Vec F S1024x1024 .f32) (bb : Vec F S1x1024 .f32) (xs : Vec F S1024x1024 .f32) (y : S1024x1024.Idx) :
    ∃ pc ∈ (runMid0 c i arg3 harg3 arg4 harg4 arg5 harg5 arg6 harg6 arg7 harg7 hc0 hc1 x w bb xs).1, y ∈ pc.1.set :=
  View.cover_of_tiledL (runMid0 c i arg3 harg3 arg4 harg4 arg5 harg5 arg6 harg6 arg7 harg7 hc0 hc1 x w bb xs).1 S1024x1024.size (by sl_kernel_rfl) y
/-- What the accumulator holds after such a point, from what it held before (`xs`). -/
def accMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : ¬isLast0 i) (x : Vec F S1024x1024 .f32) (w : Vec F S1024x1024 .f32) (bb : Vec F S1x1024 .f32) (xs : Vec F S1024x1024 .f32) : Vec F S1024x1024 .f32 :=
  accV0.read (Elt F) (accV0.writes (Elt F) accV0.junk (runMid0 c i arg3 harg3 arg4 harg4 arg5 harg5 arg6 harg6 arg7 harg7 hc0 hc1 x w bb xs).1)

/-- At k last the store into the accumulator covers it, -/
theorem accCoverLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i) (x : Vec F S1024x1024 .f32) (w : Vec F S1024x1024 .f32) (bb : Vec F S1x1024 .f32) (xs : Vec F S1024x1024 .f32) (y : S1024x1024.Idx) :
    ∃ pc ∈ (runLast0 c i arg3 harg3 arg4 harg4 arg5 harg5 arg6 harg6 arg7 harg7 hc0 hc1 x w bb xs).2.1, y ∈ pc.1.set :=
  View.cover_of_tiledL (runLast0 c i arg3 harg3 arg4 harg4 arg5 harg5 arg6 harg6 arg7 harg7 hc0 hc1 x w bb xs).2.1 S1024x1024.size (by sl_kernel_rfl) y
/-- and the store into the output block covers the block. -/
theorem outCoverLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i) (x : Vec F S1024x1024 .f32) (w : Vec F S1024x1024 .f32) (bb : Vec F S1x1024 .f32) (xs : Vec F S1024x1024 .f32) (y : S1024x1024.Idx) :
    ∃ pc ∈ (runLast0 c i arg3 harg3 arg4 harg4 arg5 harg5 arg6 harg6 arg7 harg7 hc0 hc1 x w bb xs).1, y ∈ pc.1.set :=
  View.cover_of_tiledL (runLast0 c i arg3 harg3 arg4 harg4 arg5 harg5 arg6 harg6 arg7 harg7 hc0 hc1 x w bb xs).1 S1024x1024.size (by sl_kernel_rfl) y
def accLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i) (x : Vec F S1024x1024 .f32) (w : Vec F S1024x1024 .f32) (bb : Vec F S1x1024 .f32) (xs : Vec F S1024x1024 .f32) : Vec F S1024x1024 .f32 :=
  accV0.read (Elt F) (accV0.writes (Elt F) accV0.junk (runLast0 c i arg3 harg3 arg4 harg4 arg5 harg5 arg6 harg6 arg7 harg7 hc0 hc1 x w bb xs).2.1)
/-- The output block as stored at k last. -/
def outLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i) (x : Vec F S1024x1024 .f32) (w : Vec F S1024x1024 .f32) (bb : Vec F S1x1024 .f32) (xs : Vec F S1024x1024 .f32) : Vec F S1024x1024 .bf16 :=
  outV0.read (Elt F) (outV0.writes (Elt F) outV0.junk (runLast0 c i arg3 harg3 arg4 harg4 arg5 harg5 arg6 harg6 arg7 harg7 hc0 hc1 x w bb xs).1)

/-! ## The accumulator, point by point -/

set_option maxHeartbeats 4000000 in
/-- The accumulator after the body at point number `n`. -/
def accAt0 (c : Dev nD) : (n : ℕ) → n < cfg0.N → Vec F S1024x1024 .f32
  | 0, hn =>
      accFirst0 c (grid0.coords ⟨0, hn⟩) (stgX0 ⟨0, hn⟩) (hstgX0 ⟨0, hn⟩) (stgW0 ⟨0, hn⟩) (hstgW0 ⟨0, hn⟩) (stgB0 ⟨0, hn⟩) (hstgB0 ⟨0, hn⟩) (stgO0 ⟨0, hn⟩) (hstgO0 ⟨0, hn⟩) accM0 (Memref.isWhole_whole _) ((isFirst0_iff ⟨0, hn⟩).mpr (Nat.zero_mod _)) (fun h => (fun h => by (try dsimp only at h); omega) ((isLast0_iff ⟨0, hn⟩).mp h)) (iblk0 V c 0 ⟨0, hn⟩) (iblk0 V c 1 ⟨0, hn⟩) (iblk0 V c 2 ⟨0, hn⟩)
  | n + 1, hn =>
    if h0 : (n + 1) % 4 = 0 then
      accFirst0 c (grid0.coords ⟨n + 1, hn⟩) (stgX0 ⟨n + 1, hn⟩) (hstgX0 ⟨n + 1, hn⟩) (stgW0 ⟨n + 1, hn⟩) (hstgW0 ⟨n + 1, hn⟩) (stgB0 ⟨n + 1, hn⟩) (hstgB0 ⟨n + 1, hn⟩) (stgO0 ⟨n + 1, hn⟩) (hstgO0 ⟨n + 1, hn⟩) accM0 (Memref.isWhole_whole _) ((isFirst0_iff ⟨n + 1, hn⟩).mpr h0) (fun h => (fun h => by (try dsimp only at h); omega) ((isLast0_iff ⟨n + 1, hn⟩).mp h)) (iblk0 V c 0 ⟨n + 1, hn⟩) (iblk0 V c 1 ⟨n + 1, hn⟩) (iblk0 V c 2 ⟨n + 1, hn⟩)
    else
      if h1 : (n + 1) % 4 = 3 then
        accLast0 c (grid0.coords ⟨n + 1, hn⟩) (stgX0 ⟨n + 1, hn⟩) (hstgX0 ⟨n + 1, hn⟩) (stgW0 ⟨n + 1, hn⟩) (hstgW0 ⟨n + 1, hn⟩) (stgB0 ⟨n + 1, hn⟩) (hstgB0 ⟨n + 1, hn⟩) (stgO0 ⟨n + 1, hn⟩) (hstgO0 ⟨n + 1, hn⟩) accM0 (Memref.isWhole_whole _) (fun h => h0 ((isFirst0_iff ⟨n + 1, hn⟩).mp h)) ((isLast0_iff ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
      else
        accMid0 c (grid0.coords ⟨n + 1, hn⟩) (stgX0 ⟨n + 1, hn⟩) (hstgX0 ⟨n + 1, hn⟩) (stgW0 ⟨n + 1, hn⟩) (hstgW0 ⟨n + 1, hn⟩) (stgB0 ⟨n + 1, hn⟩) (hstgB0 ⟨n + 1, hn⟩) (stgO0 ⟨n + 1, hn⟩) (hstgO0 ⟨n + 1, hn⟩) accM0 (Memref.isWhole_whole _) (fun h => h0 ((isFirst0_iff ⟨n + 1, hn⟩).mp h)) (fun h => h1 ((isLast0_iff ⟨n + 1, hn⟩).mp h)) (iblk0 V c 0 ⟨n + 1, hn⟩) (iblk0 V c 1 ⟨n + 1, hn⟩) (iblk0 V c 2 ⟨n + 1, hn⟩) (accAt0 c n (Nat.lt_of_succ_lt hn))

set_option maxHeartbeats 4000000 in
/-- The accumulator after a point with k = 0. -/
theorem accAt0_first (c : Dev nD) (t : Fin cfg0.N) (h0 : t.val % 4 = 0) (h1 : ¬t.val % 4 = 3) :
    accAt0 V c t.val t.isLt = accFirst0 c (grid0.coords t) (stgX0 t) (hstgX0 t) (stgW0 t) (hstgW0 t) (stgB0 t) (hstgB0 t) (stgO0 t) (hstgO0 t) accM0 (Memref.isWhole_whole _) ((isFirst0_iff t).mpr h0) (fun h => h1 ((isLast0_iff t).mp h)) (iblk0 V c 0 t) (iblk0 V c 1 t) (iblk0 V c 2 t) := by
  obtain ⟨n, hn⟩ := t
  cases n with
  | zero => exact rfl
  | succ n => exact (dif_pos h0).trans rfl

set_option maxHeartbeats 4000000 in
/-- The accumulator after a point with 0 < k < last, over what the point before left. -/
theorem accAt0_mid (c : Dev nD) (t : Fin cfg0.N) (h0 : ¬t.val % 4 = 0) (h1 : ¬t.val % 4 = 3) :
    accAt0 V c t.val t.isLt = accMid0 c (grid0.coords t) (stgX0 t) (hstgX0 t) (stgW0 t) (hstgW0 t) (stgB0 t) (hstgB0 t) (stgO0 t) (hstgO0 t) accM0 (Memref.isWhole_whole _) (fun h => h0 ((isFirst0_iff t).mp h)) (fun h => h1 ((isLast0_iff t).mp h)) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

set_option maxHeartbeats 4000000 in
/-- The accumulator after a point with k last, over what the point before left. -/
theorem accAt0_last (c : Dev nD) (t : Fin cfg0.N) (h0 : ¬t.val % 4 = 0) (h1 : t.val % 4 = 3) :
    accAt0 V c t.val t.isLt = accLast0 c (grid0.coords t) (stgX0 t) (hstgX0 t) (stgW0 t) (hstgW0 t) (stgB0 t) (hstgB0 t) (stgO0 t) (hstgO0 t) accM0 (Memref.isWhole_whole _) (fun h => h0 ((isFirst0_iff t).mp h)) ((isLast0_iff t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The output block's buffer, point by point -/

set_option maxHeartbeats 4000000 in
/-- After the body at point `t`: where k is last, the block the body stored, computed from what the point before
    left in the accumulator; elsewhere nothing was stored and nothing consults the value (junk read back). -/
def outAt0 (c : Dev nD) (t : Fin cfg0.N) : Vec F S1024x1024 .bf16 :=
  if h1 : t.val % 4 = 3 then
    outLast0 c (grid0.coords t) (stgX0 t) (hstgX0 t) (stgW0 t) (hstgW0 t) (stgB0 t) (hstgB0 t) (stgO0 t) (hstgO0 t) accM0 (Memref.isWhole_whole _) (fun h => (by omega : ¬t.val % 4 = 0) ((isFirst0_iff t).mp h)) ((isLast0_iff t).mpr h1) (iblk0 V c 0 t) (iblk0 V c 1 t) (iblk0 V c 2 t) (accAt0 V c (t.val - 1) (Nat.lt_of_le_of_lt (Nat.sub_le _ _) t.isLt))
  else outV0.read (Elt F) outV0.junk

theorem outAt0_last (c : Dev nD) (t : Fin cfg0.N) (h0 : ¬t.val % 4 = 0) (h1 : t.val % 4 = 3) :
    outAt0 V c t = outLast0 c (grid0.coords t) (stgX0 t) (hstgX0 t) (stgW0 t) (hstgW0 t) (stgB0 t) (hstgB0 t) (stgO0 t) (hstgO0 t) accM0 (Memref.isWhole_whole _) (fun h => h0 ((isFirst0_iff t).mp h)) ((isLast0_iff t).mpr h1) (iblk0 V c 0 t) (iblk0 V c 1 t) (iblk0 V c 2 t) (accAt0 V c (t.val - 1) (Nat.lt_of_le_of_lt (Nat.sub_le _ _) t.isLt)) := by
  unfold outAt0; exact dif_pos h1

/-! ## The region's invariant -/

/-- Before point number `n`: at the region's entry the accumulator at anything; afterwards at what the point before
    left; always beside the region's other buffers untouched and the generator register at some state. -/
def PhiAcc0 (c : Dev nD) : (n : ℕ) → n ≤ cfg0.N → sProp 𝕄
  | 0, _ => Pipeline.ΦA spec0 c
  | n + 1, hn => iprop(iprop(owns (c : Thread nD τ) accM0 fullShare (accAt0 V c n hn)
      ∗ Pipeline.scopedRestBut (Ix := Unit) (Name := ℕ) (U := UR sig nD τ) (Lvl := ℕ) (Val := Elt F) spec0 c [cc0_scratch0]) ∗ (∃ r, prngReg c r))

theorem PhiAcc0_zero (c : Dev nD) (n : ℕ) (h : n ≤ cfg0.N) (hz : n = 0) : PhiAcc0 V c n h = Pipeline.ΦA spec0 c := by
  subst hz; rfl
theorem PhiAcc0_succ (c : Dev nD) (n : ℕ) (hn : n < cfg0.N) :
    PhiAcc0 V c (n + 1) hn = iprop(iprop(owns (c : Thread nD τ) accM0 fullShare (accAt0 V c n hn)
      ∗ Pipeline.scopedRestBut (Ix := Unit) (Name := ℕ) (U := UR sig nD τ) (Lvl := ℕ) (Val := Elt F) spec0 c [cc0_scratch0]) ∗ (∃ r, prngReg c r)) := rfl
theorem PhiAcc0_pos (c : Dev nD) (n : ℕ) (h : n ≤ cfg0.N) (hz : n ≠ 0) :
    PhiAcc0 V c n h = iprop(iprop(owns (c : Thread nD τ) accM0 fullShare (accAt0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The region's proof data on core `c`: the arrays as found; after the body each input's buffer at its block and the
    output's at `outAt`; the invariant `PhiAcc`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiAcc0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiAcc0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end

end Cert.KernelIdeal.Acc

end
-- ==== Proof.IAcc0Body.lean ====
/-
  Layer 1's kernel region: the body obligation at every grid point, and the invariant's two ends.
-/
import proofs.«143296_j88201448391445_2_alg».proof.Proof.IAcc0

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- What the body is called with at point `t`: the invariant, nothing owed, the four windows' current buffers. -/
def bodyPre0 (c : Dev nD) (t : Fin cfg0.N) : sProp 𝕄 :=
  iprop((dat0 V c).Φ t.castSucc ∗ (dat0 V c).owesAt () t.castSucc
    ∗ (∃ d, owns (c : Thread nD τ) (stgX0 t) fullShare ((dat0 V c).before 0 t d))
    ∗ (∃ d, owns (c : Thread nD τ) (stgW0 t) fullShare ((dat0 V c).before 1 t d))
    ∗ (∃ d, owns (c : Thread nD τ) (stgB0 t) fullShare ((dat0 V c).before 2 t d))
    ∗ (∃ d, owns (c : Thread nD τ) (stgO0 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point.  The inputs' buffers hold their blocks; the point's number modulo 4 says which of the
    three runs applies; the invariant hands the run the accumulator (at anything when k = 0, at what the point before
    left otherwise) and takes it back at this point's value, because the run's stores cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiAcc0 V c (t.val + 1) t.isLt from rfl, PhiAcc0_succ]
  have hN : t.val < 128 := lt_of_lt_of_eq t.isLt (show cfg0.N = 128 from N_0)
  by_cases h0 : t.val % 4 = 0
  · have h1 : ¬t.val % 4 = 3 := by omega
    rw [show (dat0 V c).leavesExact 0 t = owns (c : Thread nD τ) (stgX0 t) fullShare ((dat0 V c).after 0 t) from by
      unfold Dat.leavesExact; rw [live0_0 t], after0_0]
    rw [show (dat0 V c).leavesExact 1 t = owns (c : Thread nD τ) (stgW0 t) fullShare ((dat0 V c).after 1 t) from by
      unfold Dat.leavesExact; rw [live0_1 t], after0_1]
    rw [show (dat0 V c).leavesExact 2 t = owns (c : Thread nD τ) (stgB0 t) fullShare ((dat0 V c).after 2 t) from by
      unfold Dat.leavesExact; rw [live0_2 t], after0_2]
    rw [Dat.leavesExact_idle (dat0 V c) 3 t (idle0_out t (fun h => h1 ((isLast0_iff t).mp h))) (noFlush0_out t (fun h => h1 ((isLast0_iff t).mp h)))]
    rw [accAt0_first V c t h0 h1]
    unfold accFirst0; (try dsimp only)
    by_cases hz : t.val = 0
    · rw [Phi0_castSucc V c t, PhiAcc0_zero V c _ _ hz, PhiA0_split]
      iintro ⟨⟨⟨HS, Hrest⟩, Hg⟩, Ho, ⟨%d0, H0⟩, ⟨%d1, H1⟩, ⟨%d2, H2⟩, ⟨%d3, H3⟩⟩
      iapply ((runFirst0 c (grid0.coords t) _ _ _ _ _ _ _ _ _ _ ((isFirst0_iff t).mpr h0) (fun h => h1 ((isLast0_iff t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [Phi0_castSucc V c t, PhiAcc0_pos V c _ _ hz]
      iintro ⟨⟨⟨HS, Hrest⟩, Hg⟩, Ho, ⟨%d0, H0⟩, ⟨%d1, H1⟩, ⟨%d2, H2⟩, ⟨%d3, H3⟩⟩
      iapply ((runFirst0 c (grid0.coords t) _ _ _ _ _ _ _ _ _ _ ((isFirst0_iff t).mpr h0) (fun h => h1 ((isLast0_iff t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- k last
      rw [show (dat0 V c).leavesExact 0 t = owns (c : Thread nD τ) (stgX0 t) fullShare ((dat0 V c).after 0 t) from by
        unfold Dat.leavesExact; rw [live0_0 t], after0_0]
      rw [show (dat0 V c).leavesExact 1 t = owns (c : Thread nD τ) (stgW0 t) fullShare ((dat0 V c).after 1 t) from by
        unfold Dat.leavesExact; rw [live0_1 t], after0_1]
      rw [show (dat0 V c).leavesExact 2 t = owns (c : Thread nD τ) (stgB0 t) fullShare ((dat0 V c).after 2 t) from by
        unfold Dat.leavesExact; rw [live0_2 t], after0_2]
      rw [show (dat0 V c).leavesExact 3 t = owns (c : Thread nD τ) (stgO0 t) fullShare ((dat0 V c).after 3 t) from by
        unfold Dat.leavesExact; rw [live0_out t ((isLast0_iff t).mpr h1)], after0_3]
      rw [outAt0_last V c t h0 h1, accAt0_last V c t h0 h1]
      unfold outLast0 accLast0; (try dsimp only)
      rw [Phi0_castSucc V c t, PhiAcc0_pos V c _ _ hz]
      iintro ⟨⟨⟨HS, Hrest⟩, Hg⟩, Ho, ⟨%d0, H0⟩, ⟨%d1, H1⟩, ⟨%d2, H2⟩, ⟨%d3, H3⟩⟩
      iapply ((runLast0 c (grid0.coords t) _ _ _ _ _ _ _ _ _ _ (fun h => h0 ((isFirst0_iff t).mp h)) ((isLast0_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverLast0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast0 c _ _ _ _ _ _ _ _ _ _ _ _ _ _ _ _ _)
    · -- 0 < k < last
      rw [show (dat0 V c).leavesExact 0 t = owns (c : Thread nD τ) (stgX0 t) fullShare ((dat0 V c).after 0 t) from by
        unfold Dat.leavesExact; rw [live0_0 t], after0_0]
      rw [show (dat0 V c).leavesExact 1 t = owns (c : Thread nD τ) (stgW0 t) fullShare ((dat0 V c).after 1 t) from by
        unfold Dat.leavesExact; rw [live0_1 t], after0_1]
      rw [show (dat0 V c).leavesExact 2 t = owns (c : Thread nD τ) (stgB0 t) fullShare ((dat0 V c).after 2 t) from by
        unfold Dat.leavesExact; rw [live0_2 t], after0_2]
      rw [Dat.leavesExact_idle (dat0 V c) 3 t (idle0_out t (fun h => h1 ((isLast0_iff t).mp h))) (noFlush0_out t (fun h => h1 ((isLast0_iff t).mp h)))]
      rw [accAt0_mid V c t h0 h1]
      unfold accMid0; (try dsimp only)
      rw [Phi0_castSucc V c t, PhiAcc0_pos V c _ _ hz]
      iintro ⟨⟨⟨HS, Hrest⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((isFirst0_iff t).mp h)) (fun h => h1 ((isLast0_iff t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverMid0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiAcc0 V c 0 (Nat.zero_le _) from rfl, PhiAcc0_zero V c 0 _ rfl]

/-- After the last point the invariant gives the same back: the accumulator's contents are forgotten. -/
theorem hout0 (c : Dev nD) : (dat0 V c).Φ (Fin.last cfg0.N) ⊢ Pipeline.ΦA spec0 c := by
  have hN : cfg0.N = 128 := N_0
  rw [show (dat0 V c).Φ (Fin.last cfg0.N) = PhiAcc0 V c (Fin.last cfg0.N).val (Nat.le_of_lt_succ (Fin.last cfg0.N).isLt) from rfl,
    PhiAcc0_pos V c _ _ (by rw [Fin.val_last]; omega), PhiA0_split]
  iintro ⟨⟨HS, Hrest⟩, Hg⟩
  isplitl [HS Hrest]
  · isplitl [HS]
    · iexists _; iexact HS
    iexact Hrest
  iexact Hg

end

end Cert.KernelIdeal.Acc

end
-- ==== Proof.IAcc1Cases.lean ====
/-
  Layer 2's kernel walks a grid of (row block, column block, k block) with k innermost, 8 k blocks per
  output block.  Its body resets the accumulator when k = 0, adds the block product at every k, and when
  k = 7 adds the bias, binarizes and stores the output block.  Here: the two branch conditions as facts about the
  point's number (k is the number modulo 8), where the output window is written and where it is left alone, the
  staging buffers the body is handed at a point, and the accumulator's place in the region's invariant.
-/
import proofs.«143296_j88201448391445_2_alg».proof.Proof.Gen.KernelIdeal.Launch
import proofs.«143296_j88201448391445_2_alg».proof.Proof.Gen.KernelIdeal.Skeleton
import proofs.«143296_j88201448391445_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "k = 0" as the body computes it from the grid coordinates. -/
abbrev isFirst1 (i : grid1.Coords) : Prop :=
  (Scalar.cmpi .ne (Scalar.extui (Scalar.cmpi .eq (BitVec.ofNat 32 (i 2).val) 0#32)) 0#32) = 1#1
/-- It holds exactly at the points whose number is 0 modulo 8. -/
theorem isFirst1_iff : ∀ t : Fin cfg1.N, isFirst1 (grid1.coords t) ↔ t.val % 8 = 0 :=
  (by decide +kernel : ∀ t : Fin grid1.N, isFirst1 (grid1.coords t) ↔ t.val % 8 = 0)

/-- "k is the last k block" as the body computes it. -/
abbrev isLast1 (i : grid1.Coords) : Prop := k1_cond2 i = 1#1
/-- It holds exactly at the points whose number is 7 modulo 8. -/
theorem isLast1_iff : ∀ t : Fin cfg1.N, isLast1 (grid1.coords t) ↔ t.val % 8 = 7 :=
  (by decide +kernel : ∀ t : Fin grid1.N, isLast1 (grid1.coords t) ↔ t.val % 8 = 7)

/-! ## Where the windows are written -/

/-- The three input windows are read at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Before the last k block nothing is stored into the output block, -/
theorem idle1_out : ∀ t : Fin cfg1.N, ¬isLast1 (grid1.coords t) → cfg1.idle 3 (grid1.coords t) = true := by decide +kernel
/-- and it is not written back there; -/
theorem noFlush1_out : ∀ t : Fin cfg1.N, ¬isLast1 (grid1.coords t) → (cfg1.win 3).flush t = false := by decide +kernel
/-- at the last k block it is stored. -/
theorem live1_out : ∀ t : Fin cfg1.N, isLast1 (grid1.coords t) → cfg1.idle 3 (grid1.coords t) = false := by decide +kernel

/-! ## The buffers the body is handed -/

abbrev stgX1 (t : Fin cfg1.N) : Memref sig .tc .vmem S2048x512 .bf16 := win1_0.stage (cfg1.slots t 0)
abbrev hstgX1 (t : Fin cfg1.N) : (stgX1 t).IsWhole := hstage1_0 ((cfg1.slots t 0).cast nbuf1_0)
abbrev stgW1 (t : Fin cfg1.N) : Memref sig .tc .vmem S1024x512 .bf16 := win1_1.stage (cfg1.slots t 1)
abbrev hstgW1 (t : Fin cfg1.N) : (stgW1 t).IsWhole := hstage1_1 ((cfg1.slots t 1).cast nbuf1_1)
abbrev stgB1 (t : Fin cfg1.N) : Memref sig .tc .vmem S1x1024 .f32 := win1_2.stage (cfg1.slots t 2)
abbrev hstgB1 (t : Fin cfg1.N) : (stgB1 t).IsWhole := hstage1_2 ((cfg1.slots t 2).cast nbuf1_2)
abbrev stgO1 (t : Fin cfg1.N) : Memref sig .tc .vmem S2048x1024 .bf16 := win1_3.stage (cfg1.slots t 3)
abbrev hstgO1 (t : Fin cfg1.N) : (stgO1 t).IsWhole := hstage1_3 ((cfg1.slots t 3).cast nbuf1_3)
/-- The accumulator: a whole buffer of the kernel's own, carried from point to point. -/
abbrev accM1 : Memref sig .tc .vmem S2048x1024 .f32 := Memref.whole cc1_scratch0
/-- The views through which the accumulator's and the output block's contents are stated. -/
abbrev accV1 : View sig .tc .vmem S2048x1024 .f32 := accM1.view
abbrev outV1 : View sig .tc .vmem S2048x1024 .bf16 := (Memref.whole cc1_stg3_0 : Memref sig .tc .vmem S2048x1024 .bf16).view

/-- The region's invariant with the accumulator named: the accumulator whole at some contents, every other buffer
    of the region's own untouched, and the generator register at some state. -/
theorem PhiA1_split (c : Dev nD) :
    (Pipeline.ΦA spec1 c : sProp 𝕄)
      = iprop(iprop(iprop((∃ d, owns (c : Thread nD τ) accM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [accM1, owns_whole]; rfl

end Cert.KernelIdeal.Acc

end
-- ==== Proof.IAcc1RunFirst.lean ====
/-
  Layer 2's kernel body run whole at one kind of grid point (k = 0).
-/
import proofs.«143296_j88201448391445_2_alg».proof.Proof.IAcc1Cases

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at a point with k = 0 (and k not last): on whole buffers — the three input blocks at their contents, the
    output block's buffer at contents it hands back untouched, the accumulator at anything — it runs to the
    continuation with the inputs and the output buffer as they were and the accumulator holding what its two stores
    (the zeros, then zeros plus the block product) wrote: the list `LS` of stored pieces, last first, which the run
    finds. -/
noncomputable def runFirst1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst1 i) (hc1 : ¬isLast1 i)
    (x : Vec F S2048x512 .bf16) (w : Vec F S1024x512 .bf16) (bb : Vec F S1x1024 .f32) :
    { LS : List (View.Piece (Elt F) S2048x1024 .f32) //
      ∀ (xo : Vec F S2048x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ (∃ d, owns (c : Thread nD τ) arg7 fullShare d)
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc1__layer_kernel_bf16 i arg3 harg3 arg4 harg4 arg5 harg5 arg6 harg6 arg7 harg7) Kont } := by
  refine ⟨?_, fun xo E Kont => ?run⟩
  case run =>
    simp only [cc1__layer_kernel_bf16_eq_skeleton]; unfold cc1__layer_kernel_bf16_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Acc

end
-- ==== Proof.IAcc1RunMid.lean ====
/-
  Layer 2's kernel body run whole at one kind of grid point (0 < k < last).
-/
import proofs.«143296_j88201448391445_2_alg».proof.Proof.IAcc1RunFirst

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k neither 0 nor last: the accumulator enters at what the point before left (`xs`) and
    leaves holding its one store (`xs` plus the block product); everything else is handed back as it was. -/
noncomputable def runMid1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : ¬isLast1 i)
    (x : Vec F S2048x512 .bf16) (w : Vec F S1024x512 .bf16) (bb : Vec F S1x1024 .f32) (xs : Vec F S2048x1024 .f32) :
    { LS : List (View.Piece (Elt F) S2048x1024 .f32) //
      ∀ (xo : Vec F S2048x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ owns (c : Thread nD τ) arg7 fullShare xs
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc1__layer_kernel_bf16 i arg3 harg3 arg4 harg4 arg5 harg5 arg6 harg6 arg7 harg7) Kont } := by
  refine ⟨?_, fun xo E Kont => ?run⟩
  case run =>
    simp only [cc1__layer_kernel_bf16_eq_skeleton]; unfold cc1__layer_kernel_bf16_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Acc

end
-- ==== Proof.IAcc1RunLast.lean ====
/-
  Layer 2's kernel body run whole at one kind of grid point (k last).
-/
import proofs.«143296_j88201448391445_2_alg».proof.Proof.IAcc1RunMid

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k last: the accumulator enters at what the point before left (`xs`), takes the last block
    product, and the output block's buffer (entered at anything) leaves holding the one store of the binarized sum
    plus bias: the two lists of stored pieces `LO` (output) and `LS` (accumulator) are what the run finds. -/
noncomputable def runLast1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i)
    (x : Vec F S2048x512 .bf16) (w : Vec F S1024x512 .bf16) (bb : Vec F S1x1024 .f32) (xs : Vec F S2048x1024 .f32) :
    Σ' (LO : List (View.Piece (Elt F) S2048x1024 .bf16)), { LS : List (View.Piece (Elt F) S2048x1024 .f32) //
      ∀ (E : Set ℕ) (Kont : PUnit → sProp 𝕄),
        iprop(owns (c : Thread nD τ) arg3 fullShare x ∗ owns (c : Thread nD τ) arg4 fullShare w ∗ owns (c : Thread nD τ) arg5 fullShare bb ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare bb ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ Kont ⟨⟩))
          ⊢ wp frame (wpE (defs₀ (F := F)) Variants.none c none) E (cc1__layer_kernel_bf16 i arg3 harg3 arg4 harg4 arg5 harg5 arg6 harg6 arg7 harg7) Kont } := by
  refine ⟨?_, ?_, fun E Kont => ?run⟩
  case run =>
    simp only [cc1__layer_kernel_bf16_eq_skeleton]; unfold cc1__layer_kernel_bf16_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Acc

end
-- ==== Proof.IAcc1.lean ====
/-
  Layer 2's kernel region, at any contents `V` of the core's buffers when the region is entered.

  What the accumulator holds after each grid point is defined by recursion on the point's number: at a point with
  k = 0 it is what the body leaves there starting from anything, at every other point what the body leaves starting
  from what the point before left.  The output block's buffer matters only at the points with k last, where the body
  stores it whole.  From these the region's proof data: every input window's buffer holds its block at every point,
  the output window's buffer holds the stored block at the last k, and the region's invariant carries the accumulator
  at the recursion's value.
-/
import proofs.«143296_j88201448391445_2_alg».proof.Proof.IAcc1RunLast

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (a point that does not
    fetch it has the block index of the point before), for any proof data over `V` whose body leaves the block in
    place: the three input windows in turn. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the stores leave -/

/-- At k = 0 the two stores into the accumulator cover it. -/
theorem accCoverFirst1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst1 i) (hc1 : ¬isLast1 i) (x : Vec F S2048x512 .bf16) (w : Vec F S1024x512 .bf16) (bb : Vec F S1x1024 .f32) (y : S2048x1024.Idx) :
    ∃ pc ∈ (runFirst1 c i arg3 harg3 arg4 harg4 arg5 harg5 arg6 harg6 arg7 harg7 hc0 hc1 x w bb).1, y ∈ pc.1.set :=
  View.cover_of_tiledL (runFirst1 c i arg3 harg3 arg4 harg4 arg5 harg5 arg6 harg6 arg7 harg7 hc0 hc1 x w bb).1 S2048x1024.size (by sl_kernel_rfl) y
/-- What the accumulator holds after a point with k = 0: the stored pieces read back. -/
def accFirst1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst1 i) (hc1 : ¬isLast1 i) (x : Vec F S2048x512 .bf16) (w : Vec F S1024x512 .bf16) (bb : Vec F S1x1024 .f32) : Vec F S2048x1024 .f32 :=
  accV1.read (Elt F) (accV1.writes (Elt F) accV1.junk (runFirst1 c i arg3 harg3 arg4 harg4 arg5 harg5 arg6 harg6 arg7 harg7 hc0 hc1 x w bb).1)

/-- At 0 < k < last the one store into the accumulator covers it. -/
theorem accCoverMid1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : ¬isLast1 i) (x : Vec F S2048x512 .bf16) (w : Vec F S1024x512 .bf16) (bb : Vec F S1x1024 .f32) (xs : Vec F S2048x1024 .f32) (y : S2048x1024.Idx) :
    ∃ pc ∈ (runMid1 c i arg3 harg3 arg4 harg4 arg5 harg5 arg6 harg6 arg7 harg7 hc0 hc1 x w bb xs).1, y ∈ pc.1.set :=
  View.cover_of_tiledL (runMid1 c i arg3 harg3 arg4 harg4 arg5 harg5 arg6 harg6 arg7 harg7 hc0 hc1 x w bb xs).1 S2048x1024.size (by sl_kernel_rfl) y
/-- What the accumulator holds after such a point, from what it held before (`xs`). -/
def accMid1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : ¬isLast1 i) (x : Vec F S2048x512 .bf16) (w : Vec F S1024x512 .bf16) (bb : Vec F S1x1024 .f32) (xs : Vec F S2048x1024 .f32) : Vec F S2048x1024 .f32 :=
  accV1.read (Elt F) (accV1.writes (Elt F) accV1.junk (runMid1 c i arg3 harg3 arg4 harg4 arg5 harg5 arg6 harg6 arg7 harg7 hc0 hc1 x w bb xs).1)

/-- At k last the store into the accumulator covers it, -/
theorem accCoverLast1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i) (x : Vec F S2048x512 .bf16) (w : Vec F S1024x512 .bf16) (bb : Vec F S1x1024 .f32) (xs : Vec F S2048x1024 .f32) (y : S2048x1024.Idx) :
    ∃ pc ∈ (runLast1 c i arg3 harg3 arg4 harg4 arg5 harg5 arg6 harg6 arg7 harg7 hc0 hc1 x w bb xs).2.1, y ∈ pc.1.set :=
  View.cover_of_tiledL (runLast1 c i arg3 harg3 arg4 harg4 arg5 harg5 arg6 harg6 arg7 harg7 hc0 hc1 x w bb xs).2.1 S2048x1024.size (by sl_kernel_rfl) y
/-- and the store into the output block covers the block. -/
theorem outCoverLast1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i) (x : Vec F S2048x512 .bf16) (w : Vec F S1024x512 .bf16) (bb : Vec F S1x1024 .f32) (xs : Vec F S2048x1024 .f32) (y : S2048x1024.Idx) :
    ∃ pc ∈ (runLast1 c i arg3 harg3 arg4 harg4 arg5 harg5 arg6 harg6 arg7 harg7 hc0 hc1 x w bb xs).1, y ∈ pc.1.set :=
  View.cover_of_tiledL (runLast1 c i arg3 harg3 arg4 harg4 arg5 harg5 arg6 harg6 arg7 harg7 hc0 hc1 x w bb xs).1 S2048x1024.size (by sl_kernel_rfl) y
def accLast1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i) (x : Vec F S2048x512 .bf16) (w : Vec F S1024x512 .bf16) (bb : Vec F S1x1024 .f32) (xs : Vec F S2048x1024 .f32) : Vec F S2048x1024 .f32 :=
  accV1.read (Elt F) (accV1.writes (Elt F) accV1.junk (runLast1 c i arg3 harg3 arg4 harg4 arg5 harg5 arg6 harg6 arg7 harg7 hc0 hc1 x w bb xs).2.1)
/-- The output block as stored at k last. -/
def outLast1 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i) (x : Vec F S2048x512 .bf16) (w : Vec F S1024x512 .bf16) (bb : Vec F S1x1024 .f32) (xs : Vec F S2048x1024 .f32) : Vec F S2048x1024 .bf16 :=
  outV1.read (Elt F) (outV1.writes (Elt F) outV1.junk (runLast1 c i arg3 harg3 arg4 harg4 arg5 harg5 arg6 harg6 arg7 harg7 hc0 hc1 x w bb xs).1)

/-! ## The accumulator, point by point -/

set_option maxHeartbeats 4000000 in
/-- The accumulator after the body at point number `n`. -/
def accAt1 (c : Dev nD) : (n : ℕ) → n < cfg1.N → Vec F S2048x1024 .f32
  | 0, hn =>
      accFirst1 c (grid1.coords ⟨0, hn⟩) (stgX1 ⟨0, hn⟩) (hstgX1 ⟨0, hn⟩) (stgW1 ⟨0, hn⟩) (hstgW1 ⟨0, hn⟩) (stgB1 ⟨0, hn⟩) (hstgB1 ⟨0, hn⟩) (stgO1 ⟨0, hn⟩) (hstgO1 ⟨0, hn⟩) accM1 (Memref.isWhole_whole _) ((isFirst1_iff ⟨0, hn⟩).mpr (Nat.zero_mod _)) (fun h => (fun h => by (try dsimp only at h); omega) ((isLast1_iff ⟨0, hn⟩).mp h)) (iblk1 V c 0 ⟨0, hn⟩) (iblk1 V c 1 ⟨0, hn⟩) (iblk1 V c 2 ⟨0, hn⟩)
  | n + 1, hn =>
    if h0 : (n + 1) % 8 = 0 then
      accFirst1 c (grid1.coords ⟨n + 1, hn⟩) (stgX1 ⟨n + 1, hn⟩) (hstgX1 ⟨n + 1, hn⟩) (stgW1 ⟨n + 1, hn⟩) (hstgW1 ⟨n + 1, hn⟩) (stgB1 ⟨n + 1, hn⟩) (hstgB1 ⟨n + 1, hn⟩) (stgO1 ⟨n + 1, hn⟩) (hstgO1 ⟨n + 1, hn⟩) accM1 (Memref.isWhole_whole _) ((isFirst1_iff ⟨n + 1, hn⟩).mpr h0) (fun h => (fun h => by (try dsimp only at h); omega) ((isLast1_iff ⟨n + 1, hn⟩).mp h)) (iblk1 V c 0 ⟨n + 1, hn⟩) (iblk1 V c 1 ⟨n + 1, hn⟩) (iblk1 V c 2 ⟨n + 1, hn⟩)
    else
      if h1 : (n + 1) % 8 = 7 then
        accLast1 c (grid1.coords ⟨n + 1, hn⟩) (stgX1 ⟨n + 1, hn⟩) (hstgX1 ⟨n + 1, hn⟩) (stgW1 ⟨n + 1, hn⟩) (hstgW1 ⟨n + 1, hn⟩) (stgB1 ⟨n + 1, hn⟩) (hstgB1 ⟨n + 1, hn⟩) (stgO1 ⟨n + 1, hn⟩) (hstgO1 ⟨n + 1, hn⟩) accM1 (Memref.isWhole_whole _) (fun h => h0 ((isFirst1_iff ⟨n + 1, hn⟩).mp h)) ((isLast1_iff ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
      else
        accMid1 c (grid1.coords ⟨n + 1, hn⟩) (stgX1 ⟨n + 1, hn⟩) (hstgX1 ⟨n + 1, hn⟩) (stgW1 ⟨n + 1, hn⟩) (hstgW1 ⟨n + 1, hn⟩) (stgB1 ⟨n + 1, hn⟩) (hstgB1 ⟨n + 1, hn⟩) (stgO1 ⟨n + 1, hn⟩) (hstgO1 ⟨n + 1, hn⟩) accM1 (Memref.isWhole_whole _) (fun h => h0 ((isFirst1_iff ⟨n + 1, hn⟩).mp h)) (fun h => h1 ((isLast1_iff ⟨n + 1, hn⟩).mp h)) (iblk1 V c 0 ⟨n + 1, hn⟩) (iblk1 V c 1 ⟨n + 1, hn⟩) (iblk1 V c 2 ⟨n + 1, hn⟩) (accAt1 c n (Nat.lt_of_succ_lt hn))

set_option maxHeartbeats 4000000 in
/-- The accumulator after a point with k = 0. -/
theorem accAt1_first (c : Dev nD) (t : Fin cfg1.N) (h0 : t.val % 8 = 0) (h1 : ¬t.val % 8 = 7) :
    accAt1 V c t.val t.isLt = accFirst1 c (grid1.coords t) (stgX1 t) (hstgX1 t) (stgW1 t) (hstgW1 t) (stgB1 t) (hstgB1 t) (stgO1 t) (hstgO1 t) accM1 (Memref.isWhole_whole _) ((isFirst1_iff t).mpr h0) (fun h => h1 ((isLast1_iff t).mp h)) (iblk1 V c 0 t) (iblk1 V c 1 t) (iblk1 V c 2 t) := by
  obtain ⟨n, hn⟩ := t
  cases n with
  | zero => exact rfl
  | succ n => exact (dif_pos h0).trans rfl

set_option maxHeartbeats 4000000 in
/-- The accumulator after a point with 0 < k < last, over what the point before left. -/
theorem accAt1_mid (c : Dev nD) (t : Fin cfg1.N) (h0 : ¬t.val % 8 = 0) (h1 : ¬t.val % 8 = 7) :
    accAt1 V c t.val t.isLt = accMid1 c (grid1.coords t) (stgX1 t) (hstgX1 t) (stgW1 t) (hstgW1 t) (stgB1 t) (hstgB1 t) (stgO1 t) (hstgO1 t) accM1 (Memref.isWhole_whole _) (fun h => h0 ((isFirst1_iff t).mp h)) (fun h => h1 ((isLast1_iff t).mp h)) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

set_option maxHeartbeats 4000000 in
/-- The accumulator after a point with k last, over what the point before left. -/
theorem accAt1_last (c : Dev nD) (t : Fin cfg1.N) (h0 : ¬t.val % 8 = 0) (h1 : t.val % 8 = 7) :
    accAt1 V c t.val t.isLt = accLast1 c (grid1.coords t) (stgX1 t) (hstgX1 t) (stgW1 t) (hstgW1 t) (stgB1 t) (hstgB1 t) (stgO1 t) (hstgO1 t) accM1 (Memref.isWhole_whole _) (fun h => h0 ((isFirst1_iff t).mp h)) ((isLast1_iff t).mpr h1) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The output block's buffer, point by point -/

set_option maxHeartbeats 4000000 in
/-- After the body at point `t`: where k is last, the block the body stored, computed from what the point before
    left in the accumulator; elsewhere nothing was stored and nothing consults the value (junk read back). -/
def outAt1 (c : Dev nD) (t : Fin cfg1.N) : Vec F S2048x1024 .bf16 :=
  if h1 : t.val % 8 = 7 then
    outLast1 c (grid1.coords t) (stgX1 t) (hstgX1 t) (stgW1 t) (hstgW1 t) (stgB1 t) (hstgB1 t) (stgO1 t) (hstgO1 t) accM1 (Memref.isWhole_whole _) (fun h => (by omega : ¬t.val % 8 = 0) ((isFirst1_iff t).mp h)) ((isLast1_iff t).mpr h1) (iblk1 V c 0 t) (iblk1 V c 1 t) (iblk1 V c 2 t) (accAt1 V c (t.val - 1) (Nat.lt_of_le_of_lt (Nat.sub_le _ _) t.isLt))
  else outV1.read (Elt F) outV1.junk

theorem outAt1_last (c : Dev nD) (t : Fin cfg1.N) (h0 : ¬t.val % 8 = 0) (h1 : t.val % 8 = 7) :
    outAt1 V c t = outLast1 c (grid1.coords t) (stgX1 t) (hstgX1 t) (stgW1 t) (hstgW1 t) (stgB1 t) (hstgB1 t) (stgO1 t) (hstgO1 t) accM1 (Memref.isWhole_whole _) (fun h => h0 ((isFirst1_iff t).mp h)) ((isLast1_iff t).mpr h1) (iblk1 V c 0 t) (iblk1 V c 1 t) (iblk1 V c 2 t) (accAt1 V c (t.val - 1) (Nat.lt_of_le_of_lt (Nat.sub_le _ _) t.isLt)) := by
  unfold outAt1; exact dif_pos h1

/-! ## The region's invariant -/

/-- Before point number `n`: at the region's entry the accumulator at anything; afterwards at what the point before
    left; always beside the region's other buffers untouched and the generator register at some state. -/
def PhiAcc1 (c : Dev nD) : (n : ℕ) → n ≤ cfg1.N → sProp 𝕄
  | 0, _ => Pipeline.ΦA spec1 c
  | n + 1, hn => iprop(iprop(owns (c : Thread nD τ) accM1 fullShare (accAt1 V c n hn)
      ∗ Pipeline.scopedRestBut (Ix := Unit) (Name := ℕ) (U := UR sig nD τ) (Lvl := ℕ) (Val := Elt F) spec1 c [cc1_scratch0]) ∗ (∃ r, prngReg c r))

theorem PhiAcc1_zero (c : Dev nD) (n : ℕ) (h : n ≤ cfg1.N) (hz : n = 0) : PhiAcc1 V c n h = Pipeline.ΦA spec1 c := by
  subst hz; rfl
theorem PhiAcc1_succ (c : Dev nD) (n : ℕ) (hn : n < cfg1.N) :
    PhiAcc1 V c (n + 1) hn = iprop(iprop(owns (c : Thread nD τ) accM1 fullShare (accAt1 V c n hn)
      ∗ Pipeline.scopedRestBut (Ix := Unit) (Name := ℕ) (U := UR sig nD τ) (Lvl := ℕ) (Val := Elt F) spec1 c [cc1_scratch0]) ∗ (∃ r, prngReg c r)) := rfl
theorem PhiAcc1_pos (c : Dev nD) (n : ℕ) (h : n ≤ cfg1.N) (hz : n ≠ 0) :
    PhiAcc1 V c n h = iprop(iprop(owns (c : Thread nD τ) accM1 fullShare (accAt1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as found; after the body each input's buffer at its block and the
    output's at `outAt`; the invariant `PhiAcc`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiAcc1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiAcc1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.KernelIdeal.Acc

end
-- ==== Proof.IAcc1Body.lean ====
/-
  Layer 2's kernel region: the body obligation at every grid point, and the invariant's two ends.
-/
import proofs.«143296_j88201448391445_2_alg».proof.Proof.IAcc1

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- What the body is called with at point `t`: the invariant, nothing owed, the four windows' current buffers. -/
def bodyPre1 (c : Dev nD) (t : Fin cfg1.N) : sProp 𝕄 :=
  iprop((dat1 V c).Φ t.castSucc ∗ (dat1 V c).owesAt () t.castSucc
    ∗ (∃ d, owns (c : Thread nD τ) (stgX1 t) fullShare ((dat1 V c).before 0 t d))
    ∗ (∃ d, owns (c : Thread nD τ) (stgW1 t) fullShare ((dat1 V c).before 1 t d))
    ∗ (∃ d, owns (c : Thread nD τ) (stgB1 t) fullShare ((dat1 V c).before 2 t d))
    ∗ (∃ d, owns (c : Thread nD τ) (stgO1 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point.  The inputs' buffers hold their blocks; the point's number modulo 8 says which of the
    three runs applies; the invariant hands the run the accumulator (at anything when k = 0, at what the point before
    left otherwise) and takes it back at this point's value, because the run's stores cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiAcc1 V c (t.val + 1) t.isLt from rfl, PhiAcc1_succ]
  have hN : t.val < 128 := lt_of_lt_of_eq t.isLt (show cfg1.N = 128 from N_1)
  by_cases h0 : t.val % 8 = 0
  · have h1 : ¬t.val % 8 = 7 := by omega
    rw [show (dat1 V c).leavesExact 0 t = owns (c : Thread nD τ) (stgX1 t) fullShare ((dat1 V c).after 0 t) from by
      unfold Dat.leavesExact; rw [live1_0 t], after1_0]
    rw [show (dat1 V c).leavesExact 1 t = owns (c : Thread nD τ) (stgW1 t) fullShare ((dat1 V c).after 1 t) from by
      unfold Dat.leavesExact; rw [live1_1 t], after1_1]
    rw [show (dat1 V c).leavesExact 2 t = owns (c : Thread nD τ) (stgB1 t) fullShare ((dat1 V c).after 2 t) from by
      unfold Dat.leavesExact; rw [live1_2 t], after1_2]
    rw [Dat.leavesExact_idle (dat1 V c) 3 t (idle1_out t (fun h => h1 ((isLast1_iff t).mp h))) (noFlush1_out t (fun h => h1 ((isLast1_iff t).mp h)))]
    rw [accAt1_first V c t h0 h1]
    unfold accFirst1; (try dsimp only)
    by_cases hz : t.val = 0
    · rw [Phi1_castSucc V c t, PhiAcc1_zero V c _ _ hz, PhiA1_split]
      iintro ⟨⟨⟨HS, Hrest⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst1 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [Phi1_castSucc V c t, PhiAcc1_pos V c _ _ hz]
      iintro ⟨⟨⟨HS, Hrest⟩, Hg⟩, Ho, ⟨%d0, H0⟩, ⟨%d1, H1⟩, ⟨%d2, H2⟩, ⟨%d3, H3⟩⟩
      iapply ((runFirst1 c (grid1.coords t) _ _ _ _ _ _ _ _ _ _ ((isFirst1_iff t).mpr h0) (fun h => h1 ((isLast1_iff t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst1 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · -- k last
      rw [show (dat1 V c).leavesExact 0 t = owns (c : Thread nD τ) (stgX1 t) fullShare ((dat1 V c).after 0 t) from by
        unfold Dat.leavesExact; rw [live1_0 t], after1_0]
      rw [show (dat1 V c).leavesExact 1 t = owns (c : Thread nD τ) (stgW1 t) fullShare ((dat1 V c).after 1 t) from by
        unfold Dat.leavesExact; rw [live1_1 t], after1_1]
      rw [show (dat1 V c).leavesExact 2 t = owns (c : Thread nD τ) (stgB1 t) fullShare ((dat1 V c).after 2 t) from by
        unfold Dat.leavesExact; rw [live1_2 t], after1_2]
      rw [show (dat1 V c).leavesExact 3 t = owns (c : Thread nD τ) (stgO1 t) fullShare ((dat1 V c).after 3 t) from by
        unfold Dat.leavesExact; rw [live1_out t ((isLast1_iff t).mpr h1)], after1_3]
      rw [outAt1_last V c t h0 h1, accAt1_last V c t h0 h1]
      unfold outLast1 accLast1; (try dsimp only)
      rw [Phi1_castSucc V c t, PhiAcc1_pos V c _ _ hz]
      iintro ⟨⟨⟨HS, Hrest⟩, Hg⟩, Ho, ⟨%d0, H0⟩, ⟨%d1, H1⟩, ⟨%d2, H2⟩, ⟨%d3, H3⟩⟩
      iapply ((runLast1 c (grid1.coords t) _ _ _ _ _ _ _ _ _ _ (fun h => h0 ((isFirst1_iff t).mp h)) ((isLast1_iff t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverLast1 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast1 c _ _ _ _ _ _ _ _ _ _ _ _ _ _ _ _ _)
    · -- 0 < k < last
      rw [show (dat1 V c).leavesExact 0 t = owns (c : Thread nD τ) (stgX1 t) fullShare ((dat1 V c).after 0 t) from by
        unfold Dat.leavesExact; rw [live1_0 t], after1_0]
      rw [show (dat1 V c).leavesExact 1 t = owns (c : Thread nD τ) (stgW1 t) fullShare ((dat1 V c).after 1 t) from by
        unfold Dat.leavesExact; rw [live1_1 t], after1_1]
      rw [show (dat1 V c).leavesExact 2 t = owns (c : Thread nD τ) (stgB1 t) fullShare ((dat1 V c).after 2 t) from by
        unfold Dat.leavesExact; rw [live1_2 t], after1_2]
      rw [Dat.leavesExact_idle (dat1 V c) 3 t (idle1_out t (fun h => h1 ((isLast1_iff t).mp h))) (noFlush1_out t (fun h => h1 ((isLast1_iff t).mp h)))]
      rw [accAt1_mid V c t h0 h1]
      unfold accMid1; (try dsimp only)
      rw [Phi1_castSucc V c t, PhiAcc1_pos V c _ _ hz]
      iintro ⟨⟨⟨HS, Hrest⟩, Hg⟩, Ho, ⟨%d0, H0⟩, ⟨%d1, H1⟩, ⟨%d2, H2⟩, ⟨%d3, H3⟩⟩
      iapply ((runMid1 c (grid1.coords t) _ _ _ _ _ _ _ _ _ _ (fun h => h0 ((isFirst1_iff t).mp h)) (fun h => h1 ((isLast1_iff t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverMid1 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiAcc1 V c 0 (Nat.zero_le _) from rfl, PhiAcc1_zero V c 0 _ rfl]

/-- After the last point the invariant gives the same back: the accumulator's contents are forgotten. -/
theorem hout1 (c : Dev nD) : (dat1 V c).Φ (Fin.last cfg1.N) ⊢ Pipeline.ΦA spec1 c := by
  have hN : cfg1.N = 128 := N_1
  rw [show (dat1 V c).Φ (Fin.last cfg1.N) = PhiAcc1 V c (Fin.last cfg1.N).val (Nat.le_of_lt_succ (Fin.last cfg1.N).isLt) from rfl,
    PhiAcc1_pos V c _ _ (by rw [Fin.val_last]; omega), PhiA1_split]
  iintro ⟨⟨HS, Hrest⟩, Hg⟩
  isplitl [HS Hrest]
  · isplitl [HS]
    · iexists _; iexact HS
    iexact Hrest
  iexact Hg

end

end Cert.KernelIdeal.Acc

end
-- ==== Proof.IAcc2Cases.lean ====
/-
  Layer 3's kernel walks a grid of (row block, column block, k block) with k innermost, 8 k blocks per
  output block.  Its body resets the accumulator when k = 0, adds the block product at every k, and when
  k = 7 adds the bias, binarizes and stores the output block.  Here: the two branch conditions as facts about the
  point's number (k is the number modulo 8), where the output window is written and where it is left alone, the
  staging buffers the body is handed at a point, and the accumulator's place in the region's invariant.
-/
import proofs.«143296_j88201448391445_2_alg».proof.Proof.Gen.KernelIdeal.Launch
import proofs.«143296_j88201448391445_2_alg».proof.Proof.Gen.KernelIdeal.Skeleton
import proofs.«143296_j88201448391445_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "k = 0" as the body computes it from the grid coordinates. -/
abbrev isFirst2 (i : grid2.Coords) : Prop :=
  (Scalar.cmpi .ne (Scalar.extui (Scalar.cmpi .eq (BitVec.ofNat 32 (i 2).val) 0#32)) 0#32) = 1#1
/-- It holds exactly at the points whose number is 0 modulo 8. -/
theorem isFirst2_iff : ∀ t : Fin cfg2.N, isFirst2 (grid2.coords t) ↔ t.val % 8 = 0 :=
  (by decide +kernel : ∀ t : Fin grid2.N, isFirst2 (grid2.coords t) ↔ t.val % 8 = 0)

/-- "k is the last k block" as the body computes it. -/
abbrev isLast2 (i : grid2.Coords) : Prop := k2_cond2 i = 1#1
/-- It holds exactly at the points whose number is 7 modulo 8. -/
theorem isLast2_iff : ∀ t : Fin cfg2.N, isLast2 (grid2.coords t) ↔ t.val % 8 = 7 :=
  (by decide +kernel : ∀ t : Fin grid2.N, isLast2 (grid2.coords t) ↔ t.val % 8 = 7)

/-! ## Where the windows are written -/

/-- The three input windows are read at every point. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Before the last k block nothing is stored into the output block, -/
theorem idle2_out : ∀ t : Fin cfg2.N, ¬isLast2 (grid2.coords t) → cfg2.idle 3 (grid2.coords t) = true := by decide +kernel
/-- and it is not written back there; -/
theorem noFlush2_out : ∀ t : Fin cfg2.N, ¬isLast2 (grid2.coords t) → (cfg2.win 3).flush t = false := by decide +kernel
/-- at the last k block it is stored. -/
theorem live2_out : ∀ t : Fin cfg2.N, isLast2 (grid2.coords t) → cfg2.idle 3 (grid2.coords t) = false := by decide +kernel

/-! ## The buffers the body is handed -/

abbrev stgX2 (t : Fin cfg2.N) : Memref sig .tc .vmem S2048x512 .bf16 := win2_0.stage (cfg2.slots t 0)
abbrev hstgX2 (t : Fin cfg2.N) : (stgX2 t).IsWhole := hstage2_0 ((cfg2.slots t 0).cast nbuf2_0)
abbrev stgW2 (t : Fin cfg2.N) : Memref sig .tc .vmem S1024x512 .bf16 := win2_1.stage (cfg2.slots t 1)
abbrev hstgW2 (t : Fin cfg2.N) : (stgW2 t).IsWhole := hstage2_1 ((cfg2.slots t 1).cast nbuf2_1)
abbrev stgB2 (t : Fin cfg2.N) : Memref sig .tc .vmem S1x1024 .f32 := win2_2.stage (cfg2.slots t 2)
abbrev hstgB2 (t : Fin cfg2.N) : (stgB2 t).IsWhole := hstage2_2 ((cfg2.slots t 2).cast nbuf2_2)
abbrev stgO2 (t : Fin cfg2.N) : Memref sig .tc .vmem S2048x1024 .bf16 := win2_3.stage (cfg2.slots t 3)
abbrev hstgO2 (t : Fin cfg2.N) : (stgO2 t).IsWhole := hstage2_3 ((cfg2.slots t 3).cast nbuf2_3)
/-- The accumulator: a whole buffer of the kernel's own, carried from point to point. -/
abbrev accM2 : Memref sig .tc .vmem S2048x1024 .f32 := Memref.whole cc2_scratch0
/-- The views through which the accumulator's and the output block's contents are stated. -/
abbrev accV2 : View sig .tc .vmem S2048x1024 .f32 := accM2.view
abbrev outV2 : View sig .tc .vmem S2048x1024 .bf16 := (Memref.whole cc2_stg3_0 : Memref sig .tc .vmem S2048x1024 .bf16).view

/-- The region's invariant with the accumulator named: the accumulator whole at some contents, every other buffer
    of the region's own untouched, and the generator register at some state. -/
theorem PhiA2_split (c : Dev nD) :
    (Pipeline.ΦA spec2 c : sProp 𝕄)
      = iprop(iprop(iprop((∃ d, owns (c : Thread nD τ) accM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [accM2, owns_whole]; rfl

end Cert.KernelIdeal.Acc

end
-- ==== Proof.IAcc2RunFirst.lean ====
/-
  Layer 3's kernel body run whole at one kind of grid point (k = 0).
-/
import proofs.«143296_j88201448391445_2_alg».proof.Proof.IAcc2Cases

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at a point with k = 0 (and k not last): on whole buffers — the three input blocks at their contents, the
    output block's buffer at contents it hands back untouched, the accumulator at anything — it runs to the
    continuation with the inputs and the output buffer as they were and the accumulator holding what its two stores
    (the zeros, then zeros plus the block product) wrote: the list `LS` of stored pieces, last first, which the run
    finds. -/
noncomputable def runFirst2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst2 i) (hc1 : ¬isLast2 i)
    (x : Vec F S2048x512 .bf16) (w : Vec F S1024x512 .bf16) (bb : Vec F S1x1024 .f32) :
    { LS : List (View.Piece (Elt F) S2048x1024 .f32) //
      ∀ (xo : Vec F S2048x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ (∃ d, owns (c : Thread nD τ) arg7 fullShare d)
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc2__layer_kernel_bf16 i arg3 harg3 arg4 harg4 arg5 harg5 arg6 harg6 arg7 harg7) Kont } := by
  refine ⟨?_, fun xo E Kont => ?run⟩
  case run =>
    simp only [cc2__layer_kernel_bf16_eq_skeleton]; unfold cc2__layer_kernel_bf16_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Acc

end
-- ==== Proof.IAcc2RunMid.lean ====
/-
  Layer 3's kernel body run whole at one kind of grid point (0 < k < last).
-/
import proofs.«143296_j88201448391445_2_alg».proof.Proof.IAcc2RunFirst

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k neither 0 nor last: the accumulator enters at what the point before left (`xs`) and
    leaves holding its one store (`xs` plus the block product); everything else is handed back as it was. -/
noncomputable def runMid2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : ¬isLast2 i)
    (x : Vec F S2048x512 .bf16) (w : Vec F S1024x512 .bf16) (bb : Vec F S1x1024 .f32) (xs : Vec F S2048x1024 .f32) :
    { LS : List (View.Piece (Elt F) S2048x1024 .f32) //
      ∀ (xo : Vec F S2048x1024 .bf16) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ owns (c : Thread nD τ) arg7 fullShare xs
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc2__layer_kernel_bf16 i arg3 harg3 arg4 harg4 arg5 harg5 arg6 harg6 arg7 harg7) Kont } := by
  refine ⟨?_, fun xo E Kont => ?run⟩
  case run =>
    simp only [cc2__layer_kernel_bf16_eq_skeleton]; unfold cc2__layer_kernel_bf16_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Acc

end
-- ==== Proof.IAcc2RunLast.lean ====
/-
  Layer 3's kernel body run whole at one kind of grid point (k last).
-/
import proofs.«143296_j88201448391445_2_alg».proof.Proof.IAcc2RunMid

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k last: the accumulator enters at what the point before left (`xs`), takes the last block
    product, and the output block's buffer (entered at anything) leaves holding the one store of the binarized sum
    plus bias: the two lists of stored pieces `LO` (output) and `LS` (accumulator) are what the run finds. -/
noncomputable def runLast2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i)
    (x : Vec F S2048x512 .bf16) (w : Vec F S1024x512 .bf16) (bb : Vec F S1x1024 .f32) (xs : Vec F S2048x1024 .f32) :
    Σ' (LO : List (View.Piece (Elt F) S2048x1024 .bf16)), { LS : List (View.Piece (Elt F) S2048x1024 .f32) //
      ∀ (E : Set ℕ) (Kont : PUnit → sProp 𝕄),
        iprop(owns (c : Thread nD τ) arg3 fullShare x ∗ owns (c : Thread nD τ) arg4 fullShare w ∗ owns (c : Thread nD τ) arg5 fullShare bb ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare bb ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ Kont ⟨⟩))
          ⊢ wp frame (wpE (defs₀ (F := F)) Variants.none c none) E (cc2__layer_kernel_bf16 i arg3 harg3 arg4 harg4 arg5 harg5 arg6 harg6 arg7 harg7) Kont } := by
  refine ⟨?_, ?_, fun E Kont => ?run⟩
  case run =>
    simp only [cc2__layer_kernel_bf16_eq_skeleton]; unfold cc2__layer_kernel_bf16_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Acc

end
-- ==== Proof.IAcc2.lean ====
/-
  Layer 3's kernel region, at any contents `V` of the core's buffers when the region is entered.

  What the accumulator holds after each grid point is defined by recursion on the point's number: at a point with
  k = 0 it is what the body leaves there starting from anything, at every other point what the body leaves starting
  from what the point before left.  The output block's buffer matters only at the points with k last, where the body
  stores it whole.  From these the region's proof data: every input window's buffer holds its block at every point,
  the output window's buffer holds the stored block at the last k, and the region's invariant carries the accumulator
  at the recursion's value.
-/
import proofs.«143296_j88201448391445_2_alg».proof.Proof.IAcc2RunLast

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (a point that does not
    fetch it has the block index of the point before), for any proof data over `V` whose body leaves the block in
    place: the three input windows in turn. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the stores leave -/

/-- At k = 0 the two stores into the accumulator cover it. -/
theorem accCoverFirst2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst2 i) (hc1 : ¬isLast2 i) (x : Vec F S2048x512 .bf16) (w : Vec F S1024x512 .bf16) (bb : Vec F S1x1024 .f32) (y : S2048x1024.Idx) :
    ∃ pc ∈ (runFirst2 c i arg3 harg3 arg4 harg4 arg5 harg5 arg6 harg6 arg7 harg7 hc0 hc1 x w bb).1, y ∈ pc.1.set :=
  View.cover_of_tiledL (runFirst2 c i arg3 harg3 arg4 harg4 arg5 harg5 arg6 harg6 arg7 harg7 hc0 hc1 x w bb).1 S2048x1024.size (by sl_kernel_rfl) y
/-- What the accumulator holds after a point with k = 0: the stored pieces read back. -/
def accFirst2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst2 i) (hc1 : ¬isLast2 i) (x : Vec F S2048x512 .bf16) (w : Vec F S1024x512 .bf16) (bb : Vec F S1x1024 .f32) : Vec F S2048x1024 .f32 :=
  accV2.read (Elt F) (accV2.writes (Elt F) accV2.junk (runFirst2 c i arg3 harg3 arg4 harg4 arg5 harg5 arg6 harg6 arg7 harg7 hc0 hc1 x w bb).1)

/-- At 0 < k < last the one store into the accumulator covers it. -/
theorem accCoverMid2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : ¬isLast2 i) (x : Vec F S2048x512 .bf16) (w : Vec F S1024x512 .bf16) (bb : Vec F S1x1024 .f32) (xs : Vec F S2048x1024 .f32) (y : S2048x1024.Idx) :
    ∃ pc ∈ (runMid2 c i arg3 harg3 arg4 harg4 arg5 harg5 arg6 harg6 arg7 harg7 hc0 hc1 x w bb xs).1, y ∈ pc.1.set :=
  View.cover_of_tiledL (runMid2 c i arg3 harg3 arg4 harg4 arg5 harg5 arg6 harg6 arg7 harg7 hc0 hc1 x w bb xs).1 S2048x1024.size (by sl_kernel_rfl) y
/-- What the accumulator holds after such a point, from what it held before (`xs`). -/
def accMid2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : ¬isLast2 i) (x : Vec F S2048x512 .bf16) (w : Vec F S1024x512 .bf16) (bb : Vec F S1x1024 .f32) (xs : Vec F S2048x1024 .f32) : Vec F S2048x1024 .f32 :=
  accV2.read (Elt F) (accV2.writes (Elt F) accV2.junk (runMid2 c i arg3 harg3 arg4 harg4 arg5 harg5 arg6 harg6 arg7 harg7 hc0 hc1 x w bb xs).1)

/-- At k last the store into the accumulator covers it, -/
theorem accCoverLast2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i) (x : Vec F S2048x512 .bf16) (w : Vec F S1024x512 .bf16) (bb : Vec F S1x1024 .f32) (xs : Vec F S2048x1024 .f32) (y : S2048x1024.Idx) :
    ∃ pc ∈ (runLast2 c i arg3 harg3 arg4 harg4 arg5 harg5 arg6 harg6 arg7 harg7 hc0 hc1 x w bb xs).2.1, y ∈ pc.1.set :=
  View.cover_of_tiledL (runLast2 c i arg3 harg3 arg4 harg4 arg5 harg5 arg6 harg6 arg7 harg7 hc0 hc1 x w bb xs).2.1 S2048x1024.size (by sl_kernel_rfl) y
/-- and the store into the output block covers the block. -/
theorem outCoverLast2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i) (x : Vec F S2048x512 .bf16) (w : Vec F S1024x512 .bf16) (bb : Vec F S1x1024 .f32) (xs : Vec F S2048x1024 .f32) (y : S2048x1024.Idx) :
    ∃ pc ∈ (runLast2 c i arg3 harg3 arg4 harg4 arg5 harg5 arg6 harg6 arg7 harg7 hc0 hc1 x w bb xs).1, y ∈ pc.1.set :=
  View.cover_of_tiledL (runLast2 c i arg3 harg3 arg4 harg4 arg5 harg5 arg6 harg6 arg7 harg7 hc0 hc1 x w bb xs).1 S2048x1024.size (by sl_kernel_rfl) y
def accLast2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i) (x : Vec F S2048x512 .bf16) (w : Vec F S1024x512 .bf16) (bb : Vec F S1x1024 .f32) (xs : Vec F S2048x1024 .f32) : Vec F S2048x1024 .f32 :=
  accV2.read (Elt F) (accV2.writes (Elt F) accV2.junk (runLast2 c i arg3 harg3 arg4 harg4 arg5 harg5 arg6 harg6 arg7 harg7 hc0 hc1 x w bb xs).2.1)
/-- The output block as stored at k last. -/
def outLast2 (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i) (x : Vec F S2048x512 .bf16) (w : Vec F S1024x512 .bf16) (bb : Vec F S1x1024 .f32) (xs : Vec F S2048x1024 .f32) : Vec F S2048x1024 .bf16 :=
  outV2.read (Elt F) (outV2.writes (Elt F) outV2.junk (runLast2 c i arg3 harg3 arg4 harg4 arg5 harg5 arg6 harg6 arg7 harg7 hc0 hc1 x w bb xs).1)

/-! ## The accumulator, point by point -/

set_option maxHeartbeats 4000000 in
/-- The accumulator after the body at point number `n`. -/
def accAt2 (c : Dev nD) : (n : ℕ) → n < cfg2.N → Vec F S2048x1024 .f32
  | 0, hn =>
      accFirst2 c (grid2.coords ⟨0, hn⟩) (stgX2 ⟨0, hn⟩) (hstgX2 ⟨0, hn⟩) (stgW2 ⟨0, hn⟩) (hstgW2 ⟨0, hn⟩) (stgB2 ⟨0, hn⟩) (hstgB2 ⟨0, hn⟩) (stgO2 ⟨0, hn⟩) (hstgO2 ⟨0, hn⟩) accM2 (Memref.isWhole_whole _) ((isFirst2_iff ⟨0, hn⟩).mpr (Nat.zero_mod _)) (fun h => (fun h => by (try dsimp only at h); omega) ((isLast2_iff ⟨0, hn⟩).mp h)) (iblk2 V c 0 ⟨0, hn⟩) (iblk2 V c 1 ⟨0, hn⟩) (iblk2 V c 2 ⟨0, hn⟩)
  | n + 1, hn =>
    if h0 : (n + 1) % 8 = 0 then
      accFirst2 c (grid2.coords ⟨n + 1, hn⟩) (stgX2 ⟨n + 1, hn⟩) (hstgX2 ⟨n + 1, hn⟩) (stgW2 ⟨n + 1, hn⟩) (hstgW2 ⟨n + 1, hn⟩) (stgB2 ⟨n + 1, hn⟩) (hstgB2 ⟨n + 1, hn⟩) (stgO2 ⟨n + 1, hn⟩) (hstgO2 ⟨n + 1, hn⟩) accM2 (Memref.isWhole_whole _) ((isFirst2_iff ⟨n + 1, hn⟩).mpr h0) (fun h => (fun h => by (try dsimp only at h); omega) ((isLast2_iff ⟨n + 1, hn⟩).mp h)) (iblk2 V c 0 ⟨n + 1, hn⟩) (iblk2 V c 1 ⟨n + 1, hn⟩) (iblk2 V c 2 ⟨n + 1, hn⟩)
    else
      if h1 : (n + 1) % 8 = 7 then
        accLast2 c (grid2.coords ⟨n + 1, hn⟩) (stgX2 ⟨n + 1, hn⟩) (hstgX2 ⟨n + 1, hn⟩) (stgW2 ⟨n + 1, hn⟩) (hstgW2 ⟨n + 1, hn⟩) (stgB2 ⟨n + 1, hn⟩) (hstgB2 ⟨n + 1, hn⟩) (stgO2 ⟨n + 1, hn⟩) (hstgO2 ⟨n + 1, hn⟩) accM2 (Memref.isWhole_whole _) (fun h => h0 ((isFirst2_iff ⟨n + 1, hn⟩).mp h)) ((isLast2_iff ⟨n + 1, hn⟩).mpr h1) (iblk2 V c 0 ⟨n + 1, hn⟩) (iblk2 V c 1 ⟨n + 1, hn⟩) (iblk2 V c 2 ⟨n + 1, hn⟩) (accAt2 c n (Nat.lt_of_succ_lt hn))
      else
        accMid2 c (grid2.coords ⟨n + 1, hn⟩) (stgX2 ⟨n + 1, hn⟩) (hstgX2 ⟨n + 1, hn⟩) (stgW2 ⟨n + 1, hn⟩) (hstgW2 ⟨n + 1, hn⟩) (stgB2 ⟨n + 1, hn⟩) (hstgB2 ⟨n + 1, hn⟩) (stgO2 ⟨n + 1, hn⟩) (hstgO2 ⟨n + 1, hn⟩) accM2 (Memref.isWhole_whole _) (fun h => h0 ((isFirst2_iff ⟨n + 1, hn⟩).mp h)) (fun h => h1 ((isLast2_iff ⟨n + 1, hn⟩).mp h)) (iblk2 V c 0 ⟨n + 1, hn⟩) (iblk2 V c 1 ⟨n + 1, hn⟩) (iblk2 V c 2 ⟨n + 1, hn⟩) (accAt2 c n (Nat.lt_of_succ_lt hn))

set_option maxHeartbeats 4000000 in
/-- The accumulator after a point with k = 0. -/
theorem accAt2_first (c : Dev nD) (t : Fin cfg2.N) (h0 : t.val % 8 = 0) (h1 : ¬t.val % 8 = 7) :
    accAt2 V c t.val t.isLt = accFirst2 c (grid2.coords t) (stgX2 t) (hstgX2 t) (stgW2 t) (hstgW2 t) (stgB2 t) (hstgB2 t) (stgO2 t) (hstgO2 t) accM2 (Memref.isWhole_whole _) ((isFirst2_iff t).mpr h0) (fun h => h1 ((isLast2_iff t).mp h)) (iblk2 V c 0 t) (iblk2 V c 1 t) (iblk2 V c 2 t) := by
  obtain ⟨n, hn⟩ := t
  cases n with
  | zero => exact rfl
  | succ n => exact (dif_pos h0).trans rfl

set_option maxHeartbeats 4000000 in
/-- The accumulator after a point with 0 < k < last, over what the point before left. -/
theorem accAt2_mid (c : Dev nD) (t : Fin cfg2.N) (h0 : ¬t.val % 8 = 0) (h1 : ¬t.val % 8 = 7) :
    accAt2 V c t.val t.isLt = accMid2 c (grid2.coords t) (stgX2 t) (hstgX2 t) (stgW2 t) (hstgW2 t) (stgB2 t) (hstgB2 t) (stgO2 t) (hstgO2 t) accM2 (Memref.isWhole_whole _) (fun h => h0 ((isFirst2_iff t).mp h)) (fun h => h1 ((isLast2_iff t).mp h)) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

set_option maxHeartbeats 4000000 in
/-- The accumulator after a point with k last, over what the point before left. -/
theorem accAt2_last (c : Dev nD) (t : Fin cfg2.N) (h0 : ¬t.val % 8 = 0) (h1 : t.val % 8 = 7) :
    accAt2 V c t.val t.isLt = accLast2 c (grid2.coords t) (stgX2 t) (hstgX2 t) (stgW2 t) (hstgW2 t) (stgB2 t) (hstgB2 t) (stgO2 t) (hstgO2 t) accM2 (Memref.isWhole_whole _) (fun h => h0 ((isFirst2_iff t).mp h)) ((isLast2_iff t).mpr h1) (iblk2 V c 0 t) (iblk2 V c 1 t) (iblk2 V c 2 t) (accAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The output block's buffer, point by point -/

set_option maxHeartbeats 4000000 in
/-- After the body at point `t`: where k is last, the block the body stored, computed from what the point before
    left in the accumulator; elsewhere nothing was stored and nothing consults the value (junk read back). -/
def outAt2 (c : Dev nD) (t : Fin cfg2.N) : Vec F S2048x1024 .bf16 :=
  if h1 : t.val % 8 = 7 then
    outLast2 c (grid2.coords t) (stgX2 t) (hstgX2 t) (stgW2 t) (hstgW2 t) (stgB2 t) (hstgB2 t) (stgO2 t) (hstgO2 t) accM2 (Memref.isWhole_whole _) (fun h => (by omega : ¬t.val % 8 = 0) ((isFirst2_iff t).mp h)) ((isLast2_iff t).mpr h1) (iblk2 V c 0 t) (iblk2 V c 1 t) (iblk2 V c 2 t) (accAt2 V c (t.val - 1) (Nat.lt_of_le_of_lt (Nat.sub_le _ _) t.isLt))
  else outV2.read (Elt F) outV2.junk

theorem outAt2_last (c : Dev nD) (t : Fin cfg2.N) (h0 : ¬t.val % 8 = 0) (h1 : t.val % 8 = 7) :
    outAt2 V c t = outLast2 c (grid2.coords t) (stgX2 t) (hstgX2 t) (stgW2 t) (hstgW2 t) (stgB2 t) (hstgB2 t) (stgO2 t) (hstgO2 t) accM2 (Memref.isWhole_whole _) (fun h => h0 ((isFirst2_iff t).mp h)) ((isLast2_iff t).mpr h1) (iblk2 V c 0 t) (iblk2 V c 1 t) (iblk2 V c 2 t) (accAt2 V c (t.val - 1) (Nat.lt_of_le_of_lt (Nat.sub_le _ _) t.isLt)) := by
  unfold outAt2; exact dif_pos h1

/-! ## The region's invariant -/

/-- Before point number `n`: at the region's entry the accumulator at anything; afterwards at what the point before
    left; always beside the region's other buffers untouched and the generator register at some state. -/
def PhiAcc2 (c : Dev nD) : (n : ℕ) → n ≤ cfg2.N → sProp 𝕄
  | 0, _ => Pipeline.ΦA spec2 c
  | n + 1, hn => iprop(iprop(owns (c : Thread nD τ) accM2 fullShare (accAt2 V c n hn)
      ∗ Pipeline.scopedRestBut (Ix := Unit) (Name := ℕ) (U := UR sig nD τ) (Lvl := ℕ) (Val := Elt F) spec2 c [cc2_scratch0]) ∗ (∃ r, prngReg c r))

theorem PhiAcc2_zero (c : Dev nD) (n : ℕ) (h : n ≤ cfg2.N) (hz : n = 0) : PhiAcc2 V c n h = Pipeline.ΦA spec2 c := by
  subst hz; rfl
theorem PhiAcc2_succ (c : Dev nD) (n : ℕ) (hn : n < cfg2.N) :
    PhiAcc2 V c (n + 1) hn = iprop(iprop(owns (c : Thread nD τ) accM2 fullShare (accAt2 V c n hn)
      ∗ Pipeline.scopedRestBut (Ix := Unit) (Name := ℕ) (U := UR sig nD τ) (Lvl := ℕ) (Val := Elt F) spec2 c [cc2_scratch0]) ∗ (∃ r, prngReg c r)) := rfl
theorem PhiAcc2_pos (c : Dev nD) (n : ℕ) (h : n ≤ cfg2.N) (hz : n ≠ 0) :
    PhiAcc2 V c n h = iprop(iprop(owns (c : Thread nD τ) accM2 fullShare (accAt2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The region's proof data on core `c`: the arrays as found; after the body each input's buffer at its block and the
    output's at `outAt`; the invariant `PhiAcc`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiAcc2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = PhiAcc2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end

end Cert.KernelIdeal.Acc

end
-- ==== Proof.IAcc2Body.lean ====
/-
  Layer 3's kernel region: the body obligation at every grid point, and the invariant's two ends.
-/
import proofs.«143296_j88201448391445_2_alg».proof.Proof.IAcc2

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- What the body is called with at point `t`: the invariant, nothing owed, the four windows' current buffers. -/
def bodyPre2 (c : Dev nD) (t : Fin cfg2.N) : sProp 𝕄 :=
  iprop((dat2 V c).Φ t.castSucc ∗ (dat2 V c).owesAt () t.castSucc
    ∗ (∃ d, owns (c : Thread nD τ) (stgX2 t) fullShare ((dat2 V c).before 0 t d))
    ∗ (∃ d, owns (c : Thread nD τ) (stgW2 t) fullShare ((dat2 V c).before 1 t d))
    ∗ (∃ d, owns (c : Thread nD τ) (stgB2 t) fullShare ((dat2 V c).before 2 t d))
    ∗ (∃ d, owns (c : Thread nD τ) (stgO2 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point.  The inputs' buffers hold their blocks; the point's number modulo 8 says which of the
    three runs applies; the invariant hands the run the accumulator (at anything when k = 0, at what the point before
    left otherwise) and takes it back at this point's value, because the run's stores cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiAcc2 V c (t.val + 1) t.isLt from rfl, PhiAcc2_succ]
  have hN : t.val < 128 := lt_of_lt_of_eq t.isLt (show cfg2.N = 128 from N_2)
  by_cases h0 : t.val % 8 = 0
  · have h1 : ¬t.val % 8 = 7 := by omega
    rw [show (dat2 V c).leavesExact 0 t = owns (c : Thread nD τ) (stgX2 t) fullShare ((dat2 V c).after 0 t) from by
      unfold Dat.leavesExact; rw [live2_0 t], after2_0]
    rw [show (dat2 V c).leavesExact 1 t = owns (c : Thread nD τ) (stgW2 t) fullShare ((dat2 V c).after 1 t) from by
      unfold Dat.leavesExact; rw [live2_1 t], after2_1]
    rw [show (dat2 V c).leavesExact 2 t = owns (c : Thread nD τ) (stgB2 t) fullShare ((dat2 V c).after 2 t) from by
      unfold Dat.leavesExact; rw [live2_2 t], after2_2]
    rw [Dat.leavesExact_idle (dat2 V c) 3 t (idle2_out t (fun h => h1 ((isLast2_iff t).mp h))) (noFlush2_out t (fun h => h1 ((isLast2_iff t).mp h)))]
    rw [accAt2_first V c t h0 h1]
    unfold accFirst2; (try dsimp only)
    by_cases hz : t.val = 0
    · rw [Phi2_castSucc V c t, PhiAcc2_zero V c _ _ hz, PhiA2_split]
      iintro ⟨⟨⟨HS, Hrest⟩, Hg⟩, Ho, ⟨%d0, H0⟩, ⟨%d1, H1⟩, ⟨%d2, H2⟩, ⟨%d3, H3⟩⟩
      iapply ((runFirst2 c (grid2.coords t) _ _ _ _ _ _ _ _ _ _ ((isFirst2_iff t).mpr h0) (fun h => h1 ((isLast2_iff t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst2 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [Phi2_castSucc V c t, PhiAcc2_pos V c _ _ hz]
      iintro ⟨⟨⟨HS, Hrest⟩, Hg⟩, Ho, ⟨%d0, H0⟩, ⟨%d1, H1⟩, ⟨%d2, H2⟩, ⟨%d3, H3⟩⟩
      iapply ((runFirst2 c (grid2.coords t) _ _ _ _ _ _ _ _ _ _ ((isFirst2_iff t).mpr h0) (fun h => h1 ((isLast2_iff t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst2 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · -- k last
      rw [show (dat2 V c).leavesExact 0 t = owns (c : Thread nD τ) (stgX2 t) fullShare ((dat2 V c).after 0 t) from by
        unfold Dat.leavesExact; rw [live2_0 t], after2_0]
      rw [show (dat2 V c).leavesExact 1 t = owns (c : Thread nD τ) (stgW2 t) fullShare ((dat2 V c).after 1 t) from by
        unfold Dat.leavesExact; rw [live2_1 t], after2_1]
      rw [show (dat2 V c).leavesExact 2 t = owns (c : Thread nD τ) (stgB2 t) fullShare ((dat2 V c).after 2 t) from by
        unfold Dat.leavesExact; rw [live2_2 t], after2_2]
      rw [show (dat2 V c).leavesExact 3 t = owns (c : Thread nD τ) (stgO2 t) fullShare ((dat2 V c).after 3 t) from by
        unfold Dat.leavesExact; rw [live2_out t ((isLast2_iff t).mpr h1)], after2_3]
      rw [outAt2_last V c t h0 h1, accAt2_last V c t h0 h1]
      unfold outLast2 accLast2; (try dsimp only)
      rw [Phi2_castSucc V c t, PhiAcc2_pos V c _ _ hz]
      iintro ⟨⟨⟨HS, Hrest⟩, Hg⟩, Ho, ⟨%d0, H0⟩, ⟨%d1, H1⟩, ⟨%d2, H2⟩, ⟨%d3, H3⟩⟩
      iapply ((runLast2 c (grid2.coords t) _ _ _ _ _ _ _ _ _ _ (fun h => h0 ((isFirst2_iff t).mp h)) ((isLast2_iff t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverLast2 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast2 c _ _ _ _ _ _ _ _ _ _ _ _ _ _ _ _ _)
    · -- 0 < k < last
      rw [show (dat2 V c).leavesExact 0 t = owns (c : Thread nD τ) (stgX2 t) fullShare ((dat2 V c).after 0 t) from by
        unfold Dat.leavesExact; rw [live2_0 t], after2_0]
      rw [show (dat2 V c).leavesExact 1 t = owns (c : Thread nD τ) (stgW2 t) fullShare ((dat2 V c).after 1 t) from by
        unfold Dat.leavesExact; rw [live2_1 t], after2_1]
      rw [show (dat2 V c).leavesExact 2 t = owns (c : Thread nD τ) (stgB2 t) fullShare ((dat2 V c).after 2 t) from by
        unfold Dat.leavesExact; rw [live2_2 t], after2_2]
      rw [Dat.leavesExact_idle (dat2 V c) 3 t (idle2_out t (fun h => h1 ((isLast2_iff t).mp h))) (noFlush2_out t (fun h => h1 ((isLast2_iff t).mp h)))]
      rw [accAt2_mid V c t h0 h1]
      unfold accMid2; (try dsimp only)
      rw [Phi2_castSucc V c t, PhiAcc2_pos V c _ _ hz]
      iintro ⟨⟨⟨HS, Hrest⟩, Hg⟩, Ho, ⟨%d0, H0⟩, ⟨%d1, H1⟩, ⟨%d2, H2⟩, ⟨%d3, H3⟩⟩
      iapply ((runMid2 c (grid2.coords t) _ _ _ _ _ _ _ _ _ _ (fun h => h0 ((isFirst2_iff t).mp h)) (fun h => h1 ((isLast2_iff t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverMid2 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = PhiAcc2 V c 0 (Nat.zero_le _) from rfl, PhiAcc2_zero V c 0 _ rfl]

/-- After the last point the invariant gives the same back: the accumulator's contents are forgotten. -/
theorem hout2 (c : Dev nD) : (dat2 V c).Φ (Fin.last cfg2.N) ⊢ Pipeline.ΦA spec2 c := by
  have hN : cfg2.N = 128 := N_2
  rw [show (dat2 V c).Φ (Fin.last cfg2.N) = PhiAcc2 V c (Fin.last cfg2.N).val (Nat.le_of_lt_succ (Fin.last cfg2.N).isLt) from rfl,
    PhiAcc2_pos V c _ _ (by rw [Fin.val_last]; omega), PhiA2_split]
  iintro ⟨⟨HS, Hrest⟩, Hg⟩
  isplitl [HS Hrest]
  · isplitl [HS]
    · iexists _; iexact HS
    iexact Hrest
  iexact Hg

end

end Cert.KernelIdeal.Acc

end
-- ==== Proof.IAcc3Cases.lean ====
/-
  Layer 4's kernel walks a grid of (row block, column block, k block) with k innermost, 8 k blocks per
  output block.  Its body resets the accumulator when k = 0, adds the block product at every k, and when
  k = 7 adds the bias, binarizes and stores the output block.  Here: the two branch conditions as facts about the
  point's number (k is the number modulo 8), where the output window is written and where it is left alone, the
  staging buffers the body is handed at a point, and the accumulator's place in the region's invariant.
-/
import proofs.«143296_j88201448391445_2_alg».proof.Proof.Gen.KernelIdeal.Launch
import proofs.«143296_j88201448391445_2_alg».proof.Proof.Gen.KernelIdeal.Skeleton
import proofs.«143296_j88201448391445_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "k = 0" as the body computes it from the grid coordinates. -/
abbrev isFirst3 (i : grid3.Coords) : Prop :=
  (Scalar.cmpi .ne (Scalar.extui (Scalar.cmpi .eq (BitVec.ofNat 32 (i 2).val) 0#32)) 0#32) = 1#1
/-- It holds exactly at the points whose number is 0 modulo 8. -/
theorem isFirst3_iff : ∀ t : Fin cfg3.N, isFirst3 (grid3.coords t) ↔ t.val % 8 = 0 :=
  (by decide +kernel : ∀ t : Fin grid3.N, isFirst3 (grid3.coords t) ↔ t.val % 8 = 0)

/-- "k is the last k block" as the body computes it. -/
abbrev isLast3 (i : grid3.Coords) : Prop := k3_cond2 i = 1#1
/-- It holds exactly at the points whose number is 7 modulo 8. -/
theorem isLast3_iff : ∀ t : Fin cfg3.N, isLast3 (grid3.coords t) ↔ t.val % 8 = 7 :=
  (by decide +kernel : ∀ t : Fin grid3.N, isLast3 (grid3.coords t) ↔ t.val % 8 = 7)

/-! ## Where the windows are written -/

/-- The three input windows are read at every point. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Before the last k block nothing is stored into the output block, -/
theorem idle3_out : ∀ t : Fin cfg3.N, ¬isLast3 (grid3.coords t) → cfg3.idle 3 (grid3.coords t) = true := by decide +kernel
/-- and it is not written back there; -/
theorem noFlush3_out : ∀ t : Fin cfg3.N, ¬isLast3 (grid3.coords t) → (cfg3.win 3).flush t = false := by decide +kernel
/-- at the last k block it is stored. -/
theorem live3_out : ∀ t : Fin cfg3.N, isLast3 (grid3.coords t) → cfg3.idle 3 (grid3.coords t) = false := by decide +kernel

/-! ## The buffers the body is handed -/

abbrev stgX3 (t : Fin cfg3.N) : Memref sig .tc .vmem S2048x512 .bf16 := win3_0.stage (cfg3.slots t 0)
abbrev hstgX3 (t : Fin cfg3.N) : (stgX3 t).IsWhole := hstage3_0 ((cfg3.slots t 0).cast nbuf3_0)
abbrev stgW3 (t : Fin cfg3.N) : Memref sig .tc .vmem S1024x512 .bf16 := win3_1.stage (cfg3.slots t 1)
abbrev hstgW3 (t : Fin cfg3.N) : (stgW3 t).IsWhole := hstage3_1 ((cfg3.slots t 1).cast nbuf3_1)
abbrev stgB3 (t : Fin cfg3.N) : Memref sig .tc .vmem S1x1024 .f32 := win3_2.stage (cfg3.slots t 2)
abbrev hstgB3 (t : Fin cfg3.N) : (stgB3 t).IsWhole := hstage3_2 ((cfg3.slots t 2).cast nbuf3_2)
abbrev stgO3 (t : Fin cfg3.N) : Memref sig .tc .vmem S2048x1024 .f32 := win3_3.stage (cfg3.slots t 3)
abbrev hstgO3 (t : Fin cfg3.N) : (stgO3 t).IsWhole := hstage3_3 ((cfg3.slots t 3).cast nbuf3_3)
/-- The accumulator: a whole buffer of the kernel's own, carried from point to point. -/
abbrev accM3 : Memref sig .tc .vmem S2048x1024 .f32 := Memref.whole cc3_scratch0
/-- The views through which the accumulator's and the output block's contents are stated. -/
abbrev accV3 : View sig .tc .vmem S2048x1024 .f32 := accM3.view
abbrev outV3 : View sig .tc .vmem S2048x1024 .f32 := (Memref.whole cc3_stg3_0 : Memref sig .tc .vmem S2048x1024 .f32).view

/-- The region's invariant with the accumulator named: the accumulator whole at some contents, every other buffer
    of the region's own untouched, and the generator register at some state. -/
theorem PhiA3_split (c : Dev nD) :
    (Pipeline.ΦA spec3 c : sProp 𝕄)
      = iprop(iprop(iprop((∃ d, owns (c : Thread nD τ) accM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [accM3, owns_whole]; rfl

end Cert.KernelIdeal.Acc

end
-- ==== Proof.IAcc3RunFirst.lean ====
/-
  Layer 4's kernel body run whole at one kind of grid point (k = 0).
-/
import proofs.«143296_j88201448391445_2_alg».proof.Proof.IAcc3Cases

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at a point with k = 0 (and k not last): on whole buffers — the three input blocks at their contents, the
    output block's buffer at contents it hands back untouched, the accumulator at anything — it runs to the
    continuation with the inputs and the output buffer as they were and the accumulator holding what its two stores
    (the zeros, then zeros plus the block product) wrote: the list `LS` of stored pieces, last first, which the run
    finds. -/
noncomputable def runFirst3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : isFirst3 i) (hc1 : ¬isLast3 i)
    (x : Vec F S2048x512 .bf16) (w : Vec F S1024x512 .bf16) (bb : Vec F S1x1024 .f32) :
    { LS : List (View.Piece (Elt F) S2048x1024 .f32) //
      ∀ (xo : Vec F S2048x1024 .f32) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ (∃ d, owns (c : Thread nD τ) arg7 fullShare d)
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc3__layer_kernel_bf16 i arg3 harg3 arg4 harg4 arg5 harg5 arg6 harg6 arg7 harg7) Kont } := by
  refine ⟨?_, fun xo E Kont => ?run⟩
  case run =>
    simp only [cc3__layer_kernel_bf16_eq_skeleton]; unfold cc3__layer_kernel_bf16_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Acc

end
-- ==== Proof.IAcc3RunMid.lean ====
/-
  Layer 4's kernel body run whole at one kind of grid point (0 < k < last).
-/
import proofs.«143296_j88201448391445_2_alg».proof.Proof.IAcc3RunFirst

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k neither 0 nor last: the accumulator enters at what the point before left (`xs`) and
    leaves holding its one store (`xs` plus the block product); everything else is handed back as it was. -/
noncomputable def runMid3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : ¬isLast3 i)
    (x : Vec F S2048x512 .bf16) (w : Vec F S1024x512 .bf16) (bb : Vec F S1x1024 .f32) (xs : Vec F S2048x1024 .f32) :
    { LS : List (View.Piece (Elt F) S2048x1024 .f32) //
      ∀ (xo : Vec F S2048x1024 .f32) (E : Set ℕ) (Kont : PUnit → sProp 𝕄),
        iprop(owns (c : Thread nD τ) arg3 fullShare x ∗ owns (c : Thread nD τ) arg4 fullShare w ∗ owns (c : Thread nD τ) arg5 fullShare bb ∗ owns (c : Thread nD τ) arg6 fullShare xo ∗ owns (c : Thread nD τ) arg7 fullShare xs
            ∗ (iprop(owns (c : Thread nD τ) arg3 fullShare x ∗ owns (c : Thread nD τ) arg4 fullShare w ∗ owns (c : Thread nD τ) arg5 fullShare bb ∗ owns (c : Thread nD τ) arg6 fullShare xo ∗ (∃ f, arg7.view.loc (c : Thread nD τ) ↦[arg7.view.set]{fullShare} arg7.view.writes (Elt F) f LS)) -∗ Kont ⟨⟩))
          ⊢ wp frame (wpE (defs₀ (F := F)) Variants.none c none) E (cc3__layer_kernel_bf16 i arg3 harg3 arg4 harg4 arg5 harg5 arg6 harg6 arg7 harg7) Kont } := by
  refine ⟨?_, fun xo E Kont => ?run⟩
  case run =>
    simp only [cc3__layer_kernel_bf16_eq_skeleton]; unfold cc3__layer_kernel_bf16_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Acc

end
-- ==== Proof.IAcc3RunLast.lean ====
/-
  Layer 4's kernel body run whole at one kind of grid point (k last).
-/
import proofs.«143296_j88201448391445_2_alg».proof.Proof.IAcc3RunMid

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with k last: the accumulator enters at what the point before left (`xs`), takes the last block
    product, and the output block's buffer (entered at anything) leaves holding the one store of the binarized sum
    plus bias: the two lists of stored pieces `LO` (output) and `LS` (accumulator) are what the run finds. -/
noncomputable def runLast3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i)
    (x : Vec F S2048x512 .bf16) (w : Vec F S1024x512 .bf16) (bb : Vec F S1x1024 .f32) (xs : Vec F S2048x1024 .f32) :
    Σ' (LO : List (View.Piece (Elt F) S2048x1024 .f32)), { LS : List (View.Piece (Elt F) S2048x1024 .f32) //
      ∀ (E : Set ℕ) (Kont : PUnit → sProp 𝕄),
        iprop(owns (c : Thread nD τ) arg3 fullShare x ∗ owns (c : Thread nD τ) arg4 fullShare w ∗ owns (c : Thread nD τ) arg5 fullShare bb ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare bb ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ Kont ⟨⟩))
          ⊢ wp frame (wpE (defs₀ (F := F)) Variants.none c none) E (cc3__layer_kernel_bf16 i arg3 harg3 arg4 harg4 arg5 harg5 arg6 harg6 arg7 harg7) Kont } := by
  refine ⟨?_, ?_, fun E Kont => ?run⟩
  case run =>
    simp only [cc3__layer_kernel_bf16_eq_skeleton]; unfold cc3__layer_kernel_bf16_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Acc

end
-- ==== Proof.IAcc3.lean ====
/-
  Layer 4's kernel region, at any contents `V` of the core's buffers when the region is entered.

  What the accumulator holds after each grid point is defined by recursion on the point's number: at a point with
  k = 0 it is what the body leaves there starting from anything, at every other point what the body leaves starting
  from what the point before left.  The output block's buffer matters only at the points with k last, where the body
  stores it whole.  From these the region's proof data: every input window's buffer holds its block at every point,
  the output window's buffer holds the stored block at the last k, and the region's invariant carries the accumulator
  at the recursion's value.
-/
import proofs.«143296_j88201448391445_2_alg».proof.Proof.IAcc3RunLast

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (a point that does not
    fetch it has the block index of the point before), for any proof data over `V` whose body leaves the block in
    place: the three input windows in turn. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the stores leave -/

/-- At k = 0 the two stores into the accumulator cover it. -/
theorem accCoverFirst3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : isFirst3 i) (hc1 : ¬isLast3 i) (x : Vec F S2048x512 .bf16) (w : Vec F S1024x512 .bf16) (bb : Vec F S1x1024 .f32) (y : S2048x1024.Idx) :
    ∃ pc ∈ (runFirst3 c i arg3 harg3 arg4 harg4 arg5 harg5 arg6 harg6 arg7 harg7 hc0 hc1 x w bb).1, y ∈ pc.1.set :=
  View.cover_of_tiledL (runFirst3 c i arg3 harg3 arg4 harg4 arg5 harg5 arg6 harg6 arg7 harg7 hc0 hc1 x w bb).1 S2048x1024.size (by sl_kernel_rfl) y
/-- What the accumulator holds after a point with k = 0: the stored pieces read back. -/
def accFirst3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : isFirst3 i) (hc1 : ¬isLast3 i) (x : Vec F S2048x512 .bf16) (w : Vec F S1024x512 .bf16) (bb : Vec F S1x1024 .f32) : Vec F S2048x1024 .f32 :=
  accV3.read (Elt F) (accV3.writes (Elt F) accV3.junk (runFirst3 c i arg3 harg3 arg4 harg4 arg5 harg5 arg6 harg6 arg7 harg7 hc0 hc1 x w bb).1)

/-- At 0 < k < last the one store into the accumulator covers it. -/
theorem accCoverMid3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : ¬isLast3 i) (x : Vec F S2048x512 .bf16) (w : Vec F S1024x512 .bf16) (bb : Vec F S1x1024 .f32) (xs : Vec F S2048x1024 .f32) (y : S2048x1024.Idx) :
    ∃ pc ∈ (runMid3 c i arg3 harg3 arg4 harg4 arg5 harg5 arg6 harg6 arg7 harg7 hc0 hc1 x w bb xs).1, y ∈ pc.1.set :=
  View.cover_of_tiledL (runMid3 c i arg3 harg3 arg4 harg4 arg5 harg5 arg6 harg6 arg7 harg7 hc0 hc1 x w bb xs).1 S2048x1024.size (by sl_kernel_rfl) y
/-- What the accumulator holds after such a point, from what it held before (`xs`). -/
def accMid3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : ¬isLast3 i) (x : Vec F S2048x512 .bf16) (w : Vec F S1024x512 .bf16) (bb : Vec F S1x1024 .f32) (xs : Vec F S2048x1024 .f32) : Vec F S2048x1024 .f32 :=
  accV3.read (Elt F) (accV3.writes (Elt F) accV3.junk (runMid3 c i arg3 harg3 arg4 harg4 arg5 harg5 arg6 harg6 arg7 harg7 hc0 hc1 x w bb xs).1)

/-- At k last the store into the accumulator covers it, -/
theorem accCoverLast3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i) (x : Vec F S2048x512 .bf16) (w : Vec F S1024x512 .bf16) (bb : Vec F S1x1024 .f32) (xs : Vec F S2048x1024 .f32) (y : S2048x1024.Idx) :
    ∃ pc ∈ (runLast3 c i arg3 harg3 arg4 harg4 arg5 harg5 arg6 harg6 arg7 harg7 hc0 hc1 x w bb xs).2.1, y ∈ pc.1.set :=
  View.cover_of_tiledL (runLast3 c i arg3 harg3 arg4 harg4 arg5 harg5 arg6 harg6 arg7 harg7 hc0 hc1 x w bb xs).2.1 S2048x1024.size (by sl_kernel_rfl) y
/-- and the store into the output block covers the block. -/
theorem outCoverLast3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i) (x : Vec F S2048x512 .bf16) (w : Vec F S1024x512 .bf16) (bb : Vec F S1x1024 .f32) (xs : Vec F S2048x1024 .f32) (y : S2048x1024.Idx) :
    ∃ pc ∈ (runLast3 c i arg3 harg3 arg4 harg4 arg5 harg5 arg6 harg6 arg7 harg7 hc0 hc1 x w bb xs).1, y ∈ pc.1.set :=
  View.cover_of_tiledL (runLast3 c i arg3 harg3 arg4 harg4 arg5 harg5 arg6 harg6 arg7 harg7 hc0 hc1 x w bb xs).1 S2048x1024.size (by sl_kernel_rfl) y
def accLast3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i) (x : Vec F S2048x512 .bf16) (w : Vec F S1024x512 .bf16) (bb : Vec F S1x1024 .f32) (xs : Vec F S2048x1024 .f32) : Vec F S2048x1024 .f32 :=
  accV3.read (Elt F) (accV3.writes (Elt F) accV3.junk (runLast3 c i arg3 harg3 arg4 harg4 arg5 harg5 arg6 harg6 arg7 harg7 hc0 hc1 x w bb xs).2.1)
/-- The output block as stored at k last. -/
def outLast3 (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i) (x : Vec F S2048x512 .bf16) (w : Vec F S1024x512 .bf16) (bb : Vec F S1x1024 .f32) (xs : Vec F S2048x1024 .f32) : Vec F S2048x1024 .f32 :=
  outV3.read (Elt F) (outV3.writes (Elt F) outV3.junk (runLast3 c i arg3 harg3 arg4 harg4 arg5 harg5 arg6 harg6 arg7 harg7 hc0 hc1 x w bb xs).1)

/-! ## The accumulator, point by point -/

set_option maxHeartbeats 4000000 in
/-- The accumulator after the body at point number `n`. -/
def accAt3 (c : Dev nD) : (n : ℕ) → n < cfg3.N → Vec F S2048x1024 .f32
  | 0, hn =>
      accFirst3 c (grid3.coords ⟨0, hn⟩) (stgX3 ⟨0, hn⟩) (hstgX3 ⟨0, hn⟩) (stgW3 ⟨0, hn⟩) (hstgW3 ⟨0, hn⟩) (stgB3 ⟨0, hn⟩) (hstgB3 ⟨0, hn⟩) (stgO3 ⟨0, hn⟩) (hstgO3 ⟨0, hn⟩) accM3 (Memref.isWhole_whole _) ((isFirst3_iff ⟨0, hn⟩).mpr (Nat.zero_mod _)) (fun h => (fun h => by (try dsimp only at h); omega) ((isLast3_iff ⟨0, hn⟩).mp h)) (iblk3 V c 0 ⟨0, hn⟩) (iblk3 V c 1 ⟨0, hn⟩) (iblk3 V c 2 ⟨0, hn⟩)
  | n + 1, hn =>
    if h0 : (n + 1) % 8 = 0 then
      accFirst3 c (grid3.coords ⟨n + 1, hn⟩) (stgX3 ⟨n + 1, hn⟩) (hstgX3 ⟨n + 1, hn⟩) (stgW3 ⟨n + 1, hn⟩) (hstgW3 ⟨n + 1, hn⟩) (stgB3 ⟨n + 1, hn⟩) (hstgB3 ⟨n + 1, hn⟩) (stgO3 ⟨n + 1, hn⟩) (hstgO3 ⟨n + 1, hn⟩) accM3 (Memref.isWhole_whole _) ((isFirst3_iff ⟨n + 1, hn⟩).mpr h0) (fun h => (fun h => by (try dsimp only at h); omega) ((isLast3_iff ⟨n + 1, hn⟩).mp h)) (iblk3 V c 0 ⟨n + 1, hn⟩) (iblk3 V c 1 ⟨n + 1, hn⟩) (iblk3 V c 2 ⟨n + 1, hn⟩)
    else
      if h1 : (n + 1) % 8 = 7 then
        accLast3 c (grid3.coords ⟨n + 1, hn⟩) (stgX3 ⟨n + 1, hn⟩) (hstgX3 ⟨n + 1, hn⟩) (stgW3 ⟨n + 1, hn⟩) (hstgW3 ⟨n + 1, hn⟩) (stgB3 ⟨n + 1, hn⟩) (hstgB3 ⟨n + 1, hn⟩) (stgO3 ⟨n + 1, hn⟩) (hstgO3 ⟨n + 1, hn⟩) accM3 (Memref.isWhole_whole _) (fun h => h0 ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (accAt3 c n (Nat.lt_of_succ_lt hn))
      else
        accMid3 c (grid3.coords ⟨n + 1, hn⟩) (stgX3 ⟨n + 1, hn⟩) (hstgX3 ⟨n + 1, hn⟩) (stgW3 ⟨n + 1, hn⟩) (hstgW3 ⟨n + 1, hn⟩) (stgB3 ⟨n + 1, hn⟩) (hstgB3 ⟨n + 1, hn⟩) (stgO3 ⟨n + 1, hn⟩) (hstgO3 ⟨n + 1, hn⟩) accM3 (Memref.isWhole_whole _) (fun h => h0 ((isFirst3_iff ⟨n + 1, hn⟩).mp h)) (fun h => h1 ((isLast3_iff ⟨n + 1, hn⟩).mp h)) (iblk3 V c 0 ⟨n + 1, hn⟩) (iblk3 V c 1 ⟨n + 1, hn⟩) (iblk3 V c 2 ⟨n + 1, hn⟩) (accAt3 c n (Nat.lt_of_succ_lt hn))

set_option maxHeartbeats 4000000 in
/-- The accumulator after a point with k = 0. -/
theorem accAt3_first (c : Dev nD) (t : Fin cfg3.N) (h0 : t.val % 8 = 0) (h1 : ¬t.val % 8 = 7) :
    accAt3 V c t.val t.isLt = accFirst3 c (grid3.coords t) (stgX3 t) (hstgX3 t) (stgW3 t) (hstgW3 t) (stgB3 t) (hstgB3 t) (stgO3 t) (hstgO3 t) accM3 (Memref.isWhole_whole _) ((isFirst3_iff t).mpr h0) (fun h => h1 ((isLast3_iff t).mp h)) (iblk3 V c 0 t) (iblk3 V c 1 t) (iblk3 V c 2 t) := by
  obtain ⟨n, hn⟩ := t
  cases n with
  | zero => exact rfl
  | succ n => exact (dif_pos h0).trans rfl

set_option maxHeartbeats 4000000 in
/-- The accumulator after a point with 0 < k < last, over what the point before left. -/
theorem accAt3_mid (c : Dev nD) (t : Fin cfg3.N) (h0 : ¬t.val % 8 = 0) (h1 : ¬t.val % 8 = 7) :
    accAt3 V c t.val t.isLt = accMid3 c (grid3.coords t) (stgX3 t) (hstgX3 t) (stgW3 t) (hstgW3 t) (stgB3 t) (hstgB3 t) (stgO3 t) (hstgO3 t) accM3 (Memref.isWhole_whole _) (fun h => h0 ((isFirst3_iff t).mp h)) (fun h => h1 ((isLast3_iff t).mp h)) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

set_option maxHeartbeats 4000000 in
/-- The accumulator after a point with k last, over what the point before left. -/
theorem accAt3_last (c : Dev nD) (t : Fin cfg3.N) (h0 : ¬t.val % 8 = 0) (h1 : t.val % 8 = 7) :
    accAt3 V c t.val t.isLt = accLast3 c (grid3.coords t) (stgX3 t) (hstgX3 t) (stgW3 t) (hstgW3 t) (stgB3 t) (hstgB3 t) (stgO3 t) (hstgO3 t) accM3 (Memref.isWhole_whole _) (fun h => h0 ((isFirst3_iff t).mp h)) ((isLast3_iff t).mpr h1) (iblk3 V c 0 t) (iblk3 V c 1 t) (iblk3 V c 2 t) (accAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The output block's buffer, point by point -/

set_option maxHeartbeats 4000000 in
/-- After the body at point `t`: where k is last, the block the body stored, computed from what the point before
    left in the accumulator; elsewhere nothing was stored and nothing consults the value (junk read back). -/
def outAt3 (c : Dev nD) (t : Fin cfg3.N) : Vec F S2048x1024 .f32 :=
  if h1 : t.val % 8 = 7 then
    outLast3 c (grid3.coords t) (stgX3 t) (hstgX3 t) (stgW3 t) (hstgW3 t) (stgB3 t) (hstgB3 t) (stgO3 t) (hstgO3 t) accM3 (Memref.isWhole_whole _) (fun h => (by omega : ¬t.val % 8 = 0) ((isFirst3_iff t).mp h)) ((isLast3_iff t).mpr h1) (iblk3 V c 0 t) (iblk3 V c 1 t) (iblk3 V c 2 t) (accAt3 V c (t.val - 1) (Nat.lt_of_le_of_lt (Nat.sub_le _ _) t.isLt))
  else outV3.read (Elt F) outV3.junk

theorem outAt3_last (c : Dev nD) (t : Fin cfg3.N) (h0 : ¬t.val % 8 = 0) (h1 : t.val % 8 = 7) :
    outAt3 V c t = outLast3 c (grid3.coords t) (stgX3 t) (hstgX3 t) (stgW3 t) (hstgW3 t) (stgB3 t) (hstgB3 t) (stgO3 t) (hstgO3 t) accM3 (Memref.isWhole_whole _) (fun h => h0 ((isFirst3_iff t).mp h)) ((isLast3_iff t).mpr h1) (iblk3 V c 0 t) (iblk3 V c 1 t) (iblk3 V c 2 t) (accAt3 V c (t.val - 1) (Nat.lt_of_le_of_lt (Nat.sub_le _ _) t.isLt)) := by
  unfold outAt3; exact dif_pos h1

/-! ## The region's invariant -/

/-- Before point number `n`: at the region's entry the accumulator at anything; afterwards at what the point before
    left; always beside the region's other buffers untouched and the generator register at some state. -/
def PhiAcc3 (c : Dev nD) : (n : ℕ) → n ≤ cfg3.N → sProp 𝕄
  | 0, _ => Pipeline.ΦA spec3 c
  | n + 1, hn => iprop(iprop(owns (c : Thread nD τ) accM3 fullShare (accAt3 V c n hn)
      ∗ Pipeline.scopedRestBut (Ix := Unit) (Name := ℕ) (U := UR sig nD τ) (Lvl := ℕ) (Val := Elt F) spec3 c [cc3_scratch0]) ∗ (∃ r, prngReg c r))

theorem PhiAcc3_zero (c : Dev nD) (n : ℕ) (h : n ≤ cfg3.N) (hz : n = 0) : PhiAcc3 V c n h = Pipeline.ΦA spec3 c := by
  subst hz; rfl
theorem PhiAcc3_succ (c : Dev nD) (n : ℕ) (hn : n < cfg3.N) :
    PhiAcc3 V c (n + 1) hn = iprop(iprop(owns (c : Thread nD τ) accM3 fullShare (accAt3 V c n hn)
      ∗ Pipeline.scopedRestBut (Ix := Unit) (Name := ℕ) (U := UR sig nD τ) (Lvl := ℕ) (Val := Elt F) spec3 c [cc3_scratch0]) ∗ (∃ r, prngReg c r)) := rfl
theorem PhiAcc3_pos (c : Dev nD) (n : ℕ) (h : n ≤ cfg3.N) (hz : n ≠ 0) :
    PhiAcc3 V c n h = iprop(iprop(owns (c : Thread nD τ) accM3 fullShare (accAt3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The region's proof data on core `c`: the arrays as found; after the body each input's buffer at its block and the
    output's at `outAt`; the invariant `PhiAcc`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := PhiAcc3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem Phi3_castSucc (c : Dev nD) (t : Fin cfg3.N) :
    (dat3 V c).Φ t.castSucc = PhiAcc3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end

end Cert.KernelIdeal.Acc

end
-- ==== Proof.IAcc3Body.lean ====
/-
  Layer 4's kernel region: the body obligation at every grid point, and the invariant's two ends.
-/
import proofs.«143296_j88201448391445_2_alg».proof.Proof.IAcc3

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- What the body is called with at point `t`: the invariant, nothing owed, the four windows' current buffers. -/
def bodyPre3 (c : Dev nD) (t : Fin cfg3.N) : sProp 𝕄 :=
  iprop((dat3 V c).Φ t.castSucc ∗ (dat3 V c).owesAt () t.castSucc
    ∗ (∃ d, owns (c : Thread nD τ) (stgX3 t) fullShare ((dat3 V c).before 0 t d))
    ∗ (∃ d, owns (c : Thread nD τ) (stgW3 t) fullShare ((dat3 V c).before 1 t d))
    ∗ (∃ d, owns (c : Thread nD τ) (stgB3 t) fullShare ((dat3 V c).before 2 t d))
    ∗ (∃ d, owns (c : Thread nD τ) (stgO3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point.  The inputs' buffers hold their blocks; the point's number modulo 8 says which of the
    three runs applies; the invariant hands the run the accumulator (at anything when k = 0, at what the point before
    left otherwise) and takes it back at this point's value, because the run's stores cover it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiAcc3 V c (t.val + 1) t.isLt from rfl, PhiAcc3_succ]
  have hN : t.val < 128 := lt_of_lt_of_eq t.isLt (show cfg3.N = 128 from N_3)
  by_cases h0 : t.val % 8 = 0
  · have h1 : ¬t.val % 8 = 7 := by omega
    rw [show (dat3 V c).leavesExact 0 t = owns (c : Thread nD τ) (stgX3 t) fullShare ((dat3 V c).after 0 t) from by
      unfold Dat.leavesExact; rw [live3_0 t], after3_0]
    rw [show (dat3 V c).leavesExact 1 t = owns (c : Thread nD τ) (stgW3 t) fullShare ((dat3 V c).after 1 t) from by
      unfold Dat.leavesExact; rw [live3_1 t], after3_1]
    rw [show (dat3 V c).leavesExact 2 t = owns (c : Thread nD τ) (stgB3 t) fullShare ((dat3 V c).after 2 t) from by
      unfold Dat.leavesExact; rw [live3_2 t], after3_2]
    rw [Dat.leavesExact_idle (dat3 V c) 3 t (idle3_out t (fun h => h1 ((isLast3_iff t).mp h))) (noFlush3_out t (fun h => h1 ((isLast3_iff t).mp h)))]
    rw [accAt3_first V c t h0 h1]
    unfold accFirst3; (try dsimp only)
    by_cases hz : t.val = 0
    · rw [Phi3_castSucc V c t, PhiAcc3_zero V c _ _ hz, PhiA3_split]
      iintro ⟨⟨⟨HS, Hrest⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst3 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [Phi3_castSucc V c t, PhiAcc3_pos V c _ _ hz]
      iintro ⟨⟨⟨HS, Hrest⟩, Hg⟩, Ho, ⟨%d0, H0⟩, ⟨%d1, H1⟩, ⟨%d2, H2⟩, ⟨%d3, H3⟩⟩
      iapply ((runFirst3 c (grid3.coords t) _ _ _ _ _ _ _ _ _ _ ((isFirst3_iff t).mpr h0) (fun h => h1 ((isLast3_iff t).mp h)) (iblk3 V c 0 t) (iblk3 V c 1 t) (iblk3 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverFirst3 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · -- k last
      rw [show (dat3 V c).leavesExact 0 t = owns (c : Thread nD τ) (stgX3 t) fullShare ((dat3 V c).after 0 t) from by
        unfold Dat.leavesExact; rw [live3_0 t], after3_0]
      rw [show (dat3 V c).leavesExact 1 t = owns (c : Thread nD τ) (stgW3 t) fullShare ((dat3 V c).after 1 t) from by
        unfold Dat.leavesExact; rw [live3_1 t], after3_1]
      rw [show (dat3 V c).leavesExact 2 t = owns (c : Thread nD τ) (stgB3 t) fullShare ((dat3 V c).after 2 t) from by
        unfold Dat.leavesExact; rw [live3_2 t], after3_2]
      rw [show (dat3 V c).leavesExact 3 t = owns (c : Thread nD τ) (stgO3 t) fullShare ((dat3 V c).after 3 t) from by
        unfold Dat.leavesExact; rw [live3_out t ((isLast3_iff t).mpr h1)], after3_3]
      rw [outAt3_last V c t h0 h1, accAt3_last V c t h0 h1]
      unfold outLast3 accLast3; (try dsimp only)
      rw [Phi3_castSucc V c t, PhiAcc3_pos V c _ _ hz]
      iintro ⟨⟨⟨HS, Hrest⟩, Hg⟩, Ho, ⟨%d0, H0⟩, ⟨%d1, H1⟩, ⟨%d2, H2⟩, ⟨%d3, H3⟩⟩
      iapply ((runLast3 c (grid3.coords t) _ _ _ _ _ _ _ _ _ _ (fun h => h0 ((isFirst3_iff t).mp h)) ((isLast3_iff t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverLast3 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast3 c _ _ _ _ _ _ _ _ _ _ _ _ _ _ _ _ _)
    · -- 0 < k < last
      rw [show (dat3 V c).leavesExact 0 t = owns (c : Thread nD τ) (stgX3 t) fullShare ((dat3 V c).after 0 t) from by
        unfold Dat.leavesExact; rw [live3_0 t], after3_0]
      rw [show (dat3 V c).leavesExact 1 t = owns (c : Thread nD τ) (stgW3 t) fullShare ((dat3 V c).after 1 t) from by
        unfold Dat.leavesExact; rw [live3_1 t], after3_1]
      rw [show (dat3 V c).leavesExact 2 t = owns (c : Thread nD τ) (stgB3 t) fullShare ((dat3 V c).after 2 t) from by
        unfold Dat.leavesExact; rw [live3_2 t], after3_2]
      rw [Dat.leavesExact_idle (dat3 V c) 3 t (idle3_out t (fun h => h1 ((isLast3_iff t).mp h))) (noFlush3_out t (fun h => h1 ((isLast3_iff t).mp h)))]
      rw [accAt3_mid V c t h0 h1]
      unfold accMid3; (try dsimp only)
      rw [Phi3_castSucc V c t, PhiAcc3_pos V c _ _ hz]
      iintro ⟨⟨⟨HS, Hrest⟩, Hg⟩, Ho, ⟨%d0, H0⟩, ⟨%d1, H1⟩, ⟨%d2, H2⟩, ⟨%d3, H3⟩⟩
      iapply ((runMid3 c (grid3.coords t) _ _ _ _ _ _ _ _ _ _ (fun h => h0 ((isFirst3_iff t).mp h)) (fun h => h1 ((isLast3_iff t).mp h)) (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (accCoverMid3 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : Pipeline.ΦA spec3 c ⊢ (dat3 V c).Φ 0 := by
  rw [show (dat3 V c).Φ 0 = PhiAcc3 V c 0 (Nat.zero_le _) from rfl, PhiAcc3_zero V c 0 _ rfl]

/-- After the last point the invariant gives the same back: the accumulator's contents are forgotten. -/
theorem hout3 (c : Dev nD) : (dat3 V c).Φ (Fin.last cfg3.N) ⊢ Pipeline.ΦA spec3 c := by
  have hN : cfg3.N = 128 := N_3
  rw [show (dat3 V c).Φ (Fin.last cfg3.N) = PhiAcc3 V c (Fin.last cfg3.N).val (Nat.le_of_lt_succ (Fin.last cfg3.N).isLt) from rfl,
    PhiAcc3_pos V c _ _ (by rw [Fin.val_last]; omega), PhiA3_split]
  iintro ⟨⟨HS, Hrest⟩, Hg⟩
  isplitl [HS Hrest]
  · isplitl [HS]
    · iexists _; iexact HS
    iexact Hrest
  iexact Hg

end

end Cert.KernelIdeal.Acc

end
-- ==== Proof.IRunVals.lean ====
/-
  The program's four kernel regions, joined: the contents each region is entered at and what it leaves.

  Between two items of the program every unscoped buffer of the core holds a known array: the launch memory, then the
  effect of each stretch of host operations, then, after a region, the same except at the region's result array.  What
  a region leaves in its result array is what its pipeline computes from the contents it was entered at, so the four
  results are fixed one after another: the first from the launch memory, each next one from the one before.  This
  module fixes them, shows that the contents before a region do not depend on the results of later regions, and reads
  each region's exit contents at its four arrays.
-/
import proofs.«143296_j88201448391445_2_alg».proof.Proof.IAcc0Body
import proofs.«143296_j88201448391445_2_alg».proof.Proof.IAcc1Body
import proofs.«143296_j88201448391445_2_alg».proof.Proof.IAcc2Body
import proofs.«143296_j88201448391445_2_alg».proof.Proof.IAcc3Body
import proofs.«143296_j88201448391445_2_alg».proof.Proof.Gen.KernelIdeal.Regions
import Idealize.ShloMosaic.Lib.Pipeline.RegionsLoop

set_option maxRecDepth 16384

noncomputable section

namespace Cert.KernelIdeal.Run
open Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The contents each region is entered at, and what it leaves

The buffers' contents at every boundary of @main are the generated valuations `V0 … V16`, written over an unknown
`outs` for what each region leaves in its result array.  Here the unknown is chosen: region K's result array is left
at what its pipeline computes from the contents the region is entered at, and those contents are the valuation just
before the region, at the choice made for the regions before it.  The choice is made region by region, so that each
stage only mentions the stages before it. -/

/-- Region 0 is entered at the launch contents after the first three host stretches. -/
abbrev entry0 : (c : Dev nD) → (b : Ref sig .tc) → Buf (Elt F) ((c : Thread nD τ).loc b) := fun c b => V3 m c b
/-- What region 0 leaves in its result array. -/
def res0 (c : Dev nD) : Buf (Elt F) ((c : Thread nD τ).loc main_v6) := (dat0 (entry0 m) c).arrAt 3 cfg0.N
/-- The result arrays after region 0, over the launch contents. -/
def val1 (c : Dev nD) : Valuation τ sig (Elt F) := Function.update (V0 m c) main_v6 (res0 m c)
def outs1 : Outs (F := F) := fun _ r c => val1 m c r

/-- Region 1 is entered at the contents before it, region 0's result being `res0`. -/
abbrev entry1 : (c : Dev nD) → (b : Ref sig .tc) → Buf (Elt F) ((c : Thread nD τ).loc b) := fun c b => V7 m (outs1 m) c b
def res1 (c : Dev nD) : Buf (Elt F) ((c : Thread nD τ).loc main_v14) := (dat1 (entry1 m) c).arrAt 3 cfg1.N
def val2 (c : Dev nD) : Valuation τ sig (Elt F) := Function.update (val1 m c) main_v14 (res1 m c)
def outs2 : Outs (F := F) := fun _ r c => val2 m c r

/-- Region 2 is entered at the contents before it, the results of regions 0 and 1 being `res0`, `res1`. -/
abbrev entry2 : (c : Dev nD) → (b : Ref sig .tc) → Buf (Elt F) ((c : Thread nD τ).loc b) := fun c b => V11 m (outs2 m) c b
def res2 (c : Dev nD) : Buf (Elt F) ((c : Thread nD τ).loc main_v22) := (dat2 (entry2 m) c).arrAt 3 cfg2.N
def val3 (c : Dev nD) : Valuation τ sig (Elt F) := Function.update (val2 m c) main_v22 (res2 m c)
def outs3 : Outs (F := F) := fun _ r c => val3 m c r

/-- Region 3 is entered at the contents before it, the results of regions 0, 1 and 2 being `res0`, `res1`, `res2`. -/
abbrev entry3 : (c : Dev nD) → (b : Ref sig .tc) → Buf (Elt F) ((c : Thread nD τ).loc b) := fun c b => V15 m (outs3 m) c b
def res3 (c : Dev nD) : Buf (Elt F) ((c : Thread nD τ).loc main_v30) := (dat3 (entry3 m) c).arrAt 3 cfg3.N
def val4 (c : Dev nD) : Valuation τ sig (Elt F) := Function.update (val3 m c) main_v30 (res3 m c)
/-- The choice of every region's result. -/
def outs4 : Outs (F := F) := fun _ r c => val4 m c r

/-! ## The choices read at the result arrays -/

theorem val1_v6 (c : Dev nD) : val1 m c main_v6 = res0 m c := by unfold val1; exact Function.update_self ..
theorem val2_v6 (c : Dev nD) : val2 m c main_v6 = res0 m c := by
  unfold val2; rw [Function.update_of_ne (StableHlo.devRef_ne_of_ne (by decide) : (Proc.devRef .tc main_v6 : DevRef τ sig) ≠ Proc.devRef .tc main_v14)]; exact val1_v6 m c
theorem val2_v14 (c : Dev nD) : val2 m c main_v14 = res1 m c := by unfold val2; exact Function.update_self ..
theorem val3_v6 (c : Dev nD) : val3 m c main_v6 = res0 m c := by
  unfold val3; rw [Function.update_of_ne (StableHlo.devRef_ne_of_ne (by decide) : (Proc.devRef .tc main_v6 : DevRef τ sig) ≠ Proc.devRef .tc main_v22)]; exact val2_v6 m c
theorem val3_v14 (c : Dev nD) : val3 m c main_v14 = res1 m c := by
  unfold val3; rw [Function.update_of_ne (StableHlo.devRef_ne_of_ne (by decide) : (Proc.devRef .tc main_v14 : DevRef τ sig) ≠ Proc.devRef .tc main_v22)]; exact val2_v14 m c
theorem val3_v22 (c : Dev nD) : val3 m c main_v22 = res2 m c := by unfold val3; exact Function.update_self ..
theorem val4_v6 (c : Dev nD) : val4 m c main_v6 = res0 m c := by
  unfold val4; rw [Function.update_of_ne (StableHlo.devRef_ne_of_ne (by decide) : (Proc.devRef .tc main_v6 : DevRef τ sig) ≠ Proc.devRef .tc main_v30)]; exact val3_v6 m c
theorem val4_v14 (c : Dev nD) : val4 m c main_v14 = res1 m c := by
  unfold val4; rw [Function.update_of_ne (StableHlo.devRef_ne_of_ne (by decide) : (Proc.devRef .tc main_v14 : DevRef τ sig) ≠ Proc.devRef .tc main_v30)]; exact val3_v14 m c
theorem val4_v22 (c : Dev nD) : val4 m c main_v22 = res2 m c := by
  unfold val4; rw [Function.update_of_ne (StableHlo.devRef_ne_of_ne (by decide) : (Proc.devRef .tc main_v22 : DevRef τ sig) ≠ Proc.devRef .tc main_v30)]; exact val3_v22 m c
theorem val4_v30 (c : Dev nD) : val4 m c main_v30 = res3 m c := by unfold val4; exact Function.update_self ..

/-! ## A boundary's contents depend on the choice only through the results of the regions before it -/

theorem V4_congr (c : Dev nD) {o o' : Outs (F := F)} (h : o 4 main_v6 c = o' 4 main_v6 c) : V4 m o c = V4 m o' c := by
  show Function.update (V3 m c) _ (o 4 main_v6 c) = Function.update (V3 m c) _ (o' 4 main_v6 c); rw [h]
theorem V7_congr (c : Dev nD) {o o' : Outs (F := F)} (h : o 4 main_v6 c = o' 4 main_v6 c) : V7 m o c = V7 m o' c := by
  show StableHlo.after hostOps1_2 (StableHlo.after hostOps1_1 (StableHlo.after hostOps1 (V4 m o c))) = StableHlo.after hostOps1_2 (StableHlo.after hostOps1_1 (StableHlo.after hostOps1 (V4 m o' c)))
  rw [V4_congr m c h]
theorem V8_congr (c : Dev nD) {o o' : Outs (F := F)} (h : o 4 main_v6 c = o' 4 main_v6 c) (h' : o 8 main_v14 c = o' 8 main_v14 c) : V8 m o c = V8 m o' c := by
  show Function.update (V7 m o c) _ (o 8 main_v14 c) = Function.update (V7 m o' c) _ (o' 8 main_v14 c); rw [V7_congr m c h, h']
theorem V11_congr (c : Dev nD) {o o' : Outs (F := F)} (h : o 4 main_v6 c = o' 4 main_v6 c) (h' : o 8 main_v14 c = o' 8 main_v14 c) : V11 m o c = V11 m o' c := by
  show StableHlo.after hostOps2_2 (StableHlo.after hostOps2_1 (StableHlo.after hostOps2 (V8 m o c))) = StableHlo.after hostOps2_2 (StableHlo.after hostOps2_1 (StableHlo.after hostOps2 (V8 m o' c)))
  rw [V8_congr m c h h']
theorem V12_congr (c : Dev nD) {o o' : Outs (F := F)} (h : o 4 main_v6 c = o' 4 main_v6 c) (h' : o 8 main_v14 c = o' 8 main_v14 c) (h'' : o 12 main_v22 c = o' 12 main_v22 c) : V12 m o c = V12 m o' c := by
  show Function.update (V11 m o c) _ (o 12 main_v22 c) = Function.update (V11 m o' c) _ (o' 12 main_v22 c); rw [V11_congr m c h h', h'']
theorem V15_congr (c : Dev nD) {o o' : Outs (F := F)} (h : o 4 main_v6 c = o' 4 main_v6 c) (h' : o 8 main_v14 c = o' 8 main_v14 c) (h'' : o 12 main_v22 c = o' 12 main_v22 c) : V15 m o c = V15 m o' c := by
  show StableHlo.after hostOps3_2 (StableHlo.after hostOps3_1 (StableHlo.after hostOps3 (V12 m o c))) = StableHlo.after hostOps3_2 (StableHlo.after hostOps3_1 (StableHlo.after hostOps3 (V12 m o' c)))
  rw [V12_congr m c h h' h'']

/-- Before region 1 the final choice and the first stage agree. -/
theorem V7_o4 (c : Dev nD) : V7 m (outs4 m) c = V7 m (outs1 m) c :=
  V7_congr m c ((val4_v6 m c).trans (val1_v6 m c).symm)
theorem V11_o4 (c : Dev nD) : V11 m (outs4 m) c = V11 m (outs2 m) c :=
  V11_congr m c ((val4_v6 m c).trans (val2_v6 m c).symm) ((val4_v14 m c).trans (val2_v14 m c).symm)
theorem V15_o4 (c : Dev nD) : V15 m (outs4 m) c = V15 m (outs3 m) c :=
  V15_congr m c ((val4_v6 m c).trans (val3_v6 m c).symm) ((val4_v14 m c).trans (val3_v14 m c).symm) ((val4_v22 m c).trans (val3_v22 m c).symm)

/-! ## What each region finds in its activations' array: what the region before it left -/

theorem entry0_x (c : Dev nD) : entry0 m c main_arg0 = m ((c : Thread nD τ).loc main_arg0) :=
  (V3_of m c main_arg0 (by decide)).trans <| (V2_of m c main_arg0 (by decide)).trans <| (V1_of m c main_arg0 (by decide)).trans rfl
theorem entry1_x (c : Dev nD) : entry1 m c main_v6 = (dat0 (entry0 m) c).arrAt 3 cfg0.N :=
  (V7_of m (outs1 m) c main_v6 (by decide)).trans <| (V6_of m (outs1 m) c main_v6 (by decide)).trans <| (V5_of m (outs1 m) c main_v6 (by decide)).trans <|
    (show V4 m (outs1 m) c main_v6 = outs1 m 4 main_v6 c from Function.update_self ..).trans (val1_v6 m c)
theorem entry2_x (c : Dev nD) : entry2 m c main_v14 = (dat1 (entry1 m) c).arrAt 3 cfg1.N :=
  (V11_of m (outs2 m) c main_v14 (by decide)).trans <| (V10_of m (outs2 m) c main_v14 (by decide)).trans <| (V9_of m (outs2 m) c main_v14 (by decide)).trans <|
    (show V8 m (outs2 m) c main_v14 = outs2 m 8 main_v14 c from Function.update_self ..).trans (val2_v14 m c)
theorem entry3_x (c : Dev nD) : entry3 m c main_v22 = (dat2 (entry2 m) c).arrAt 3 cfg2.N :=
  (V15_of m (outs3 m) c main_v22 (by decide)).trans <| (V14_of m (outs3 m) c main_v22 (by decide)).trans <| (V13_of m (outs3 m) c main_v22 (by decide)).trans <|
    (show V12 m (outs3 m) c main_v22 = outs3 m 12 main_v22 c from Function.update_self ..).trans (val3_v22 m c)

/-! ## Region 0 -/

/-- The contents region 0 is left at, read at the core's references. -/
abbrev exit0 : (c : Dev nD) → (b : Ref sig .tc) → Buf (Elt F) ((c : Thread nD τ).loc b) := fun c b => V4 m (outs4 m) c b

/-- At region 0's exit each of its arrays holds what its pipeline leaves there: the result array the chosen result,
    an input array what it held at entry (no point writes it). -/
theorem hF0 (c : Dev nD) : ∀ w : Fin 4, (dat0 (entry0 m) c).arrAt w cfg0.N = exit0 m c (Pipeline.arrRef spec0 w)
  | 0 => ((dat0 (entry0 m) c).arrAt_in 0 rfl _).trans ((A_eq0 (entry0 m) c 0).trans (V4_of m (outs4 m) c (Pipeline.arrRef spec0 0) (by decide)).symm)
  | 1 => ((dat0 (entry0 m) c).arrAt_in 1 rfl _).trans ((A_eq0 (entry0 m) c 1).trans (V4_of m (outs4 m) c (Pipeline.arrRef spec0 1) (by decide)).symm)
  | 2 => ((dat0 (entry0 m) c).arrAt_in 2 rfl _).trans ((A_eq0 (entry0 m) c 2).trans (V4_of m (outs4 m) c (Pipeline.arrRef spec0 2) (by decide)).symm)
  | 3 => ((show V4 m (outs4 m) c main_v6 = outs4 m 4 main_v6 c from Function.update_self ..).trans (val4_v6 m c)).symm
  | ⟨_ + 4, h⟩ => absurd h (Nat.not_lt.2 (Nat.le_add_left _ _))
/-- Every buffer that is none of region 0's arrays is left as entered. -/
theorem hrest0 (c : Dev nD) : ∀ b, b ∉ Finset.univ.image (Pipeline.arrRef spec0) → exit0 m c b = entry0 m c b :=
  fun b hb => V4_of m (outs4 m) c b (by rw [List.mem_singleton]; exact fun e => hb (Finset.mem_image.mpr ⟨3, Finset.mem_univ _, e.symm⟩))

/-! ## Region 1 -/

/-- The contents region 1 is left at, read at the core's references. -/
abbrev exit1 : (c : Dev nD) → (b : Ref sig .tc) → Buf (Elt F) ((c : Thread nD τ).loc b) := fun c b => V8 m (outs4 m) c b

/-- At region 1's exit each of its arrays holds what its pipeline leaves there: the result array the chosen result,
    an input array what it held at entry (no point writes it). -/
theorem hF1 (c : Dev nD) : ∀ w : Fin 4, (dat1 (entry1 m) c).arrAt w cfg1.N = exit1 m c (Pipeline.arrRef spec1 w)
  | 0 => ((dat1 (entry1 m) c).arrAt_in 0 rfl _).trans ((A_eq1 (entry1 m) c 0).trans ((V8_of m (outs4 m) c (Pipeline.arrRef spec1 0) (by decide)).trans (congrFun (V7_o4 m c) _)).symm)
  | 1 => ((dat1 (entry1 m) c).arrAt_in 1 rfl _).trans ((A_eq1 (entry1 m) c 1).trans ((V8_of m (outs4 m) c (Pipeline.arrRef spec1 1) (by decide)).trans (congrFun (V7_o4 m c) _)).symm)
  | 2 => ((dat1 (entry1 m) c).arrAt_in 2 rfl _).trans ((A_eq1 (entry1 m) c 2).trans ((V8_of m (outs4 m) c (Pipeline.arrRef spec1 2) (by decide)).trans (congrFun (V7_o4 m c) _)).symm)
  | 3 => ((show V8 m (outs4 m) c main_v14 = outs4 m 8 main_v14 c from Function.update_self ..).trans (val4_v14 m c)).symm
  | ⟨_ + 4, h⟩ => absurd h (Nat.not_lt.2 (Nat.le_add_left _ _))
/-- Every buffer that is none of region 1's arrays is left as entered. -/
theorem hrest1 (c : Dev nD) : ∀ b, b ∉ Finset.univ.image (Pipeline.arrRef spec1) → exit1 m c b = entry1 m c b :=
  fun b hb => (V8_of m (outs4 m) c b (by rw [List.mem_singleton]; exact fun e => hb (Finset.mem_image.mpr ⟨3, Finset.mem_univ _, e.symm⟩))).trans (congrFun (V7_o4 m c) _)

/-! ## Region 2 -/

/-- The contents region 2 is left at, read at the core's references. -/
abbrev exit2 : (c : Dev nD) → (b : Ref sig .tc) → Buf (Elt F) ((c : Thread nD τ).loc b) := fun c b => V12 m (outs4 m) c b

/-- At region 2's exit each of its arrays holds what its pipeline leaves there: the result array the chosen result,
    an input array what it held at entry (no point writes it). -/
theorem hF2 (c : Dev nD) : ∀ w : Fin 4, (dat2 (entry2 m) c).arrAt w cfg2.N = exit2 m c (Pipeline.arrRef spec2 w)
  | 0 => ((dat2 (entry2 m) c).arrAt_in 0 rfl _).trans ((A_eq2 (entry2 m) c 0).trans ((V12_of m (outs4 m) c (Pipeline.arrRef spec2 0) (by decide)).trans (congrFun (V11_o4 m c) _)).symm)
  | 1 => ((dat2 (entry2 m) c).arrAt_in 1 rfl _).trans ((A_eq2 (entry2 m) c 1).trans ((V12_of m (outs4 m) c (Pipeline.arrRef spec2 1) (by decide)).trans (congrFun (V11_o4 m c) _)).symm)
  | 2 => ((dat2 (entry2 m) c).arrAt_in 2 rfl _).trans ((A_eq2 (entry2 m) c 2).trans ((V12_of m (outs4 m) c (Pipeline.arrRef spec2 2) (by decide)).trans (congrFun (V11_o4 m c) _)).symm)
  | 3 => ((show V12 m (outs4 m) c main_v22 = outs4 m 12 main_v22 c from Function.update_self ..).trans (val4_v22 m c)).symm
  | ⟨_ + 4, h⟩ => absurd h (Nat.not_lt.2 (Nat.le_add_left _ _))
/-- Every buffer that is none of region 2's arrays is left as entered. -/
theorem hrest2 (c : Dev nD) : ∀ b, b ∉ Finset.univ.image (Pipeline.arrRef spec2) → exit2 m c b = entry2 m c b :=
  fun b hb => (V12_of m (outs4 m) c b (by rw [List.mem_singleton]; exact fun e => hb (Finset.mem_image.mpr ⟨3, Finset.mem_univ _, e.symm⟩))).trans (congrFun (V11_o4 m c) _)

/-! ## Region 3 -/

/-- The contents region 3 is left at, read at the core's references. -/
abbrev exit3 : (c : Dev nD) → (b : Ref sig .tc) → Buf (Elt F) ((c : Thread nD τ).loc b) := fun c b => V16 m (outs4 m) c b

/-- At region 3's exit each of its arrays holds what its pipeline leaves there: the result array the chosen result,
    an input array what it held at entry (no point writes it). -/
theorem hF3 (c : Dev nD) : ∀ w : Fin 4, (dat3 (entry3 m) c).arrAt w cfg3.N = exit3 m c (Pipeline.arrRef spec3 w)
  | 0 => ((dat3 (entry3 m) c).arrAt_in 0 rfl _).trans ((A_eq3 (entry3 m) c 0).trans ((V16_of m (outs4 m) c (Pipeline.arrRef spec3 0) (by decide)).trans (congrFun (V15_o4 m c) _)).symm)
  | 1 => ((dat3 (entry3 m) c).arrAt_in 1 rfl _).trans ((A_eq3 (entry3 m) c 1).trans ((V16_of m (outs4 m) c (Pipeline.arrRef spec3 1) (by decide)).trans (congrFun (V15_o4 m c) _)).symm)
  | 2 => ((dat3 (entry3 m) c).arrAt_in 2 rfl _).trans ((A_eq3 (entry3 m) c 2).trans ((V16_of m (outs4 m) c (Pipeline.arrRef spec3 2) (by decide)).trans (congrFun (V15_o4 m c) _)).symm)
  | 3 => ((show V16 m (outs4 m) c main_v30 = outs4 m 16 main_v30 c from Function.update_self ..).trans (val4_v30 m c)).symm
  | ⟨_ + 4, h⟩ => absurd h (Nat.not_lt.2 (Nat.le_add_left _ _))
/-- Every buffer that is none of region 3's arrays is left as entered. -/
theorem hrest3 (c : Dev nD) : ∀ b, b ∉ Finset.univ.image (Pipeline.arrRef spec3) → exit3 m c b = entry3 m c b :=
  fun b hb => (V16_of m (outs4 m) c b (by rw [List.mem_singleton]; exact fun e => hb (Finset.mem_image.mpr ⟨3, Finset.mem_univ _, e.symm⟩))).trans (congrFun (V15_o4 m c) _)

end Cert.KernelIdeal.Run

end
-- ==== Proof.IRunSegs.lean ====
/-
  The four kernel regions as segments of the program's run.

  A region is entered with every unscoped buffer of the core at the contents before it, beside the core's generator
  register and the fact that the core owes nothing.  Its four arrays are taken out of the unscoped buffers; the
  pipeline runs over them under the region's invariant; at the exit the arrays, now at what the pipeline left, are put
  back among the other buffers, which were not touched.
-/
import proofs.«143296_j88201448391445_2_alg».proof.Proof.IRunVals

set_option maxRecDepth 16384

noncomputable section

namespace Cert.KernelIdeal.Run
open Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The proof data of the four pipelines, and what rides beside the buffers -/

/-- Every pipeline's proof data, each at the contents its region is entered at. -/
def pdats : (p : Fin 4) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers every segment carries the core's generator register at some state and the fact that the core
    owes nothing. -/
abbrev R (c : Dev nD) : sProp 𝕄 := iprop((∃ r, prngReg c r) ∗ ∃ W, owes (c : Thread nD τ) (0 : CellTallies nD τ sig Unit) W)

-- unifying a library lemma stated over the pinned configuration with the printed one unfolds plain definitions inside
-- a metavariable's type
set_option backward.isDefEq.respectTransparency.types false in
/-- Region 0 as a segment: entered with every unscoped buffer at the contents before it, left with them at the contents
    after it.  Its four arrays are taken out of the unscoped buffers and put back at what the pipeline leaves; the
    generator register goes into the invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs4 m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m 0 c).Φ 0 := hin0 (entry0 m) c
    refine .trans ?_ h
    unfold Pipeline.ΦA
    iintro ⟨Hp, -, Hr⟩
    isplitl [Hr]; · iexact Hr
    iexact Hp
  hout c := by
    rw [Pipeline.ownSems0_none]
    have h : (pdats m 0 c).Φ (Fin.last _) ⊢ Pipeline.ΦA spec0 c := hout0 (entry0 m) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions inside
-- a metavariable's type
set_option backward.isDefEq.respectTransparency.types false in
/-- Region 1 as a segment: entered with every unscoped buffer at the contents before it, left with them at the contents
    after it.  Its four arrays are taken out of the unscoped buffers and put back at what the pipeline leaves; the
    generator register goes into the invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (V7 m (outs4 m) c) ∗ R c)
  post c := iprop(StableHlo.held (c : Thread nD τ) (Pipeline.ucRefs τ sig) (V8 m (outs4 m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    rw [V7_o4 m c]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (entry1 m) c
    refine .trans ?_ h
    unfold Pipeline.ΦA
    iintro ⟨Hp, -, Hr⟩
    isplitl [Hr]; · iexact Hr
    iexact Hp
  hout c := by
    rw [Pipeline.ownSems0_none]
    have h : (pdats m 1 c).Φ (Fin.last _) ⊢ Pipeline.ΦA spec1 c := hout1 (entry1 m) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions inside
-- a metavariable's type
set_option backward.isDefEq.respectTransparency.types false in
/-- Region 2 as a segment: entered with every unscoped buffer at the contents before it, left with them at the contents
    after it.  Its four arrays are taken out of the unscoped buffers and put back at what the pipeline leaves; the
    generator register goes into the invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (entry2 m) c).loose
  hwaits := Pipeline.hwaits_of_owed_zero _ _ _ _ L lv 2 fun _ _ => rfl
  pre c := iprop(StableHlo.held (c : Thread nD τ) (Pipeline.ucRefs τ sig) (V11 m (outs4 m) c) ∗ R c)
  post c := iprop(StableHlo.held (c : Thread nD τ) (Pipeline.ucRefs τ sig) (V12 m (outs4 m) c) ∗ R c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    rw [V11_o4 m c]
    have hsplit := Pipeline.arrays_of_unscopedBufs (p := 2) (pcfgs (F := F)) adm (pdats m) launch2.win launch2.arr_whole c
      ((pdats m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m 2 c).Φ 0 := hin2 (entry2 m) c
    refine .trans ?_ h
    unfold Pipeline.ΦA
    iintro ⟨Hp, -, Hr⟩
    isplitl [Hr]; · iexact Hr
    iexact Hp
  hout c := by
    rw [Pipeline.ownSems0_none]
    have h : (pdats m 2 c).Φ (Fin.last _) ⊢ Pipeline.ΦA spec2 c := hout2 (entry2 m) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry2 m c) (exit2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions inside
-- a metavariable's type
set_option backward.isDefEq.respectTransparency.types false in
/-- Region 3 as a segment: entered with every unscoped buffer at the contents before it, left with them at the contents
    after it.  Its four arrays are taken out of the unscoped buffers and put back at what the pipeline leaves; the
    generator register goes into the invariant and comes back; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (entry3 m) c).loose
  hwaits := Pipeline.hwaits_of_owed_zero _ _ _ _ L lv 3 fun _ _ => rfl
  pre c := iprop(StableHlo.held (c : Thread nD τ) (Pipeline.ucRefs τ sig) (V15 m (outs4 m) c) ∗ R c)
  post c := iprop(StableHlo.held (c : Thread nD τ) (Pipeline.ucRefs τ sig) (V16 m (outs4 m) c) ∗ R c)
  X c := iprop(∃ r, prngReg c r)
  Y c := iprop(∃ r, prngReg c r)
  Z c := Pipeline.unscopedRest (Ix := Unit) (Name := ℕ) (U := UR sig nD τ) (Lvl := ℕ) spec3 c (entry3 m c)
  hentry c := by
    rw [Pipeline.ownSems0_none]
    rw [V15_o4 m c]
    have hsplit := Pipeline.arrays_of_unscopedBufs (p := 3) (pcfgs (F := F)) adm (pdats m) launch3.win launch3.arr_whole c
      ((pdats m 3 c).share_full fun _ => rfl) (entry3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec3 c ⊢ (pdats m 3 c).Φ 0 := hin3 (entry3 m) c
    refine .trans ?_ h
    unfold Pipeline.ΦA
    iintro ⟨Hp, -, Hr⟩
    isplitl [Hr]; · iexact Hr
    iexact Hp
  hout c := by
    rw [Pipeline.ownSems0_none]
    have h : (pdats m 3 c).Φ (Fin.last _) ⊢ Pipeline.ΦA spec3 c := hout3 (entry3 m) c
    refine h.trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (entry3 m c) (exit3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.IRun.lean ====
/-
  The run of the whole program: sixteen items, twelve stretches of host operations and four kernel regions.

  Every weakly fair execution from a memory with zero counters terminates; in every final memory the last region's
  result array holds what that region's pipeline leaves, computed from the contents the region is entered at, and the
  nine argument arrays hold what they held at launch.
-/
import proofs.«143296_j88201448391445_2_alg».proof.Proof.IRunSegs

set_option maxRecDepth 16384

noncomputable section

namespace Cert.KernelIdeal.Run
open Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The run -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's sixteen items as segments: the generated host segments at the chosen results, the four regions' records. -/
abbrev segs (c : Dev nD) : List (Seg (pcfgs (F := F)) adm (pdats m) () defs₀ 𝒱₀ L lv) :=
  Gen.segs m (outs4 m) 𝒱₀ L lv (fun _ => R) () (pdats m) (reg0 m) (reg1 m) (reg2 m) (reg3 m) c

-- the launch theorem's implicit arguments are found by unifying its conclusion with this one, which unfolds plain
-- definitions inside a metavariable's type
set_option backward.isDefEq.respectTransparency.types false in
/-- From any memory with zero counters every weakly fair execution of @main terminates, and in every final memory the
    last region's result array holds what its pipeline leaves from the contents that region is entered at, and the nine
    arguments hold what they held at launch. -/
theorem run_named (ρ : Dev nD → PrngReg) :
    θ_run defs (onTc (τ := τ) (main (F := F))) ⟨m, fun _ => 0, ρ⟩ (fun r => ∀ c : Dev nD,
      r.2.mem ((c.tc : Thread nD τ).loc main_v30) = (dat3 (entry3 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m) () cellOf_inj emb₁ defs₀ 𝒱₀ L lv m ρ main (segs m)
    (fun c Q => by
      rewrite [main_chain c, Seg.run_eq_chain,
        show (segs m c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (fun c => by simp only [segs, Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V16 m (outs4 m) c))
    (hch := fun c => ⟨.rfl, .rfl, .rfl, .rfl, .rfl, .rfl, .rfl, .rfl, .rfl, .rfl, .rfl, .rfl, .rfl, .rfl, .rfl, .rfl,
      (show iprop(StableHlo.held (c : Thread nD τ) (Pipeline.ucRefs τ sig) (V16 m (outs4 m) c) ∗ R c)
          ⊢ iprop(StableHlo.held (c : Thread nD τ) (Pipeline.ucRefs τ sig) (V16 m (outs4 m) c) ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V16 m (outs4 m) c b)
    (hfin := fun c s' => by
      unfold StableHlo.held
      iintro ⟨Hh, HSI⟩
      imodintro
      iapply (pointsTo_read_all (Pipeline.ucRefs τ sig) (fun b => (((c : Thread nD τ)).1, b)) (V16 m (outs4 m) c) s')
      isplitl [Hh] <;> iassumption)
    (hQ := fun s h c => ⟨(h c _ (mem_uc main_v30 (by decide))).trans
        ((show V16 m (outs4 m) c main_v30 = outs4 m 16 main_v30 c from Function.update_self ..).trans (val4_v30 m c)),
      (h c _ (mem_uc main_arg0 (by decide))).trans (V16_main_arg0 m (outs4 m) c),
      (h c _ (mem_uc main_arg1 (by decide))).trans (V16_main_arg1 m (outs4 m) c),
      (h c _ (mem_uc main_arg2 (by decide))).trans (V16_main_arg2 m (outs4 m) c),
      (h c _ (mem_uc main_arg3 (by decide))).trans (V16_main_arg3 m (outs4 m) c),
      (h c _ (mem_uc main_arg4 (by decide))).trans (V16_main_arg4 m (outs4 m) c),
      (h c _ (mem_uc main_arg5 (by decide))).trans (V16_main_arg5 m (outs4 m) c),
      (h c _ (mem_uc main_arg6 (by decide))).trans (V16_main_arg6 m (outs4 m) c),
      (h c _ (mem_uc main_arg7 (by decide))).trans (V16_main_arg7 m (outs4 m) c),
      (h c _ (mem_uc main_arg8 (by decide))).trans (V16_main_arg8 m (outs4 m) c)⟩)

/-- The frame: every weakly fair execution terminates and the nine arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := F)) _ _).mono (fun r h c => (h c).2) (run_named m ρ)

end Cert.KernelIdeal.Run

end
-- ==== Proof.IHostGlue.lean ====
/-
  The host operations between the kernel regions, read at an index, over the extended reals.

  Before each of its four kernel regions the program prepares the layer's weights and bias on the host.  The weights
  are binarized entry by entry: the sign of the weight is compared with zero, and where the comparison holds the
  entry becomes one, elsewhere it stays the sign; on every extended real that is `pm` of the weight (the scalar law
  of the module on `pm`).  For the second, third and fourth layers the binarized weights are then rounded to a
  narrower float format, which over the extended reals is the identity.  The bias vector of length 4096 is recast as
  a single row `[1, 4096]`, whose entry `(0, j)` is the vector's entry `j`.  No host operation writes the
  activations a region reads: the first region reads the program's first argument as launched, and each later region
  reads what the region before it left in its result array.

  So, at the entry of each region: the weights' array holds `pm` of the layer's weight argument, the bias row holds
  the layer's bias argument, and the activations are the launch contents (first layer) or the previous region's
  result (later layers).
-/
import proofs.«143296_j88201448391445_2_alg».proof.Proof.Gen.KernelIdeal.Regions
import proofs.«143296_j88201448391445_2_alg».proof.Proof.PmLaws
import proofs.«143296_j88201448391445_2_alg».proof.Proof.SignNet
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostGlue

open Cert.KernelIdeal Cert.KernelIdeal.Gen Cert.SignNet
open Idealize.ShloMosaic Idealize.ShloMosaic.TcCoe Idealize.SL.Sem Idealize.ShloMosaic.StableHlo Idealize.ShloMosaic.ValueIdx

variable (m : (ℓ : Loc nD τ sig) → Buf (Elt Ideal) ℓ) (outs : Outs (F := Ideal)) (c : Dev nD)

/-! ## The binarization at one entry -/

/-- The weights' binarization read at one entry: the sign, compared with the zero word broadcast over the matrix,
    selects between the one word broadcast over the matrix and the sign itself; at entry `p` that is `pm` of the
    weight there. -/
theorem binarize_apply (W : (⟨S4096x4096, .f32⟩ : BufTy).Contents (Elt Ideal))
    (h : S_.BroadcastsInDim S4096x4096 (![] : Fin 0 → Fin S4096x4096.rank)) (p : S4096x4096.Idx) :
    select (cmpf .oeq (Host.sign W) (broadcastInDim S4096x4096 ![] h (constant (F := Ideal) S_ .f32 0x00000000#32)))
      (broadcastInDim S4096x4096 ![] h (constant (F := Ideal) S_ .f32 0x3F800000#32)) (Host.sign W) p = pm (W p) := by
  rw [select_apply, cmpf_apply,
    broadcastInDim_apply _ h (constant (F := Ideal) S_ .f32 0x00000000#32) p (fun a => a.elim0) (fun a => a.elim0),
    broadcastInDim_apply _ h (constant (F := Ideal) S_ .f32 0x3F800000#32) p (fun a => a.elim0) (fun a => a.elim0)]
  exact select_sign_eq_pm (W p)

/-! ## The first layer: what the first region finds -/

/-- The first region's weights: `pm` of the first weight argument, entry by entry. -/
theorem weights0 :
    (V3 (F := Ideal) m c main_v4 : S4096x4096.Idx → EReal) = fun p => pm (m ((c : Thread nD τ).loc main_arg1) p) := by
  dsimp only [V3, V2, V1, V0, hostOps0, hostOps0_1, hostOps0_2]
  after_results
  funext p
  exact binarize_apply (m ((c : Thread nD τ).loc main_arg1)) _ p

/-- The first region's bias row: at `(0, j)` the first bias argument at `j`. -/
theorem bias0 (j : Fin 4096) :
    V3 (F := Ideal) m c main_v5 (ix2 (0 : Fin 1) j) = m ((c : Thread nD τ).loc main_arg2) (ix1 j) := by
  dsimp only [V3, V2, V1, V0, hostOps0, hostOps0_1, hostOps0_2]
  after_results
  exact shapeCast_a_1a_apply (m ((c : Thread nD τ).loc main_arg2)) _ 0 j

/-- The first region's activations: the first argument as launched (no host operation writes it). -/
theorem carried0 : V3 (F := Ideal) m c main_arg0 = m ((c : Thread nD τ).loc main_arg0) :=
  (V3_of m c main_arg0 (by decide)).trans <| (V2_of m c main_arg0 (by decide)).trans <|
    (V1_of m c main_arg0 (by decide)).trans rfl

/-! ## The second layer: what the second region finds -/

/-- Nothing before the second layer's host operations writes the second weight argument: when they start it is as
    launched. -/
theorem argW1 : V4 (F := Ideal) m outs c main_arg3 = m ((c : Thread nD τ).loc main_arg3) :=
  (V4_of m outs c main_arg3 (by decide)).trans <|
    (V3_of m c main_arg3 (by decide)).trans <|
    (V2_of m c main_arg3 (by decide)).trans <|
    (V1_of m c main_arg3 (by decide)).trans rfl

/-- Nor the second bias argument. -/
theorem argB1 : V4 (F := Ideal) m outs c main_arg4 = m ((c : Thread nD τ).loc main_arg4) :=
  (V4_of m outs c main_arg4 (by decide)).trans <|
    (V3_of m c main_arg4 (by decide)).trans <|
    (V2_of m c main_arg4 (by decide)).trans <|
    (V1_of m c main_arg4 (by decide)).trans rfl

/-- The second region's weights: `pm` of the second weight argument, entry by entry (the rounding to the narrower
    format is the identity over the extended reals). -/
theorem weights1 :
    (V7 (F := Ideal) m outs c main_v12 : S4096x4096.Idx → EReal) = fun p => pm (m ((c : Thread nD τ).loc main_arg3) p) := by
  dsimp only [V7, V6, V5, hostOps1, hostOps1_1, hostOps1_2]
  after_results
  rw [argW1]
  funext p
  exact binarize_apply (m ((c : Thread nD τ).loc main_arg3)) _ p

/-- The second region's bias row: at `(0, j)` the second bias argument at `j`. -/
theorem bias1 (j : Fin 4096) :
    V7 (F := Ideal) m outs c main_v13 (ix2 (0 : Fin 1) j) = m ((c : Thread nD τ).loc main_arg4) (ix1 j) := by
  dsimp only [V7, V6, V5, hostOps1, hostOps1_1, hostOps1_2]
  after_results
  rw [argB1]
  exact shapeCast_a_1a_apply (m ((c : Thread nD τ).loc main_arg4)) _ 0 j

/-- The second region's activations: what the first region left in its result array (no host operation of
    this layer writes it). -/
theorem carried1 : V7 (F := Ideal) m outs c main_v6 = outs 4 main_v6 c :=
  (V7_of m outs c main_v6 (by decide)).trans <| (V6_of m outs c main_v6 (by decide)).trans <|
    (V5_of m outs c main_v6 (by decide)).trans (Function.update_self _ _ _)

/-! ## The third layer: what the third region finds -/

/-- Nothing before the third layer's host operations writes the third weight argument: when they start it is as
    launched. -/
theorem argW2 : V8 (F := Ideal) m outs c main_arg5 = m ((c : Thread nD τ).loc main_arg5) :=
  (V8_of m outs c main_arg5 (by decide)).trans <|
    (V7_of m outs c main_arg5 (by decide)).trans <|
    (V6_of m outs c main_arg5 (by decide)).trans <|
    (V5_of m outs c main_arg5 (by decide)).trans <|
    (V4_of m outs c main_arg5 (by decide)).trans <|
    (V3_of m c main_arg5 (by decide)).trans <|
    (V2_of m c main_arg5 (by decide)).trans <|
    (V1_of m c main_arg5 (by decide)).trans rfl

/-- Nor the third bias argument. -/
theorem argB2 : V8 (F := Ideal) m outs c main_arg6 = m ((c : Thread nD τ).loc main_arg6) :=
  (V8_of m outs c main_arg6 (by decide)).trans <|
    (V7_of m outs c main_arg6 (by decide)).trans <|
    (V6_of m outs c main_arg6 (by decide)).trans <|
    (V5_of m outs c main_arg6 (by decide)).trans <|
    (V4_of m outs c main_arg6 (by decide)).trans <|
    (V3_of m c main_arg6 (by decide)).trans <|
    (V2_of m c main_arg6 (by decide)).trans <|
    (V1_of m c main_arg6 (by decide)).trans rfl

/-- The third region's weights: `pm` of the third weight argument, entry by entry (the rounding to the narrower
    format is the identity over the extended reals). -/
theorem weights2 :
    (V11 (F := Ideal) m outs c main_v20 : S4096x4096.Idx → EReal) = fun p => pm (m ((c : Thread nD τ).loc main_arg5) p) := by
  dsimp only [V11, V10, V9, hostOps2, hostOps2_1, hostOps2_2]
  after_results
  rw [argW2]
  funext p
  exact binarize_apply (m ((c : Thread nD τ).loc main_arg5)) _ p

/-- The third region's bias row: at `(0, j)` the third bias argument at `j`. -/
theorem bias2 (j : Fin 4096) :
    V11 (F := Ideal) m outs c main_v21 (ix2 (0 : Fin 1) j) = m ((c : Thread nD τ).loc main_arg6) (ix1 j) := by
  dsimp only [V11, V10, V9, hostOps2, hostOps2_1, hostOps2_2]
  after_results
  rw [argB2]
  exact shapeCast_a_1a_apply (m ((c : Thread nD τ).loc main_arg6)) _ 0 j

/-- The third region's activations: what the second region left in its result array (no host operation of
    this layer writes it). -/
theorem carried2 : V11 (F := Ideal) m outs c main_v14 = outs 8 main_v14 c :=
  (V11_of m outs c main_v14 (by decide)).trans <| (V10_of m outs c main_v14 (by decide)).trans <|
    (V9_of m outs c main_v14 (by decide)).trans (Function.update_self _ _ _)

/-! ## The fourth layer: what the fourth region finds -/

/-- Nothing before the fourth layer's host operations writes the fourth weight argument: when they start it is as
    launched. -/
theorem argW3 : V12 (F := Ideal) m outs c main_arg7 = m ((c : Thread nD τ).loc main_arg7) :=
  (V12_of m outs c main_arg7 (by decide)).trans <|
    (V11_of m outs c main_arg7 (by decide)).trans <|
    (V10_of m outs c main_arg7 (by decide)).trans <|
    (V9_of m outs c main_arg7 (by decide)).trans <|
    (V8_of m outs c main_arg7 (by decide)).trans <|
    (V7_of m outs c main_arg7 (by decide)).trans <|
    (V6_of m outs c main_arg7 (by decide)).trans <|
    (V5_of m outs c main_arg7 (by decide)).trans <|
    (V4_of m outs c main_arg7 (by decide)).trans <|
    (V3_of m c main_arg7 (by decide)).trans <|
    (V2_of m c main_arg7 (by decide)).trans <|
    (V1_of m c main_arg7 (by decide)).trans rfl

/-- Nor the fourth bias argument. -/
theorem argB3 : V12 (F := Ideal) m outs c main_arg8 = m ((c : Thread nD τ).loc main_arg8) :=
  (V12_of m outs c main_arg8 (by decide)).trans <|
    (V11_of m outs c main_arg8 (by decide)).trans <|
    (V10_of m outs c main_arg8 (by decide)).trans <|
    (V9_of m outs c main_arg8 (by decide)).trans <|
    (V8_of m outs c main_arg8 (by decide)).trans <|
    (V7_of m outs c main_arg8 (by decide)).trans <|
    (V6_of m outs c main_arg8 (by decide)).trans <|
    (V5_of m outs c main_arg8 (by decide)).trans <|
    (V4_of m outs c main_arg8 (by decide)).trans <|
    (V3_of m c main_arg8 (by decide)).trans <|
    (V2_of m c main_arg8 (by decide)).trans <|
    (V1_of m c main_arg8 (by decide)).trans rfl

/-- The fourth region's weights: `pm` of the fourth weight argument, entry by entry (the rounding to the narrower
    format is the identity over the extended reals). -/
theorem weights3 :
    (V15 (F := Ideal) m outs c main_v28 : S4096x4096.Idx → EReal) = fun p => pm (m ((c : Thread nD τ).loc main_arg7) p) := by
  dsimp only [V15, V14, V13, hostOps3, hostOps3_1, hostOps3_2]
  after_results
  rw [argW3]
  funext p
  exact binarize_apply (m ((c : Thread nD τ).loc main_arg7)) _ p

/-- The fourth region's bias row: at `(0, j)` the fourth bias argument at `j`. -/
theorem bias3 (j : Fin 4096) :
    V15 (F := Ideal) m outs c main_v29 (ix2 (0 : Fin 1) j) = m ((c : Thread nD τ).loc main_arg8) (ix1 j) := by
  dsimp only [V15, V14, V13, hostOps3, hostOps3_1, hostOps3_2]
  after_results
  rw [argB3]
  exact shapeCast_a_1a_apply (m ((c : Thread nD τ).loc main_arg8)) _ 0 j

/-- The fourth region's activations: what the third region left in its result array (no host operation of
    this layer writes it). -/
theorem carried3 : V15 (F := Ideal) m outs c main_v22 = outs 12 main_v22 c :=
  (V15_of m outs c main_v22 (by decide)).trans <| (V14_of m outs c main_v22 (by decide)).trans <|
    (V13_of m outs c main_v22 (by decide)).trans (Function.update_self _ _ _)

end Cert.KernelIdeal.HostGlue

end
-- ==== Proof.IAcc0Blocks.lean ====
/-
  Layer 1's kernel region: where each window's block sits in its array.

  The grid's points are numbered with the k block innermost: point number `t` is row block `t / 16`, column block
  `t / 4 % 4` and k block `t % 4`.  The activation window's block at `t` is rows `1024 (t / 16) + r` and columns
  `1024 (t % 4) + q` of the activations; the weight window's block is rows `1024 (t / 4 % 4) + j` and columns
  `1024 (t % 4) + q` of the weights; the bias window's block is columns `1024 (t / 4 % 4) + j` of the one bias row;
  the output window's block is rows `1024 (t / 16) + r` and columns `1024 (t / 4 % 4) + j` of the output.
-/
import proofs.«143296_j88201448391445_2_alg».proof.Proof.IAcc0
import proofs.«143296_j88201448391445_2_alg».proof.Proof.SignNet
import Idealize.ShloMosaic.Lib.ValueIdx
import Idealize.ShloMosaic.Lib.Pipeline.Value

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

variable {F : FTy → Type} [FloatOps F]

/-- The windows' block indices at point number `t`, decided once over the grid's 128 points. -/
theorem idx_facts0 : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- A point's number is below 128. -/
theorem lt_N0 (t : Fin cfg0.N) : t.val < 128 := by
  have h := t.isLt
  have hN : cfg0.N = 128 := N_0
  omega

/-- Row `r` of the row block of point number `n`, in the activations and in the output (kept below the extent for
    every number, so that it is defined off the grid too; on the grid the remainder changes nothing). -/
def rowAt0 (n : ℕ) (r : Fin 1024) : Fin 8192 := ⟨(1024 * (n / 16) + r.val) % 8192, Nat.mod_lt _ (by decide)⟩
/-- Column `j` of the column block of point number `n`: a row of the weights, a column of the bias and of the output. -/
def colAt0 (n : ℕ) (j : Fin 1024) : Fin 4096 := ⟨1024 * (n / 4 % 4) + j.val, by omega⟩
/-- Position `q` of the k block of point number `n` along the contracted axis. -/
def posAt0 (n : ℕ) (q : Fin 1024) : Fin 4096 := ⟨1024 * (n % 4) + q.val, by omega⟩

section

variable (V : (c : Dev nD) → (b : Ref sig .tc) → Buf (Elt F) ((c : Thread nD τ).loc b))

/-- The activation block at point `t`, read at `(r, q)`. -/
theorem iblk0_0_apply (c : Dev nD) (t : Fin cfg0.N) (r : Fin 1024) (q : Fin 1024) :
    (iblk0 V c 0 t : Vec F S1024x1024 .f32) (ix2 r q) = V c main_arg0 (ix2 (rowAt0 t.val r) (posAt0 t.val q)) := by
  obtain ⟨e0, e1, -⟩ := idx_facts0 t
  show V c main_arg0 (((cfg0.win 0).blk t).view.emb (ix2 r q)) = V c main_arg0 (ix2 (rowAt0 t.val r) (posAt0 t.val q))
  congr 1
  funext a
  apply Fin.ext
  match a with
  | ⟨0, _⟩ => show win0_0.index t (0 : Fin 2) * 1024 + 1 * r.val = (1024 * (t.val / 16) + r.val) % 8192; have := lt_N0 t; omega
  | ⟨1, _⟩ => show win0_0.index t (1 : Fin 2) * 1024 + 1 * q.val = 1024 * (t.val % 4) + q.val; omega

/-- The weight block at point `t`, read at `(j, q)`. -/
theorem iblk0_1_apply (c : Dev nD) (t : Fin cfg0.N) (j : Fin 1024) (q : Fin 1024) :
    (iblk0 V c 1 t : Vec F S1024x1024 .f32) (ix2 j q) = V c main_v4 (ix2 (colAt0 t.val j) (posAt0 t.val q)) := by
  obtain ⟨-, -, e2, e3, -⟩ := idx_facts0 t
  show V c main_v4 (((cfg0.win 1).blk t).view.emb (ix2 j q)) = V c main_v4 (ix2 (colAt0 t.val j) (posAt0 t.val q))
  congr 1
  funext a
  apply Fin.ext
  match a with
  | ⟨0, _⟩ => show win0_1.index t (0 : Fin 2) * 1024 + 1 * j.val = 1024 * (t.val / 4 % 4) + j.val; omega
  | ⟨1, _⟩ => show win0_1.index t (1 : Fin 2) * 1024 + 1 * q.val = 1024 * (t.val % 4) + q.val; omega

/-- The bias block at point `t`, read at `(0, j)`. -/
theorem iblk0_2_apply (c : Dev nD) (t : Fin cfg0.N) (j : Fin 1024) :
    (iblk0 V c 2 t : Vec F S1x1024 .f32) (ix2 (0 : Fin 1) j) = V c main_v5 (ix2 (0 : Fin 1) (colAt0 t.val j)) := by
  obtain ⟨-, -, -, -, e4, e5, -⟩ := idx_facts0 t
  show V c main_v5 (((cfg0.win 2).blk t).view.emb (ix2 (0 : Fin 1) j)) = V c main_v5 (ix2 (0 : Fin 1) (colAt0 t.val j))
  congr 1
  funext a
  apply Fin.ext
  match a with
  | ⟨0, _⟩ => show win0_2.index t (0 : Fin 2) * 1 + 1 * 0 = 0; omega
  | ⟨1, _⟩ => show win0_2.index t (1 : Fin 2) * 1024 + 1 * j.val = 1024 * (t.val / 4 % 4) + j.val; omega

end

end Cert.KernelIdeal.AccValue

end
-- ==== Proof.IAcc0Pieces.lean ====
/-
  Layer 1's kernel: what the body's stores leave, as the body's own arithmetic.

  Each run of the body found the pieces its stores wrote.  Every store here writes a whole buffer and every load
  reads a whole buffer, so a buffer's contents after the body are the last stored value, and a value loaded after a
  store is the stored value.  With `zeros` the reset value, `step acc x w` the accumulator plus the block product and
  `finish acc b` the binarized sum with bias: at k = 0 the accumulator ends at `step zeros x w`, at every other k at
  `step acc x w` of what it held, and at the last k the output block is `finish (step acc x w) b`.
-/
import proofs.«143296_j88201448391445_2_alg».proof.Proof.IAcc0
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

/-- After a point with 0 < k < last the accumulator holds what it held plus the block product. -/
theorem accMid0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : ¬isLast0 i) (x : Vec F S1024x1024 .f32) (w : Vec F S1024x1024 .f32) (bb : Vec F S1x1024 .f32) (xs : Vec F S1024x1024 .f32) :
    accMid0 c i arg3 harg3 arg4 harg4 arg5 harg5 arg6 harg6 arg7 harg7 hc0 hc1 x w bb xs = k0_pay2 xs x w := by
  unfold accMid0
  rw [View.read_writes_eq_canon _ _ _ (accCoverMid0 c i arg3 harg3 arg4 harg4 arg5 harg5 arg6 harg6 arg7 harg7 hc0 hc1 x w bb xs)]
  unfold runMid0
  dsimp only
  rw [View.canon_unit_zero hz0]
  simp only [View.readAt_eq_ld, harg3.read_unread, harg4.read_unread, harg7.read_unread, View.ld_unit_zero (S := S1024x1024) hz0]

/-- After a point with k = 0 it holds the zeros plus the block product: the value loaded after the reset is the
    reset value. -/
theorem accFirst0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : isFirst0 i) (hc1 : ¬isLast0 i) (x : Vec F S1024x1024 .f32) (w : Vec F S1024x1024 .f32) (bb : Vec F S1x1024 .f32) :
    accFirst0 c i arg3 harg3 arg4 harg4 arg5 harg5 arg6 harg6 arg7 harg7 hc0 hc1 x w bb = k0_pay2 (k0_pay1 (F := F)) x w := by
  unfold accFirst0
  rw [View.read_writes_eq_canon _ _ _ (accCoverFirst0 c i arg3 harg3 arg4 harg4 arg5 harg5 arg6 harg6 arg7 harg7 hc0 hc1 x w bb)]
  unfold runFirst0
  dsimp only
  sl_unfold_words
  rw [View.canon_cons_unit_zero (S := S1024x1024) hz0, View.readCov_unit_zero (S := S1024x1024) _ hz0]
  simp only [View.readAt_eq_ld, harg3.read_unread, harg4.read_unread, View.ld_unit_zero (S := S1024x1024) hz0]

/-- After a point with k last the accumulator again holds what it held plus the block product, -/
theorem accLast0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i) (x : Vec F S1024x1024 .f32) (w : Vec F S1024x1024 .f32) (bb : Vec F S1x1024 .f32) (xs : Vec F S1024x1024 .f32) :
    accLast0 c i arg3 harg3 arg4 harg4 arg5 harg5 arg6 harg6 arg7 harg7 hc0 hc1 x w bb xs = k0_pay2 xs x w := by
  unfold accLast0
  rw [View.read_writes_eq_canon _ _ _ (accCoverLast0 c i arg3 harg3 arg4 harg4 arg5 harg5 arg6 harg6 arg7 harg7 hc0 hc1 x w bb xs)]
  unfold runLast0
  dsimp only
  sl_unfold_words
  rw [View.canon_unit_zero hz0]
  simp only [View.readAt_eq_ld, harg3.read_unread, harg4.read_unread, harg7.read_unread, View.ld_unit_zero (S := S1024x1024) hz0]

/-- and the output block holds the binarized sum, with bias, of that final accumulator. -/
theorem outLast0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬isFirst0 i) (hc1 : isLast0 i) (x : Vec F S1024x1024 .f32) (w : Vec F S1024x1024 .f32) (bb : Vec F S1x1024 .f32) (xs : Vec F S1024x1024 .f32) :
    outLast0 c i arg3 harg3 arg4 harg4 arg5 harg5 arg6 harg6 arg7 harg7 hc0 hc1 x w bb xs = k0_pay3 (k0_pay2 xs x w) bb := by
  unfold outLast0
  rw [View.read_writes_eq_canon _ _ _ (outCoverLast0 c i arg3 harg3 arg4 harg4 arg5 harg5 arg6 harg6 arg7 harg7 hc0 hc1 x w bb xs)]
  unfold runLast0
  dsimp only
  sl_unfold_words
  rw [View.canon_unit_zero hz0, View.readCov_unit_zero (S := S1024x1024) _ hz0]
  simp only [View.readAt_eq_ld, harg3.read_unread, harg4.read_unread, harg5.read_unread, harg7.read_unread, View.ld_unit_zero (S := S1024x1024) hz0, View.ld_unit_zero (S := S1x1024) hz0]

end Cert.KernelIdeal.Acc

end
-- ==== Proof.IPayloads.lean ====
/-
  The kernel bodies' arithmetic read at one element, over the extended reals.

  Every layer's body does three things to its accumulator block.  It resets it to zeros.  It adds to it the product
  of an activation block `[rows, k]` with a weight block `[columns, k]`, contracting the second axis of both: at
  `(r, j)` the sum over the shared axis of the activation block's row `r` times the weight block's row `j`.  And at
  the last step along the contracted axis it adds the bias row to every row and binarizes: the sign, written as
  selects on the order (`-1` or `1` by the sign where the absolute value is above zero, the number itself — zero —
  elsewhere), then zero replaced by one; on every extended real that is `pm`.  A change of float format afterwards
  changes nothing here.  The first layer's blocks are `1024 × 1024` against `1024 × 1024`; the other three layers'
  are `2048 × 512` against `1024 × 512` into `2048 × 1024`, and their three bodies are the same terms.
-/
import proofs.«143296_j88201448391445_2_alg».proof.Proof.Gen.KernelIdeal.Skeleton
import proofs.«143296_j88201448391445_2_alg».proof.Proof.PmLaws
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Cert.SignNet
open Idealize.ShloMosaic Idealize.SL.Sem Idealize.ShloMosaic.ValueIdx

/-! ## The scalar law of the closing binarization -/

/-- The sign written as selects on the order, then zero replaced by one, is `pm` on every extended real: the inner
    selects are the float sign, and the sign with zero replaced by one is `pm`. -/
theorem select_chain_eq_pm (y : Ideal .f32) :
    Scalar.select
        (FloatOps.cmpf .oeq
          (Scalar.select (FloatOps.cmpf .ogt (FloatOps.absf y) (Scalar.ofBits .f32 0x00000000#32))
            (Scalar.select (FloatOps.cmpf .olt y (Scalar.ofBits .f32 0x00000000#32)) (Scalar.ofBits .f32 0xBF800000#32)
              (Scalar.ofBits .f32 0x3F800000#32)) y)
          (Scalar.ofBits .f32 0x00000000#32))
        (Scalar.ofBits .f32 0x3F800000#32)
        (Scalar.select (FloatOps.cmpf .ogt (FloatOps.absf y) (Scalar.ofBits .f32 0x00000000#32))
          (Scalar.select (FloatOps.cmpf .olt y (Scalar.ofBits .f32 0x00000000#32)) (Scalar.ofBits .f32 0xBF800000#32)
            (Scalar.ofBits .f32 0x3F800000#32)) y)
      = pm y := by
  rw [Ideal.jnp_sign_eq_sign_f32]
  exact select_sign_eq_pm y

/-! ## The first layer's body: blocks of 1024 rows, 1024 columns, 1024 along the contracted axis -/

/-- The left operand's index at output `i` and contraction position `q` has the output's row on its first axis. -/
theorem lhs0_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
/-- The left operand's index at output `i` and contraction position `q` has the contraction position on its second axis. -/
theorem lhs0_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand's index at output `i` and contraction position `q` has the output's column on its first axis. -/
theorem rhs0_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
/-- The right operand's index at output `i` and contraction position `q` has the contraction position on its second axis. -/
theorem rhs0_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of a `[1024, 1024]` block with a `[1024, 1024]` block, contracting the second axis of both, into zeros:
    at `(r, j)` the sum over the shared axis of the left block's row `r` times the right block's row `j`. -/
theorem matmul0_apply (xb : FVec Ideal S1024x1024 .f32) (wb : FVec Ideal S1024x1024 .f32) (r : Fin 1024) (j : Fin 1024) :
    matmul dot_S1024x1024_S1024x1024_S1024x1024_1_1_0_0_n_n (some .fp32) xb wb (constant (F := Ideal) S1024x1024 .f32 0x00000000#32) (ix2 r j)
      = ∑ q : Fin 1024, xb (ix2 r q) * wb (ix2 j q) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun q _ => ?_
  have hq := contrEquiv1_symm_val dot_S1024x1024_S1024x1024_S1024x1024_1_1_0_0_n_n 1024 rfl rfl q
  have el : dot_S1024x1024_S1024x1024_S1024x1024_1_1_0_0_n_n.lhsIdx (ix2 r j) ((contrEquiv1 dot_S1024x1024_S1024x1024_S1024x1024_1_1_0_0_n_n 1024 rfl rfl).symm q) = ix2 r q :=
    funext fun a => Fin.ext (by
      match a with
      | ⟨0, _⟩ => exact lhs0_0 _ _
      | ⟨1, _⟩ => exact (lhs0_1 _ _).trans hq)
  have er : dot_S1024x1024_S1024x1024_S1024x1024_1_1_0_0_n_n.rhsIdx (ix2 r j) ((contrEquiv1 dot_S1024x1024_S1024x1024_S1024x1024_1_1_0_0_n_n 1024 rfl rfl).symm q) = ix2 j q :=
    funext fun a => Fin.ext (by
      match a with
      | ⟨0, _⟩ => exact rhs0_0 _ _
      | ⟨1, _⟩ => exact (rhs0_1 _ _).trans hq)
  rw [el, er]
/-- The reset: zero at every element. -/
theorem k0_pay1_apply (r : Fin 1024) (j : Fin 1024) : k0_pay1 (F := Ideal) (ix2 r j) = 0 := by
  unfold k0_pay1
  rw [shapeCast_self]
  exact Ideal.ofBits_zero_f32

/-- The accumulation step: the accumulator plus the inner product of the activation block's row with the weight
    block's row. -/
theorem k0_pay2_apply (acc : FVec Ideal S1024x1024 .f32) (xb : FVec Ideal S1024x1024 .f32) (wb : FVec Ideal S1024x1024 .f32)
    (r : Fin 1024) (j : Fin 1024) :
    k0_pay2 (F := Ideal) acc xb wb (ix2 r j) = acc (ix2 r j) + ∑ q : Fin 1024, xb (ix2 r q) * wb (ix2 j q) := by
  unfold k0_pay2
  rw [shapeCast_self, shapeCast_self]
  exact congrArg (acc (ix2 r j) + ·) (matmul0_apply xb wb r j)

/-- The closing step: `pm` of the accumulator plus the bias of the column. -/
theorem k0_pay3_apply (acc : FVec Ideal S1024x1024 .f32) (bb : FVec Ideal S1x1024 .f32) (r : Fin 1024) (j : Fin 1024) :
    k0_pay3 (F := Ideal) acc bb (ix2 r j) = pm (acc (ix2 r j) + bb (ix2 (0 : Fin 1) j)) := by
  unfold k0_pay3
  rw [shapeCast_self]
  refine (select_chain_eq_pm _).trans ?_
  exact congrArg (fun t => pm (acc (ix2 r j) + t)) (broadcastTo_1b_ab_apply bb broadcasts_S1x1024_S1024x1024 r j)

/-! ## The second layer's body: blocks of 2048 rows, 1024 columns, 512 along the contracted axis -/

/-- The left operand's index at output `i` and contraction position `q` has the output's row on its first axis. -/
theorem lhs1_0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl
/-- The left operand's index at output `i` and contraction position `q` has the contraction position on its second axis. -/
theorem lhs1_1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
/-- The right operand's index at output `i` and contraction position `q` has the output's column on its first axis. -/
theorem rhs1_0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl
/-- The right operand's index at output `i` and contraction position `q` has the contraction position on its second axis. -/
theorem rhs1_1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The product of a `[2048, 512]` block with a `[1024, 512]` block, contracting the second axis of both, into zeros:
    at `(r, j)` the sum over the shared axis of the left block's row `r` times the right block's row `j`. -/
theorem matmul1_apply (xb : FVec Ideal S2048x512 .bf16) (wb : FVec Ideal S1024x512 .bf16) (r : Fin 2048) (j : Fin 1024) :
    matmul dot_S2048x512_S1024x512_S2048x1024_1_1_0_0_n_n none xb wb (constant (F := Ideal) S2048x1024 .f32 0x00000000#32) (ix2 r j)
      = ∑ q : Fin 512, xb (ix2 r q) * wb (ix2 j q) := by
  simp only [matmul]
  rw [Ideal.matmul_constant_zero_apply,
    ← Equiv.sum_comp (contrEquiv1 dot_S2048x512_S1024x512_S2048x1024_1_1_0_0_n_n 512 rfl rfl).symm]
  refine Finset.sum_congr rfl fun q _ => ?_
  have hq := contrEquiv1_symm_val dot_S2048x512_S1024x512_S2048x1024_1_1_0_0_n_n 512 rfl rfl q
  have el : dot_S2048x512_S1024x512_S2048x1024_1_1_0_0_n_n.lhsIdx (ix2 r j) ((contrEquiv1 dot_S2048x512_S1024x512_S2048x1024_1_1_0_0_n_n 512 rfl rfl).symm q) = ix2 r q :=
    funext fun a => Fin.ext (by
      match a with
      | ⟨0, _⟩ => exact lhs1_0 _ _
      | ⟨1, _⟩ => exact (lhs1_1 _ _).trans hq)
  have er : dot_S2048x512_S1024x512_S2048x1024_1_1_0_0_n_n.rhsIdx (ix2 r j) ((contrEquiv1 dot_S2048x512_S1024x512_S2048x1024_1_1_0_0_n_n 512 rfl rfl).symm q) = ix2 j q :=
    funext fun a => Fin.ext (by
      match a with
      | ⟨0, _⟩ => exact rhs1_0 _ _
      | ⟨1, _⟩ => exact (rhs1_1 _ _).trans hq)
  rw [el, er]

/-- The reset: zero at every element. -/
theorem k1_pay1_apply (r : Fin 2048) (j : Fin 1024) : k1_pay1 (F := Ideal) (ix2 r j) = 0 := by
  unfold k1_pay1
  rw [shapeCast_self]
  exact Ideal.ofBits_zero_f32

/-- The accumulation step: the accumulator plus the inner product of the activation block's row with the weight
    block's row. -/
theorem k1_pay2_apply (acc : FVec Ideal S2048x1024 .f32) (xb : FVec Ideal S2048x512 .bf16) (wb : FVec Ideal S1024x512 .bf16)
    (r : Fin 2048) (j : Fin 1024) :
    k1_pay2 (F := Ideal) acc xb wb (ix2 r j) = acc (ix2 r j) + ∑ q : Fin 512, xb (ix2 r q) * wb (ix2 j q) := by
  unfold k1_pay2
  rw [shapeCast_self, shapeCast_self, shapeCast_self]
  exact congrArg (acc (ix2 r j) + ·) (matmul1_apply xb wb r j)

/-- The closing step: `pm` of the accumulator plus the bias of the column. -/
theorem k1_pay3_apply (acc : FVec Ideal S2048x1024 .f32) (bb : FVec Ideal S1x1024 .f32) (r : Fin 2048) (j : Fin 1024) :
    k1_pay3 (F := Ideal) acc bb (ix2 r j) = pm (acc (ix2 r j) + bb (ix2 (0 : Fin 1) j)) := by
  unfold k1_pay3
  rw [shapeCast_self]
  refine (select_chain_eq_pm _).trans ?_
  exact congrArg (fun t => pm (acc (ix2 r j) + t)) (broadcastTo_1b_ab_apply bb broadcasts_S1x1024_S2048x1024 r j)

/-! ## The third and fourth layers' bodies

Their three terms are the second layer's, operation for operation; the fourth layer's closing step only lacks the
final change of float format, which changes no value here. -/

/-- The third layer's reset is the second layer's. -/
theorem k2_pay1_eq : k2_pay1 (F := Ideal) = k1_pay1 (F := Ideal) := rfl
/-- The third layer's accumulation step is the second layer's. -/
theorem k2_pay2_eq : k2_pay2 (F := Ideal) = k1_pay2 (F := Ideal) := rfl
/-- The third layer's closing step is the second layer's. -/
theorem k2_pay3_eq : k2_pay3 (F := Ideal) = k1_pay3 (F := Ideal) := rfl
/-- The fourth layer's reset is the second layer's. -/
theorem k3_pay1_eq : k3_pay1 (F := Ideal) = k1_pay1 (F := Ideal) := rfl
/-- The fourth layer's accumulation step is the second layer's. -/
theorem k3_pay2_eq : k3_pay2 (F := Ideal) = k1_pay2 (F := Ideal) := rfl

/-- The third layer's reset: zero at every element. -/
theorem k2_pay1_apply (r : Fin 2048) (j : Fin 1024) : k2_pay1 (F := Ideal) (ix2 r j) = 0 := k1_pay1_apply r j
/-- The third layer's accumulation step: the accumulator plus the inner product of the two blocks' rows. -/
theorem k2_pay2_apply (acc : FVec Ideal S2048x1024 .f32) (xb : FVec Ideal S2048x512 .bf16) (wb : FVec Ideal S1024x512 .bf16)
    (r : Fin 2048) (j : Fin 1024) :
    k2_pay2 (F := Ideal) acc xb wb (ix2 r j) = acc (ix2 r j) + ∑ q : Fin 512, xb (ix2 r q) * wb (ix2 j q) :=
  k1_pay2_apply acc xb wb r j
/-- The third layer's closing step: `pm` of the accumulator plus the bias of the column. -/
theorem k2_pay3_apply (acc : FVec Ideal S2048x1024 .f32) (bb : FVec Ideal S1x1024 .f32) (r : Fin 2048) (j : Fin 1024) :
    k2_pay3 (F := Ideal) acc bb (ix2 r j) = pm (acc (ix2 r j) + bb (ix2 (0 : Fin 1) j)) :=
  k1_pay3_apply acc bb r j
/-- The fourth layer's reset: zero at every element. -/
theorem k3_pay1_apply (r : Fin 2048) (j : Fin 1024) : k3_pay1 (F := Ideal) (ix2 r j) = 0 := k1_pay1_apply r j
/-- The fourth layer's accumulation step: the accumulator plus the inner product of the two blocks' rows. -/
theorem k3_pay2_apply (acc : FVec Ideal S2048x1024 .f32) (xb : FVec Ideal S2048x512 .bf16) (wb : FVec Ideal S1024x512 .bf16)
    (r : Fin 2048) (j : Fin 1024) :
    k3_pay2 (F := Ideal) acc xb wb (ix2 r j) = acc (ix2 r j) + ∑ q : Fin 512, xb (ix2 r q) * wb (ix2 j q) :=
  k1_pay2_apply acc xb wb r j
/-- The fourth layer's closing step: `pm` of the accumulator plus the bias of the column. -/
theorem k3_pay3_apply (acc : FVec Ideal S2048x1024 .f32) (bb : FVec Ideal S1x1024 .f32) (r : Fin 2048) (j : Fin 1024) :
    k3_pay3 (F := Ideal) acc bb (ix2 r j) = pm (acc (ix2 r j) + bb (ix2 (0 : Fin 1) j)) :=
  k1_pay3_apply acc bb r j

end Cert.KernelIdeal.Payloads

end
-- ==== Proof.LibBlockSum.lean ====
/-
  Two facts about finite sums in an additive commutative monoid, used to regroup a long sum into equal blocks
  and to unroll a running total.

  (1) A sum over `N * B` consecutive positions is the sum over its `N` blocks of `B` consecutive positions each:
      position `B * n + j` is the `j`-th position of block `n`, and `(n, j) ↦ B * n + j` is a bijection from
      `Fin N × Fin B` onto `Fin (N * B)`. Because addition is commutative and associative the order in which
      the terms are added does not matter.
  (2) A sequence that starts at `z + m 0` and whose every step adds the next term, `a (n + 1) = a n + m (n + 1)`,
      is `z` plus the partial sums of `m`.
-/
import Mathlib.Algebra.BigOperators.Fin
import Mathlib.Logic.Equiv.Fin.Basic

namespace Cert.LibBlockSum

open scoped BigOperators

variable {α : Type*} [AddCommMonoid α]

/-- Position `j` of block `n`, namely `B * n + j`, lies below `N * B` when `n < N` and `j < B`:
    `B * n + j < B * n + B = B * (n + 1) ≤ B * N`. -/
theorem block_index_lt {N B : ℕ} (n : Fin N) (j : Fin B) : B * n.val + j.val < N * B := by
  have h1 : B * n.val + j.val < B * (n.val + 1) := by
    rw [Nat.mul_succ]; exact Nat.add_lt_add_left j.isLt _
  have h2 : B * (n.val + 1) ≤ B * N := Nat.mul_le_mul_left _ n.isLt
  rw [Nat.mul_comm N B]
  exact lt_of_lt_of_le h1 h2

/-- **A sum cut into equal blocks.** For `f` on `Fin M` with `M = N * B`, summing block by block — the outer sum over
    the `N` blocks, the inner over the `B` positions `B * n + j` of block `n` — gives the sum of `f` over all of
    `Fin M`. The pairs `(n, j)` correspond one to one to the positions `B * n + j` (quotient and remainder by `B`),
    so both sides add the same terms, each once. -/
theorem sum_blocks_general (N B M : ℕ) (hM : N * B = M) (f : Fin M → α) :
    ∑ n : Fin N, ∑ j : Fin B, f ⟨B * n.val + j.val, hM ▸ block_index_lt n j⟩ = ∑ k : Fin M, f k := by
  subst hM
  have e : ∀ (n : Fin N) (j : Fin B),
      f ⟨B * n.val + j.val, block_index_lt n j⟩ = f (finProdFinEquiv (n, j)) := fun n j =>
    congrArg f (Fin.ext (by rw [finProdFinEquiv_apply_val]; exact Nat.add_comm _ _))
  simp only [e]
  rw [← Fintype.sum_prod_type (fun p : Fin N × Fin B => f (finProdFinEquiv p))]
  exact Equiv.sum_comp finProdFinEquiv f

/-- **8192 positions as 32 blocks of 256.** The sum of `f` over `Fin 8192` is the sum over `n < 32` of the sums over
    `j < 256` of `f (256 * n + j)`. -/
theorem sum_blocks (f : Fin 8192 → α) :
    ∑ n : Fin 32, ∑ j : Fin 256, f ⟨256 * n.val + j.val, by omega⟩ = ∑ k : Fin 8192, f k :=
  sum_blocks_general 32 256 8192 rfl f

/-- **A running total unrolled.** If `a 0 = z + m 0` and every step adds the next term, `a (n + 1) = a n + m (n + 1)`,
    then `a n` is `z` plus the sum of `m 0, …, m n`. By induction on `n`: the sum over `range (n + 2)` is the sum over
    `range (n + 1)` plus `m (n + 1)`, and addition is associative. -/
theorem running_total (a m : ℕ → α) (z : α) (h0 : a 0 = z + m 0) (hs : ∀ n, a (n + 1) = a n + m (n + 1)) (n : ℕ) :
    a n = z + ∑ i ∈ Finset.range (n + 1), m i := by
  induction n with
  | zero => rw [h0, Finset.sum_range_one]
  | succ n ih => rw [hs n, ih, Finset.sum_range_succ m (n + 1), add_assoc]

/-- The same with the step known only below a bound `N` (`a (n + 1) = a n + m (n + 1)` for `n + 1 ≤ N`): the
    conclusion holds for every `n ≤ N`. -/
theorem running_total_le (a m : ℕ → α) (z : α) (N : ℕ) (h0 : a 0 = z + m 0)
    (hs : ∀ n, n + 1 ≤ N → a (n + 1) = a n + m (n + 1)) (n : ℕ) (hn : n ≤ N) :
    a n = z + ∑ i ∈ Finset.range (n + 1), m i := by
  induction n with
  | zero => rw [h0, Finset.sum_range_one]
  | succ n ih => rw [hs n hn, ih (Nat.le_of_succ_le hn), Finset.sum_range_succ m (n + 1), add_assoc]

/-- **After 32 steps.** With `a 0 = z + m 0` and `a (n + 1) = a n + m (n + 1)`, the 32nd value `a 31` is `z` plus the
    sum of `m` over `Fin 32`. -/
theorem running_total_32 (a m : ℕ → α) (z : α) (h0 : a 0 = z + m 0) (hs : ∀ n, a (n + 1) = a n + m (n + 1)) :
    a 31 = z + ∑ i : Fin 32, m i.val := by
  rw [running_total a m z h0 hs 31, Finset.sum_range]

/-- The 32-step form with the step known only for `n + 1 ≤ 31`. -/
theorem running_total_32_le (a m : ℕ → α) (z : α) (h0 : a 0 = z + m 0)
    (hs : ∀ n, n + 1 ≤ 31 → a (n + 1) = a n + m (n + 1)) :
    a 31 = z + ∑ i : Fin 32, m i.val := by
  rw [running_total_le a m z 31 h0 hs 31 (Nat.le_refl _), Finset.sum_range]

end Cert.LibBlockSum
-- ==== Proof.IAcc0Sum.lean ====
/-
  Layer 1's kernel region: the accumulator after each point, and the output block at the last k block.

  Over the points of one output block the accumulator is reset at the first k block and gains one block product at
  every k block, so after the point with k block `u` it holds the sum of the block products of k blocks `0 … u`
  (by induction on the point's number, the case of each point read off the body's arithmetic).  At the last k block
  the four block products of 1024 terms each are one sum over the 4096 positions of the contracted axis: the inner
  product of the activations' row with the weights' row.  The output block there is `pm` of it plus the bias.
-/
import proofs.«143296_j88201448391445_2_alg».proof.Proof.IAcc0Blocks
import proofs.«143296_j88201448391445_2_alg».proof.Proof.IAcc0Pieces
import proofs.«143296_j88201448391445_2_alg».proof.Proof.IPayloads
import proofs.«143296_j88201448391445_2_alg».proof.Proof.LibBlockSum

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

open Cert.KernelIdeal.Payloads

section

variable (V : (c : Dev nD) → (b : Ref sig .tc) → Buf (Elt Ideal) ((c : Thread nD τ).loc b))

/-- The activations as the region finds them: a matrix of 8192 rows and 4096 columns of extended reals. -/
def arrX0 (c : Dev nD) : Mat 8192 4096 := V c main_arg0
/-- The binarized weights as the region finds them: 4096 rows and 4096 columns. -/
def arrW0 (c : Dev nD) : Mat 4096 4096 := V c main_v4
/-- The bias as the region finds it: one row of 4096 columns. -/
def arrB0 (c : Dev nD) : Mat 1 4096 := V c main_v5

/-- The block product of point number `n` at `(r, j)`: the activations' row against the weights' row over the
    point's k block. -/
def prodAt0 (c : Dev nD) (r : Fin 1024) (j : Fin 1024) (n : ℕ) : EReal :=
  ∑ q : Fin 1024, arrX0 V c (ix2 (rowAt0 n r) (posAt0 n q)) * arrW0 V c (ix2 (colAt0 n j) (posAt0 n q))

/-- Two blocks that read the activations and the weights where point `t`'s windows sit have, as their product at
    `(r, j)`, the block product of the point's number. -/
theorem blocks_prod0 (c : Dev nD) (t : Fin cfg0.N) (r : Fin 1024) (j : Fin 1024) (xb wb : FVec Ideal S1024x1024 .f32)
    (hx : ∀ q : Fin 1024, xb (ix2 r q) = arrX0 V c (ix2 (rowAt0 t.val r) (posAt0 t.val q)))
    (hw : ∀ q : Fin 1024, wb (ix2 j q) = arrW0 V c (ix2 (colAt0 t.val j) (posAt0 t.val q))) :
    ∑ q : Fin 1024, xb (ix2 r q) * wb (ix2 j q) = prodAt0 V c r j t.val := by
  unfold prodAt0
  exact Finset.sum_congr rfl fun q _ => by rw [hx q, hw q]

/-- After a point with k = 0 the accumulator holds that point's block product. -/
theorem acc_first0 (c : Dev nD) (t : Fin cfg0.N) (h0 : t.val % 4 = 0) (r : Fin 1024) (j : Fin 1024) :
    accAt0 V c t.val t.isLt (ix2 r j) = prodAt0 V c r j t.val := by
  have h1 : ¬t.val % 4 = 3 := by omega
  rw [accAt0_first V c t h0 h1, accFirst0_eq, k0_pay2_apply, k0_pay1_apply, zero_add]
  exact blocks_prod0 V c t r j (iblk0 V c 0 t) (iblk0 V c 1 t) (fun q => iblk0_0_apply V c t r q) (fun q => iblk0_1_apply V c t j q)

/-- After any other point it holds what the point before left plus that point's block product. -/
theorem acc_next0 (c : Dev nD) (t : Fin cfg0.N) (h0 : ¬t.val % 4 = 0) (r : Fin 1024) (j : Fin 1024) :
    accAt0 V c t.val t.isLt (ix2 r j)
      = accAt0 V c (t.val - 1) (Nat.lt_of_le_of_lt (Nat.sub_le _ _) t.isLt) (ix2 r j) + prodAt0 V c r j t.val := by
  by_cases h1 : t.val % 4 = 3
  · rw [accAt0_last V c t h0 h1, accLast0_eq, k0_pay2_apply]
    exact congrArg (_ + ·) (blocks_prod0 V c t r j (iblk0 V c 0 t) (iblk0 V c 1 t) (fun q => iblk0_0_apply V c t r q) (fun q => iblk0_1_apply V c t j q))
  · rw [accAt0_mid V c t h0 h1, accMid0_eq, k0_pay2_apply]
    exact congrArg (_ + ·) (blocks_prod0 V c t r j (iblk0 V c 0 t) (iblk0 V c 1 t) (fun q => iblk0_0_apply V c t r q) (fun q => iblk0_1_apply V c t j q))

/-- The accumulator after point number `n`: the block products of the k blocks up to the point's own, of the output
    block the point belongs to. -/
theorem acc_sum0 (c : Dev nD) (r : Fin 1024) (j : Fin 1024) : ∀ (n : ℕ) (hn : n < cfg0.N),
    accAt0 V c n hn (ix2 r j) = ∑ u ∈ Finset.range (n % 4 + 1), prodAt0 V c r j (4 * (n / 4) + u) := by
  intro n
  induction n with
  | zero =>
    intro hn
    exact acc_first0 V c ⟨0, hn⟩ rfl r j |>.trans (by simp)
  | succ n ih =>
    intro hn
    by_cases h0 : (n + 1) % 4 = 0
    · have e := acc_first0 V c ⟨n + 1, hn⟩ h0 r j
      have hs : 4 * ((n + 1) / 4) + 0 = n + 1 := by omega
      rw [h0, Finset.sum_range_one, hs]
      exact e
    · have e := acc_next0 V c ⟨n + 1, hn⟩ h0 r j
      have hm : (n + 1) % 4 = n % 4 + 1 := by omega
      have hd : (n + 1) / 4 = n / 4 := by omega
      have hs : 4 * (n / 4) + (n % 4 + 1) = n + 1 := by omega
      rw [hm, hd, Finset.sum_range_succ, ← ih (Nat.lt_of_succ_lt hn), hs]
      exact e

end

end Cert.KernelIdeal.AccValue

end
-- ==== Proof.IAcc0Value.lean ====
/-
  Layer 1's kernel region: the output array after the region is the layer's function of the arrays it read.

  At the last k block of an output block the accumulator holds the four block products, which together are the inner
  product of the activations' row with the binarized weights' row over the whole contracted axis; the block stored
  there is `pm` of that plus the bias of the column.  The stored block is written back to its place in the output
  array, rows `1024 (t / 16) + r` and columns `1024 (t / 4 % 4) + j`, exactly at those points; and every index of the
  output array lies in the block of one such point, the one of its row block and column block.  So the array ends
  holding, at every index, `pm` of the inner product plus the bias.
-/
import proofs.«143296_j88201448391445_2_alg».proof.Proof.IAcc0Sum
import proofs.«143296_j88201448391445_2_alg».proof.Proof.Gen.KernelIdeal.Points

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

open Cert.KernelIdeal.Payloads

section

variable (V : (c : Dev nD) → (b : Ref sig .tc) → Buf (Elt Ideal) ((c : Thread nD τ).loc b))

/-- The layer at one output element: `pm` of the inner product of the activations' row `R` with the binarized
    weights' row `C`, plus the bias of column `C`. -/
def layerAt0 (c : Dev nD) (R : Fin 8192) (C : Fin 4096) : EReal :=
  pm (inner (arrX0 V c) (arrW0 V c) R C + arrB0 V c (ix2 (0 : Fin 1) C))

/-- The layer as an array of 8192 rows and 4096 columns. -/
def layerArr0 (c : Dev nD) : Mat 8192 4096 := fun p => layerAt0 V c (p 0) (p 1)

/-- The four block products of an output block are the inner product over the whole contracted axis: the k blocks
    of 1024 positions each tile the 4096 positions. -/
theorem prod_total0 (c : Dev nD) (r : Fin 1024) (j : Fin 1024) (n : ℕ) :
    ∑ u ∈ Finset.range 4, prodAt0 V c r j (4 * (n / 4) + u) = inner (arrX0 V c) (arrW0 V c) (rowAt0 n r) (colAt0 n j) := by
  unfold Cert.SignNet.inner
  rw [Finset.sum_range, ← Cert.LibBlockSum.sum_blocks_general 4 1024 4096 rfl
    (fun k => arrX0 V c (ix2 (rowAt0 n r) k) * arrW0 V c (ix2 (colAt0 n j) k))]
  refine Finset.sum_congr rfl fun u _ => ?_
  unfold prodAt0
  refine Finset.sum_congr rfl fun q _ => ?_
  have hu := u.isLt
  have hr : rowAt0 (4 * (n / 4) + u.val) r = rowAt0 n r :=
    Fin.ext (by show (1024 * ((4 * (n / 4) + u.val) / 16) + r.val) % 8192 = (1024 * (n / 16) + r.val) % 8192; omega)
  have hc : colAt0 (4 * (n / 4) + u.val) j = colAt0 n j :=
    Fin.ext (by show 1024 * ((4 * (n / 4) + u.val) / 4 % 4) + j.val = 1024 * (n / 4 % 4) + j.val; omega)
  have hp : posAt0 (4 * (n / 4) + u.val) q = (⟨1024 * u.val + q.val, by omega⟩ : Fin 4096) :=
    Fin.ext (by show 1024 * ((4 * (n / 4) + u.val) % 4) + q.val = 1024 * u.val + q.val; omega)
  rw [hr, hc, hp]

/-- The block stored at the last k block, at `(r, j)`: the layer at the block's place in the array. -/
theorem out_apply0 (c : Dev nD) (t : Fin cfg0.N) (h1 : t.val % 4 = 3) (r : Fin 1024) (j : Fin 1024) :
    outAt0 V c t (ix2 r j) = layerAt0 V c (rowAt0 t.val r) (colAt0 t.val j) := by
  have h0 : ¬t.val % 4 = 0 := by omega
  have eacc : accAt0 V c t.val t.isLt
      = k0_pay2 (accAt0 V c (t.val - 1) (Nat.lt_of_le_of_lt (Nat.sub_le _ _) t.isLt)) (iblk0 V c 0 t) (iblk0 V c 1 t) := by
    rw [accAt0_last V c t h0 h1, accLast0_eq]
  rw [outAt0_last V c t h0 h1, outLast0_eq, ← eacc, k0_pay3_apply, acc_sum0 V c r j t.val t.isLt, h1,
    prod_total0 V c r j t.val]
  unfold layerAt0
  exact congrArg (fun b => pm (_ + b)) (iblk0_2_apply V c t j)

/-- Two blocks of 1024 rows and 1024 columns that agree at every `(r, j)` are equal. -/
theorem block_ext0 (f g : FVec Ideal S1024x1024 .bf16)
    (h : ∀ (r : Fin 1024) (j : Fin 1024), f (ix2 r j) = g (ix2 r j)) : f = g :=
  funext fun y => by rw [eq_ix2 y]; exact h _ _

/-- What a point with the last k block writes back is its block of the layer's array. -/
theorem flushed_eq0 (c : Dev nD) (t : Fin cfg0.N) (hf : (cfg0.win 3).flush t = true) :
    (dat0 V c).flushed 3 t = ((cfg0.win 3).blk t).view.read (Elt Ideal) (layerArr0 V c) := by
  have h1 : t.val % 4 = 3 := (flush0_3 t).mp hf
  obtain ⟨-, -, -, -, -, -, e6, e7⟩ := idx_facts0 t
  show (cfg0.win 3).cut (grid0.coords t) ((dat0 V c).after 3 t) = _
  rw [after0_3]
  refine block_ext0 _ _ fun r j => ?_
  show outAt0 V c t (ix2 r j) = layerArr0 V c (((cfg0.win 3).blk t).view.emb (ix2 r j))
  rw [out_apply0 V c t h1 r j]
  have hrow : (((cfg0.win 3).blk t).view.emb (ix2 r j) 0 : Fin 8192) = rowAt0 t.val r := Fin.ext (by
    show win0_3.index t (0 : Fin 2) * 1024 + 1 * r.val = (1024 * (t.val / 16) + r.val) % 8192
    have := lt_N0 t; omega)
  have hcol : (((cfg0.win 3).blk t).view.emb (ix2 r j) 1 : Fin 4096) = colAt0 t.val j := Fin.ext (by
    show win0_3.index t (1 : Fin 2) * 1024 + 1 * j.val = 1024 * (t.val / 4 % 4) + j.val
    omega)
  show layerAt0 V c (rowAt0 t.val r) (colAt0 t.val j)
    = layerAt0 V c (((cfg0.win 3).blk t).view.emb (ix2 r j) 0) (((cfg0.win 3).blk t).view.emb (ix2 r j) 1)
  rw [hrow, hcol]

/-- An index of the output array is in point `t`'s block exactly when each coordinate is in the block's range. -/
theorem mem_blk0 (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v6).slice (win0_3.rect t)).set ↔ _
  rw [View.set_slice_whole, Rect.mem_set_unit]
  exact Iff.rfl

/-- Every index of the output array is in the block written back at the last k block of its row block and column
    block. -/
theorem cover0 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, e6, e7⟩ := idx_facts0 t
  refine ⟨t, (flush0_3 t).mpr (by omega), ?_⟩
  rw [mem_blk0]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- After the region the output array holds the layer's function of the activations, the binarized weights and the
    bias as the region found them. -/
theorem region0_array (c : Dev nD) : (dat0 V c).arrAt 3 cfg0.N = layerArr0 V c :=
  (dat0 V c).arrAt_eq_of_cover 3 (layerArr0 V c) (flushed_eq0 V c) cover0

end

end Cert.KernelIdeal.AccValue

end
-- ==== Proof.IAcc1Blocks.lean ====
/-
  Layer 2's kernel region: where each window's block sits in its array.

  The grid's points are numbered with the k block innermost: point number `t` is row block `t / 32`, column block
  `t / 8 % 4` and k block `t % 8`.  The activation window's block at `t` is rows `2048 (t / 32) + r` and columns
  `512 (t % 8) + q` of the activations; the weight window's block is rows `1024 (t / 8 % 4) + j` and columns
  `512 (t % 8) + q` of the weights; the bias window's block is columns `1024 (t / 8 % 4) + j` of the one bias row;
  the output window's block is rows `2048 (t / 32) + r` and columns `1024 (t / 8 % 4) + j` of the output.
-/
import proofs.«143296_j88201448391445_2_alg».proof.Proof.IAcc1
import proofs.«143296_j88201448391445_2_alg».proof.Proof.SignNet
import Idealize.ShloMosaic.Lib.ValueIdx
import Idealize.ShloMosaic.Lib.Pipeline.Value

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

variable {F : FTy → Type} [FloatOps F]

/-- The windows' block indices at point number `t`, decided once over the grid's 128 points. -/
theorem idx_facts1 : ∀ t : Fin cfg1.N,
    win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = 0 ∧ win1_2.index t (1 : Fin 2) = t.val / 8 % 4
    ∧ win1_3.index t (0 : Fin 2) = t.val / 32 ∧ win1_3.index t (1 : Fin 2) = t.val / 8 % 4 :=
  (by decide +kernel : ∀ t : Fin grid1.N, _)

/-- A point's number is below 128. -/
theorem lt_N1 (t : Fin cfg1.N) : t.val < 128 := by
  have h := t.isLt
  have hN : cfg1.N = 128 := N_1
  omega

/-- Row `r` of the row block of point number `n`, in the activations and in the output (kept below the extent for
    every number, so that it is defined off the grid too; on the grid the remainder changes nothing). -/
def rowAt1 (n : ℕ) (r : Fin 2048) : Fin 8192 := ⟨(2048 * (n / 32) + r.val) % 8192, Nat.mod_lt _ (by decide)⟩
/-- Column `j` of the column block of point number `n`: a row of the weights, a column of the bias and of the output. -/
def colAt1 (n : ℕ) (j : Fin 1024) : Fin 4096 := ⟨1024 * (n / 8 % 4) + j.val, by omega⟩
/-- Position `q` of the k block of point number `n` along the contracted axis. -/
def posAt1 (n : ℕ) (q : Fin 512) : Fin 4096 := ⟨512 * (n % 8) + q.val, by omega⟩

section

variable (V : (c : Dev nD) → (b : Ref sig .tc) → Buf (Elt F) ((c : Thread nD τ).loc b))

/-- The activation block at point `t`, read at `(r, q)`. -/
theorem iblk1_0_apply (c : Dev nD) (t : Fin cfg1.N) (r : Fin 2048) (q : Fin 512) :
    (iblk1 V c 0 t : Vec F S2048x512 .bf16) (ix2 r q) = V c main_v6 (ix2 (rowAt1 t.val r) (posAt1 t.val q)) := by
  obtain ⟨e0, e1, -⟩ := idx_facts1 t
  show V c main_v6 (((cfg1.win 0).blk t).view.emb (ix2 r q)) = V c main_v6 (ix2 (rowAt1 t.val r) (posAt1 t.val q))
  congr 1
  funext a
  apply Fin.ext
  match a with
  | ⟨0, _⟩ => show win1_0.index t (0 : Fin 2) * 2048 + 1 * r.val = (2048 * (t.val / 32) + r.val) % 8192; have := lt_N1 t; omega
  | ⟨1, _⟩ => show win1_0.index t (1 : Fin 2) * 512 + 1 * q.val = 512 * (t.val % 8) + q.val; omega

/-- The weight block at point `t`, read at `(j, q)`. -/
theorem iblk1_1_apply (c : Dev nD) (t : Fin cfg1.N) (j : Fin 1024) (q : Fin 512) :
    (iblk1 V c 1 t : Vec F S1024x512 .bf16) (ix2 j q) = V c main_v12 (ix2 (colAt1 t.val j) (posAt1 t.val q)) := by
  obtain ⟨-, -, e2, e3, -⟩ := idx_facts1 t
  show V c main_v12 (((cfg1.win 1).blk t).view.emb (ix2 j q)) = V c main_v12 (ix2 (colAt1 t.val j) (posAt1 t.val q))
  congr 1
  funext a
  apply Fin.ext
  match a with
  | ⟨0, _⟩ => show win1_1.index t (0 : Fin 2) * 1024 + 1 * j.val = 1024 * (t.val / 8 % 4) + j.val; omega
  | ⟨1, _⟩ => show win1_1.index t (1 : Fin 2) * 512 + 1 * q.val = 512 * (t.val % 8) + q.val; omega

/-- The bias block at point `t`, read at `(0, j)`. -/
theorem iblk1_2_apply (c : Dev nD) (t : Fin cfg1.N) (j : Fin 1024) :
    (iblk1 V c 2 t : Vec F S1x1024 .f32) (ix2 (0 : Fin 1) j) = V c main_v13 (ix2 (0 : Fin 1) (colAt1 t.val j)) := by
  obtain ⟨-, -, -, -, e4, e5, -⟩ := idx_facts1 t
  show V c main_v13 (((cfg1.win 2).blk t).view.emb (ix2 (0 : Fin 1) j)) = V c main_v13 (ix2 (0 : Fin 1) (colAt1 t.val j))
  congr 1
  funext a
  apply Fin.ext
  match a with
  | ⟨0, _⟩ => show win1_2.index t (0 : Fin 2) * 1 + 1 * 0 = 0; omega
  | ⟨1, _⟩ => show win1_2.index t (1 : Fin 2) * 1024 + 1 * j.val = 1024 * (t.val / 8 % 4) + j.val; omega

end

end Cert.KernelIdeal.AccValue

end
-- ==== Proof.IAcc1Pieces.lean ====
/-
  Layer 2's kernel: what the body's stores leave, as the body's own arithmetic.

  Each run of the body found the pieces its stores wrote.  Every store here writes a whole buffer and every load
  reads a whole buffer, so a buffer's contents after the body are the last stored value, and a value loaded after a
  store is the stored value.  With `zeros` the reset value, `step acc x w` the accumulator plus the block product and
  `finish acc b` the binarized sum with bias: at k = 0 the accumulator ends at `step zeros x w`, at every other k at
  `step acc x w` of what it held, and at the last k the output block is `finish (step acc x w) b`.
-/
import proofs.«143296_j88201448391445_2_alg».proof.Proof.IAcc1
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

/-- After a point with 0 < k < last the accumulator holds what it held plus the block product. -/
theorem accMid1_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : ¬isLast1 i) (x : Vec F S2048x512 .bf16) (w : Vec F S1024x512 .bf16) (bb : Vec F S1x1024 .f32) (xs : Vec F S2048x1024 .f32) :
    accMid1 c i arg3 harg3 arg4 harg4 arg5 harg5 arg6 harg6 arg7 harg7 hc0 hc1 x w bb xs = k1_pay2 xs x w := by
  unfold accMid1
  rw [View.read_writes_eq_canon _ _ _ (accCoverMid1 c i arg3 harg3 arg4 harg4 arg5 harg5 arg6 harg6 arg7 harg7 hc0 hc1 x w bb xs)]
  unfold runMid1
  dsimp only
  rw [View.canon_unit_zero hz1]
  simp only [View.readAt_eq_ld, harg3.read_unread, harg4.read_unread, harg7.read_unread, View.ld_unit_zero (S := S2048x512) hz1, View.ld_unit_zero (S := S1024x512) hz1, View.ld_unit_zero (S := S2048x1024) hz1]

/-- After a point with k = 0 it holds the zeros plus the block product: the value loaded after the reset is the
    reset value. -/
theorem accFirst1_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst1 i) (hc1 : ¬isLast1 i) (x : Vec F S2048x512 .bf16) (w : Vec F S1024x512 .bf16) (bb : Vec F S1x1024 .f32) :
    accFirst1 c i arg3 harg3 arg4 harg4 arg5 harg5 arg6 harg6 arg7 harg7 hc0 hc1 x w bb = k1_pay2 (k1_pay1 (F := F)) x w := by
  unfold accFirst1
  rw [View.read_writes_eq_canon _ _ _ (accCoverFirst1 c i arg3 harg3 arg4 harg4 arg5 harg5 arg6 harg6 arg7 harg7 hc0 hc1 x w bb)]
  unfold runFirst1
  dsimp only
  sl_unfold_words
  rw [View.canon_cons_unit_zero (S := S2048x1024) hz1, View.readCov_unit_zero (S := S2048x1024) _ hz1]
  simp only [View.readAt_eq_ld, harg3.read_unread, harg4.read_unread, View.ld_unit_zero (S := S2048x512) hz1, View.ld_unit_zero (S := S1024x512) hz1, View.ld_unit_zero (S := S2048x1024) hz1]

/-- After a point with k last the accumulator again holds what it held plus the block product, -/
theorem accLast1_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i) (x : Vec F S2048x512 .bf16) (w : Vec F S1024x512 .bf16) (bb : Vec F S1x1024 .f32) (xs : Vec F S2048x1024 .f32) :
    accLast1 c i arg3 harg3 arg4 harg4 arg5 harg5 arg6 harg6 arg7 harg7 hc0 hc1 x w bb xs = k1_pay2 xs x w := by
  unfold accLast1
  rw [View.read_writes_eq_canon _ _ _ (accCoverLast1 c i arg3 harg3 arg4 harg4 arg5 harg5 arg6 harg6 arg7 harg7 hc0 hc1 x w bb xs)]
  unfold runLast1
  dsimp only
  sl_unfold_words
  rw [View.canon_unit_zero hz1]
  simp only [View.readAt_eq_ld, harg3.read_unread, harg4.read_unread, harg7.read_unread, View.ld_unit_zero (S := S2048x512) hz1, View.ld_unit_zero (S := S1024x512) hz1, View.ld_unit_zero (S := S2048x1024) hz1]

/-- and the output block holds the binarized sum, with bias, of that final accumulator. -/
theorem outLast1_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst1 i) (hc1 : isLast1 i) (x : Vec F S2048x512 .bf16) (w : Vec F S1024x512 .bf16) (bb : Vec F S1x1024 .f32) (xs : Vec F S2048x1024 .f32) :
    outLast1 c i arg3 harg3 arg4 harg4 arg5 harg5 arg6 harg6 arg7 harg7 hc0 hc1 x w bb xs = k1_pay3 (k1_pay2 xs x w) bb := by
  unfold outLast1
  rw [View.read_writes_eq_canon _ _ _ (outCoverLast1 c i arg3 harg3 arg4 harg4 arg5 harg5 arg6 harg6 arg7 harg7 hc0 hc1 x w bb xs)]
  unfold runLast1
  dsimp only
  sl_unfold_words
  rw [View.canon_unit_zero hz1, View.readCov_unit_zero (S := S2048x1024) _ hz1]
  simp only [View.readAt_eq_ld, harg3.read_unread, harg4.read_unread, harg5.read_unread, harg7.read_unread, View.ld_unit_zero (S := S2048x512) hz1, View.ld_unit_zero (S := S1024x512) hz1, View.ld_unit_zero (S := S2048x1024) hz1, View.ld_unit_zero (S := S1x1024) hz1]

end Cert.KernelIdeal.Acc

end
-- ==== Proof.IAcc1Sum.lean ====
/-
  Layer 2's kernel region: the accumulator after each point.

  Over the points of one output block the accumulator is reset at the first k block and gains one block product at
  every k block, so after the point with k block `u` it holds the sum of the block products of k blocks `0 … u`
  (by induction on the point's number, the case of each point read off the body's arithmetic).
-/
import proofs.«143296_j88201448391445_2_alg».proof.Proof.IAcc1Blocks
import proofs.«143296_j88201448391445_2_alg».proof.Proof.IAcc1Pieces
import proofs.«143296_j88201448391445_2_alg».proof.Proof.IPayloads
import proofs.«143296_j88201448391445_2_alg».proof.Proof.LibBlockSum

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

open Cert.KernelIdeal.Payloads

section

variable (V : (c : Dev nD) → (b : Ref sig .tc) → Buf (Elt Ideal) ((c : Thread nD τ).loc b))

/-- The activations as the region finds them: a matrix of 8192 rows and 4096 columns of extended reals. -/
def arrX1 (c : Dev nD) : Mat 8192 4096 := V c main_v6
/-- The binarized weights as the region finds them: 4096 rows and 4096 columns. -/
def arrW1 (c : Dev nD) : Mat 4096 4096 := V c main_v12
/-- The bias as the region finds it: one row of 4096 columns. -/
def arrB1 (c : Dev nD) : Mat 1 4096 := V c main_v13

/-- The block product of point number `n` at `(r, j)`: the activations' row against the weights' row over the
    point's k block. -/
def prodAt1 (c : Dev nD) (r : Fin 2048) (j : Fin 1024) (n : ℕ) : EReal :=
  ∑ q : Fin 512, arrX1 V c (ix2 (rowAt1 n r) (posAt1 n q)) * arrW1 V c (ix2 (colAt1 n j) (posAt1 n q))

/-- Two blocks that read the activations and the weights where point `t`'s windows sit have, as their product at
    `(r, j)`, the block product of the point's number. -/
theorem blocks_prod1 (c : Dev nD) (t : Fin cfg1.N) (r : Fin 2048) (j : Fin 1024) (xb : FVec Ideal S2048x512 .bf16)
    (wb : FVec Ideal S1024x512 .bf16)
    (hx : ∀ q : Fin 512, xb (ix2 r q) = arrX1 V c (ix2 (rowAt1 t.val r) (posAt1 t.val q)))
    (hw : ∀ q : Fin 512, wb (ix2 j q) = arrW1 V c (ix2 (colAt1 t.val j) (posAt1 t.val q))) :
    ∑ q : Fin 512, xb (ix2 r q) * wb (ix2 j q) = prodAt1 V c r j t.val := by
  unfold prodAt1
  exact Finset.sum_congr rfl fun q _ => by rw [hx q, hw q]

/-- After a point with k = 0 the accumulator holds that point's block product. -/
theorem acc_first1 (c : Dev nD) (t : Fin cfg1.N) (h0 : t.val % 8 = 0) (r : Fin 2048) (j : Fin 1024) :
    accAt1 V c t.val t.isLt (ix2 r j) = prodAt1 V c r j t.val := by
  have h1 : ¬t.val % 8 = 7 := by omega
  rw [accAt1_first V c t h0 h1, accFirst1_eq, k1_pay2_apply, k1_pay1_apply, zero_add]
  exact blocks_prod1 V c t r j (iblk1 V c 0 t) (iblk1 V c 1 t) (fun q => iblk1_0_apply V c t r q) (fun q => iblk1_1_apply V c t j q)

/-- After any other point it holds what the point before left plus that point's block product. -/
theorem acc_next1 (c : Dev nD) (t : Fin cfg1.N) (h0 : ¬t.val % 8 = 0) (r : Fin 2048) (j : Fin 1024) :
    accAt1 V c t.val t.isLt (ix2 r j)
      = accAt1 V c (t.val - 1) (Nat.lt_of_le_of_lt (Nat.sub_le _ _) t.isLt) (ix2 r j) + prodAt1 V c r j t.val := by
  by_cases h1 : t.val % 8 = 7
  · rw [accAt1_last V c t h0 h1, accLast1_eq, k1_pay2_apply]
    exact congrArg (_ + ·) (blocks_prod1 V c t r j (iblk1 V c 0 t) (iblk1 V c 1 t) (fun q => iblk1_0_apply V c t r q) (fun q => iblk1_1_apply V c t j q))
  · rw [accAt1_mid V c t h0 h1, accMid1_eq, k1_pay2_apply]
    exact congrArg (_ + ·) (blocks_prod1 V c t r j (iblk1 V c 0 t) (iblk1 V c 1 t) (fun q => iblk1_0_apply V c t r q) (fun q => iblk1_1_apply V c t j q))

/-- The accumulator after point number `n`: the block products of the k blocks up to the point's own, of the output
    block the point belongs to. -/
theorem acc_sum1 (c : Dev nD) (r : Fin 2048) (j : Fin 1024) : ∀ (n : ℕ) (hn : n < cfg1.N),
    accAt1 V c n hn (ix2 r j) = ∑ u ∈ Finset.range (n % 8 + 1), prodAt1 V c r j (8 * (n / 8) + u) := by
  intro n
  induction n with
  | zero =>
    intro hn
    exact acc_first1 V c ⟨0, hn⟩ rfl r j |>.trans (by simp)
  | succ n ih =>
    intro hn
    by_cases h0 : (n + 1) % 8 = 0
    · have e := acc_first1 V c ⟨n + 1, hn⟩ h0 r j
      have hs : 8 * ((n + 1) / 8) + 0 = n + 1 := by omega
      rw [h0, Finset.sum_range_one, hs]
      exact e
    · have e := acc_next1 V c ⟨n + 1, hn⟩ h0 r j
      have hm : (n + 1) % 8 = n % 8 + 1 := by omega
      have hd : (n + 1) / 8 = n / 8 := by omega
      have hs : 8 * (n / 8) + (n % 8 + 1) = n + 1 := by omega
      rw [hm, hd, Finset.sum_range_succ, ← ih (Nat.lt_of_succ_lt hn), hs]
      exact e

end

end Cert.KernelIdeal.AccValue

end
-- ==== Proof.IAcc1Value.lean ====
/-
  Layer 2's kernel region: the output array after the region is the layer's function of the arrays it read.

  At the last k block of an output block the accumulator holds the eight block products, which together are the inner
  product of the activations' row with the binarized weights' row over the whole contracted axis; the block stored
  there is `pm` of that plus the bias of the column.  The stored block is written back to its place in the output
  array, rows `2048 (t / 32) + r` and columns `1024 (t / 8 % 4) + j`, exactly at those points; and every index of the
  output array lies in the block of one such point, the one of its row block and column block.  So the array ends
  holding, at every index, `pm` of the inner product plus the bias.
-/
import proofs.«143296_j88201448391445_2_alg».proof.Proof.IAcc1Sum
import proofs.«143296_j88201448391445_2_alg».proof.Proof.Gen.KernelIdeal.Points

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

open Cert.KernelIdeal.Payloads

section

variable (V : (c : Dev nD) → (b : Ref sig .tc) → Buf (Elt Ideal) ((c : Thread nD τ).loc b))

/-- The layer at one output element: `pm` of the inner product of the activations' row `R` with the binarized
    weights' row `C`, plus the bias of column `C`. -/
def layerAt1 (c : Dev nD) (R : Fin 8192) (C : Fin 4096) : EReal :=
  pm (inner (arrX1 V c) (arrW1 V c) R C + arrB1 V c (ix2 (0 : Fin 1) C))

/-- The layer as an array of 8192 rows and 4096 columns. -/
def layerArr1 (c : Dev nD) : Mat 8192 4096 := fun p => layerAt1 V c (p 0) (p 1)

/-- The eight block products of an output block are the inner product over the whole contracted axis: the k blocks
    of 512 positions each tile the 4096 positions. -/
theorem prod_total1 (c : Dev nD) (r : Fin 2048) (j : Fin 1024) (n : ℕ) :
    ∑ u ∈ Finset.range 8, prodAt1 V c r j (8 * (n / 8) + u) = inner (arrX1 V c) (arrW1 V c) (rowAt1 n r) (colAt1 n j) := by
  unfold Cert.SignNet.inner
  rw [Finset.sum_range, ← Cert.LibBlockSum.sum_blocks_general 8 512 4096 rfl
    (fun k => arrX1 V c (ix2 (rowAt1 n r) k) * arrW1 V c (ix2 (colAt1 n j) k))]
  refine Finset.sum_congr rfl fun u _ => ?_
  unfold prodAt1
  refine Finset.sum_congr rfl fun q _ => ?_
  have hu := u.isLt
  have hr : rowAt1 (8 * (n / 8) + u.val) r = rowAt1 n r :=
    Fin.ext (by show (2048 * ((8 * (n / 8) + u.val) / 32) + r.val) % 8192 = (2048 * (n / 32) + r.val) % 8192; omega)
  have hc : colAt1 (8 * (n / 8) + u.val) j = colAt1 n j :=
    Fin.ext (by show 1024 * ((8 * (n / 8) + u.val) / 8 % 4) + j.val = 1024 * (n / 8 % 4) + j.val; omega)
  have hp : posAt1 (8 * (n / 8) + u.val) q = (⟨512 * u.val + q.val, by omega⟩ : Fin 4096) :=
    Fin.ext (by show 512 * ((8 * (n / 8) + u.val) % 8) + q.val = 512 * u.val + q.val; omega)
  rw [hr, hc, hp]

/-- The block stored at the last k block, at `(r, j)`: the layer at the block's place in the array. -/
theorem out_apply1 (c : Dev nD) (t : Fin cfg1.N) (h1 : t.val % 8 = 7) (r : Fin 2048) (j : Fin 1024) :
    outAt1 V c t (ix2 r j) = layerAt1 V c (rowAt1 t.val r) (colAt1 t.val j) := by
  have h0 : ¬t.val % 8 = 0 := by omega
  have eacc : accAt1 V c t.val t.isLt
      = k1_pay2 (accAt1 V c (t.val - 1) (Nat.lt_of_le_of_lt (Nat.sub_le _ _) t.isLt)) (iblk1 V c 0 t) (iblk1 V c 1 t) := by
    rw [accAt1_last V c t h0 h1, accLast1_eq]
  rw [outAt1_last V c t h0 h1, outLast1_eq, ← eacc, k1_pay3_apply, acc_sum1 V c r j t.val t.isLt, h1,
    prod_total1 V c r j t.val]
  unfold layerAt1
  exact congrArg (fun b => pm (_ + b)) (iblk1_2_apply V c t j)

/-- Two blocks of 2048 rows and 1024 columns that agree at every `(r, j)` are equal. -/
theorem block_ext1 (f g : FVec Ideal S2048x1024 .bf16)
    (h : ∀ (r : Fin 2048) (j : Fin 1024), f (ix2 r j) = g (ix2 r j)) : f = g :=
  funext fun y => by rw [eq_ix2 y]; exact h _ _

/-- What a point with the last k block writes back is its block of the layer's array. -/
theorem flushed_eq1 (c : Dev nD) (t : Fin cfg1.N) (hf : (cfg1.win 3).flush t = true) :
    (dat1 V c).flushed 3 t = ((cfg1.win 3).blk t).view.read (Elt Ideal) (layerArr1 V c) := by
  have h1 : t.val % 8 = 7 := (flush1_3 t).mp hf
  obtain ⟨-, -, -, -, -, -, e6, e7⟩ := idx_facts1 t
  show (cfg1.win 3).cut (grid1.coords t) ((dat1 V c).after 3 t) = _
  rw [after1_3]
  refine block_ext1 _ _ fun r j => ?_
  show outAt1 V c t (ix2 r j) = layerArr1 V c (((cfg1.win 3).blk t).view.emb (ix2 r j))
  rw [out_apply1 V c t h1 r j]
  have hrow : (((cfg1.win 3).blk t).view.emb (ix2 r j) 0 : Fin 8192) = rowAt1 t.val r := Fin.ext (by
    show win1_3.index t (0 : Fin 2) * 2048 + 1 * r.val = (2048 * (t.val / 32) + r.val) % 8192
    have := lt_N1 t; omega)
  have hcol : (((cfg1.win 3).blk t).view.emb (ix2 r j) 1 : Fin 4096) = colAt1 t.val j := Fin.ext (by
    show win1_3.index t (1 : Fin 2) * 1024 + 1 * j.val = 1024 * (t.val / 8 % 4) + j.val
    omega)
  show layerAt1 V c (rowAt1 t.val r) (colAt1 t.val j)
    = layerAt1 V c (((cfg1.win 3).blk t).view.emb (ix2 r j) 0) (((cfg1.win 3).blk t).view.emb (ix2 r j) 1)
  rw [hrow, hcol]

/-- An index of the output array is in point `t`'s block exactly when each coordinate is in the block's range. -/
theorem mem_blk1 (t : Fin cfg1.N) (i : S8192x4096.Idx) :
    i ∈ ((cfg1.win 3).blk t).view.set ↔ ∀ a : Fin 2, win1_3.index t a * S2048x1024.size a ≤ (i a).val
      ∧ (i a).val < win1_3.index t a * S2048x1024.size a + S2048x1024.size a := by
  show i ∈ ((View.whole main_v14).slice (win1_3.rect t)).set ↔ _
  rw [View.set_slice_whole, Rect.mem_set_unit]
  exact Iff.rfl

/-- Every index of the output array is in the block written back at the last k block of its row block and column
    block. -/
theorem cover1 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  obtain ⟨t, ht⟩ : ∃ t : Fin cfg1.N, t.val = 32 * ((i 0).val / 2048) + 8 * ((i 1).val / 1024) + 7 :=
    ⟨⟨32 * ((i 0).val / 2048) + 8 * ((i 1).val / 1024) + 7, by omega⟩, rfl⟩
  obtain ⟨-, -, -, -, -, -, e6, e7⟩ := idx_facts1 t
  refine ⟨t, (flush1_3 t).mpr (by omega), ?_⟩
  rw [mem_blk1]
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 1024 ≤ (i 1).val ∧ (i 1).val < win1_3.index t (1 : Fin 2) * 1024 + 1024
    omega

/-- After the region the output array holds the layer's function of the activations, the binarized weights and the
    bias as the region found them. -/
theorem region1_array (c : Dev nD) : (dat1 V c).arrAt 3 cfg1.N = layerArr1 V c :=
  (dat1 V c).arrAt_eq_of_cover 3 (layerArr1 V c) (flushed_eq1 V c) cover1

end

end Cert.KernelIdeal.AccValue

end
-- ==== Proof.IAcc2Blocks.lean ====
/-
  Layer 3's kernel region: where each window's block sits in its array.

  The grid's points are numbered with the k block innermost: point number `t` is row block `t / 32`, column block
  `t / 8 % 4` and k block `t % 8`.  The activation window's block at `t` is rows `2048 (t / 32) + r` and columns
  `512 (t % 8) + q` of the activations; the weight window's block is rows `1024 (t / 8 % 4) + j` and columns
  `512 (t % 8) + q` of the weights; the bias window's block is columns `1024 (t / 8 % 4) + j` of the one bias row;
  the output window's block is rows `2048 (t / 32) + r` and columns `1024 (t / 8 % 4) + j` of the output.
-/
import proofs.«143296_j88201448391445_2_alg».proof.Proof.IAcc2
import proofs.«143296_j88201448391445_2_alg».proof.Proof.SignNet
import Idealize.ShloMosaic.Lib.ValueIdx
import Idealize.ShloMosaic.Lib.Pipeline.Value

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

variable {F : FTy → Type} [FloatOps F]

/-- The windows' block indices at point number `t`, decided once over the grid's 128 points. -/
theorem idx_facts2 : ∀ t : Fin cfg2.N,
    win2_0.index t (0 : Fin 2) = t.val / 32 ∧ win2_0.index t (1 : Fin 2) = t.val % 8
    ∧ win2_1.index t (0 : Fin 2) = t.val / 8 % 4 ∧ win2_1.index t (1 : Fin 2) = t.val % 8
    ∧ win2_2.index t (0 : Fin 2) = 0 ∧ win2_2.index t (1 : Fin 2) = t.val / 8 % 4
    ∧ win2_3.index t (0 : Fin 2) = t.val / 32 ∧ win2_3.index t (1 : Fin 2) = t.val / 8 % 4 :=
  (by decide +kernel : ∀ t : Fin grid2.N, _)

/-- A point's number is below 128. -/
theorem lt_N2 (t : Fin cfg2.N) : t.val < 128 := by
  have h := t.isLt
  have hN : cfg2.N = 128 := N_2
  omega

/-- Row `r` of the row block of point number `n`, in the activations and in the output (kept below the extent for
    every number, so that it is defined off the grid too; on the grid the remainder changes nothing). -/
def rowAt2 (n : ℕ) (r : Fin 2048) : Fin 8192 := ⟨(2048 * (n / 32) + r.val) % 8192, Nat.mod_lt _ (by decide)⟩
/-- Column `j` of the column block of point number `n`: a row of the weights, a column of the bias and of the output. -/
def colAt2 (n : ℕ) (j : Fin 1024) : Fin 4096 := ⟨1024 * (n / 8 % 4) + j.val, by omega⟩
/-- Position `q` of the k block of point number `n` along the contracted axis. -/
def posAt2 (n : ℕ) (q : Fin 512) : Fin 4096 := ⟨512 * (n % 8) + q.val, by omega⟩

section

variable (V : (c : Dev nD) → (b : Ref sig .tc) → Buf (Elt F) ((c : Thread nD τ).loc b))

/-- The activation block at point `t`, read at `(r, q)`. -/
theorem iblk2_0_apply (c : Dev nD) (t : Fin cfg2.N) (r : Fin 2048) (q : Fin 512) :
    (iblk2 V c 0 t : Vec F S2048x512 .bf16) (ix2 r q) = V c main_v14 (ix2 (rowAt2 t.val r) (posAt2 t.val q)) := by
  obtain ⟨e0, e1, -⟩ := idx_facts2 t
  show V c main_v14 (((cfg2.win 0).blk t).view.emb (ix2 r q)) = V c main_v14 (ix2 (rowAt2 t.val r) (posAt2 t.val q))
  congr 1
  funext a
  apply Fin.ext
  match a with
  | ⟨0, _⟩ => show win2_0.index t (0 : Fin 2) * 2048 + 1 * r.val = (2048 * (t.val / 32) + r.val) % 8192; have := lt_N2 t; omega
  | ⟨1, _⟩ => show win2_0.index t (1 : Fin 2) * 512 + 1 * q.val = 512 * (t.val % 8) + q.val; omega

/-- The weight block at point `t`, read at `(j, q)`. -/
theorem iblk2_1_apply (c : Dev nD) (t : Fin cfg2.N) (j : Fin 1024) (q : Fin 512) :
    (iblk2 V c 1 t : Vec F S1024x512 .bf16) (ix2 j q) = V c main_v20 (ix2 (colAt2 t.val j) (posAt2 t.val q)) := by
  obtain ⟨-, -, e2, e3, -⟩ := idx_facts2 t
  show V c main_v20 (((cfg2.win 1).blk t).view.emb (ix2 j q)) = V c main_v20 (ix2 (colAt2 t.val j) (posAt2 t.val q))
  congr 1
  funext a
  apply Fin.ext
  match a with
  | ⟨0, _⟩ => show win2_1.index t (0 : Fin 2) * 1024 + 1 * j.val = 1024 * (t.val / 8 % 4) + j.val; omega
  | ⟨1, _⟩ => show win2_1.index t (1 : Fin 2) * 512 + 1 * q.val = 512 * (t.val % 8) + q.val; omega

/-- The bias block at point `t`, read at `(0, j)`. -/
theorem iblk2_2_apply (c : Dev nD) (t : Fin cfg2.N) (j : Fin 1024) :
    (iblk2 V c 2 t : Vec F S1x1024 .f32) (ix2 (0 : Fin 1) j) = V c main_v21 (ix2 (0 : Fin 1) (colAt2 t.val j)) := by
  obtain ⟨-, -, -, -, e4, e5, -⟩ := idx_facts2 t
  show V c main_v21 (((cfg2.win 2).blk t).view.emb (ix2 (0 : Fin 1) j)) = V c main_v21 (ix2 (0 : Fin 1) (colAt2 t.val j))
  congr 1
  funext a
  apply Fin.ext
  match a with
  | ⟨0, _⟩ => show win2_2.index t (0 : Fin 2) * 1 + 1 * 0 = 0; omega
  | ⟨1, _⟩ => show win2_2.index t (1 : Fin 2) * 1024 + 1 * j.val = 1024 * (t.val / 8 % 4) + j.val; omega

end

end Cert.KernelIdeal.AccValue

end
-- ==== Proof.IAcc2Pieces.lean ====
/-
  Layer 3's kernel: what the body's stores leave, as the body's own arithmetic.

  Each run of the body found the pieces its stores wrote.  Every store here writes a whole buffer and every load
  reads a whole buffer, so a buffer's contents after the body are the last stored value, and a value loaded after a
  store is the stored value.  With `zeros` the reset value, `step acc x w` the accumulator plus the block product and
  `finish acc b` the binarized sum with bias: at k = 0 the accumulator ends at `step zeros x w`, at every other k at
  `step acc x w` of what it held, and at the last k the output block is `finish (step acc x w) b`.
-/
import proofs.«143296_j88201448391445_2_alg».proof.Proof.IAcc2
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- After a point with 0 < k < last the accumulator holds what it held plus the block product. -/
theorem accMid2_eq (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : ¬isLast2 i) (x : Vec F S2048x512 .bf16) (w : Vec F S1024x512 .bf16) (bb : Vec F S1x1024 .f32) (xs : Vec F S2048x1024 .f32) :
    accMid2 c i arg3 harg3 arg4 harg4 arg5 harg5 arg6 harg6 arg7 harg7 hc0 hc1 x w bb xs = k2_pay2 xs x w := by
  unfold accMid2
  rw [View.read_writes_eq_canon _ _ _ (accCoverMid2 c i arg3 harg3 arg4 harg4 arg5 harg5 arg6 harg6 arg7 harg7 hc0 hc1 x w bb xs)]
  unfold runMid2
  dsimp only
  rw [View.canon_unit_zero hz2]
  simp only [View.readAt_eq_ld, harg3.read_unread, harg4.read_unread, harg7.read_unread, View.ld_unit_zero (S := S2048x512) hz2, View.ld_unit_zero (S := S1024x512) hz2, View.ld_unit_zero (S := S2048x1024) hz2]

/-- After a point with k = 0 it holds the zeros plus the block product: the value loaded after the reset is the
    reset value. -/
theorem accFirst2_eq (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : isFirst2 i) (hc1 : ¬isLast2 i) (x : Vec F S2048x512 .bf16) (w : Vec F S1024x512 .bf16) (bb : Vec F S1x1024 .f32) :
    accFirst2 c i arg3 harg3 arg4 harg4 arg5 harg5 arg6 harg6 arg7 harg7 hc0 hc1 x w bb = k2_pay2 (k2_pay1 (F := F)) x w := by
  unfold accFirst2
  rw [View.read_writes_eq_canon _ _ _ (accCoverFirst2 c i arg3 harg3 arg4 harg4 arg5 harg5 arg6 harg6 arg7 harg7 hc0 hc1 x w bb)]
  unfold runFirst2
  dsimp only
  sl_unfold_words
  rw [View.canon_cons_unit_zero (S := S2048x1024) hz2, View.readCov_unit_zero (S := S2048x1024) _ hz2]
  simp only [View.readAt_eq_ld, harg3.read_unread, harg4.read_unread, View.ld_unit_zero (S := S2048x512) hz2, View.ld_unit_zero (S := S1024x512) hz2, View.ld_unit_zero (S := S2048x1024) hz2]

/-- After a point with k last the accumulator again holds what it held plus the block product, -/
theorem accLast2_eq (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i) (x : Vec F S2048x512 .bf16) (w : Vec F S1024x512 .bf16) (bb : Vec F S1x1024 .f32) (xs : Vec F S2048x1024 .f32) :
    accLast2 c i arg3 harg3 arg4 harg4 arg5 harg5 arg6 harg6 arg7 harg7 hc0 hc1 x w bb xs = k2_pay2 xs x w := by
  unfold accLast2
  rw [View.read_writes_eq_canon _ _ _ (accCoverLast2 c i arg3 harg3 arg4 harg4 arg5 harg5 arg6 harg6 arg7 harg7 hc0 hc1 x w bb xs)]
  unfold runLast2
  dsimp only
  sl_unfold_words
  rw [View.canon_unit_zero hz2]
  simp only [View.readAt_eq_ld, harg3.read_unread, harg4.read_unread, harg7.read_unread, View.ld_unit_zero (S := S2048x512) hz2, View.ld_unit_zero (S := S1024x512) hz2, View.ld_unit_zero (S := S2048x1024) hz2]

/-- and the output block holds the binarized sum, with bias, of that final accumulator. -/
theorem outLast2_eq (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬isFirst2 i) (hc1 : isLast2 i) (x : Vec F S2048x512 .bf16) (w : Vec F S1024x512 .bf16) (bb : Vec F S1x1024 .f32) (xs : Vec F S2048x1024 .f32) :
    outLast2 c i arg3 harg3 arg4 harg4 arg5 harg5 arg6 harg6 arg7 harg7 hc0 hc1 x w bb xs = k2_pay3 (k2_pay2 xs x w) bb := by
  unfold outLast2
  rw [View.read_writes_eq_canon _ _ _ (outCoverLast2 c i arg3 harg3 arg4 harg4 arg5 harg5 arg6 harg6 arg7 harg7 hc0 hc1 x w bb xs)]
  unfold runLast2
  dsimp only
  sl_unfold_words
  rw [View.canon_unit_zero hz2, View.readCov_unit_zero (S := S2048x1024) _ hz2]
  simp only [View.readAt_eq_ld, harg3.read_unread, harg4.read_unread, harg5.read_unread, harg7.read_unread, View.ld_unit_zero (S := S2048x512) hz2, View.ld_unit_zero (S := S1024x512) hz2, View.ld_unit_zero (S := S2048x1024) hz2, View.ld_unit_zero (S := S1x1024) hz2]

end Cert.KernelIdeal.Acc

end
-- ==== Proof.IAcc2Sum.lean ====
/-
  Layer 3's kernel region: the accumulator after each point.

  Over the points of one output block the accumulator is reset at the first k block and gains one block product at
  every k block, so after the point with k block `u` it holds the sum of the block products of k blocks `0 … u`
  (by induction on the point's number, the case of each point read off the body's arithmetic).
-/
import proofs.«143296_j88201448391445_2_alg».proof.Proof.IAcc2Blocks
import proofs.«143296_j88201448391445_2_alg».proof.Proof.IAcc2Pieces
import proofs.«143296_j88201448391445_2_alg».proof.Proof.IPayloads
import proofs.«143296_j88201448391445_2_alg».proof.Proof.LibBlockSum

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

open Cert.KernelIdeal.Payloads

section

variable (V : (c : Dev nD) → (b : Ref sig .tc) → Buf (Elt Ideal) ((c : Thread nD τ).loc b))

/-- The activations as the region finds them: a matrix of 8192 rows and 4096 columns of extended reals. -/
def arrX2 (c : Dev nD) : Mat 8192 4096 := V c main_v14
/-- The binarized weights as the region finds them: 4096 rows and 4096 columns. -/
def arrW2 (c : Dev nD) : Mat 4096 4096 := V c main_v20
/-- The bias as the region finds it: one row of 4096 columns. -/
def arrB2 (c : Dev nD) : Mat 1 4096 := V c main_v21

/-- The block product of point number `n` at `(r, j)`: the activations' row against the weights' row over the
    point's k block. -/
def prodAt2 (c : Dev nD) (r : Fin 2048) (j : Fin 1024) (n : ℕ) : EReal :=
  ∑ q : Fin 512, arrX2 V c (ix2 (rowAt2 n r) (posAt2 n q)) * arrW2 V c (ix2 (colAt2 n j) (posAt2 n q))

/-- Two blocks that read the activations and the weights where point `t`'s windows sit have, as their product at
    `(r, j)`, the block product of the point's number. -/
theorem blocks_prod2 (c : Dev nD) (t : Fin cfg2.N) (r : Fin 2048) (j : Fin 1024) (xb : FVec Ideal S2048x512 .bf16)
    (wb : FVec Ideal S1024x512 .bf16)
    (hx : ∀ q : Fin 512, xb (ix2 r q) = arrX2 V c (ix2 (rowAt2 t.val r) (posAt2 t.val q)))
    (hw : ∀ q : Fin 512, wb (ix2 j q) = arrW2 V c (ix2 (colAt2 t.val j) (posAt2 t.val q))) :
    ∑ q : Fin 512, xb (ix2 r q) * wb (ix2 j q) = prodAt2 V c r j t.val := by
  unfold prodAt2
  exact Finset.sum_congr rfl fun q _ => by rw [hx q, hw q]

/-- After a point with k = 0 the accumulator holds that point's block product. -/
theorem acc_first2 (c : Dev nD) (t : Fin cfg2.N) (h0 : t.val % 8 = 0) (r : Fin 2048) (j : Fin 1024) :
    accAt2 V c t.val t.isLt (ix2 r j) = prodAt2 V c r j t.val := by
  have h1 : ¬t.val % 8 = 7 := by omega
  rw [accAt2_first V c t h0 h1, accFirst2_eq, k2_pay2_apply, k2_pay1_apply, zero_add]
  exact blocks_prod2 V c t r j (iblk2 V c 0 t) (iblk2 V c 1 t) (fun q => iblk2_0_apply V c t r q) (fun q => iblk2_1_apply V c t j q)

/-- After any other point it holds what the point before left plus that point's block product. -/
theorem acc_next2 (c : Dev nD) (t : Fin cfg2.N) (h0 : ¬t.val % 8 = 0) (r : Fin 2048) (j : Fin 1024) :
    accAt2 V c t.val t.isLt (ix2 r j)
      = accAt2 V c (t.val - 1) (Nat.lt_of_le_of_lt (Nat.sub_le _ _) t.isLt) (ix2 r j) + prodAt2 V c r j t.val := by
  by_cases h1 : t.val % 8 = 7
  · rw [accAt2_last V c t h0 h1, accLast2_eq, k2_pay2_apply]
    exact congrArg (_ + ·) (blocks_prod2 V c t r j (iblk2 V c 0 t) (iblk2 V c 1 t) (fun q => iblk2_0_apply V c t r q) (fun q => iblk2_1_apply V c t j q))
  · rw [accAt2_mid V c t h0 h1, accMid2_eq, k2_pay2_apply]
    exact congrArg (_ + ·) (blocks_prod2 V c t r j (iblk2 V c 0 t) (iblk2 V c 1 t) (fun q => iblk2_0_apply V c t r q) (fun q => iblk2_1_apply V c t j q))

/-- The accumulator after point number `n`: the block products of the k blocks up to the point's own, of the output
    block the point belongs to. -/
theorem acc_sum2 (c : Dev nD) (r : Fin 2048) (j : Fin 1024) : ∀ (n : ℕ) (hn : n < cfg2.N),
    accAt2 V c n hn (ix2 r j) = ∑ u ∈ Finset.range (n % 8 + 1), prodAt2 V c r j (8 * (n / 8) + u) := by
  intro n
  induction n with
  | zero =>
    intro hn
    exact acc_first2 V c ⟨0, hn⟩ rfl r j |>.trans (by simp)
  | succ n ih =>
    intro hn
    by_cases h0 : (n + 1) % 8 = 0
    · have e := acc_first2 V c ⟨n + 1, hn⟩ h0 r j
      have hs : 8 * ((n + 1) / 8) + 0 = n + 1 := by omega
      rw [h0, Finset.sum_range_one, hs]
      exact e
    · have e := acc_next2 V c ⟨n + 1, hn⟩ h0 r j
      have hm : (n + 1) % 8 = n % 8 + 1 := by omega
      have hd : (n + 1) / 8 = n / 8 := by omega
      have hs : 8 * (n / 8) + (n % 8 + 1) = n + 1 := by omega
      rw [hm, hd, Finset.sum_range_succ, ← ih (Nat.lt_of_succ_lt hn), hs]
      exact e

end

end Cert.KernelIdeal.AccValue

end
-- ==== Proof.IAcc2Value.lean ====
/-
  Layer 3's kernel region: the output array after the region is the layer's function of the arrays it read.

  At the last k block of an output block the accumulator holds the eight block products, which together are the inner
  product of the activations' row with the binarized weights' row over the whole contracted axis; the block stored
  there is `pm` of that plus the bias of the column.  The stored block is written back to its place in the output
  array, rows `2048 (t / 32) + r` and columns `1024 (t / 8 % 4) + j`, exactly at those points; and every index of the
  output array lies in the block of one such point, the one of its row block and column block.  So the array ends
  holding, at every index, `pm` of the inner product plus the bias.
-/
import proofs.«143296_j88201448391445_2_alg».proof.Proof.IAcc2Sum
import proofs.«143296_j88201448391445_2_alg».proof.Proof.Gen.KernelIdeal.Points

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

open Cert.KernelIdeal.Payloads

section

variable (V : (c : Dev nD) → (b : Ref sig .tc) → Buf (Elt Ideal) ((c : Thread nD τ).loc b))

/-- The layer at one output element: `pm` of the inner product of the activations' row `R` with the binarized
    weights' row `C`, plus the bias of column `C`. -/
def layerAt2 (c : Dev nD) (R : Fin 8192) (C : Fin 4096) : EReal :=
  pm (inner (arrX2 V c) (arrW2 V c) R C + arrB2 V c (ix2 (0 : Fin 1) C))

/-- The layer as an array of 8192 rows and 4096 columns. -/
def layerArr2 (c : Dev nD) : Mat 8192 4096 := fun p => layerAt2 V c (p 0) (p 1)

/-- The eight block products of an output block are the inner product over the whole contracted axis: the k blocks
    of 512 positions each tile the 4096 positions. -/
theorem prod_total2 (c : Dev nD) (r : Fin 2048) (j : Fin 1024) (n : ℕ) :
    ∑ u ∈ Finset.range 8, prodAt2 V c r j (8 * (n / 8) + u) = inner (arrX2 V c) (arrW2 V c) (rowAt2 n r) (colAt2 n j) := by
  unfold Cert.SignNet.inner
  rw [Finset.sum_range, ← Cert.LibBlockSum.sum_blocks_general 8 512 4096 rfl
    (fun k => arrX2 V c (ix2 (rowAt2 n r) k) * arrW2 V c (ix2 (colAt2 n j) k))]
  refine Finset.sum_congr rfl fun u _ => ?_
  unfold prodAt2
  refine Finset.sum_congr rfl fun q _ => ?_
  have hu := u.isLt
  have hr : rowAt2 (8 * (n / 8) + u.val) r = rowAt2 n r :=
    Fin.ext (by show (2048 * ((8 * (n / 8) + u.val) / 32) + r.val) % 8192 = (2048 * (n / 32) + r.val) % 8192; omega)
  have hc : colAt2 (8 * (n / 8) + u.val) j = colAt2 n j :=
    Fin.ext (by show 1024 * ((8 * (n / 8) + u.val) / 8 % 4) + j.val = 1024 * (n / 8 % 4) + j.val; omega)
  have hp : posAt2 (8 * (n / 8) + u.val) q = (⟨512 * u.val + q.val, by omega⟩ : Fin 4096) :=
    Fin.ext (by show 512 * ((8 * (n / 8) + u.val) % 8) + q.val = 512 * u.val + q.val; omega)
  rw [hr, hc, hp]

/-- The block stored at the last k block, at `(r, j)`: the layer at the block's place in the array. -/
theorem out_apply2 (c : Dev nD) (t : Fin cfg2.N) (h1 : t.val % 8 = 7) (r : Fin 2048) (j : Fin 1024) :
    outAt2 V c t (ix2 r j) = layerAt2 V c (rowAt2 t.val r) (colAt2 t.val j) := by
  have h0 : ¬t.val % 8 = 0 := by omega
  have eacc : accAt2 V c t.val t.isLt
      = k2_pay2 (accAt2 V c (t.val - 1) (Nat.lt_of_le_of_lt (Nat.sub_le _ _) t.isLt)) (iblk2 V c 0 t) (iblk2 V c 1 t) := by
    rw [accAt2_last V c t h0 h1, accLast2_eq]
  rw [outAt2_last V c t h0 h1, outLast2_eq, ← eacc, k2_pay3_apply, acc_sum2 V c r j t.val t.isLt, h1,
    prod_total2 V c r j t.val]
  unfold layerAt2
  exact congrArg (fun b => pm (_ + b)) (iblk2_2_apply V c t j)

/-- Two blocks of 2048 rows and 1024 columns that agree at every `(r, j)` are equal. -/
theorem block_ext2 (f g : FVec Ideal S2048x1024 .bf16)
    (h : ∀ (r : Fin 2048) (j : Fin 1024), f (ix2 r j) = g (ix2 r j)) : f = g :=
  funext fun y => by rw [eq_ix2 y]; exact h _ _

/-- What a point with the last k block writes back is its block of the layer's array. -/
theorem flushed_eq2 (c : Dev nD) (t : Fin cfg2.N) (hf : (cfg2.win 3).flush t = true) :
    (dat2 V c).flushed 3 t = ((cfg2.win 3).blk t).view.read (Elt Ideal) (layerArr2 V c) := by
  have h1 : t.val % 8 = 7 := (flush2_3 t).mp hf
  obtain ⟨-, -, -, -, -, -, e6, e7⟩ := idx_facts2 t
  show (cfg2.win 3).cut (grid2.coords t) ((dat2 V c).after 3 t) = _
  rw [after2_3]
  refine block_ext2 _ _ fun r j => ?_
  show outAt2 V c t (ix2 r j) = layerArr2 V c (((cfg2.win 3).blk t).view.emb (ix2 r j))
  rw [out_apply2 V c t h1 r j]
  have hrow : (((cfg2.win 3).blk t).view.emb (ix2 r j) 0 : Fin 8192) = rowAt2 t.val r := Fin.ext (by
    show win2_3.index t (0 : Fin 2) * 2048 + 1 * r.val = (2048 * (t.val / 32) + r.val) % 8192
    have := lt_N2 t; omega)
  have hcol : (((cfg2.win 3).blk t).view.emb (ix2 r j) 1 : Fin 4096) = colAt2 t.val j := Fin.ext (by
    show win2_3.index t (1 : Fin 2) * 1024 + 1 * j.val = 1024 * (t.val / 8 % 4) + j.val
    omega)
  show layerAt2 V c (rowAt2 t.val r) (colAt2 t.val j)
    = layerAt2 V c (((cfg2.win 3).blk t).view.emb (ix2 r j) 0) (((cfg2.win 3).blk t).view.emb (ix2 r j) 1)
  rw [hrow, hcol]

/-- An index of the output array is in point `t`'s block exactly when each coordinate is in the block's range. -/
theorem mem_blk2 (t : Fin cfg2.N) (i : S8192x4096.Idx) :
    i ∈ ((cfg2.win 3).blk t).view.set ↔ ∀ a : Fin 2, win2_3.index t a * S2048x1024.size a ≤ (i a).val
      ∧ (i a).val < win2_3.index t a * S2048x1024.size a + S2048x1024.size a := by
  show i ∈ ((View.whole main_v22).slice (win2_3.rect t)).set ↔ _
  rw [View.set_slice_whole, Rect.mem_set_unit]
  exact Iff.rfl

/-- Every index of the output array is in the block written back at the last k block of its row block and column
    block. -/
theorem cover2 (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  have hN : cfg2.N = 128 := N_2
  obtain ⟨t, ht⟩ : ∃ t : Fin cfg2.N, t.val = 32 * ((i 0).val / 2048) + 8 * ((i 1).val / 1024) + 7 :=
    ⟨⟨32 * ((i 0).val / 2048) + 8 * ((i 1).val / 1024) + 7, by omega⟩, rfl⟩
  obtain ⟨-, -, -, -, -, -, e6, e7⟩ := idx_facts2 t
  refine ⟨t, (flush2_3 t).mpr (by omega), ?_⟩
  rw [mem_blk2]
  intro a
  match a with
  | ⟨0, _⟩ =>
    show win2_3.index t (0 : Fin 2) * 2048 ≤ (i 0).val ∧ (i 0).val < win2_3.index t (0 : Fin 2) * 2048 + 2048
    omega
  | ⟨1, _⟩ =>
    show win2_3.index t (1 : Fin 2) * 1024 ≤ (i 1).val ∧ (i 1).val < win2_3.index t (1 : Fin 2) * 1024 + 1024
    omega

/-- After the region the output array holds the layer's function of the activations, the binarized weights and the
    bias as the region found them. -/
theorem region2_array (c : Dev nD) : (dat2 V c).arrAt 3 cfg2.N = layerArr2 V c :=
  (dat2 V c).arrAt_eq_of_cover 3 (layerArr2 V c) (flushed_eq2 V c) cover2

end

end Cert.KernelIdeal.AccValue

end
-- ==== Proof.IAcc3Blocks.lean ====
/-
  Layer 4's kernel region: where each window's block sits in its array.

  The grid's points are numbered with the k block innermost: point number `t` is row block `t / 32`, column block
  `t / 8 % 4` and k block `t % 8`.  The activation window's block at `t` is rows `2048 (t / 32) + r` and columns
  `512 (t % 8) + q` of the activations; the weight window's block is rows `1024 (t / 8 % 4) + j` and columns
  `512 (t % 8) + q` of the weights; the bias window's block is columns `1024 (t / 8 % 4) + j` of the one bias row;
  the output window's block is rows `2048 (t / 32) + r` and columns `1024 (t / 8 % 4) + j` of the output.
-/
import proofs.«143296_j88201448391445_2_alg».proof.Proof.IAcc3
import proofs.«143296_j88201448391445_2_alg».proof.Proof.SignNet
import Idealize.ShloMosaic.Lib.ValueIdx
import Idealize.ShloMosaic.Lib.Pipeline.Value

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

variable {F : FTy → Type} [FloatOps F]

/-- The windows' block indices at point number `t`, decided once over the grid's 128 points. -/
theorem idx_facts3 : ∀ t : Fin cfg3.N,
    win3_0.index t (0 : Fin 2) = t.val / 32 ∧ win3_0.index t (1 : Fin 2) = t.val % 8
    ∧ win3_1.index t (0 : Fin 2) = t.val / 8 % 4 ∧ win3_1.index t (1 : Fin 2) = t.val % 8
    ∧ win3_2.index t (0 : Fin 2) = 0 ∧ win3_2.index t (1 : Fin 2) = t.val / 8 % 4
    ∧ win3_3.index t (0 : Fin 2) = t.val / 32 ∧ win3_3.index t (1 : Fin 2) = t.val / 8 % 4 :=
  (by decide +kernel : ∀ t : Fin grid3.N, _)

/-- A point's number is below 128. -/
theorem lt_N3 (t : Fin cfg3.N) : t.val < 128 := by
  have h := t.isLt
  have hN : cfg3.N = 128 := N_3
  omega

/-- Row `r` of the row block of point number `n`, in the activations and in the output (kept below the extent for
    every number, so that it is defined off the grid too; on the grid the remainder changes nothing). -/
def rowAt3 (n : ℕ) (r : Fin 2048) : Fin 8192 := ⟨(2048 * (n / 32) + r.val) % 8192, Nat.mod_lt _ (by decide)⟩
/-- Column `j` of the column block of point number `n`: a row of the weights, a column of the bias and of the output. -/
def colAt3 (n : ℕ) (j : Fin 1024) : Fin 4096 := ⟨1024 * (n / 8 % 4) + j.val, by omega⟩
/-- Position `q` of the k block of point number `n` along the contracted axis. -/
def posAt3 (n : ℕ) (q : Fin 512) : Fin 4096 := ⟨512 * (n % 8) + q.val, by omega⟩

section

variable (V : (c : Dev nD) → (b : Ref sig .tc) → Buf (Elt F) ((c : Thread nD τ).loc b))

/-- The activation block at point `t`, read at `(r, q)`. -/
theorem iblk3_0_apply (c : Dev nD) (t : Fin cfg3.N) (r : Fin 2048) (q : Fin 512) :
    (iblk3 V c 0 t : Vec F S2048x512 .bf16) (ix2 r q) = V c main_v22 (ix2 (rowAt3 t.val r) (posAt3 t.val q)) := by
  obtain ⟨e0, e1, -⟩ := idx_facts3 t
  show V c main_v22 (((cfg3.win 0).blk t).view.emb (ix2 r q)) = V c main_v22 (ix2 (rowAt3 t.val r) (posAt3 t.val q))
  congr 1
  funext a
  apply Fin.ext
  match a with
  | ⟨0, _⟩ => show win3_0.index t (0 : Fin 2) * 2048 + 1 * r.val = (2048 * (t.val / 32) + r.val) % 8192; have := lt_N3 t; omega
  | ⟨1, _⟩ => show win3_0.index t (1 : Fin 2) * 512 + 1 * q.val = 512 * (t.val % 8) + q.val; omega

/-- The weight block at point `t`, read at `(j, q)`. -/
theorem iblk3_1_apply (c : Dev nD) (t : Fin cfg3.N) (j : Fin 1024) (q : Fin 512) :
    (iblk3 V c 1 t : Vec F S1024x512 .bf16) (ix2 j q) = V c main_v28 (ix2 (colAt3 t.val j) (posAt3 t.val q)) := by
  obtain ⟨-, -, e2, e3, -⟩ := idx_facts3 t
  show V c main_v28 (((cfg3.win 1).blk t).view.emb (ix2 j q)) = V c main_v28 (ix2 (colAt3 t.val j) (posAt3 t.val q))
  congr 1
  funext a
  apply Fin.ext
  match a with
  | ⟨0, _⟩ => show win3_1.index t (0 : Fin 2) * 1024 + 1 * j.val = 1024 * (t.val / 8 % 4) + j.val; omega
  | ⟨1, _⟩ => show win3_1.index t (1 : Fin 2) * 512 + 1 * q.val = 512 * (t.val % 8) + q.val; omega

/-- The bias block at point `t`, read at `(0, j)`. -/
theorem iblk3_2_apply (c : Dev nD) (t : Fin cfg3.N) (j : Fin 1024) :
    (iblk3 V c 2 t : Vec F S1x1024 .f32) (ix2 (0 : Fin 1) j) = V c main_v29 (ix2 (0 : Fin 1) (colAt3 t.val j)) := by
  obtain ⟨-, -, -, -, e4, e5, -⟩ := idx_facts3 t
  show V c main_v29 (((cfg3.win 2).blk t).view.emb (ix2 (0 : Fin 1) j)) = V c main_v29 (ix2 (0 : Fin 1) (colAt3 t.val j))
  congr 1
  funext a
  apply Fin.ext
  match a with
  | ⟨0, _⟩ => show win3_2.index t (0 : Fin 2) * 1 + 1 * 0 = 0; omega
  | ⟨1, _⟩ => show win3_2.index t (1 : Fin 2) * 1024 + 1 * j.val = 1024 * (t.val / 8 % 4) + j.val; omega

end

end Cert.KernelIdeal.AccValue

end
-- ==== Proof.IAcc3Pieces.lean ====
/-
  Layer 4's kernel: what the body's stores leave, as the body's own arithmetic.

  Each run of the body found the pieces its stores wrote.  Every store here writes a whole buffer and every load
  reads a whole buffer, so a buffer's contents after the body are the last stored value, and a value loaded after a
  store is the stored value.  With `zeros` the reset value, `step acc x w` the accumulator plus the block product and
  `finish acc b` the binarized sum with bias: at k = 0 the accumulator ends at `step zeros x w`, at every other k at
  `step acc x w` of what it held, and at the last k the output block is `finish (step acc x w) b`.
-/
import proofs.«143296_j88201448391445_2_alg».proof.Proof.IAcc3
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

/-- After a point with 0 < k < last the accumulator holds what it held plus the block product. -/
theorem accMid3_eq (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : ¬isLast3 i) (x : Vec F S2048x512 .bf16) (w : Vec F S1024x512 .bf16) (bb : Vec F S1x1024 .f32) (xs : Vec F S2048x1024 .f32) :
    accMid3 c i arg3 harg3 arg4 harg4 arg5 harg5 arg6 harg6 arg7 harg7 hc0 hc1 x w bb xs = k3_pay2 xs x w := by
  unfold accMid3
  rw [View.read_writes_eq_canon _ _ _ (accCoverMid3 c i arg3 harg3 arg4 harg4 arg5 harg5 arg6 harg6 arg7 harg7 hc0 hc1 x w bb xs)]
  unfold runMid3
  dsimp only
  rw [View.canon_unit_zero hz3]
  simp only [View.readAt_eq_ld, harg3.read_unread, harg4.read_unread, harg7.read_unread, View.ld_unit_zero (S := S2048x512) hz3, View.ld_unit_zero (S := S1024x512) hz3, View.ld_unit_zero (S := S2048x1024) hz3]

/-- After a point with k = 0 it holds the zeros plus the block product: the value loaded after the reset is the
    reset value. -/
theorem accFirst3_eq (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : isFirst3 i) (hc1 : ¬isLast3 i) (x : Vec F S2048x512 .bf16) (w : Vec F S1024x512 .bf16) (bb : Vec F S1x1024 .f32) :
    accFirst3 c i arg3 harg3 arg4 harg4 arg5 harg5 arg6 harg6 arg7 harg7 hc0 hc1 x w bb = k3_pay2 (k3_pay1 (F := F)) x w := by
  unfold accFirst3
  rw [View.read_writes_eq_canon _ _ _ (accCoverFirst3 c i arg3 harg3 arg4 harg4 arg5 harg5 arg6 harg6 arg7 harg7 hc0 hc1 x w bb)]
  unfold runFirst3
  dsimp only
  sl_unfold_words
  rw [View.canon_cons_unit_zero (S := S2048x1024) hz3, View.readCov_unit_zero (S := S2048x1024) _ hz3]
  simp only [View.readAt_eq_ld, harg3.read_unread, harg4.read_unread, View.ld_unit_zero (S := S2048x512) hz3, View.ld_unit_zero (S := S1024x512) hz3, View.ld_unit_zero (S := S2048x1024) hz3]

/-- After a point with k last the accumulator again holds what it held plus the block product, -/
theorem accLast3_eq (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i) (x : Vec F S2048x512 .bf16) (w : Vec F S1024x512 .bf16) (bb : Vec F S1x1024 .f32) (xs : Vec F S2048x1024 .f32) :
    accLast3 c i arg3 harg3 arg4 harg4 arg5 harg5 arg6 harg6 arg7 harg7 hc0 hc1 x w bb xs = k3_pay2 xs x w := by
  unfold accLast3
  rw [View.read_writes_eq_canon _ _ _ (accCoverLast3 c i arg3 harg3 arg4 harg4 arg5 harg5 arg6 harg6 arg7 harg7 hc0 hc1 x w bb xs)]
  unfold runLast3
  dsimp only
  sl_unfold_words
  rw [View.canon_unit_zero hz3]
  simp only [View.readAt_eq_ld, harg3.read_unread, harg4.read_unread, harg7.read_unread, View.ld_unit_zero (S := S2048x512) hz3, View.ld_unit_zero (S := S1024x512) hz3, View.ld_unit_zero (S := S2048x1024) hz3]

/-- and the output block holds the binarized sum, with bias, of that final accumulator. -/
theorem outLast3_eq (c : Dev nD) (i : grid3.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬isFirst3 i) (hc1 : isLast3 i) (x : Vec F S2048x512 .bf16) (w : Vec F S1024x512 .bf16) (bb : Vec F S1x1024 .f32) (xs : Vec F S2048x1024 .f32) :
    outLast3 c i arg3 harg3 arg4 harg4 arg5 harg5 arg6 harg6 arg7 harg7 hc0 hc1 x w bb xs = k3_pay3 (k3_pay2 xs x w) bb := by
  unfold outLast3
  rw [View.read_writes_eq_canon _ _ _ (outCoverLast3 c i arg3 harg3 arg4 harg4 arg5 harg5 arg6 harg6 arg7 harg7 hc0 hc1 x w bb xs)]
  unfold runLast3
  dsimp only
  sl_unfold_words
  rw [View.canon_unit_zero hz3, View.readCov_unit_zero (S := S2048x1024) _ hz3]
  simp only [View.readAt_eq_ld, harg3.read_unread, harg4.read_unread, harg5.read_unread, harg7.read_unread, View.ld_unit_zero (S := S2048x512) hz3, View.ld_unit_zero (S := S1024x512) hz3, View.ld_unit_zero (S := S2048x1024) hz3, View.ld_unit_zero (S := S1x1024) hz3]

end Cert.KernelIdeal.Acc

end
-- ==== Proof.IAcc3Sum.lean ====
/-
  Layer 4's kernel region: the accumulator after each point.

  Over the points of one output block the accumulator is reset at the first k block and gains one block product at
  every k block, so after the point with k block `u` it holds the sum of the block products of k blocks `0 … u`
  (by induction on the point's number, the case of each point read off the body's arithmetic).
-/
import proofs.«143296_j88201448391445_2_alg».proof.Proof.IAcc3Blocks
import proofs.«143296_j88201448391445_2_alg».proof.Proof.IAcc3Pieces
import proofs.«143296_j88201448391445_2_alg».proof.Proof.IPayloads
import proofs.«143296_j88201448391445_2_alg».proof.Proof.LibBlockSum

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

open Cert.KernelIdeal.Payloads

section

variable (V : (c : Dev nD) → (b : Ref sig .tc) → Buf (Elt Ideal) ((c : Thread nD τ).loc b))

/-- The activations as the region finds them: a matrix of 8192 rows and 4096 columns of extended reals. -/
def arrX3 (c : Dev nD) : Mat 8192 4096 := V c main_v22
/-- The binarized weights as the region finds them: 4096 rows and 4096 columns. -/
def arrW3 (c : Dev nD) : Mat 4096 4096 := V c main_v28
/-- The bias as the region finds it: one row of 4096 columns. -/
def arrB3 (c : Dev nD) : Mat 1 4096 := V c main_v29

/-- The block product of point number `n` at `(r, j)`: the activations' row against the weights' row over the
    point's k block. -/
def prodAt3 (c : Dev nD) (r : Fin 2048) (j : Fin 1024) (n : ℕ) : EReal :=
  ∑ q : Fin 512, arrX3 V c (ix2 (rowAt3 n r) (posAt3 n q)) * arrW3 V c (ix2 (colAt3 n j) (posAt3 n q))

/-- Two blocks that read the activations and the weights where point `t`'s windows sit have, as their product at
    `(r, j)`, the block product of the point's number. -/
theorem blocks_prod3 (c : Dev nD) (t : Fin cfg3.N) (r : Fin 2048) (j : Fin 1024) (xb : FVec Ideal S2048x512 .bf16)
    (wb : FVec Ideal S1024x512 .bf16)
    (hx : ∀ q : Fin 512, xb (ix2 r q) = arrX3 V c (ix2 (rowAt3 t.val r) (posAt3 t.val q)))
    (hw : ∀ q : Fin 512, wb (ix2 j q) = arrW3 V c (ix2 (colAt3 t.val j) (posAt3 t.val q))) :
    ∑ q : Fin 512, xb (ix2 r q) * wb (ix2 j q) = prodAt3 V c r j t.val := by
  unfold prodAt3
  exact Finset.sum_congr rfl fun q _ => by rw [hx q, hw q]

/-- After a point with k = 0 the accumulator holds that point's block product. -/
theorem acc_first3 (c : Dev nD) (t : Fin cfg3.N) (h0 : t.val % 8 = 0) (r : Fin 2048) (j : Fin 1024) :
    accAt3 V c t.val t.isLt (ix2 r j) = prodAt3 V c r j t.val := by
  have h1 : ¬t.val % 8 = 7 := by omega
  rw [accAt3_first V c t h0 h1, accFirst3_eq, k3_pay2_apply, k3_pay1_apply, zero_add]
  exact blocks_prod3 V c t r j (iblk3 V c 0 t) (iblk3 V c 1 t) (fun q => iblk3_0_apply V c t r q) (fun q => iblk3_1_apply V c t j q)

/-- After any other point it holds what the point before left plus that point's block product. -/
theorem acc_next3 (c : Dev nD) (t : Fin cfg3.N) (h0 : ¬t.val % 8 = 0) (r : Fin 2048) (j : Fin 1024) :
    accAt3 V c t.val t.isLt (ix2 r j)
      = accAt3 V c (t.val - 1) (Nat.lt_of_le_of_lt (Nat.sub_le _ _) t.isLt) (ix2 r j) + prodAt3 V c r j t.val := by
  by_cases h1 : t.val % 8 = 7
  · rw [accAt3_last V c t h0 h1, accLast3_eq, k3_pay2_apply]
    exact congrArg (_ + ·) (blocks_prod3 V c t r j (iblk3 V c 0 t) (iblk3 V c 1 t) (fun q => iblk3_0_apply V c t r q) (fun q => iblk3_1_apply V c t j q))
  · rw [accAt3_mid V c t h0 h1, accMid3_eq, k3_pay2_apply]
    exact congrArg (_ + ·) (blocks_prod3 V c t r j (iblk3 V c 0 t) (iblk3 V c 1 t) (fun q => iblk3_0_apply V c t r q) (fun q => iblk3_1_apply V c t j q))

/-- The accumulator after point number `n`: the block products of the k blocks up to the point's own, of the output
    block the point belongs to. -/
theorem acc_sum3 (c : Dev nD) (r : Fin 2048) (j : Fin 1024) : ∀ (n : ℕ) (hn : n < cfg3.N),
    accAt3 V c n hn (ix2 r j) = ∑ u ∈ Finset.range (n % 8 + 1), prodAt3 V c r j (8 * (n / 8) + u) := by
  intro n
  induction n with
  | zero =>
    intro hn
    exact acc_first3 V c ⟨0, hn⟩ rfl r j |>.trans (by simp)
  | succ n ih =>
    intro hn
    by_cases h0 : (n + 1) % 8 = 0
    · have e := acc_first3 V c ⟨n + 1, hn⟩ h0 r j
      have hs : 8 * ((n + 1) / 8) + 0 = n + 1 := by omega
      rw [h0, Finset.sum_range_one, hs]
      exact e
    · have e := acc_next3 V c ⟨n + 1, hn⟩ h0 r j
      have hm : (n + 1) % 8 = n % 8 + 1 := by omega
      have hd : (n + 1) / 8 = n / 8 := by omega
      have hs : 8 * (n / 8) + (n % 8 + 1) = n + 1 := by omega
      rw [hm, hd, Finset.sum_range_succ, ← ih (Nat.lt_of_succ_lt hn), hs]
      exact e

end

end Cert.KernelIdeal.AccValue

end
-- ==== Proof.IAcc3Value.lean ====
/-
  Layer 4's kernel region: the output array after the region is the layer's function of the arrays it read.

  At the last k block of an output block the accumulator holds the eight block products, which together are the inner
  product of the activations' row with the binarized weights' row over the whole contracted axis; the block stored
  there is `pm` of that plus the bias of the column.  The stored block is written back to its place in the output
  array, rows `2048 (t / 32) + r` and columns `1024 (t / 8 % 4) + j`, exactly at those points; and every index of the
  output array lies in the block of one such point, the one of its row block and column block.  So the array ends
  holding, at every index, `pm` of the inner product plus the bias.
-/
import proofs.«143296_j88201448391445_2_alg».proof.Proof.IAcc3Sum
import proofs.«143296_j88201448391445_2_alg».proof.Proof.Gen.KernelIdeal.Points

set_option maxRecDepth 16384

noncomputable section

open scoped BigOperators

namespace Cert.KernelIdeal.AccValue

open Cert.KernelIdeal Cert.KernelIdeal.Gen Cert.KernelIdeal.Acc Cert.SignNet
open Idealize.ShloMosaic Idealize.ShloMosaic.TcCoe Idealize.SL.Sem Idealize.ShloMosaic.ValueIdx
open Idealize.ShloMosaic.Pipeline (Dat Cfg Window)

open Cert.KernelIdeal.Payloads

section

variable (V : (c : Dev nD) → (b : Ref sig .tc) → Buf (Elt Ideal) ((c : Thread nD τ).loc b))

/-- The layer at one output element: `pm` of the inner product of the activations' row `R` with the binarized
    weights' row `C`, plus the bias of column `C`. -/
def layerAt3 (c : Dev nD) (R : Fin 8192) (C : Fin 4096) : EReal :=
  pm (inner (arrX3 V c) (arrW3 V c) R C + arrB3 V c (ix2 (0 : Fin 1) C))

/-- The layer as an array of 8192 rows and 4096 columns. -/
def layerArr3 (c : Dev nD) : Mat 8192 4096 := fun p => layerAt3 V c (p 0) (p 1)

/-- The eight block products of an output block are the inner product over the whole contracted axis: the k blocks
    of 512 positions each tile the 4096 positions. -/
theorem prod_total3 (c : Dev nD) (r : Fin 2048) (j : Fin 1024) (n : ℕ) :
    ∑ u ∈ Finset.range 8, prodAt3 V c r j (8 * (n / 8) + u) = inner (arrX3 V c) (arrW3 V c) (rowAt3 n r) (colAt3 n j) := by
  unfold Cert.SignNet.inner
  rw [Finset.sum_range, ← Cert.LibBlockSum.sum_blocks_general 8 512 4096 rfl
    (fun k => arrX3 V c (ix2 (rowAt3 n r) k) * arrW3 V c (ix2 (colAt3 n j) k))]
  refine Finset.sum_congr rfl fun u _ => ?_
  unfold prodAt3
  refine Finset.sum_congr rfl fun q _ => ?_
  have hu := u.isLt
  have hr : rowAt3 (8 * (n / 8) + u.val) r = rowAt3 n r :=
    Fin.ext (by show (2048 * ((8 * (n / 8) + u.val) / 32) + r.val) % 8192 = (2048 * (n / 32) + r.val) % 8192; omega)
  have hc : colAt3 (8 * (n / 8) + u.val) j = colAt3 n j :=
    Fin.ext (by show 1024 * ((8 * (n / 8) + u.val) / 8 % 4) + j.val = 1024 * (n / 8 % 4) + j.val; omega)
  have hp : posAt3 (8 * (n / 8) + u.val) q = (⟨512 * u.val + q.val, by omega⟩ : Fin 4096) :=
    Fin.ext (by show 512 * ((8 * (n / 8) + u.val) % 8) + q.val = 512 * u.val + q.val; omega)
  rw [hr, hc, hp]

/-- The block stored at the last k block, at `(r, j)`: the layer at the block's place in the array. -/
theorem out_apply3 (c : Dev nD) (t : Fin cfg3.N) (h1 : t.val % 8 = 7) (r : Fin 2048) (j : Fin 1024) :
    outAt3 V c t (ix2 r j) = layerAt3 V c (rowAt3 t.val r) (colAt3 t.val j) := by
  have h0 : ¬t.val % 8 = 0 := by omega
  have eacc : accAt3 V c t.val t.isLt
      = k3_pay2 (accAt3 V c (t.val - 1) (Nat.lt_of_le_of_lt (Nat.sub_le _ _) t.isLt)) (iblk3 V c 0 t) (iblk3 V c 1 t) := by
    rw [accAt3_last V c t h0 h1, accLast3_eq]
  rw [outAt3_last V c t h0 h1, outLast3_eq, ← eacc, k3_pay3_apply, acc_sum3 V c r j t.val t.isLt, h1,
    prod_total3 V c r j t.val]
  unfold layerAt3
  exact congrArg (fun b => pm (_ + b)) (iblk3_2_apply V c t j)

/-- Two blocks of 2048 rows and 1024 columns that agree at every `(r, j)` are equal. -/
theorem block_ext3 (f g : FVec Ideal S2048x1024 .f32)
    (h : ∀ (r : Fin 2048) (j : Fin 1024), f (ix2 r j) = g (ix2 r j)) : f = g :=
  funext fun y => by rw [eq_ix2 y]; exact h _ _

/-- What a point with the last k block writes back is its block of the layer's array. -/
theorem flushed_eq3 (c : Dev nD) (t : Fin cfg3.N) (hf : (cfg3.win 3).flush t = true) :
    (dat3 V c).flushed 3 t = ((cfg3.win 3).blk t).view.read (Elt Ideal) (layerArr3 V c) := by
  have h1 : t.val % 8 = 7 := (flush3_3 t).mp hf
  obtain ⟨-, -, -, -, -, -, e6, e7⟩ := idx_facts3 t
  show (cfg3.win 3).cut (grid3.coords t) ((dat3 V c).after 3 t) = _
  rw [after3_3]
  refine block_ext3 _ _ fun r j => ?_
  show outAt3 V c t (ix2 r j) = layerArr3 V c (((cfg3.win 3).blk t).view.emb (ix2 r j))
  rw [out_apply3 V c t h1 r j]
  have hrow : (((cfg3.win 3).blk t).view.emb (ix2 r j) 0 : Fin 8192) = rowAt3 t.val r := Fin.ext (by
    show win3_3.index t (0 : Fin 2) * 2048 + 1 * r.val = (2048 * (t.val / 32) + r.val) % 8192
    have := lt_N3 t; omega)
  have hcol : (((cfg3.win 3).blk t).view.emb (ix2 r j) 1 : Fin 4096) = colAt3 t.val j := Fin.ext (by
    show win3_3.index t (1 : Fin 2) * 1024 + 1 * j.val = 1024 * (t.val / 8 % 4) + j.val
    omega)
  show layerAt3 V c (rowAt3 t.val r) (colAt3 t.val j)
    = layerAt3 V c (((cfg3.win 3).blk t).view.emb (ix2 r j) 0) (((cfg3.win 3).blk t).view.emb (ix2 r j) 1)
  rw [hrow, hcol]

/-- An index of the output array is in point `t`'s block exactly when each coordinate is in the block's range. -/
theorem mem_blk3 (t : Fin cfg3.N) (i : S8192x4096.Idx) :
    i ∈ ((cfg3.win 3).blk t).view.set ↔ ∀ a : Fin 2, win3_3.index t a * S2048x1024.size a ≤ (i a).val
      ∧ (i a).val < win3_3.index t a * S2048x1024.size a + S2048x1024.size a := by
  show i ∈ ((View.whole main_v30).slice (win3_3.rect t)).set ↔ _
  rw [View.set_slice_whole, Rect.mem_set_unit]
  exact Iff.rfl

/-- Every index of the output array is in the block written back at the last k block of its row block and column
    block. -/
theorem cover3 (i : S8192x4096.Idx) :
    ∃ t : Fin cfg3.N, (cfg3.win 3).flush t = true ∧ i ∈ ((cfg3.win 3).blk t).view.set := by
  have hi0 : (i 0).val < 8192 := (i 0).isLt
  have hi1 : (i 1).val < 4096 := (i 1).isLt
  have hN : cfg3.N = 128 := N_3
  obtain ⟨t, ht⟩ : ∃ t : Fin cfg3.N, t.val = 32 * ((i 0).val / 2048) + 8 * ((i 1).val / 1024) + 7 :=
    ⟨⟨32 * ((i 0).val / 2048) + 8 * ((i 1).val / 1024) + 7, by omega⟩, rfl⟩
  obtain ⟨-, -, -, -, -, -, e6, e7⟩ := idx_facts3 t
  refine ⟨t, (flush3_3 t).mpr (by omega), ?_⟩
  rw [mem_blk3]
  intro a
  match a with
  | ⟨0, _⟩ =>
    show win3_3.index t (0 : Fin 2) * 2048 ≤ (i 0).val ∧ (i 0).val < win3_3.index t (0 : Fin 2) * 2048 + 2048
    omega
  | ⟨1, _⟩ =>
    show win3_3.index t (1 : Fin 2) * 1024 ≤ (i 1).val ∧ (i 1).val < win3_3.index t (1 : Fin 2) * 1024 + 1024
    omega

/-- After the region the output array holds the layer's function of the activations, the binarized weights and the
    bias as the region found them. -/
theorem region3_array (c : Dev nD) : (dat3 V c).arrAt 3 cfg3.N = layerArr3 V c :=
  (dat3 V c).arrAt_eq_of_cover 3 (layerArr3 V c) (flushed_eq3 V c) cover3

end

end Cert.KernelIdeal.AccValue

end
-- ==== Proof.INet.lean ====
/-
  The idealized kernel computes the four-layer sign network.

  Each kernel region leaves in its result array the function  p ↦ pm (inner X Wb (p 0) (p 1) + B (0, p 1))  of the
  three arrays it reads: the activations X, the binarized weights Wb and the bias row B.  When the region is entered
  the activations are the previous region's result (the input x for the first), the weights array holds pm of the
  layer's weights (the host operations before the region binarize them), and the bias row holds the layer's bias.
  So each region's result is `layer` of the previous result, and the last region's is `net`.
-/
import proofs.«143296_j88201448391445_2_alg».proof.Proof.IRunVals
import proofs.«143296_j88201448391445_2_alg».proof.Proof.IHostGlue
import proofs.«143296_j88201448391445_2_alg».proof.Proof.IAcc0Value
import proofs.«143296_j88201448391445_2_alg».proof.Proof.IAcc1Value
import proofs.«143296_j88201448391445_2_alg».proof.Proof.IAcc2Value
import proofs.«143296_j88201448391445_2_alg».proof.Proof.IAcc3Value

noncomputable section

namespace Cert.KernelIdeal.Net

open Cert.KernelIdeal Cert.KernelIdeal.Gen Cert.KernelIdeal.Acc Cert.KernelIdeal.Run Cert.KernelIdeal.HostGlue Cert.SignNet
open Idealize.ShloMosaic Idealize.ShloMosaic.TcCoe Idealize.SL.Sem Idealize.ShloMosaic.ValueIdx

/-- A region's result, once its three input arrays are identified, is a layer: the activations are `x`, the weights
    array is `pm` of `W` entry by entry, and the bias row's entry `(0, j)` is `b j`. -/
theorem layer_of {a n k : Nat} (X : Mat a k) (Wb : Mat n k) (Bv : (⟨2, ![1, n]⟩ : Shape).Idx → EReal)
    (x : Mat a k) (W : Mat n k) (b : Row n) (hX : X = x) (hW : Wb = fun p => pm (W p))
    (hB : ∀ j : Fin n, Bv (ix2 (0 : Fin 1) j) = b (ix1 j)) :
    (fun p : (⟨2, ![a, n]⟩ : Shape).Idx => pm (inner X Wb (p 0) (p 1) + Bv (ix2 (0 : Fin 1) (p 1)))) = layer x W b := by
  subst hX hW
  funext p
  unfold layer
  exact congrArg (fun z => pm (inner X (fun p => pm (W p)) (p 0) (p 1) + z)) (hB (p 1))

variable (m : (ℓ : Loc nD τ sig) → Buf (Elt Ideal) ℓ) (c : Dev nD)

open Cert.KernelIdeal.AccValue

/-- The first region leaves the first layer of the input. -/
theorem first : (dat0 (F := Ideal) (entry0 m) c).arrAt 3 cfg0.N = layer (m ((c : Thread nD τ).loc main_arg0)) (m ((c : Thread nD τ).loc main_arg1)) (m ((c : Thread nD τ).loc main_arg2)) := by
  rw [region0_array]
  unfold layerArr0 layerAt0
  exact layer_of (arrX0 (entry0 m) c) (arrW0 (entry0 m) c) (arrB0 (entry0 m) c) _ _ _
    (carried0 m c) (weights0 m c) (bias0 m c)

/-- The second region reads the first's result and leaves the second layer of it. -/
theorem second : (dat1 (F := Ideal) (entry1 m) c).arrAt 3 cfg1.N
    = layer (layer (m ((c : Thread nD τ).loc main_arg0)) (m ((c : Thread nD τ).loc main_arg1)) (m ((c : Thread nD τ).loc main_arg2))) (m ((c : Thread nD τ).loc main_arg3)) (m ((c : Thread nD τ).loc main_arg4)) := by
  rw [region1_array]
  unfold layerArr1 layerAt1
  exact layer_of (arrX1 (entry1 m) c) (arrW1 (entry1 m) c) (arrB1 (entry1 m) c) _ _ _
    ((entry1_x m c).trans (first m c)) (weights1 m (outs1 m) c) (bias1 m (outs1 m) c)

/-- The third likewise. -/
theorem third : (dat2 (F := Ideal) (entry2 m) c).arrAt 3 cfg2.N
    = layer (layer (layer (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg5)) (m ((c : Thread nD τ).loc main_arg6)) := by
  rw [region2_array]
  unfold layerArr2 layerAt2
  exact layer_of (arrX2 (entry2 m) c) (arrW2 (entry2 m) c) (arrB2 (entry2 m) c) _ _ _
    ((entry2_x m c).trans (second m c)) (weights2 m (outs2 m) c) (bias2 m (outs2 m) c)

/-- The last region leaves the whole network of the nine arguments in the result array. -/
theorem kernel_is_net : (dat3 (F := Ideal) (entry3 m) c).arrAt 3 cfg3.N
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [region3_array]
  unfold layerArr3 layerAt3 net
  exact layer_of (arrX3 (entry3 m) c) (arrW3 (entry3 m) c) (arrB3 (entry3 m) c) _ _ _
    ((entry3_x m c).trans (third m c)) (weights3 m (outs3 m) c) (bias3 m (outs3 m) c)

end Cert.KernelIdeal.Net

end
-- ==== Proof.lean ====
/-
  The claim: a four-layer sign network computed by a tiled kernel equals its one-shot reference over the extended reals.

  Each layer binarizes its weights (the sign, zero counted as positive), multiplies the activations by the transposed
  binarized weights, adds the bias and binarizes the result the same way.  The kernel computes each layer's product
  block by block: for every (row block, column block) it runs over the blocks of the contracted axis, keeping a running
  sum in an accumulator that is reset at the first block and, at the last, gets the bias added and is binarized into
  the output block.  Over the extended reals addition is commutative and associative, so the running sum over the
  blocks is the one sum over the whole contracted axis, and a block of the output is the layer's function read at the
  block's coordinates; the four regions chain, each reading the previous one's result.  The reference's operations
  are the same layer function directly.  So both programs end with `SignNet.net` of the nine argument arrays.

  The three frame claims: the word-level and the idealized kernel each run region after region (per region: the
  accumulator carried in the region's invariant, the body run once per kind of grid point), and the reference's frame
  is its run with the result dropped.  The idealization replaced, in each of the four kernels, "1.0 with the sign
  bit of y" by the comparison with zero: four instances of one rule.
-/
import proofs.«143296_j88201448391445_2_alg».proof.Defs
import proofs.«143296_j88201448391445_2_alg».proof.Proof.Gen.Kernel
import proofs.«143296_j88201448391445_2_alg».proof.Proof.Gen.Kernel.Skeleton
import proofs.«143296_j88201448391445_2_alg».proof.Proof.Gen.Kernel.Launch
import proofs.«143296_j88201448391445_2_alg».proof.Proof.Gen.Kernel.Regions
import proofs.«143296_j88201448391445_2_alg».proof.Proof.Gen.Kernel.Points
import proofs.«143296_j88201448391445_2_alg».proof.Proof.Gen.KernelIdeal
import proofs.«143296_j88201448391445_2_alg».proof.Proof.Gen.KernelIdeal.Skeleton
import proofs.«143296_j88201448391445_2_alg».proof.Proof.Gen.KernelIdeal.Launch
import proofs.«143296_j88201448391445_2_alg».proof.Proof.Gen.KernelIdeal.Regions
import proofs.«143296_j88201448391445_2_alg».proof.Proof.Gen.KernelIdeal.Points
import proofs.«143296_j88201448391445_2_alg».proof.Proof.Gen.ReferenceIdeal
import proofs.«143296_j88201448391445_2_alg».proof.Proof.Gen.Pre_finite_inputs
import proofs.«143296_j88201448391445_2_alg».proof.Proof.Gen.ReferenceIdeal.Run
import proofs.«143296_j88201448391445_2_alg».proof.Proof.Gen.ReferenceIdeal.Read
import proofs.«143296_j88201448391445_2_alg».proof.Proof.RefIsNet
import proofs.«143296_j88201448391445_2_alg».proof.Proof.WRun
import proofs.«143296_j88201448391445_2_alg».proof.Proof.IRun
import proofs.«143296_j88201448391445_2_alg».proof.Proof.INet
import Idealize.ShloMosaic.Adequacy
import Idealize.ShloMosaic.Init

noncomputable section

namespace Cert.Proof

open Idealize.ShloMosaic Idealize.SL.Sem

/-- The word-level kernel runs to the end and leaves its arguments as they were. -/
theorem frame_k [Cert.Kernel.Facts] [Cert.Pre_finite_inputs.Facts] : Cert.frame_Kernel :=
  fun m ρ _ => Cert.Kernel.Run.frame (F := Bits) m ρ

/-- So does the idealized kernel. -/
theorem frame_ki [Cert.KernelIdeal.Facts] [Cert.Pre_finite_inputs.Facts] : Cert.frame_KernelIdeal :=
  fun m ρ _ => Cert.KernelIdeal.Run.frame (F := Ideal) m ρ

/-- The reference's frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.RefIsNet.ref_run m ρ)

/-- The four rewrites of the idealization, one per kernel: "1.0 with y's sign bit" is `-1` where `y < 0` and `1` elsewhere. -/
theorem preserves : Cert.preserves_Kernel_KernelIdeal :=
  ⟨IdealRules.sign_bit.statement Cert.KernelIdeal.S1024x1024 .f32, IdealRules.sign_bit.statement Cert.KernelIdeal.S2048x1024 .f32,
   IdealRules.sign_bit.statement Cert.KernelIdeal.S2048x1024 .f32, IdealRules.sign_bit.statement Cert.KernelIdeal.S2048x1024 .f32⟩

/-- Both idealized programs end with the four-layer network of the arguments: the kernel's last region leaves it in
    the result array, and the reference's operations compute it directly. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => (Cert.KernelIdeal.Acc.dat3 (F := Ideal) (Cert.KernelIdeal.Run.entry3 m) c).arrAt 3 Cert.KernelIdeal.cfg3.N,
    Cert.KernelIdeal.Run.run_named (F := Ideal) m ρ, ?_⟩
  refine (θ_run Cert.ReferenceIdeal.defs _ _).mono (fun _ h c => ⟨(h c).1.trans ?_, (h c).2⟩) (Cert.RefIsNet.ref_run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.KernelIdeal.Net.kernel_is_net m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
